-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S3x128x128 .f32) (main_arg3 : FVec F S3x128x128 .f32) (main_arg4 : FVec F S3x128 .f32) (main_arg5 : FVec F S3x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩

abbrev nBuf : Space → Nat
  | .hbm => 237
  | .vmem => 45
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128x128, .f32⟩
  | 4 => ⟨S3x128, .f32⟩
  | 5 => ⟨S3x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S50000x1, .f32⟩
  | 21 => ⟨S50000x128, .bf16⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .bf16⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S1x128x128, .f32⟩
  | 42 => ⟨S128x128, .f32⟩
  | 43 => ⟨S1x128x128, .f32⟩
  | 44 => ⟨S128x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S128, .f32⟩
  | 89 => ⟨S1x128, .f32⟩
  | 90 => ⟨S1x128, .f32⟩
  | 91 => ⟨S1x128, .f32⟩
  | 92 => ⟨S50000x128, .f32⟩
  | 93 => ⟨S50000x128, .bf16⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .bf16⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x128, .f32⟩
  | 109 => ⟨S50000x128, .f32⟩
  | 110 => ⟨S1x128, .f32⟩
  | 111 => ⟨S128, .f32⟩
  | 112 => ⟨S1x128, .f32⟩
  | 113 => ⟨S1x128x128, .f32⟩
  | 114 => ⟨S128x128, .f32⟩
  | 115 => ⟨S1x128x128, .f32⟩
  | 116 => ⟨S128x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S_, .i32⟩
  | 125 => ⟨S_, .f32⟩
  | 126 => ⟨S128, .f32⟩
  | 127 => ⟨S1x128, .f32⟩
  | _ => ⟨S50000x128, .f32⟩

abbrev hbmTy0_1 (i : Nat) : BufTy := match i % 128 with
  | 0 => ⟨S_, .f32⟩
  | 1 => ⟨S1x128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S1x128, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S128, .f32⟩
  | 33 => ⟨S1x128, .f32⟩
  | 34 => ⟨S1x128, .f32⟩
  | 35 => ⟨S1x128, .f32⟩
  | 36 => ⟨S50000x128, .f32⟩
  | 37 => ⟨S50000x128, .bf16⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .bf16⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S1x128x128, .f32⟩
  | 58 => ⟨S128x128, .f32⟩
  | 59 => ⟨S1x128x128, .f32⟩
  | 60 => ⟨S128x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S50000x128, .f32⟩
  | 76 => ⟨S50000x128, .f32⟩
  | 77 => ⟨S50000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S128, .f32⟩
  | 105 => ⟨S1x128, .f32⟩
  | 106 => ⟨S1x128, .f32⟩
  | 107 => ⟨S1x128, .f32⟩
  | 108 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v37 : Ref sig .tc := ⟨.hbm, 74, rfl⟩
abbrev main_v38 : Ref sig .tc := ⟨.hbm, 75, rfl⟩
abbrev main_cst_7 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_9 : Ref sig .tc := ⟨.hbm, 94, rfl⟩
abbrev main_v55 : Ref sig .tc := ⟨.hbm, 95, rfl⟩
abbrev main_v56 : Ref sig .tc := ⟨.hbm, 96, rfl⟩
abbrev main_c_10 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_11 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_12 : Ref sig .tc := ⟨.hbm, 118, rfl⟩
abbrev main_v76 : Ref sig .tc := ⟨.hbm, 119, rfl⟩
abbrev main_cst_13 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_c_14 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_cst_0 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_v7 : Ref sig .tc := ⟨.hbm, 134, rfl⟩
abbrev main_call1_cst_1 : Ref sig .tc := ⟨.hbm, 135, rfl⟩
abbrev main_call1_v8 : Ref sig .tc := ⟨.hbm, 136, rfl⟩
abbrev main_call1_cst_2 : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_cst_3 : Ref sig .tc := ⟨.hbm, 141, rfl⟩
abbrev main_call1_v12 : Ref sig .tc := ⟨.hbm, 142, rfl⟩
abbrev main_call1_cst_4 : Ref sig .tc := ⟨.hbm, 143, rfl⟩
abbrev main_call1_call0_v0 : Ref sig .tc := ⟨.hbm, 144, rfl⟩
abbrev main_call1_call0_v1 : Ref sig .tc := ⟨.hbm, 145, rfl⟩
abbrev main_v80 : Ref sig .tc := ⟨.hbm, 146, rfl⟩
abbrev main_v81 : Ref sig .tc := ⟨.hbm, 147, rfl⟩
abbrev main_cst_15 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_cst_16 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_c_17 : Ref sig .tc := ⟨.hbm, 166, rfl⟩
abbrev main_v98 : Ref sig .tc := ⟨.hbm, 167, rfl⟩
abbrev main_v99 : Ref sig .tc := ⟨.hbm, 168, rfl⟩
abbrev main_c_18 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_cst_19 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_cst_20 : Ref sig .tc := ⟨.hbm, 190, rfl⟩
abbrev main_v119 : Ref sig .tc := ⟨.hbm, 191, rfl⟩
abbrev main_cst_21 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_c_22 : Ref sig .tc := ⟨.hbm, 196, rfl⟩
abbrev main_call2_cst : Ref sig .tc := ⟨.hbm, 197, rfl⟩
abbrev main_call2_v0 : Ref sig .tc := ⟨.hbm, 198, rfl⟩
abbrev main_call2_v1 : Ref sig .tc := ⟨.hbm, 199, rfl⟩
abbrev main_call2_cst_0 : Ref sig .tc := ⟨.hbm, 200, rfl⟩
abbrev main_call2_v2 : Ref sig .tc := ⟨.hbm, 201, rfl⟩
abbrev main_call2_v3 : Ref sig .tc := ⟨.hbm, 202, rfl⟩
abbrev main_call2_v4 : Ref sig .tc := ⟨.hbm, 203, rfl⟩
abbrev main_call2_v5 : Ref sig .tc := ⟨.hbm, 204, rfl⟩
abbrev main_call2_v6 : Ref sig .tc := ⟨.hbm, 205, rfl⟩
abbrev main_call2_v7 : Ref sig .tc := ⟨.hbm, 206, rfl⟩
abbrev main_call2_cst_1 : Ref sig .tc := ⟨.hbm, 207, rfl⟩
abbrev main_call2_v8 : Ref sig .tc := ⟨.hbm, 208, rfl⟩
abbrev main_call2_cst_2 : Ref sig .tc := ⟨.hbm, 209, rfl⟩
abbrev main_call2_v9 : Ref sig .tc := ⟨.hbm, 210, rfl⟩
abbrev main_call2_v10 : Ref sig .tc := ⟨.hbm, 211, rfl⟩
abbrev main_call2_v11 : Ref sig .tc := ⟨.hbm, 212, rfl⟩
abbrev main_call2_cst_3 : Ref sig .tc := ⟨.hbm, 213, rfl⟩
abbrev main_call2_v12 : Ref sig .tc := ⟨.hbm, 214, rfl⟩
abbrev main_call2_cst_4 : Ref sig .tc := ⟨.hbm, 215, rfl⟩
abbrev main_call2_call0_v0 : Ref sig .tc := ⟨.hbm, 216, rfl⟩
abbrev main_call2_call0_v1 : Ref sig .tc := ⟨.hbm, 217, rfl⟩
abbrev main_v123 : Ref sig .tc := ⟨.hbm, 218, rfl⟩
abbrev main_v124 : Ref sig .tc := ⟨.hbm, 219, rfl⟩
abbrev main_cst_23 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_cst_24 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem3_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v95) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v110) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v115) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v117) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v113) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v118) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v118) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v133) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v138) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v139) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 275
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128x128, .f32⟩
  | 4 => ⟨S3x128, .f32⟩
  | 5 => ⟨S3x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S1x128x128, .f32⟩
  | 12 => ⟨S128x128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S128, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S1x128x128, .f32⟩
  | 100 => ⟨S128x128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S_, .f32⟩
  | 123 => ⟨S800000, .f32⟩
  | 124 => ⟨S_, .f32⟩
  | 125 => ⟨S50000, .f32⟩
  | 126 => ⟨S800000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S50000x1, .f32⟩
  | 4 => ⟨S50000x128, .f32⟩
  | 5 => ⟨S50000x128, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S1x128x128, .f32⟩
  | 60 => ⟨S128x128, .f32⟩
  | 61 => ⟨S1x128x128, .f32⟩
  | 62 => ⟨S128x128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S_, .f32⟩
  | 83 => ⟨S800000, .f32⟩
  | 84 => ⟨S_, .f32⟩
  | 85 => ⟨S50000, .f32⟩
  | 86 => ⟨S800000x1, .i32⟩
  | 87 => ⟨S50000, .f32⟩
  | 88 => ⟨S_, .f32⟩
  | 89 => ⟨S50000, .f32⟩
  | 90 => ⟨S50000, .f32⟩
  | 91 => ⟨S50000x1, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S_, .f32⟩
  | 103 => ⟨S128, .f32⟩
  | 104 => ⟨S128, .f32⟩
  | 105 => ⟨S_, .i32⟩
  | 106 => ⟨S_, .f32⟩
  | 107 => ⟨S128, .f32⟩
  | 108 => ⟨S1x128, .f32⟩
  | 109 => ⟨S_, .f32⟩
  | 110 => ⟨S1x128, .f32⟩
  | 111 => ⟨S1x128, .f32⟩
  | 112 => ⟨S50000x128, .f32⟩
  | 113 => ⟨S50000x128, .f32⟩
  | 114 => ⟨S50000x128, .f32⟩
  | 115 => ⟨S_, .f32⟩
  | 116 => ⟨S_, .f32⟩
  | 117 => ⟨S_, .f32⟩
  | 118 => ⟨S_, .f32⟩
  | 119 => ⟨S128, .f32⟩
  | 120 => ⟨S128, .f32⟩
  | 121 => ⟨S128, .f32⟩
  | 122 => ⟨S_, .f32⟩
  | 123 => ⟨S_, .i1⟩
  | 124 => ⟨S_, .f32⟩
  | 125 => ⟨S_, .f32⟩
  | 126 => ⟨S128, .f32⟩
  | 127 => ⟨S128, .f32⟩
  | _ => ⟨S50000x128, .f32⟩

abbrev hbmTy0_2 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_7 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_call1_cst : Ref sig .tc := ⟨.hbm, 96, rfl⟩
abbrev main_call1_v0 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_8 : Ref sig .tc := ⟨.hbm, 109, rfl⟩
abbrev main_v69 : Ref sig .tc := ⟨.hbm, 110, rfl⟩
abbrev main_v70 : Ref sig .tc := ⟨.hbm, 111, rfl⟩
abbrev main_c_9 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_10 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_11 : Ref sig .tc := ⟨.hbm, 122, rfl⟩
abbrev main_v79 : Ref sig .tc := ⟨.hbm, 123, rfl⟩
abbrev main_cst_12 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_13 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_14 : Ref sig .tc := ⟨.hbm, 140, rfl⟩
abbrev main_v94 : Ref sig .tc := ⟨.hbm, 141, rfl⟩
abbrev main_cst_15 : Ref sig .tc := ⟨.hbm, 142, rfl⟩
abbrev main_v95 : Ref sig .tc := ⟨.hbm, 143, rfl⟩
abbrev main_v96 : Ref sig .tc := ⟨.hbm, 144, rfl⟩
abbrev main_c_16 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_17 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_call3_cst : Ref sig .tc := ⟨.hbm, 184, rfl⟩
abbrev main_call3_v0 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_c_18 : Ref sig .tc := ⟨.hbm, 197, rfl⟩
abbrev main_v124 : Ref sig .tc := ⟨.hbm, 198, rfl⟩
abbrev main_v125 : Ref sig .tc := ⟨.hbm, 199, rfl⟩
abbrev main_c_19 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_20 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_cst_21 : Ref sig .tc := ⟨.hbm, 210, rfl⟩
abbrev main_v134 : Ref sig .tc := ⟨.hbm, 211, rfl⟩
abbrev main_cst_22 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_cst_23 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_24 : Ref sig .tc := ⟨.hbm, 228, rfl⟩
abbrev main_v149 : Ref sig .tc := ⟨.hbm, 229, rfl⟩
abbrev main_cst_25 : Ref sig .tc := ⟨.hbm, 230, rfl⟩
abbrev main_v150 : Ref sig .tc := ⟨.hbm, 231, rfl⟩
abbrev main_v151 : Ref sig .tc := ⟨.hbm, 232, rfl⟩
abbrev main_c_26 : Ref sig .tc := ⟨.hbm, 233, rfl⟩
abbrev main_call4_cst : Ref sig .tc := ⟨.hbm, 234, rfl⟩
abbrev main_call4_v0 : Ref sig .tc := ⟨.hbm, 235, rfl⟩
abbrev main_call4_v1 : Ref sig .tc := ⟨.hbm, 236, rfl⟩
abbrev main_call4_cst_0 : Ref sig .tc := ⟨.hbm, 237, rfl⟩
abbrev main_call4_v2 : Ref sig .tc := ⟨.hbm, 238, rfl⟩
abbrev main_call4_v3 : Ref sig .tc := ⟨.hbm, 239, rfl⟩
abbrev main_call4_v4 : Ref sig .tc := ⟨.hbm, 240, rfl⟩
abbrev main_call4_v5 : Ref sig .tc := ⟨.hbm, 241, rfl⟩
abbrev main_call4_v6 : Ref sig .tc := ⟨.hbm, 242, rfl⟩
abbrev main_call4_v7 : Ref sig .tc := ⟨.hbm, 243, rfl⟩
abbrev main_call4_cst_1 : Ref sig .tc := ⟨.hbm, 244, rfl⟩
abbrev main_call4_v8 : Ref sig .tc := ⟨.hbm, 245, rfl⟩
abbrev main_call4_cst_2 : Ref sig .tc := ⟨.hbm, 246, rfl⟩
abbrev main_call4_v9 : Ref sig .tc := ⟨.hbm, 247, rfl⟩
abbrev main_call4_v10 : Ref sig .tc := ⟨.hbm, 248, rfl⟩
abbrev main_call4_v11 : Ref sig .tc := ⟨.hbm, 249, rfl⟩
abbrev main_call4_cst_3 : Ref sig .tc := ⟨.hbm, 250, rfl⟩
abbrev main_call4_v12 : Ref sig .tc := ⟨.hbm, 251, rfl⟩
abbrev main_call4_cst_4 : Ref sig .tc := ⟨.hbm, 252, rfl⟩
abbrev main_call4_call0_v0 : Ref sig .tc := ⟨.hbm, 253, rfl⟩
abbrev main_call4_call0_v1 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_cst_27 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_call5_cst : Ref sig .tc := ⟨.hbm, 272, rfl⟩
abbrev main_call5_v0 : Ref sig .tc := ⟨.hbm, 273, rfl⟩
abbrev main_v168 : Ref sig .tc := ⟨.hbm, 274, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefRun.lean ====
/- The reference's @main as a list of its 268 host operations (each callee's operations inline at its call site,
   over the call's buffers), cut into 20 consecutive pieces, and its run read back: every weakly fair execution
   terminates with the result buffer holding three applications of one graph-convolution layer to the arguments'
   launch contents, the arguments unchanged. The layer's stages (neighbourhood mean, affine map, column mean, column
   variance, normalise-scale-shift-clamp) are the operations' own composed terms, stage by stage. -/
import proofs.«108877_j73624329388567_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of one layer, as the operations compose them -/

/-- The slice of argument 1 that buffer `main_v1` holds. -/
def row0 (a : (⟨S2x800000, .i32⟩ : BufTy).Contents (Elt F)) : (⟨S800000, .i32⟩ : BufTy).Contents (Elt F) :=
  (shapeCast S800000 ((((extractStridedSlice S1x800000 ![0, 0] · slices_S2x800000_S1x800000_0_0) : (⟨S2x800000, .i32⟩ : BufTy).Contents (Elt F) → (⟨S1x800000, .i32⟩ : BufTy).Contents (Elt F))) a : (⟨S1x800000, .i32⟩ : BufTy).Contents (Elt F)) shapeCasts_S1x800000_S800000 : (⟨S800000, .i32⟩ : BufTy).Contents (Elt F))

/-- The slice of argument 1 that buffer `main_v3` holds. -/
def row1 (a : (⟨S2x800000, .i32⟩ : BufTy).Contents (Elt F)) : (⟨S800000, .i32⟩ : BufTy).Contents (Elt F) :=
  (shapeCast S800000 ((((extractStridedSlice S1x800000 ![1, 0] · slices_S2x800000_S1x800000_1_0) : (⟨S2x800000, .i32⟩ : BufTy).Contents (Elt F) → (⟨S1x800000, .i32⟩ : BufTy).Contents (Elt F))) a : (⟨S1x800000, .i32⟩ : BufTy).Contents (Elt F)) shapeCasts_S1x800000_S800000 : (⟨S800000, .i32⟩ : BufTy).Contents (Elt F))

/-- The slice of argument 2 that buffer `main_v5` holds. -/
def wl0 (a : (⟨S3x128x128, .f32⟩ : BufTy).Contents (Elt F)) : (⟨S128x128, .f32⟩ : BufTy).Contents (Elt F) :=
  (shapeCast S128x128 ((((extractStridedSlice S1x128x128 ![0, 0, 0] · slices_S3x128x128_S1x128x128_0_0_0) : (⟨S3x128x128, .f32⟩ : BufTy).Contents (Elt F) → (⟨S1x128x128, .f32⟩ : BufTy).Contents (Elt F))) a : (⟨S1x128x128, .f32⟩ : BufTy).Contents (Elt F)) shapeCasts_S1x128x128_S128x128 : (⟨S128x128, .f32⟩ : BufTy).Contents (Elt F))

/-- The slice of argument 3 that buffer `main_v7` holds. -/
def wr0 (a : (⟨S3x128x128, .f32⟩ : BufTy).Contents (Elt F)) : (⟨S128x128, .f32⟩ : BufTy).Contents (Elt F) :=
  (shapeCast S128x128 ((((extractStridedSlice S1x128x128 ![0, 0, 0] · slices_S3x128x128_S1x128x128_0_0_0) : (⟨S3x128x128, .f32⟩ : BufTy).Contents (Elt F) → (⟨S1x128x128, .f32⟩ : BufTy).Contents (Elt F))) a : (⟨S1x128x128, .f32⟩ : BufTy).Contents (Elt F)) shapeCasts_S1x128x128_S128x128 : (⟨S128x128, .f32⟩ : BufTy).Contents (Elt F))

/-- The slice of argument 4 that buffer `main_v9` holds. -/
def b0 (a : (⟨S3x128, .f32⟩ : BufTy).Contents (Elt F)) : (⟨S128, .f32⟩ : BufTy).Contents (Elt F) :=
  (shapeCast S128 ((((extractStridedSlice S1x128 ![0, 0] · slices_S3x128_S1x128_0_0) : (⟨S3x128, .f32⟩ : BufTy).Contents (Elt F) → (⟨S1x128, .f32⟩ : BufTy).Contents (Elt F))) a : (⟨S1x128, .f32⟩ : BufTy).Contents (Elt F)) shapeCasts_S1x128_S128 : (⟨S128, .f32⟩ : BufTy).Contents (Elt F))

/-- The slice of argument 5 that buffer `main_v11` holds. -/
def g0 (a : (⟨S3x128, .f32⟩ : BufTy).Contents (Elt F)) : (⟨S128, .f32⟩ : BufTy).Contents (Elt F) :=
  (shapeCast S128 ((((extractStridedSlice S1x128 ![0, 0] · slices_S3x128_S1x128_0_0) : (⟨S3x128, .f32⟩ : BufTy).Contents (Elt F) → (⟨S1x128, .f32⟩ : BufTy).Contents (Elt F))) a : (⟨S1x128, .f32⟩ : BufTy).Contents (Elt F)) shapeCasts_S1x128_S128 : (⟨S128, .f32⟩ : BufTy).Contents (Elt F))

/-- The slice of argument 6 that buffer `main_v13` holds. -/
def be0 (a : (⟨S3x128, .f32⟩ : BufTy).Contents (Elt F)) : (⟨S128, .f32⟩ : BufTy).Contents (Elt F) :=
  (shapeCast S128 ((((extractStridedSlice S1x128 ![0, 0] · slices_S3x128_S1x128_0_0) : (⟨S3x128, .f32⟩ : BufTy).Contents (Elt F) → (⟨S1x128, .f32⟩ : BufTy).Contents (Elt F))) a : (⟨S1x128, .f32⟩ : BufTy).Contents (Elt F)) shapeCasts_S1x128_S128 : (⟨S128, .f32⟩ : BufTy).Contents (Elt F))

/-- The slice of argument 2 that buffer `main_v60` holds. -/
def wl1 (a : (⟨S3x128x128, .f32⟩ : BufTy).Contents (Elt F)) : (⟨S128x128, .f32⟩ : BufTy).Contents (Elt F) :=
  (shapeCast S128x128 ((((extractStridedSlice S1x128x128 ![1, 0, 0] · slices_S3x128x128_S1x128x128_1_0_0) : (⟨S3x128x128, .f32⟩ : BufTy).Contents (Elt F) → (⟨S1x128x128, .f32⟩ : BufTy).Contents (Elt F))) a : (⟨S1x128x128, .f32⟩ : BufTy).Contents (Elt F)) shapeCasts_S1x128x128_S128x128 : (⟨S128x128, .f32⟩ : BufTy).Contents (Elt F))

/-- The slice of argument 3 that buffer `main_v62` holds. -/
def wr1 (a : (⟨S3x128x128, .f32⟩ : BufTy).Contents (Elt F)) : (⟨S128x128, .f32⟩ : BufTy).Contents (Elt F) :=
  (shapeCast S128x128 ((((extractStridedSlice S1x128x128 ![1, 0, 0] · slices_S3x128x128_S1x128x128_1_0_0) : (⟨S3x128x128, .f32⟩ : BufTy).Contents (Elt F) → (⟨S1x128x128, .f32⟩ : BufTy).Contents (Elt F))) a : (⟨S1x128x128, .f32⟩ : BufTy).Contents (Elt F)) shapeCasts_S1x128x128_S128x128 : (⟨S128x128, .f32⟩ : BufTy).Contents (Elt F))

/-- The slice of argument 4 that buffer `main_v64` holds. -/
def b1 (a : (⟨S3x128, .f32⟩ : BufTy).Contents (Elt F)) : (⟨S128, .f32⟩ : BufTy).Contents (Elt F) :=
  (shapeCast S128 ((((extractStridedSlice S1x128 ![1, 0] · slices_S3x128_S1x128_1_0) : (⟨S3x128, .f32⟩ : BufTy).Contents (Elt F) → (⟨S1x128, .f32⟩ : BufTy).Contents (Elt F))) a : (⟨S1x128, .f32⟩ : BufTy).Contents (Elt F)) shapeCasts_S1x128_S128 : (⟨S128, .f32⟩ : BufTy).Contents (Elt F))

/-- The slice of argument 5 that buffer `main_v66` holds. -/
def g1 (a : (⟨S3x128, .f32⟩ : BufTy).Contents (Elt F)) : (⟨S128, .f32⟩ : BufTy).Contents (Elt F) :=
  (shapeCast S128 ((((extractStridedSlice S1x128 ![1, 0] · slices_S3x128_S1x128_1_0) : (⟨S3x128, .f32⟩ : BufTy).Contents (Elt F) → (⟨S1x128, .f32⟩ : BufTy).Contents (Elt F))) a : (⟨S1x128, .f32⟩ : BufTy).Contents (Elt F)) shapeCasts_S1x128_S128 : (⟨S128, .f32⟩ : BufTy).Contents (Elt F))

/-- The slice of argument 6 that buffer `main_v68` holds. -/
def be1 (a : (⟨S3x128, .f32⟩ : BufTy).Contents (Elt F)) : (⟨S128, .f32⟩ : BufTy).Contents (Elt F) :=
  (shapeCast S128 ((((extractStridedSlice S1x128 ![1, 0] · slices_S3x128_S1x128_1_0) : (⟨S3x128, .f32⟩ : BufTy).Contents (Elt F) → (⟨S1x128, .f32⟩ : BufTy).Contents (Elt F))) a : (⟨S1x128, .f32⟩ : BufTy).Contents (Elt F)) shapeCasts_S1x128_S128 : (⟨S128, .f32⟩ : BufTy).Contents (Elt F))

/-- The slice of argument 2 that buffer `main_v115` holds. -/
def wl2 (a : (⟨S3x128x128, .f32⟩ : BufTy).Contents (Elt F)) : (⟨S128x128, .f32⟩ : BufTy).Contents (Elt F) :=
  (shapeCast S128x128 ((((extractStridedSlice S1x128x128 ![2, 0, 0] · slices_S3x128x128_S1x128x128_2_0_0) : (⟨S3x128x128, .f32⟩ : BufTy).Contents (Elt F) → (⟨S1x128x128, .f32⟩ : BufTy).Contents (Elt F))) a : (⟨S1x128x128, .f32⟩ : BufTy).Contents (Elt F)) shapeCasts_S1x128x128_S128x128 : (⟨S128x128, .f32⟩ : BufTy).Contents (Elt F))

/-- The slice of argument 3 that buffer `main_v117` holds. -/
def wr2 (a : (⟨S3x128x128, .f32⟩ : BufTy).Contents (Elt F)) : (⟨S128x128, .f32⟩ : BufTy).Contents (Elt F) :=
  (shapeCast S128x128 ((((extractStridedSlice S1x128x128 ![2, 0, 0] · slices_S3x128x128_S1x128x128_2_0_0) : (⟨S3x128x128, .f32⟩ : BufTy).Contents (Elt F) → (⟨S1x128x128, .f32⟩ : BufTy).Contents (Elt F))) a : (⟨S1x128x128, .f32⟩ : BufTy).Contents (Elt F)) shapeCasts_S1x128x128_S128x128 : (⟨S128x128, .f32⟩ : BufTy).Contents (Elt F))

/-- The slice of argument 4 that buffer `main_v119` holds. -/
def b2 (a : (⟨S3x128, .f32⟩ : BufTy).Contents (Elt F)) : (⟨S128, .f32⟩ : BufTy).Contents (Elt F) :=
  (shapeCast S128 ((((extractStridedSlice S1x128 ![2, 0] · slices_S3x128_S1x128_2_0) : (⟨S3x128, .f32⟩ : BufTy).Contents (Elt F) → (⟨S1x128, .f32⟩ : BufTy).Contents (Elt F))) a : (⟨S1x128, .f32⟩ : BufTy).Contents (Elt F)) shapeCasts_S1x128_S128 : (⟨S128, .f32⟩ : BufTy).Contents (Elt F))

/-- The slice of argument 5 that buffer `main_v121` holds. -/
def g2 (a : (⟨S3x128, .f32⟩ : BufTy).Contents (Elt F)) : (⟨S128, .f32⟩ : BufTy).Contents (Elt F) :=
  (shapeCast S128 ((((extractStridedSlice S1x128 ![2, 0] · slices_S3x128_S1x128_2_0) : (⟨S3x128, .f32⟩ : BufTy).Contents (Elt F) → (⟨S1x128, .f32⟩ : BufTy).Contents (Elt F))) a : (⟨S1x128, .f32⟩ : BufTy).Contents (Elt F)) shapeCasts_S1x128_S128 : (⟨S128, .f32⟩ : BufTy).Contents (Elt F))

/-- The slice of argument 6 that buffer `main_v123` holds. -/
def be2 (a : (⟨S3x128, .f32⟩ : BufTy).Contents (Elt F)) : (⟨S128, .f32⟩ : BufTy).Contents (Elt F) :=
  (shapeCast S128 ((((extractStridedSlice S1x128 ![2, 0] · slices_S3x128_S1x128_2_0) : (⟨S3x128, .f32⟩ : BufTy).Contents (Elt F) → (⟨S1x128, .f32⟩ : BufTy).Contents (Elt F))) a : (⟨S1x128, .f32⟩ : BufTy).Contents (Elt F)) shapeCasts_S1x128_S128 : (⟨S128, .f32⟩ : BufTy).Contents (Elt F))

/-- The neighbourhood mean over the two index rows: the gathered rows scatter-added per target, divided by max(degree, 1). -/
def aggR (h : (⟨S50000x128, .f32⟩ : BufTy).Contents (Elt F)) (src : (⟨S800000, .i32⟩ : BufTy).Contents (Elt F)) (dst : (⟨S800000, .i32⟩ : BufTy).Contents (Elt F)) : (⟨S50000x128, .f32⟩ : BufTy).Contents (Elt F) :=
  (((Host.divf : (⟨S50000x128, .f32⟩ : BufTy).Contents (Elt F) → (⟨S50000x128, .f32⟩ : BufTy).Contents (Elt F) → (⟨S50000x128, .f32⟩ : BufTy).Contents (Elt F))) ((((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))) (((broadcastInDim S50000x128 ![] bcast_S_S50000x128 : (⟨S_, .f32⟩ : BufTy).Contents (Elt F) → (⟨S50000x128, .f32⟩ : BufTy).Contents (Elt F))) ((constant S_ .f32 0x00000000#32) : (⟨S_, .f32⟩ : BufTy).Contents (Elt F)) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F))) dst : (⟨S800000x1, .i32⟩ : BufTy).Contents (Elt F)) ((((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))) h (((broadcastInDim S800000x1 ![0] bcast_S800000_S800000x1_0 : (⟨S800000, .i32⟩ : BufTy).Contents (Elt F) → (⟨S800000x1, .i32⟩ : BufTy).Contents (Elt F))) (((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) (((cmpi .slt : (⟨S800000, .i32⟩ : BufTy).Contents (Elt F) → (⟨S800000, .i32⟩ : BufTy).Contents (Elt F) → (⟨S800000, .i1⟩ : BufTy).Contents (Elt F))) src (((broadcastInDim S800000 ![] bcast_S_S800000 : (⟨S_, .i32⟩ : BufTy).Contents (Elt F) → (⟨S800000, .i32⟩ : BufTy).Contents (Elt F))) ((constantI S_ 32 0#32) : (⟨S_, .i32⟩ : BufTy).Contents (Elt F)) : (⟨S800000, .i32⟩ : BufTy).Contents (Elt F)) : (⟨S800000, .i1⟩ : BufTy).Contents (Elt F)) (((addi : (⟨S800000, .i32⟩ : BufTy).Contents (Elt F) → (⟨S800000, .i32⟩ : BufTy).Contents (Elt F) → (⟨S800000, .i32⟩ : BufTy).Contents (Elt F))) src (((broadcastInDim S800000 ![] bcast_S_S800000 : (⟨S_, .i32⟩ : BufTy).Contents (Elt F) → (⟨S800000, .i32⟩ : BufTy).Contents (Elt F))) ((constantI S_ 32 50000#32) : (⟨S_, .i32⟩ : BufTy).Contents (Elt F)) : (⟨S800000, .i32⟩ : BufTy).Contents (Elt F)) : (⟨S800000, .i32⟩ : BufTy).Contents (Elt F)) src : (⟨S800000, .i32⟩ : BufTy).Contents (Elt F)) : (⟨S800000x1, .i32⟩ : BufTy).Contents (Elt F)) : (⟨S800000x128, .f32⟩ : BufTy).Contents (Elt F)) : (⟨S50000x128, .f32⟩ : BufTy).Contents (Elt F)) (((broadcastInDim S50000x128 ![0, 1] bcast_S50000x1_S50000x128_0_1 : (⟨S50000x1, .f32⟩ : BufTy).Contents (Elt F) → (⟨S50000x128, .f32⟩ : BufTy).Contents (Elt F))) (((broadcastInDim S50000x1 ![0] bcast_S50000_S50000x1_0 : (⟨S50000, .f32⟩ : BufTy).Contents (Elt F) → (⟨S50000x1, .f32⟩ : BufTy).Contents (Elt F))) (((maximumf : (⟨S50000, .f32⟩ : BufTy).Contents (Elt F) → (⟨S50000, .f32⟩ : BufTy).Contents (Elt F) → (⟨S50000, .f32⟩ : BufTy).Contents (Elt F))) ((((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))) (((broadcastInDim S50000 ![] bcast_S_S50000 : (⟨S_, .f32⟩ : BufTy).Contents (Elt F) → (⟨S50000, .f32⟩ : BufTy).Contents (Elt F))) ((constant S_ .f32 0x00000000#32) : (⟨S_, .f32⟩ : BufTy).Contents (Elt F)) : (⟨S50000, .f32⟩ : BufTy).Contents (Elt F)) (((broadcastInDim S800000x1 ![0] bcast_S800000_S800000x1_0 : (⟨S800000, .i32⟩ : BufTy).Contents (Elt F) → (⟨S800000x1, .i32⟩ : BufTy).Contents (Elt F))) dst : (⟨S800000x1, .i32⟩ : BufTy).Contents (Elt F)) (((broadcastInDim S800000 ![] bcast_S_S800000 : (⟨S_, .f32⟩ : BufTy).Contents (Elt F) → (⟨S800000, .f32⟩ : BufTy).Contents (Elt F))) ((constant S_ .f32 0x3F800000#32) : (⟨S_, .f32⟩ : BufTy).Contents (Elt F)) : (⟨S800000, .f32⟩ : BufTy).Contents (Elt F)) : (⟨S50000, .f32⟩ : BufTy).Contents (Elt F)) (((broadcastInDim S50000 ![] bcast_S_S50000 : (⟨S_, .f32⟩ : BufTy).Contents (Elt F) → (⟨S50000, .f32⟩ : BufTy).Contents (Elt F))) ((constant S_ .f32 0x3F800000#32) : (⟨S_, .f32⟩ : BufTy).Contents (Elt F)) : (⟨S50000, .f32⟩ : BufTy).Contents (Elt F)) : (⟨S50000, .f32⟩ : BufTy).Contents (Elt F)) : (⟨S50000x1, .f32⟩ : BufTy).Contents (Elt F)) : (⟨S50000x128, .f32⟩ : BufTy).Contents (Elt F)) : (⟨S50000x128, .f32⟩ : BufTy).Contents (Elt F))

/-- The affine map: two contractions, their sum, the bias row added. -/
def pre (mn : (⟨S50000x128, .f32⟩ : BufTy).Contents (Elt F)) (h : (⟨S50000x128, .f32⟩ : BufTy).Contents (Elt F)) (wl : (⟨S128x128, .f32⟩ : BufTy).Contents (Elt F)) (wr : (⟨S128x128, .f32⟩ : BufTy).Contents (Elt F)) (b : (⟨S128, .f32⟩ : BufTy).Contents (Elt F)) : (⟨S50000x128, .f32⟩ : BufTy).Contents (Elt F) :=
  (((addf : (⟨S50000x128, .f32⟩ : BufTy).Contents (Elt F) → (⟨S50000x128, .f32⟩ : BufTy).Contents (Elt F) → (⟨S50000x128, .f32⟩ : BufTy).Contents (Elt F))) (((addf : (⟨S50000x128, .f32⟩ : BufTy).Contents (Elt F) → (⟨S50000x128, .f32⟩ : BufTy).Contents (Elt F) → (⟨S50000x128, .f32⟩ : BufTy).Contents (Elt F))) ((((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) mn wl : (⟨S50000x128, .f32⟩ : BufTy).Contents (Elt F)) ((((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) h wr : (⟨S50000x128, .f32⟩ : BufTy).Contents (Elt F)) : (⟨S50000x128, .f32⟩ : BufTy).Contents (Elt F)) (((broadcastInDim S50000x128 ![0, 1] bcast_S1x128_S50000x128_0_1 : (⟨S1x128, .f32⟩ : BufTy).Contents (Elt F) → (⟨S50000x128, .f32⟩ : BufTy).Contents (Elt F))) (((broadcastInDim S1x128 ![1] bcast_S128_S1x128_1 : (⟨S128, .f32⟩ : BufTy).Contents (Elt F) → (⟨S1x128, .f32⟩ : BufTy).Contents (Elt F))) b : (⟨S1x128, .f32⟩ : BufTy).Contents (Elt F)) : (⟨S50000x128, .f32⟩ : BufTy).Contents (Elt F)) : (⟨S50000x128, .f32⟩ : BufTy).Contents (Elt F))

/-- The column mean over the rows. -/
def mean (p : (⟨S50000x128, .f32⟩ : BufTy).Contents (Elt F)) : (⟨S128, .f32⟩ : BufTy).Contents (Elt F) :=
  (((Host.divf : (⟨S128, .f32⟩ : BufTy).Contents (Elt F) → (⟨S128, .f32⟩ : BufTy).Contents (Elt F) → (⟨S128, .f32⟩ : BufTy).Contents (Elt F))) ((((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))) p ((constant S_ .f32 0x00000000#32) : (⟨S_, .f32⟩ : BufTy).Contents (Elt F)) : (⟨S128, .f32⟩ : BufTy).Contents (Elt F)) (((broadcastInDim S128 ![] bcast_S_S128 : (⟨S_, .f32⟩ : BufTy).Contents (Elt F) → (⟨S128, .f32⟩ : BufTy).Contents (Elt F))) ((constant S_ .f32 0x47435000#32) : (⟨S_, .f32⟩ : BufTy).Contents (Elt F)) : (⟨S128, .f32⟩ : BufTy).Contents (Elt F)) : (⟨S128, .f32⟩ : BufTy).Contents (Elt F))

/-- The column variance over the rows (divisor the row count less the integer constant 0), with its guard. -/
def var (p : (⟨S50000x128, .f32⟩ : BufTy).Contents (Elt F)) : (⟨S128, .f32⟩ : BufTy).Contents (Elt F) :=
  (((fun p a b => select (broadcastInDim S128 ![] bcast_S_S128 p) a b)) (((cmpf .ogt)) ((subf) ((constant S_ .f32 0x47435000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S50000x128_S128_d0 h_S_)) ((mulf) ((subf) p (((broadcastInDim S50000x128 ![0, 1] bcast_S1x128_S50000x128_0_1)) ((Host.divf) (((broadcastInDim S1x128 ![1] bcast_S128_S1x128_1)) (((fun x v => Host.reduceAdd x v reducesTo_S50000x128_S128_d0 h_S_)) p ((constant S_ .f32 0x00000000#32) : (⟨S_, .f32⟩ : BufTy).Contents (Elt F)) : (⟨S128, .f32⟩ : BufTy).Contents (Elt F)) : (⟨S1x128, .f32⟩ : BufTy).Contents (Elt F)) (((broadcastInDim S1x128 ![] bcast_S_S1x128)) ((constant S_ .f32 0x47435000#32) : (⟨S_, .f32⟩ : BufTy).Contents (Elt F)) : (⟨S1x128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) ((subf) p (((broadcastInDim S50000x128 ![0, 1] bcast_S1x128_S50000x128_0_1)) ((Host.divf) (((broadcastInDim S1x128 ![1] bcast_S128_S1x128_1)) (((fun x v => Host.reduceAdd x v reducesTo_S50000x128_S128_d0 h_S_)) p ((constant S_ .f32 0x00000000#32) : (⟨S_, .f32⟩ : BufTy).Contents (Elt F)) : (⟨S128, .f32⟩ : BufTy).Contents (Elt F)) : (⟨S1x128, .f32⟩ : BufTy).Contents (Elt F)) (((broadcastInDim S1x128 ![] bcast_S_S1x128)) ((constant S_ .f32 0x47435000#32) : (⟨S_, .f32⟩ : BufTy).Contents (Elt F)) : (⟨S1x128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) : (⟨S50000x128, .f32⟩ : BufTy).Contents (Elt F)) ((constant S_ .f32 0x00000000#32) : (⟨S_, .f32⟩ : BufTy).Contents (Elt F)) : (⟨S128, .f32⟩ : BufTy).Contents (Elt F)) (((broadcastInDim S128 ![] bcast_S_S128)) ((subf) ((constant S_ .f32 0x47435000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S128, .f32⟩ : BufTy).Contents (Elt F)) : (⟨S128, .f32⟩ : BufTy).Contents (Elt F)) (((broadcastInDim S128 ![] bcast_S_S128)) ((id) ((constant S_ .f32 0x7FC00000#32) : (⟨S_, .f32⟩ : BufTy).Contents (Elt F)) : (⟨S_, .f32⟩ : BufTy).Contents (Elt F)) : (⟨S128, .f32⟩ : BufTy).Contents (Elt F)) : (⟨S128, .f32⟩ : BufTy).Contents (Elt F))

/-- Centre, scale by gamma and by the reciprocal root of variance plus epsilon, shift by beta, clamp at zero. -/
def close (p : (⟨S50000x128, .f32⟩ : BufTy).Contents (Elt F)) (mu : (⟨S128, .f32⟩ : BufTy).Contents (Elt F)) (v : (⟨S128, .f32⟩ : BufTy).Contents (Elt F)) (g : (⟨S128, .f32⟩ : BufTy).Contents (Elt F)) (be : (⟨S128, .f32⟩ : BufTy).Contents (Elt F)) : (⟨S50000x128, .f32⟩ : BufTy).Contents (Elt F) :=
  ((maximumf) (((addf : (⟨S50000x128, .f32⟩ : BufTy).Contents (Elt F) → (⟨S50000x128, .f32⟩ : BufTy).Contents (Elt F) → (⟨S50000x128, .f32⟩ : BufTy).Contents (Elt F))) (((mulf : (⟨S50000x128, .f32⟩ : BufTy).Contents (Elt F) → (⟨S50000x128, .f32⟩ : BufTy).Contents (Elt F) → (⟨S50000x128, .f32⟩ : BufTy).Contents (Elt F))) (((mulf : (⟨S50000x128, .f32⟩ : BufTy).Contents (Elt F) → (⟨S50000x128, .f32⟩ : BufTy).Contents (Elt F) → (⟨S50000x128, .f32⟩ : BufTy).Contents (Elt F))) (((broadcastInDim S50000x128 ![0, 1] bcast_S1x128_S50000x128_0_1 : (⟨S1x128, .f32⟩ : BufTy).Contents (Elt F) → (⟨S50000x128, .f32⟩ : BufTy).Contents (Elt F))) (((broadcastInDim S1x128 ![1] bcast_S128_S1x128_1 : (⟨S128, .f32⟩ : BufTy).Contents (Elt F) → (⟨S1x128, .f32⟩ : BufTy).Contents (Elt F))) g : (⟨S1x128, .f32⟩ : BufTy).Contents (Elt F)) : (⟨S50000x128, .f32⟩ : BufTy).Contents (Elt F)) (((subf : (⟨S50000x128, .f32⟩ : BufTy).Contents (Elt F) → (⟨S50000x128, .f32⟩ : BufTy).Contents (Elt F) → (⟨S50000x128, .f32⟩ : BufTy).Contents (Elt F))) p (((broadcastInDim S50000x128 ![0, 1] bcast_S1x128_S50000x128_0_1 : (⟨S1x128, .f32⟩ : BufTy).Contents (Elt F) → (⟨S50000x128, .f32⟩ : BufTy).Contents (Elt F))) (((broadcastInDim S1x128 ![1] bcast_S128_S1x128_1 : (⟨S128, .f32⟩ : BufTy).Contents (Elt F) → (⟨S1x128, .f32⟩ : BufTy).Contents (Elt F))) mu : (⟨S1x128, .f32⟩ : BufTy).Contents (Elt F)) : (⟨S50000x128, .f32⟩ : BufTy).Contents (Elt F)) : (⟨S50000x128, .f32⟩ : BufTy).Contents (Elt F)) : (⟨S50000x128, .f32⟩ : BufTy).Contents (Elt F)) (((broadcastInDim S50000x128 ![0, 1] bcast_S1x128_S50000x128_0_1 : (⟨S1x128, .f32⟩ : BufTy).Contents (Elt F) → (⟨S50000x128, .f32⟩ : BufTy).Contents (Elt F))) (((broadcastInDim S1x128 ![1] bcast_S128_S1x128_1 : (⟨S128, .f32⟩ : BufTy).Contents (Elt F) → (⟨S1x128, .f32⟩ : BufTy).Contents (Elt F))) (((Host.rsqrt : (⟨S128, .f32⟩ : BufTy).Contents (Elt F) → (⟨S128, .f32⟩ : BufTy).Contents (Elt F))) (((addf : (⟨S128, .f32⟩ : BufTy).Contents (Elt F) → (⟨S128, .f32⟩ : BufTy).Contents (Elt F) → (⟨S128, .f32⟩ : BufTy).Contents (Elt F))) v (((broadcastInDim S128 ![] bcast_S_S128 : (⟨S_, .f32⟩ : BufTy).Contents (Elt F) → (⟨S128, .f32⟩ : BufTy).Contents (Elt F))) ((constant S_ .f32 0x3727C5AC#32) : (⟨S_, .f32⟩ : BufTy).Contents (Elt F)) : (⟨S128, .f32⟩ : BufTy).Contents (Elt F)) : (⟨S128, .f32⟩ : BufTy).Contents (Elt F)) : (⟨S128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) (((broadcastInDim S50000x128 ![0, 1] bcast_S1x128_S50000x128_0_1 : (⟨S1x128, .f32⟩ : BufTy).Contents (Elt F) → (⟨S50000x128, .f32⟩ : BufTy).Contents (Elt F))) (((broadcastInDim S1x128 ![1] bcast_S128_S1x128_1 : (⟨S128, .f32⟩ : BufTy).Contents (Elt F) → (⟨S1x128, .f32⟩ : BufTy).Contents (Elt F))) be : (⟨S1x128, .f32⟩ : BufTy).Contents (Elt F)) : (⟨S50000x128, .f32⟩ : BufTy).Contents (Elt F)) : (⟨S50000x128, .f32⟩ : BufTy).Contents (Elt F)) (((broadcastInDim S50000x128 ![] bcast_S_S50000x128)) ((constant S_ .f32 0x00000000#32) : (⟨S_, .f32⟩ : BufTy).Contents (Elt F)) : (⟨S50000x128, .f32⟩ : BufTy).Contents (Elt F)) : (⟨S50000x128, .f32⟩ : BufTy).Contents (Elt F))

/-- The neighbourhood mean over the edge-index array: its two rows sliced off first. -/
def agg (h : (⟨S50000x128, .f32⟩ : BufTy).Contents (Elt F)) (ei : (⟨S2x800000, .i32⟩ : BufTy).Contents (Elt F)) : (⟨S50000x128, .f32⟩ : BufTy).Contents (Elt F) :=
  aggR h (row0 ei) (row1 ei)

/-- One layer. -/
def layer (h : (⟨S50000x128, .f32⟩ : BufTy).Contents (Elt F)) (ei : (⟨S2x800000, .i32⟩ : BufTy).Contents (Elt F)) (wl wr : (⟨S128x128, .f32⟩ : BufTy).Contents (Elt F)) (b g be : (⟨S128, .f32⟩ : BufTy).Contents (Elt F)) : (⟨S50000x128, .f32⟩ : BufTy).Contents (Elt F) :=
  close (pre (agg h ei) h wl wr b) (mean (pre (agg h ei) h wl wr b)) (var (pre (agg h ei) h wl wr b)) g be

/-! ## The operations -/

/-- Operations 1 … 14 of 268 (window 0 of @main). -/
abbrev seg1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v4 main_v5 rfl shapeCasts_S1x128x128_S128x128,
    StableHlo.unary main_arg3 main_v6 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v6 main_v7 rfl shapeCasts_S1x128x128_S128x128,
    StableHlo.unary main_arg4 main_v8 ((extractStridedSlice S1x128 ![0, 0] · slices_S3x128_S1x128_0_0) : (⟨S3x128, .f32⟩ : BufTy).Contents (Elt F) → (⟨S1x128, .f32⟩ : BufTy).Contents (Elt F)),
    StableHlo.reshape main_v8 main_v9 rfl shapeCasts_S1x128_S128,
    StableHlo.unary main_arg5 main_v10 ((extractStridedSlice S1x128 ![0, 0] · slices_S3x128_S1x128_0_0) : (⟨S3x128, .f32⟩ : BufTy).Contents (Elt F) → (⟨S1x128, .f32⟩ : BufTy).Contents (Elt F)),
    StableHlo.reshape main_v10 main_v11 rfl shapeCasts_S1x128_S128,
    StableHlo.unary main_arg6 main_v12 ((extractStridedSlice S1x128 ![0, 0] · slices_S3x128_S1x128_0_0) : (⟨S3x128, .f32⟩ : BufTy).Contents (Elt F) → (⟨S1x128, .f32⟩ : BufTy).Contents (Elt F)),
    StableHlo.reshape main_v12 main_v13 rfl shapeCasts_S1x128_S128 ]

/-- Operations 15 … 39 of 268 (window 0 of @main). -/
abbrev seg2 : List (HloOp τ sig (Elt F)) :=
  [ StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v16 (broadcastInDim S800000 ![] bcast_S_S800000 : (⟨S_, .i32⟩ : BufTy).Contents (Elt F) → (⟨S800000, .i32⟩ : BufTy).Contents (Elt F)),
    StableHlo.binary main_v1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_arg0 main_v19 main_v20 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v21 (broadcastInDim S50000x128 ![] bcast_S_S50000x128 : (⟨S_, .f32⟩ : BufTy).Contents (Elt F) → (⟨S50000x128, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v24 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v25 (broadcastInDim S50000 ![] bcast_S_S50000 : (⟨S_, .f32⟩ : BufTy).Contents (Elt F) → (⟨S50000, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v28 (broadcastInDim S50000 ![] bcast_S_S50000 : (⟨S_, .f32⟩ : BufTy).Contents (Elt F) → (⟨S50000, .f32⟩ : BufTy).Contents (Elt F)),
    StableHlo.binary main_v27 main_v28 main_v29 (maximumf : (⟨S50000, .f32⟩ : BufTy).Contents (Elt F) → (⟨S50000, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (broadcastInDim S50000x128 ![0, 1] bcast_S50000x1_S50000x128_0_1 : (⟨S50000x1, .f32⟩ : BufTy).Contents (Elt F) → (⟨S50000x128, .f32⟩ : BufTy).Contents (Elt F)),
    StableHlo.binary main_v23 main_v31 main_v32 (Host.divf : (⟨S50000x128, .f32⟩ : BufTy).Contents (Elt F) → (⟨S50000x128, .f32⟩ : BufTy).Contents (Elt F) → (⟨S50000x128, .f32⟩ : BufTy).Contents (Elt F)) ]

/-- Operations 40 … 45 of 268 (window 0 of @main). -/
abbrev seg3 : List (HloOp τ sig (Elt F)) :=
  [ StableHlo.binary main_v32 main_v5 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_arg0 main_v7 main_v34 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v33 main_v34 main_v35 (addf : (⟨S50000x128, .f32⟩ : BufTy).Contents (Elt F) → (⟨S50000x128, .f32⟩ : BufTy).Contents (Elt F) → (⟨S50000x128, .f32⟩ : BufTy).Contents (Elt F)),
    StableHlo.unary main_v9 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v37 main_v38 (addf : (⟨S50000x128, .f32⟩ : BufTy).Contents (Elt F) → (⟨S50000x128, .f32⟩ : BufTy).Contents (Elt F) → (⟨S50000x128, .f32⟩ : BufTy).Contents (Elt F)) ]

/-- Operations 46 … 50 of 268 (window 0 of @main). -/
abbrev seg4 : List (HloOp τ sig (Elt F)) :=
  [ StableHlo.nullary main_cst_4 (constant S_ .f32 0x00000000#32),
    StableHlo.binary main_v38 main_cst_4 main_v39 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v40 (broadcastInDim S128 ![] bcast_S_S128 : (⟨S_, .f32⟩ : BufTy).Contents (Elt F) → (⟨S128, .f32⟩ : BufTy).Contents (Elt F)),
    StableHlo.binary main_v39 main_v40 main_v41 (Host.divf : (⟨S128, .f32⟩ : BufTy).Contents (Elt F) → (⟨S128, .f32⟩ : BufTy).Contents (Elt F) → (⟨S128, .f32⟩ : BufTy).Contents (Elt F)) ]

/-- Operations 51 … 73 of 268 (window 0 of @main). -/
abbrev seg5 : List (HloOp τ sig (Elt F)) :=
  [ StableHlo.nullary main_c_6 (constantI S_ 32 0#32),
    StableHlo.TRef.nullary main_call0.cst (constant S_ .f32 0x00000000#32),
    StableHlo.TRef.binary (.of main_v38) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v38) main_call0.v4 main_call0.v5 subf,
    StableHlo.TRef.binary main_call0.v5 main_call0.v5 main_call0.v6 mulf,
    StableHlo.TRef.unary (.of main_c_6) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Operations 74 … 81 of 268 (window 0 of @main). -/
abbrev seg6 : List (HloOp τ sig (Elt F)) :=
  [ StableHlo.unary main_v41 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v44 main_v45 (subf : (⟨S50000x128, .f32⟩ : BufTy).Contents (Elt F) → (⟨S50000x128, .f32⟩ : BufTy).Contents (Elt F) → (⟨S50000x128, .f32⟩ : BufTy).Contents (Elt F)),
    StableHlo.unary main_v11 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v45 main_v48 (mulf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v49 (broadcastInDim S128 ![] bcast_S_S128 : (⟨S_, .f32⟩ : BufTy).Contents (Elt F) → (⟨S128, .f32⟩ : BufTy).Contents (Elt F)) ]

/-- Operations 82 … 92 of 268 (window 1 of @main). -/
abbrev seg7 : List (HloOp τ sig (Elt F)) :=
  [ StableHlo.binary main_v42 main_v49 main_v50 (addf : (⟨S128, .f32⟩ : BufTy).Contents (Elt F) → (⟨S128, .f32⟩ : BufTy).Contents (Elt F) → (⟨S128, .f32⟩ : BufTy).Contents (Elt F)),
    StableHlo.unary main_v50 main_v51 (Host.rsqrt : (⟨S128, .f32⟩ : BufTy).Contents (Elt F) → (⟨S128, .f32⟩ : BufTy).Contents (Elt F)),
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v53 main_v54 (mulf : (⟨S50000x128, .f32⟩ : BufTy).Contents (Elt F) → (⟨S50000x128, .f32⟩ : BufTy).Contents (Elt F) → (⟨S50000x128, .f32⟩ : BufTy).Contents (Elt F)),
    StableHlo.unary main_v13 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v56 main_v57 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v57) main_call1.v0 main_call1.v1 maximumf ]

/-- Operations 93 … 102 of 268 (window 1 of @main). -/
abbrev seg8 : List (HloOp τ sig (Elt F)) :=
  [ StableHlo.unary main_arg2 main_v59 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v59 main_v60 rfl shapeCasts_S1x128x128_S128x128,
    StableHlo.unary main_arg3 main_v61 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v61 main_v62 rfl shapeCasts_S1x128x128_S128x128,
    StableHlo.unary main_arg4 main_v63 ((extractStridedSlice S1x128 ![1, 0] · slices_S3x128_S1x128_1_0) : (⟨S3x128, .f32⟩ : BufTy).Contents (Elt F) → (⟨S1x128, .f32⟩ : BufTy).Contents (Elt F)),
    StableHlo.reshape main_v63 main_v64 rfl shapeCasts_S1x128_S128,
    StableHlo.unary main_arg5 main_v65 ((extractStridedSlice S1x128 ![1, 0] · slices_S3x128_S1x128_1_0) : (⟨S3x128, .f32⟩ : BufTy).Contents (Elt F) → (⟨S1x128, .f32⟩ : BufTy).Contents (Elt F)),
    StableHlo.reshape main_v65 main_v66 rfl shapeCasts_S1x128_S128,
    StableHlo.unary main_arg6 main_v67 ((extractStridedSlice S1x128 ![1, 0] · slices_S3x128_S1x128_1_0) : (⟨S3x128, .f32⟩ : BufTy).Contents (Elt F) → (⟨S1x128, .f32⟩ : BufTy).Contents (Elt F)),
    StableHlo.reshape main_v67 main_v68 rfl shapeCasts_S1x128_S128 ]

/-- Operations 103 … 127 of 268 (window 1 of @main). -/
abbrev seg9 : List (HloOp τ sig (Elt F)) :=
  [ StableHlo.nullary main_c_8 (constantI S_ 32 0#32),
    StableHlo.unary main_c_8 main_v69 (broadcastInDim S800000 ![] bcast_S_S800000 : (⟨S_, .i32⟩ : BufTy).Contents (Elt F) → (⟨S800000, .i32⟩ : BufTy).Contents (Elt F)),
    StableHlo.binary main_v1 main_v69 main_v70 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v71 (broadcastInDim S800000 ![] bcast_S_S800000 : (⟨S_, .i32⟩ : BufTy).Contents (Elt F) → (⟨S800000, .i32⟩ : BufTy).Contents (Elt F)),
    StableHlo.binary main_v1 main_v71 main_v72 (addi : (⟨S800000, .i32⟩ : BufTy).Contents (Elt F) → (⟨S800000, .i32⟩ : BufTy).Contents (Elt F) → (⟨S800000, .i32⟩ : BufTy).Contents (Elt F)),
    StableHlo.ternary main_v70 main_v72 main_v1 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v73 main_v74 (broadcastInDim S800000x1 ![0] bcast_S800000_S800000x1_0 : (⟨S800000, .i32⟩ : BufTy).Contents (Elt F) → (⟨S800000x1, .i32⟩ : BufTy).Contents (Elt F)),
    StableHlo.binary main_v58 main_v74 main_v75 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v76 (broadcastInDim S50000x128 ![] bcast_S_S50000x128 : (⟨S_, .f32⟩ : BufTy).Contents (Elt F) → (⟨S50000x128, .f32⟩ : BufTy).Contents (Elt F)),
    StableHlo.unary main_v3 main_v77 (broadcastInDim S800000x1 ![0] bcast_S800000_S800000x1_0 : (⟨S800000, .i32⟩ : BufTy).Contents (Elt F) → (⟨S800000x1, .i32⟩ : BufTy).Contents (Elt F)),
    StableHlo.ternary main_v76 main_v77 main_v75 main_v78 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_11 (constant S_ .f32 0x3F800000#32),
    StableHlo.unary main_cst_11 main_v79 (broadcastInDim S800000 ![] bcast_S_S800000 : (⟨S_, .f32⟩ : BufTy).Contents (Elt F) → (⟨S800000, .f32⟩ : BufTy).Contents (Elt F)),
    StableHlo.nullary main_cst_12 (constant S_ .f32 0x00000000#32),
    StableHlo.unary main_cst_12 main_v80 (broadcastInDim S50000 ![] bcast_S_S50000 : (⟨S_, .f32⟩ : BufTy).Contents (Elt F) → (⟨S50000, .f32⟩ : BufTy).Contents (Elt F)),
    StableHlo.unary main_v3 main_v81 (broadcastInDim S800000x1 ![0] bcast_S800000_S800000x1_0 : (⟨S800000, .i32⟩ : BufTy).Contents (Elt F) → (⟨S800000x1, .i32⟩ : BufTy).Contents (Elt F)),
    StableHlo.ternary main_v80 main_v81 main_v79 main_v82 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x3F800000#32),
    StableHlo.unary main_cst_13 main_v83 (broadcastInDim S50000 ![] bcast_S_S50000 : (⟨S_, .f32⟩ : BufTy).Contents (Elt F) → (⟨S50000, .f32⟩ : BufTy).Contents (Elt F)),
    StableHlo.binary main_v82 main_v83 main_v84 (maximumf : (⟨S50000, .f32⟩ : BufTy).Contents (Elt F) → (⟨S50000, .f32⟩ : BufTy).Contents (Elt F) → (⟨S50000, .f32⟩ : BufTy).Contents (Elt F)),
    StableHlo.unary main_v84 main_v85 (broadcastInDim S50000x1 ![0] bcast_S50000_S50000x1_0 : (⟨S50000, .f32⟩ : BufTy).Contents (Elt F) → (⟨S50000x1, .f32⟩ : BufTy).Contents (Elt F)),
    StableHlo.unary main_v85 main_v86 (broadcastInDim S50000x128 ![0, 1] bcast_S50000x1_S50000x128_0_1 : (⟨S50000x1, .f32⟩ : BufTy).Contents (Elt F) → (⟨S50000x128, .f32⟩ : BufTy).Contents (Elt F)),
    StableHlo.binary main_v78 main_v86 main_v87 (Host.divf : (⟨S50000x128, .f32⟩ : BufTy).Contents (Elt F) → (⟨S50000x128, .f32⟩ : BufTy).Contents (Elt F) → (⟨S50000x128, .f32⟩ : BufTy).Contents (Elt F)) ]

/-- Operations 128 … 133 of 268 (window 1 of @main). -/
abbrev seg10 : List (HloOp τ sig (Elt F)) :=
  [ StableHlo.binary main_v87 main_v60 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v58 main_v62 main_v89 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v88 main_v89 main_v90 (addf : (⟨S50000x128, .f32⟩ : BufTy).Contents (Elt F) → (⟨S50000x128, .f32⟩ : BufTy).Contents (Elt F) → (⟨S50000x128, .f32⟩ : BufTy).Contents (Elt F)),
    StableHlo.unary main_v64 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v92 main_v93 (addf : (⟨S50000x128, .f32⟩ : BufTy).Contents (Elt F) → (⟨S50000x128, .f32⟩ : BufTy).Contents (Elt F) → (⟨S50000x128, .f32⟩ : BufTy).Contents (Elt F)) ]

/-- Operations 134 … 138 of 268 (window 1 of @main). -/
abbrev seg11 : List (HloOp τ sig (Elt F)) :=
  [ StableHlo.nullary main_cst_14 (constant S_ .f32 0x00000000#32),
    StableHlo.binary main_v93 main_cst_14 main_v94 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v95 (broadcastInDim S128 ![] bcast_S_S128 : (⟨S_, .f32⟩ : BufTy).Contents (Elt F) → (⟨S128, .f32⟩ : BufTy).Contents (Elt F)),
    StableHlo.binary main_v94 main_v95 main_v96 (Host.divf : (⟨S128, .f32⟩ : BufTy).Contents (Elt F) → (⟨S128, .f32⟩ : BufTy).Contents (Elt F) → (⟨S128, .f32⟩ : BufTy).Contents (Elt F)) ]

/-- Operations 139 … 161 of 268 (window 1 of @main). -/
abbrev seg12 : List (HloOp τ sig (Elt F)) :=
  [ StableHlo.nullary main_c_16 (constantI S_ 32 0#32),
    StableHlo.TRef.nullary main_call2.cst (constant S_ .f32 0x00000000#32),
    StableHlo.TRef.binary (.of main_v93) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v93) main_call2.v4 main_call2.v5 subf,
    StableHlo.TRef.binary main_call2.v5 main_call2.v5 main_call2.v6 mulf,
    StableHlo.TRef.unary (.of main_c_16) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Operations 162 … 164 of 268 (window 1 of @main). -/
abbrev seg13 : List (HloOp τ sig (Elt F)) :=
  [ StableHlo.unary main_v96 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v99 main_v100 (subf : (⟨S50000x128, .f32⟩ : BufTy).Contents (Elt F) → (⟨S50000x128, .f32⟩ : BufTy).Contents (Elt F) → (⟨S50000x128, .f32⟩ : BufTy).Contents (Elt F)) ]

/-- Operations 165 … 180 of 268 (window 2 of @main). -/
abbrev seg14 : List (HloOp τ sig (Elt F)) :=
  [ StableHlo.unary main_v66 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v102 main_v100 main_v103 (mulf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v104 (broadcastInDim S128 ![] bcast_S_S128 : (⟨S_, .f32⟩ : BufTy).Contents (Elt F) → (⟨S128, .f32⟩ : BufTy).Contents (Elt F)),
    StableHlo.binary main_v97 main_v104 main_v105 (addf : (⟨S128, .f32⟩ : BufTy).Contents (Elt F) → (⟨S128, .f32⟩ : BufTy).Contents (Elt F) → (⟨S128, .f32⟩ : BufTy).Contents (Elt F)),
    StableHlo.unary main_v105 main_v106 (Host.rsqrt : (⟨S128, .f32⟩ : BufTy).Contents (Elt F) → (⟨S128, .f32⟩ : BufTy).Contents (Elt F)),
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v108 main_v109 (mulf : (⟨S50000x128, .f32⟩ : BufTy).Contents (Elt F) → (⟨S50000x128, .f32⟩ : BufTy).Contents (Elt F) → (⟨S50000x128, .f32⟩ : BufTy).Contents (Elt F)),
    StableHlo.unary main_v68 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v111 main_v112 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v112) main_call3.v0 main_call3.v1 maximumf ]

/-- Operations 181 … 190 of 268 (window 2 of @main). -/
abbrev seg15 : List (HloOp τ sig (Elt F)) :=
  [ StableHlo.unary main_arg2 main_v114 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v114 main_v115 rfl shapeCasts_S1x128x128_S128x128,
    StableHlo.unary main_arg3 main_v116 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v116 main_v117 rfl shapeCasts_S1x128x128_S128x128,
    StableHlo.unary main_arg4 main_v118 ((extractStridedSlice S1x128 ![2, 0] · slices_S3x128_S1x128_2_0) : (⟨S3x128, .f32⟩ : BufTy).Contents (Elt F) → (⟨S1x128, .f32⟩ : BufTy).Contents (Elt F)),
    StableHlo.reshape main_v118 main_v119 rfl shapeCasts_S1x128_S128,
    StableHlo.unary main_arg5 main_v120 ((extractStridedSlice S1x128 ![2, 0] · slices_S3x128_S1x128_2_0) : (⟨S3x128, .f32⟩ : BufTy).Contents (Elt F) → (⟨S1x128, .f32⟩ : BufTy).Contents (Elt F)),
    StableHlo.reshape main_v120 main_v121 rfl shapeCasts_S1x128_S128,
    StableHlo.unary main_arg6 main_v122 ((extractStridedSlice S1x128 ![2, 0] · slices_S3x128_S1x128_2_0) : (⟨S3x128, .f32⟩ : BufTy).Contents (Elt F) → (⟨S1x128, .f32⟩ : BufTy).Contents (Elt F)),
    StableHlo.reshape main_v122 main_v123 rfl shapeCasts_S1x128_S128 ]

/-- Operations 191 … 215 of 268 (window 2 of @main). -/
abbrev seg16 : List (HloOp τ sig (Elt F)) :=
  [ StableHlo.nullary main_c_18 (constantI S_ 32 0#32),
    StableHlo.unary main_c_18 main_v124 (broadcastInDim S800000 ![] bcast_S_S800000 : (⟨S_, .i32⟩ : BufTy).Contents (Elt F) → (⟨S800000, .i32⟩ : BufTy).Contents (Elt F)),
    StableHlo.binary main_v1 main_v124 main_v125 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v126 (broadcastInDim S800000 ![] bcast_S_S800000 : (⟨S_, .i32⟩ : BufTy).Contents (Elt F) → (⟨S800000, .i32⟩ : BufTy).Contents (Elt F)),
    StableHlo.binary main_v1 main_v126 main_v127 (addi : (⟨S800000, .i32⟩ : BufTy).Contents (Elt F) → (⟨S800000, .i32⟩ : BufTy).Contents (Elt F) → (⟨S800000, .i32⟩ : BufTy).Contents (Elt F)),
    StableHlo.ternary main_v125 main_v127 main_v1 main_v128 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v128 main_v129 (broadcastInDim S800000x1 ![0] bcast_S800000_S800000x1_0 : (⟨S800000, .i32⟩ : BufTy).Contents (Elt F) → (⟨S800000x1, .i32⟩ : BufTy).Contents (Elt F)),
    StableHlo.binary main_v113 main_v129 main_v130 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v131 (broadcastInDim S50000x128 ![] bcast_S_S50000x128 : (⟨S_, .f32⟩ : BufTy).Contents (Elt F) → (⟨S50000x128, .f32⟩ : BufTy).Contents (Elt F)),
    StableHlo.unary main_v3 main_v132 (broadcastInDim S800000x1 ![0] bcast_S800000_S800000x1_0 : (⟨S800000, .i32⟩ : BufTy).Contents (Elt F) → (⟨S800000x1, .i32⟩ : BufTy).Contents (Elt F)),
    StableHlo.ternary main_v131 main_v132 main_v130 main_v133 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_21 (constant S_ .f32 0x3F800000#32),
    StableHlo.unary main_cst_21 main_v134 (broadcastInDim S800000 ![] bcast_S_S800000 : (⟨S_, .f32⟩ : BufTy).Contents (Elt F) → (⟨S800000, .f32⟩ : BufTy).Contents (Elt F)),
    StableHlo.nullary main_cst_22 (constant S_ .f32 0x00000000#32),
    StableHlo.unary main_cst_22 main_v135 (broadcastInDim S50000 ![] bcast_S_S50000 : (⟨S_, .f32⟩ : BufTy).Contents (Elt F) → (⟨S50000, .f32⟩ : BufTy).Contents (Elt F)),
    StableHlo.unary main_v3 main_v136 (broadcastInDim S800000x1 ![0] bcast_S800000_S800000x1_0 : (⟨S800000, .i32⟩ : BufTy).Contents (Elt F) → (⟨S800000x1, .i32⟩ : BufTy).Contents (Elt F)),
    StableHlo.ternary main_v135 main_v136 main_v134 main_v137 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_23 (constant S_ .f32 0x3F800000#32),
    StableHlo.unary main_cst_23 main_v138 (broadcastInDim S50000 ![] bcast_S_S50000 : (⟨S_, .f32⟩ : BufTy).Contents (Elt F) → (⟨S50000, .f32⟩ : BufTy).Contents (Elt F)),
    StableHlo.binary main_v137 main_v138 main_v139 (maximumf : (⟨S50000, .f32⟩ : BufTy).Contents (Elt F) → (⟨S50000, .f32⟩ : BufTy).Contents (Elt F) → (⟨S50000, .f32⟩ : BufTy).Contents (Elt F)),
    StableHlo.unary main_v139 main_v140 (broadcastInDim S50000x1 ![0] bcast_S50000_S50000x1_0 : (⟨S50000, .f32⟩ : BufTy).Contents (Elt F) → (⟨S50000x1, .f32⟩ : BufTy).Contents (Elt F)),
    StableHlo.unary main_v140 main_v141 (broadcastInDim S50000x128 ![0, 1] bcast_S50000x1_S50000x128_0_1 : (⟨S50000x1, .f32⟩ : BufTy).Contents (Elt F) → (⟨S50000x128, .f32⟩ : BufTy).Contents (Elt F)),
    StableHlo.binary main_v133 main_v141 main_v142 (Host.divf : (⟨S50000x128, .f32⟩ : BufTy).Contents (Elt F) → (⟨S50000x128, .f32⟩ : BufTy).Contents (Elt F) → (⟨S50000x128, .f32⟩ : BufTy).Contents (Elt F)) ]

/-- Operations 216 … 221 of 268 (window 2 of @main). -/
abbrev seg17 : List (HloOp τ sig (Elt F)) :=
  [ StableHlo.binary main_v142 main_v115 main_v143 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v113 main_v117 main_v144 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v143 main_v144 main_v145 (addf : (⟨S50000x128, .f32⟩ : BufTy).Contents (Elt F) → (⟨S50000x128, .f32⟩ : BufTy).Contents (Elt F) → (⟨S50000x128, .f32⟩ : BufTy).Contents (Elt F)),
    StableHlo.unary main_v119 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v145 main_v147 main_v148 (addf : (⟨S50000x128, .f32⟩ : BufTy).Contents (Elt F) → (⟨S50000x128, .f32⟩ : BufTy).Contents (Elt F) → (⟨S50000x128, .f32⟩ : BufTy).Contents (Elt F)) ]

/-- Operations 222 … 226 of 268 (window 2 of @main). -/
abbrev seg18 : List (HloOp τ sig (Elt F)) :=
  [ StableHlo.nullary main_cst_24 (constant S_ .f32 0x00000000#32),
    StableHlo.binary main_v148 main_cst_24 main_v149 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v150 (broadcastInDim S128 ![] bcast_S_S128 : (⟨S_, .f32⟩ : BufTy).Contents (Elt F) → (⟨S128, .f32⟩ : BufTy).Contents (Elt F)),
    StableHlo.binary main_v149 main_v150 main_v151 (Host.divf : (⟨S128, .f32⟩ : BufTy).Contents (Elt F) → (⟨S128, .f32⟩ : BufTy).Contents (Elt F) → (⟨S128, .f32⟩ : BufTy).Contents (Elt F)) ]

/-- Operations 227 … 249 of 268 (window 3 of @main). -/
abbrev seg19 : List (HloOp τ sig (Elt F)) :=
  [ StableHlo.nullary main_c_26 (constantI S_ 32 0#32),
    StableHlo.TRef.nullary main_call4.cst (constant S_ .f32 0x00000000#32),
    StableHlo.TRef.binary (.of main_v148) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v148) main_call4.v4 main_call4.v5 subf,
    StableHlo.TRef.binary main_call4.v5 main_call4.v5 main_call4.v6 mulf,
    StableHlo.TRef.unary (.of main_c_26) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- Operations 250 … 268 of 268 (window 3 of @main). -/
abbrev seg20 : List (HloOp τ sig (Elt F)) :=
  [ StableHlo.unary main_v151 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v154 main_v155 (subf : (⟨S50000x128, .f32⟩ : BufTy).Contents (Elt F) → (⟨S50000x128, .f32⟩ : BufTy).Contents (Elt F) → (⟨S50000x128, .f32⟩ : BufTy).Contents (Elt F)),
    StableHlo.unary main_v121 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v155 main_v158 (mulf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v159 (broadcastInDim S128 ![] bcast_S_S128 : (⟨S_, .f32⟩ : BufTy).Contents (Elt F) → (⟨S128, .f32⟩ : BufTy).Contents (Elt F)),
    StableHlo.binary main_v152 main_v159 main_v160 (addf : (⟨S128, .f32⟩ : BufTy).Contents (Elt F) → (⟨S128, .f32⟩ : BufTy).Contents (Elt F) → (⟨S128, .f32⟩ : BufTy).Contents (Elt F)),
    StableHlo.unary main_v160 main_v161 (Host.rsqrt : (⟨S128, .f32⟩ : BufTy).Contents (Elt F) → (⟨S128, .f32⟩ : BufTy).Contents (Elt F)),
    StableHlo.unary main_v161 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S50000x128 ![0, 1] bcast_S1x128_S50000x128_0_1 : (⟨S1x128, .f32⟩ : BufTy).Contents (Elt F) → (⟨S50000x128, .f32⟩ : BufTy).Contents (Elt F)),
    StableHlo.binary main_v158 main_v163 main_v164 (mulf : (⟨S50000x128, .f32⟩ : BufTy).Contents (Elt F) → (⟨S50000x128, .f32⟩ : BufTy).Contents (Elt F) → (⟨S50000x128, .f32⟩ : BufTy).Contents (Elt F)),
    StableHlo.unary main_v123 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S50000x128 ![0, 1] bcast_S1x128_S50000x128_0_1 : (⟨S1x128, .f32⟩ : BufTy).Contents (Elt F) → (⟨S50000x128, .f32⟩ : BufTy).Contents (Elt F)),
    StableHlo.binary main_v164 main_v166 main_v167 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v167) main_call5.v0 main_call5.v1 maximumf ]

/-- The operations of window 0 of @main. -/
abbrev part0 : List (HloOp τ sig (Elt F)) := seg1 ++ (seg2 ++ (seg3 ++ (seg4 ++ (seg5 ++ seg6))))
/-- The operations of window 1 of @main. -/
abbrev part1 : List (HloOp τ sig (Elt F)) := seg7 ++ (seg8 ++ (seg9 ++ (seg10 ++ (seg11 ++ (seg12 ++ seg13)))))
/-- The operations of window 2 of @main. -/
abbrev part2 : List (HloOp τ sig (Elt F)) := seg14 ++ (seg15 ++ (seg16 ++ (seg17 ++ seg18)))
/-- The operations of window 3 of @main. -/
abbrev part3 : List (HloOp τ sig (Elt F)) := seg19 ++ seg20
/-- @main's operations, in execution order. -/
abbrev ops : List (HloOp τ sig (Elt F)) := part0 ++ (part1 ++ (part2 ++ part3))

set_option maxRecDepth 8192 in
set_option maxHeartbeats 4000000 in
theorem main_part0_eq (c : Dev nD) : main_part0 (F := F) c = seq part0 := by
  simp only [main_part0, fn_var.body, fn_where.body, fn_relu.body, part0, seg1, seg2, seg3, seg4, seg5, seg6, List.cons_append, List.nil_append, seq, bind_assoc, pure_bind] <;> rfl
set_option maxRecDepth 8192 in
set_option maxHeartbeats 4000000 in
theorem main_part1_eq (c : Dev nD) : main_part1 (F := F) c = seq part1 := by
  simp only [main_part1, fn_var.body, fn_where.body, fn_relu.body, part1, seg7, seg8, seg9, seg10, seg11, seg12, seg13, List.cons_append, List.nil_append, seq, bind_assoc, pure_bind] <;> rfl
set_option maxRecDepth 8192 in
set_option maxHeartbeats 4000000 in
theorem main_part2_eq (c : Dev nD) : main_part2 (F := F) c = seq part2 := by
  simp only [main_part2, fn_var.body, fn_where.body, fn_relu.body, part2, seg14, seg15, seg16, seg17, seg18, List.cons_append, List.nil_append, seq, bind_assoc, pure_bind] <;> rfl
set_option maxRecDepth 8192 in
set_option maxHeartbeats 4000000 in
theorem main_part3_eq (c : Dev nD) : main_part3 (F := F) c = seq part3 := by
  simp only [main_part3, fn_var.body, fn_where.body, fn_relu.body, part3, seg19, seg20, List.cons_append, List.nil_append, seq, bind_assoc, pure_bind] <;> rfl
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide

theorem seg1_sub : (seg1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem seg1_fresh : (seg1 : List (HloOp τ sig (Elt F))).Forall fun op => op.fresh = ∅ :=
  ⟨rfl, rfl, rfl, rfl, rfl, rfl, rfl, rfl, rfl, rfl, rfl, rfl, rfl, rfl⟩
theorem seg2_sub : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem seg3_sub : (seg3 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem seg3_fresh : (seg3 : List (HloOp τ sig (Elt F))).Forall fun op => op.fresh = ∅ :=
  ⟨rfl, rfl, rfl, rfl, rfl, rfl⟩
theorem seg4_sub : (seg4 : List (HloOp τ sig (Elt F))).Forall fun op => op.bufs ⊆ tcRefs τ sig :=
  ⟨nullary_bufs_sub .., binary_bufs_sub .., nullary_bufs_sub .., unary_bufs_sub .., binary_bufs_sub ..⟩
theorem seg4_fresh : (seg4 : List (HloOp τ sig (Elt F))).Forall fun op => op.fresh = ∅ :=
  ⟨rfl, rfl, rfl, rfl, rfl⟩
theorem seg5_sub : (seg5 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem seg6_sub : (seg6 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub ..⟩
theorem seg6_fresh : (seg6 : List (HloOp τ sig (Elt F))).Forall fun op => op.fresh = ∅ :=
  ⟨rfl, rfl, rfl, rfl, rfl, rfl, rfl, rfl⟩
theorem seg7_sub : (seg7 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
theorem seg7_fresh : (seg7 : List (HloOp τ sig (Elt F))).Forall fun op => op.fresh = ∅ :=
  ⟨rfl, rfl, rfl, rfl, rfl, rfl, rfl, rfl, rfl, rfl, rfl⟩
theorem seg8_sub : (seg8 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub ..⟩
theorem seg8_fresh : (seg8 : List (HloOp τ sig (Elt F))).Forall fun op => op.fresh = ∅ :=
  ⟨rfl, rfl, rfl, rfl, rfl, rfl, rfl, rfl, rfl, rfl⟩
theorem seg9_sub : (seg9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem seg9_fresh : (seg9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem seg10_sub : (seg10 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem seg10_fresh : (seg10 : List (HloOp τ sig (Elt F))).Forall fun op => op.fresh = ∅ :=
  ⟨rfl, rfl, rfl, rfl, rfl, rfl⟩
theorem seg11_sub : (seg11 : List (HloOp τ sig (Elt F))).Forall fun op => op.bufs ⊆ tcRefs τ sig :=
  ⟨nullary_bufs_sub .., binary_bufs_sub .., nullary_bufs_sub .., unary_bufs_sub .., binary_bufs_sub ..⟩
theorem seg11_fresh : (seg11 : List (HloOp τ sig (Elt F))).Forall fun op => op.fresh = ∅ :=
  ⟨rfl, rfl, rfl, rfl, rfl⟩
theorem seg12_sub : (seg12 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg12_fresh : (seg12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem seg13_sub : (seg13 : List (HloOp τ sig (Elt F))).Forall fun op => op.bufs ⊆ tcRefs τ sig :=
  ⟨unary_bufs_sub .., unary_bufs_sub .., binary_bufs_sub ..⟩
theorem seg13_fresh : (seg13 : List (HloOp τ sig (Elt F))).Forall fun op => op.fresh = ∅ :=
  ⟨rfl, rfl, rfl⟩
theorem seg14_sub : (seg14 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
theorem seg14_fresh : (seg14 : List (HloOp τ sig (Elt F))).Forall fun op => op.fresh = ∅ :=
  ⟨rfl, rfl, rfl, rfl, rfl, rfl, rfl, rfl, rfl, rfl, rfl, rfl, rfl, rfl, rfl, rfl⟩
theorem seg15_sub : (seg15 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub ..⟩
theorem seg15_fresh : (seg15 : List (HloOp τ sig (Elt F))).Forall fun op => op.fresh = ∅ :=
  ⟨rfl, rfl, rfl, rfl, rfl, rfl, rfl, rfl, rfl, rfl⟩
theorem seg16_sub : (seg16 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem seg16_fresh : (seg16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem seg17_sub : (seg17 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem seg17_fresh : (seg17 : List (HloOp τ sig (Elt F))).Forall fun op => op.fresh = ∅ :=
  ⟨rfl, rfl, rfl, rfl, rfl, rfl⟩
theorem seg18_sub : (seg18 : List (HloOp τ sig (Elt F))).Forall fun op => op.bufs ⊆ tcRefs τ sig :=
  ⟨nullary_bufs_sub .., binary_bufs_sub .., nullary_bufs_sub .., unary_bufs_sub .., binary_bufs_sub ..⟩
theorem seg18_fresh : (seg18 : List (HloOp τ sig (Elt F))).Forall fun op => op.fresh = ∅ :=
  ⟨rfl, rfl, rfl, rfl, rfl⟩
theorem seg19_sub : (seg19 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg19_fresh : (seg19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem seg20_sub : (seg20 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
theorem seg20_fresh : (seg20 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, part0, part1, part2, part3, List.mem_append] at h
    rcases h with (h | h | h | h | h | h) | (h | h | h | h | h | h | h) | (h | h | h | h | h) | (h | h)
    exacts [List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h, List.forall_iff_forall_mem.mp seg8_sub op h, List.forall_iff_forall_mem.mp seg9_sub op h, List.forall_iff_forall_mem.mp seg10_sub op h, List.forall_iff_forall_mem.mp seg11_sub op h, List.forall_iff_forall_mem.mp seg12_sub op h, List.forall_iff_forall_mem.mp seg13_sub op h, List.forall_iff_forall_mem.mp seg14_sub op h, List.forall_iff_forall_mem.mp seg15_sub op h, List.forall_iff_forall_mem.mp seg16_sub op h, List.forall_iff_forall_mem.mp seg17_sub op h, List.forall_iff_forall_mem.mp seg18_sub op h, List.forall_iff_forall_mem.mp seg19_sub op h, List.forall_iff_forall_mem.mp seg20_sub op h]
theorem ops_fresh : ∀ op ∈ (ops : List (HloOp τ sig (Elt F))), op.fresh = ∅ := fun op h => by
    simp only [ops, part0, part1, part2, part3, List.mem_append] at h
    rcases h with (h | h | h | h | h | h) | (h | h | h | h | h | h | h) | (h | h | h | h | h) | (h | h)
    exacts [List.forall_iff_forall_mem.mp seg1_fresh op h, List.forall_iff_forall_mem.mp seg2_fresh op h, List.forall_iff_forall_mem.mp seg3_fresh op h, List.forall_iff_forall_mem.mp seg4_fresh op h, List.forall_iff_forall_mem.mp seg5_fresh op h, List.forall_iff_forall_mem.mp seg6_fresh op h, List.forall_iff_forall_mem.mp seg7_fresh op h, List.forall_iff_forall_mem.mp seg8_fresh op h, List.forall_iff_forall_mem.mp seg9_fresh op h, List.forall_iff_forall_mem.mp seg10_fresh op h, List.forall_iff_forall_mem.mp seg11_fresh op h, List.forall_iff_forall_mem.mp seg12_fresh op h, List.forall_iff_forall_mem.mp seg13_fresh op h, List.forall_iff_forall_mem.mp seg14_fresh op h, List.forall_iff_forall_mem.mp seg15_fresh op h, List.forall_iff_forall_mem.mp seg16_fresh op h, List.forall_iff_forall_mem.mp seg17_fresh op h, List.forall_iff_forall_mem.mp seg18_fresh op h, List.forall_iff_forall_mem.mp seg19_fresh op h, List.forall_iff_forall_mem.mp seg20_fresh op h]

/-! ## What the buffers hold, piece by piece -/

/-- What buffer `main_v1` holds after the run, over the launch contents. -/
def r_main_v1 (V0 : Valuation τ sig (Elt F)) : (⟨S800000, .i32⟩ : BufTy).Contents (Elt F) :=
  row0 (V0 (Proc.devRef .tc main_arg1))
/-- What buffer `main_v3` holds after the run, over the launch contents. -/
def r_main_v3 (V0 : Valuation τ sig (Elt F)) : (⟨S800000, .i32⟩ : BufTy).Contents (Elt F) :=
  row1 (V0 (Proc.devRef .tc main_arg1))
/-- What buffer `main_v5` holds after the run, over the launch contents. -/
def r_main_v5 (V0 : Valuation τ sig (Elt F)) : (⟨S128x128, .f32⟩ : BufTy).Contents (Elt F) :=
  wl0 (V0 (Proc.devRef .tc main_arg2))
/-- What buffer `main_v7` holds after the run, over the launch contents. -/
def r_main_v7 (V0 : Valuation τ sig (Elt F)) : (⟨S128x128, .f32⟩ : BufTy).Contents (Elt F) :=
  wr0 (V0 (Proc.devRef .tc main_arg3))
/-- What buffer `main_v9` holds after the run, over the launch contents. -/
def r_main_v9 (V0 : Valuation τ sig (Elt F)) : (⟨S128, .f32⟩ : BufTy).Contents (Elt F) :=
  b0 (V0 (Proc.devRef .tc main_arg4))
/-- What buffer `main_v11` holds after the run, over the launch contents. -/
def r_main_v11 (V0 : Valuation τ sig (Elt F)) : (⟨S128, .f32⟩ : BufTy).Contents (Elt F) :=
  g0 (V0 (Proc.devRef .tc main_arg5))
/-- What buffer `main_v13` holds after the run, over the launch contents. -/
def r_main_v13 (V0 : Valuation τ sig (Elt F)) : (⟨S128, .f32⟩ : BufTy).Contents (Elt F) :=
  be0 (V0 (Proc.devRef .tc main_arg6))
/-- What buffer `main_v32` holds after the run, over the launch contents. -/
def r_main_v32 (V0 : Valuation τ sig (Elt F)) : (⟨S50000x128, .f32⟩ : BufTy).Contents (Elt F) :=
  aggR (V0 (Proc.devRef .tc main_arg0)) (r_main_v1 V0) (r_main_v3 V0)
/-- What buffer `main_v38` holds after the run, over the launch contents. -/
def r_main_v38 (V0 : Valuation τ sig (Elt F)) : (⟨S50000x128, .f32⟩ : BufTy).Contents (Elt F) :=
  pre (r_main_v32 V0) (V0 (Proc.devRef .tc main_arg0)) (r_main_v5 V0) (r_main_v7 V0) (r_main_v9 V0)
/-- What buffer `main_v41` holds after the run, over the launch contents. -/
def r_main_v41 (V0 : Valuation τ sig (Elt F)) : (⟨S128, .f32⟩ : BufTy).Contents (Elt F) :=
  mean (r_main_v38 V0)
/-- What buffer `main_v42` holds after the run, over the launch contents. -/
def r_main_v42 (V0 : Valuation τ sig (Elt F)) : (⟨S128, .f32⟩ : BufTy).Contents (Elt F) :=
  var (r_main_v38 V0)
/-- What buffer `main_v58` holds after the run, over the launch contents. -/
def r_main_v58 (V0 : Valuation τ sig (Elt F)) : (⟨S50000x128, .f32⟩ : BufTy).Contents (Elt F) :=
  close (r_main_v38 V0) (r_main_v41 V0) (r_main_v42 V0) (r_main_v11 V0) (r_main_v13 V0)
/-- What buffer `main_v60` holds after the run, over the launch contents. -/
def r_main_v60 (V0 : Valuation τ sig (Elt F)) : (⟨S128x128, .f32⟩ : BufTy).Contents (Elt F) :=
  wl1 (V0 (Proc.devRef .tc main_arg2))
/-- What buffer `main_v62` holds after the run, over the launch contents. -/
def r_main_v62 (V0 : Valuation τ sig (Elt F)) : (⟨S128x128, .f32⟩ : BufTy).Contents (Elt F) :=
  wr1 (V0 (Proc.devRef .tc main_arg3))
/-- What buffer `main_v64` holds after the run, over the launch contents. -/
def r_main_v64 (V0 : Valuation τ sig (Elt F)) : (⟨S128, .f32⟩ : BufTy).Contents (Elt F) :=
  b1 (V0 (Proc.devRef .tc main_arg4))
/-- What buffer `main_v66` holds after the run, over the launch contents. -/
def r_main_v66 (V0 : Valuation τ sig (Elt F)) : (⟨S128, .f32⟩ : BufTy).Contents (Elt F) :=
  g1 (V0 (Proc.devRef .tc main_arg5))
/-- What buffer `main_v68` holds after the run, over the launch contents. -/
def r_main_v68 (V0 : Valuation τ sig (Elt F)) : (⟨S128, .f32⟩ : BufTy).Contents (Elt F) :=
  be1 (V0 (Proc.devRef .tc main_arg6))
/-- What buffer `main_v87` holds after the run, over the launch contents. -/
def r_main_v87 (V0 : Valuation τ sig (Elt F)) : (⟨S50000x128, .f32⟩ : BufTy).Contents (Elt F) :=
  aggR (r_main_v58 V0) (r_main_v1 V0) (r_main_v3 V0)
/-- What buffer `main_v93` holds after the run, over the launch contents. -/
def r_main_v93 (V0 : Valuation τ sig (Elt F)) : (⟨S50000x128, .f32⟩ : BufTy).Contents (Elt F) :=
  pre (r_main_v87 V0) (r_main_v58 V0) (r_main_v60 V0) (r_main_v62 V0) (r_main_v64 V0)
/-- What buffer `main_v96` holds after the run, over the launch contents. -/
def r_main_v96 (V0 : Valuation τ sig (Elt F)) : (⟨S128, .f32⟩ : BufTy).Contents (Elt F) :=
  mean (r_main_v93 V0)
/-- What buffer `main_v97` holds after the run, over the launch contents. -/
def r_main_v97 (V0 : Valuation τ sig (Elt F)) : (⟨S128, .f32⟩ : BufTy).Contents (Elt F) :=
  var (r_main_v93 V0)
/-- What buffer `main_v113` holds after the run, over the launch contents. -/
def r_main_v113 (V0 : Valuation τ sig (Elt F)) : (⟨S50000x128, .f32⟩ : BufTy).Contents (Elt F) :=
  close (r_main_v93 V0) (r_main_v96 V0) (r_main_v97 V0) (r_main_v66 V0) (r_main_v68 V0)
/-- What buffer `main_v115` holds after the run, over the launch contents. -/
def r_main_v115 (V0 : Valuation τ sig (Elt F)) : (⟨S128x128, .f32⟩ : BufTy).Contents (Elt F) :=
  wl2 (V0 (Proc.devRef .tc main_arg2))
/-- What buffer `main_v117` holds after the run, over the launch contents. -/
def r_main_v117 (V0 : Valuation τ sig (Elt F)) : (⟨S128x128, .f32⟩ : BufTy).Contents (Elt F) :=
  wr2 (V0 (Proc.devRef .tc main_arg3))
/-- What buffer `main_v119` holds after the run, over the launch contents. -/
def r_main_v119 (V0 : Valuation τ sig (Elt F)) : (⟨S128, .f32⟩ : BufTy).Contents (Elt F) :=
  b2 (V0 (Proc.devRef .tc main_arg4))
/-- What buffer `main_v121` holds after the run, over the launch contents. -/
def r_main_v121 (V0 : Valuation τ sig (Elt F)) : (⟨S128, .f32⟩ : BufTy).Contents (Elt F) :=
  g2 (V0 (Proc.devRef .tc main_arg5))
/-- What buffer `main_v123` holds after the run, over the launch contents. -/
def r_main_v123 (V0 : Valuation τ sig (Elt F)) : (⟨S128, .f32⟩ : BufTy).Contents (Elt F) :=
  be2 (V0 (Proc.devRef .tc main_arg6))
/-- What buffer `main_v142` holds after the run, over the launch contents. -/
def r_main_v142 (V0 : Valuation τ sig (Elt F)) : (⟨S50000x128, .f32⟩ : BufTy).Contents (Elt F) :=
  aggR (r_main_v113 V0) (r_main_v1 V0) (r_main_v3 V0)
/-- What buffer `main_v148` holds after the run, over the launch contents. -/
def r_main_v148 (V0 : Valuation τ sig (Elt F)) : (⟨S50000x128, .f32⟩ : BufTy).Contents (Elt F) :=
  pre (r_main_v142 V0) (r_main_v113 V0) (r_main_v115 V0) (r_main_v117 V0) (r_main_v119 V0)
/-- What buffer `main_v151` holds after the run, over the launch contents. -/
def r_main_v151 (V0 : Valuation τ sig (Elt F)) : (⟨S128, .f32⟩ : BufTy).Contents (Elt F) :=
  mean (r_main_v148 V0)
/-- What buffer `main_v152` holds after the run, over the launch contents. -/
def r_main_v152 (V0 : Valuation τ sig (Elt F)) : (⟨S128, .f32⟩ : BufTy).Contents (Elt F) :=
  var (r_main_v148 V0)
/-- What buffer `main_v168` holds after the run, over the launch contents. -/
def r_main_v168 (V0 : Valuation τ sig (Elt F)) : (⟨S50000x128, .f32⟩ : BufTy).Contents (Elt F) :=
  close (r_main_v148 V0) (r_main_v151 V0) (r_main_v152 V0) (r_main_v121 V0) (r_main_v123 V0)

/-- The device's buffer contents before the first piece. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl
theorem val0_main_arg1 (V0 : Valuation τ sig (Elt F)) : val0 V0 (no_index (Proc.devRef .tc main_arg1)) = (V0 (Proc.devRef .tc main_arg1)) := rfl
theorem val0_main_arg2 (V0 : Valuation τ sig (Elt F)) : val0 V0 (no_index (Proc.devRef .tc main_arg2)) = (V0 (Proc.devRef .tc main_arg2)) := rfl
theorem val0_main_arg3 (V0 : Valuation τ sig (Elt F)) : val0 V0 (no_index (Proc.devRef .tc main_arg3)) = (V0 (Proc.devRef .tc main_arg3)) := rfl
theorem val0_main_arg4 (V0 : Valuation τ sig (Elt F)) : val0 V0 (no_index (Proc.devRef .tc main_arg4)) = (V0 (Proc.devRef .tc main_arg4)) := rfl
theorem val0_main_arg5 (V0 : Valuation τ sig (Elt F)) : val0 V0 (no_index (Proc.devRef .tc main_arg5)) = (V0 (Proc.devRef .tc main_arg5)) := rfl
theorem val0_main_arg6 (V0 : Valuation τ sig (Elt F)) : val0 V0 (no_index (Proc.devRef .tc main_arg6)) = (V0 (Proc.devRef .tc main_arg6)) := rfl

/-- The device's buffer contents after the first 1 pieces. -/
def val1 (V0 : Valuation τ sig (Elt F)) : Valuation τ sig (Elt F) := after seg1 (val0 V0)
abbrev seg1_W : List (Ref sig .tc) := [main_v0, main_v1, main_v2, main_v3, main_v4, main_v5, main_v6, main_v7, main_v8, main_v9, main_v10, main_v11, main_v12, main_v13]
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (V0 : Valuation τ sig (Elt F)) (r : Ref sig .tc) (h : r ∉ seg1_W) :
    val1 V0 (Proc.devRef .tc r) = val0 V0 (Proc.devRef .tc r) :=
  after_of_writes_sub seg1 _ seg1_writes h
theorem val1_main_arg0 (V0 : Valuation τ sig (Elt F)) : val1 V0 (no_index (Proc.devRef .tc main_arg0)) = (V0 (Proc.devRef .tc main_arg0)) :=
  (val1_keep V0 main_arg0 (by decide)).trans (val0_main_arg0 V0)
theorem val1_main_arg1 (V0 : Valuation τ sig (Elt F)) : val1 V0 (no_index (Proc.devRef .tc main_arg1)) = (V0 (Proc.devRef .tc main_arg1)) :=
  (val1_keep V0 main_arg1 (by decide)).trans (val0_main_arg1 V0)
theorem val1_main_arg2 (V0 : Valuation τ sig (Elt F)) : val1 V0 (no_index (Proc.devRef .tc main_arg2)) = (V0 (Proc.devRef .tc main_arg2)) :=
  (val1_keep V0 main_arg2 (by decide)).trans (val0_main_arg2 V0)
theorem val1_main_arg3 (V0 : Valuation τ sig (Elt F)) : val1 V0 (no_index (Proc.devRef .tc main_arg3)) = (V0 (Proc.devRef .tc main_arg3)) :=
  (val1_keep V0 main_arg3 (by decide)).trans (val0_main_arg3 V0)
theorem val1_main_arg4 (V0 : Valuation τ sig (Elt F)) : val1 V0 (no_index (Proc.devRef .tc main_arg4)) = (V0 (Proc.devRef .tc main_arg4)) :=
  (val1_keep V0 main_arg4 (by decide)).trans (val0_main_arg4 V0)
theorem val1_main_arg5 (V0 : Valuation τ sig (Elt F)) : val1 V0 (no_index (Proc.devRef .tc main_arg5)) = (V0 (Proc.devRef .tc main_arg5)) :=
  (val1_keep V0 main_arg5 (by decide)).trans (val0_main_arg5 V0)
theorem val1_main_arg6 (V0 : Valuation τ sig (Elt F)) : val1 V0 (no_index (Proc.devRef .tc main_arg6)) = (V0 (Proc.devRef .tc main_arg6)) :=
  (val1_keep V0 main_arg6 (by decide)).trans (val0_main_arg6 V0)
set_option maxRecDepth 8192 in
set_option maxHeartbeats 4000000 in
theorem val1_main_v1 (V0 : Valuation τ sig (Elt F)) : val1 V0 (no_index (Proc.devRef .tc main_v1)) = (r_main_v1 V0) := by
  unfold val1
  simp only [seg1]
  after_results_simp
  simp only [val0_main_arg1]
  rfl
set_option maxRecDepth 8192 in
set_option maxHeartbeats 4000000 in
theorem val1_main_v3 (V0 : Valuation τ sig (Elt F)) : val1 V0 (no_index (Proc.devRef .tc main_v3)) = (r_main_v3 V0) := by
  unfold val1
  simp only [seg1]
  after_results_simp
  simp only [val0_main_arg1]
  rfl
set_option maxRecDepth 8192 in
set_option maxHeartbeats 4000000 in
theorem val1_main_v5 (V0 : Valuation τ sig (Elt F)) : val1 V0 (no_index (Proc.devRef .tc main_v5)) = (r_main_v5 V0) := by
  unfold val1
  simp only [seg1]
  after_results_simp
  simp only [val0_main_arg2]
  rfl
set_option maxRecDepth 8192 in
set_option maxHeartbeats 4000000 in
theorem val1_main_v7 (V0 : Valuation τ sig (Elt F)) : val1 V0 (no_index (Proc.devRef .tc main_v7)) = (r_main_v7 V0) := by
  unfold val1
  simp only [seg1]
  after_results_simp
  simp only [val0_main_arg3]
  rfl
set_option maxRecDepth 8192 in
set_option maxHeartbeats 4000000 in
theorem val1_main_v9 (V0 : Valuation τ sig (Elt F)) : val1 V0 (no_index (Proc.devRef .tc main_v9)) = (r_main_v9 V0) := by
  unfold val1
  simp only [seg1]
  after_results_simp
  simp only [val0_main_arg4]
  rfl
set_option maxRecDepth 8192 in
set_option maxHeartbeats 4000000 in
theorem val1_main_v11 (V0 : Valuation τ sig (Elt F)) : val1 V0 (no_index (Proc.devRef .tc main_v11)) = (r_main_v11 V0) := by
  unfold val1
  simp only [seg1]
  after_results_simp
  simp only [val0_main_arg5]
  rfl
set_option maxRecDepth 8192 in
set_option maxHeartbeats 4000000 in
theorem val1_main_v13 (V0 : Valuation τ sig (Elt F)) : val1 V0 (no_index (Proc.devRef .tc main_v13)) = (r_main_v13 V0) := by
  unfold val1
  simp only [seg1]
  after_results_simp
  simp only [val0_main_arg6]
  rfl

/-- The device's buffer contents after the first 2 pieces. -/
def val2 (V0 : Valuation τ sig (Elt F)) : Valuation τ sig (Elt F) := after seg2 (val1 V0)
abbrev seg2_W : List (Ref sig .tc) := [main_c, main_v14, main_v15, main_c_0, main_v16, main_v17, main_v18, main_v19, main_v20, main_cst, main_v21, main_v22, main_v23, main_cst_1, main_v24, main_cst_2, main_v25, main_v26, main_v27, main_cst_3, main_v28, main_v29, main_v30, main_v31, main_v32]
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (V0 : Valuation τ sig (Elt F)) (r : Ref sig .tc) (h : r ∉ seg2_W) :
    val2 V0 (Proc.devRef .tc r) = val1 V0 (Proc.devRef .tc r) :=
  after_of_writes_sub seg2 _ seg2_writes h
theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_arg1 (V0 : Valuation τ sig (Elt F)) : val2 V0 (no_index (Proc.devRef .tc main_arg1)) = (V0 (Proc.devRef .tc main_arg1)) :=
  (val2_keep V0 main_arg1 (by decide)).trans (val1_main_arg1 V0)
theorem val2_main_arg2 (V0 : Valuation τ sig (Elt F)) : val2 V0 (no_index (Proc.devRef .tc main_arg2)) = (V0 (Proc.devRef .tc main_arg2)) :=
  (val2_keep V0 main_arg2 (by decide)).trans (val1_main_arg2 V0)
theorem val2_main_arg3 (V0 : Valuation τ sig (Elt F)) : val2 V0 (no_index (Proc.devRef .tc main_arg3)) = (V0 (Proc.devRef .tc main_arg3)) :=
  (val2_keep V0 main_arg3 (by decide)).trans (val1_main_arg3 V0)
theorem val2_main_arg4 (V0 : Valuation τ sig (Elt F)) : val2 V0 (no_index (Proc.devRef .tc main_arg4)) = (V0 (Proc.devRef .tc main_arg4)) :=
  (val2_keep V0 main_arg4 (by decide)).trans (val1_main_arg4 V0)
theorem val2_main_arg5 (V0 : Valuation τ sig (Elt F)) : val2 V0 (no_index (Proc.devRef .tc main_arg5)) = (V0 (Proc.devRef .tc main_arg5)) :=
  (val2_keep V0 main_arg5 (by decide)).trans (val1_main_arg5 V0)
theorem val2_main_arg6 (V0 : Valuation τ sig (Elt F)) : val2 V0 (no_index (Proc.devRef .tc main_arg6)) = (V0 (Proc.devRef .tc main_arg6)) :=
  (val2_keep V0 main_arg6 (by decide)).trans (val1_main_arg6 V0)
theorem val2_main_v1 (V0 : Valuation τ sig (Elt F)) : val2 V0 (no_index (Proc.devRef .tc main_v1)) = (r_main_v1 V0) :=
  (val2_keep V0 main_v1 (by decide)).trans (val1_main_v1 V0)
theorem val2_main_v3 (V0 : Valuation τ sig (Elt F)) : val2 V0 (no_index (Proc.devRef .tc main_v3)) = (r_main_v3 V0) :=
  (val2_keep V0 main_v3 (by decide)).trans (val1_main_v3 V0)
theorem val2_main_v5 (V0 : Valuation τ sig (Elt F)) : val2 V0 (no_index (Proc.devRef .tc main_v5)) = (r_main_v5 V0) :=
  (val2_keep V0 main_v5 (by decide)).trans (val1_main_v5 V0)
theorem val2_main_v7 (V0 : Valuation τ sig (Elt F)) : val2 V0 (no_index (Proc.devRef .tc main_v7)) = (r_main_v7 V0) :=
  (val2_keep V0 main_v7 (by decide)).trans (val1_main_v7 V0)
theorem val2_main_v9 (V0 : Valuation τ sig (Elt F)) : val2 V0 (no_index (Proc.devRef .tc main_v9)) = (r_main_v9 V0) :=
  (val2_keep V0 main_v9 (by decide)).trans (val1_main_v9 V0)
theorem val2_main_v11 (V0 : Valuation τ sig (Elt F)) : val2 V0 (no_index (Proc.devRef .tc main_v11)) = (r_main_v11 V0) :=
  (val2_keep V0 main_v11 (by decide)).trans (val1_main_v11 V0)
theorem val2_main_v13 (V0 : Valuation τ sig (Elt F)) : val2 V0 (no_index (Proc.devRef .tc main_v13)) = (r_main_v13 V0) :=
  (val2_keep V0 main_v13 (by decide)).trans (val1_main_v13 V0)
set_option maxRecDepth 8192 in
set_option maxHeartbeats 4000000 in
theorem val2_main_v32 (V0 : Valuation τ sig (Elt F)) : val2 V0 (no_index (Proc.devRef .tc main_v32)) = (r_main_v32 V0) := by
  unfold val2
  simp only [seg2]
  after_results_simp
  simp only [val1_main_v3, val1_main_arg0, val1_main_v1]
  rfl

/-- The device's buffer contents after the first 3 pieces. -/
def val3 (V0 : Valuation τ sig (Elt F)) : Valuation τ sig (Elt F) := after seg3 (val2 V0)
abbrev seg3_W : List (Ref sig .tc) := [main_v33, main_v34, main_v35, main_v36, main_v37, main_v38]
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (V0 : Valuation τ sig (Elt F)) (r : Ref sig .tc) (h : r ∉ seg3_W) :
    val3 V0 (Proc.devRef .tc r) = val2 V0 (Proc.devRef .tc r) :=
  after_of_writes_sub seg3 _ seg3_writes h
theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_arg1 (V0 : Valuation τ sig (Elt F)) : val3 V0 (no_index (Proc.devRef .tc main_arg1)) = (V0 (Proc.devRef .tc main_arg1)) :=
  (val3_keep V0 main_arg1 (by decide)).trans (val2_main_arg1 V0)
theorem val3_main_arg2 (V0 : Valuation τ sig (Elt F)) : val3 V0 (no_index (Proc.devRef .tc main_arg2)) = (V0 (Proc.devRef .tc main_arg2)) :=
  (val3_keep V0 main_arg2 (by decide)).trans (val2_main_arg2 V0)
theorem val3_main_arg3 (V0 : Valuation τ sig (Elt F)) : val3 V0 (no_index (Proc.devRef .tc main_arg3)) = (V0 (Proc.devRef .tc main_arg3)) :=
  (val3_keep V0 main_arg3 (by decide)).trans (val2_main_arg3 V0)
theorem val3_main_arg4 (V0 : Valuation τ sig (Elt F)) : val3 V0 (no_index (Proc.devRef .tc main_arg4)) = (V0 (Proc.devRef .tc main_arg4)) :=
  (val3_keep V0 main_arg4 (by decide)).trans (val2_main_arg4 V0)
theorem val3_main_arg5 (V0 : Valuation τ sig (Elt F)) : val3 V0 (no_index (Proc.devRef .tc main_arg5)) = (V0 (Proc.devRef .tc main_arg5)) :=
  (val3_keep V0 main_arg5 (by decide)).trans (val2_main_arg5 V0)
theorem val3_main_arg6 (V0 : Valuation τ sig (Elt F)) : val3 V0 (no_index (Proc.devRef .tc main_arg6)) = (V0 (Proc.devRef .tc main_arg6)) :=
  (val3_keep V0 main_arg6 (by decide)).trans (val2_main_arg6 V0)
theorem val3_main_v1 (V0 : Valuation τ sig (Elt F)) : val3 V0 (no_index (Proc.devRef .tc main_v1)) = (r_main_v1 V0) :=
  (val3_keep V0 main_v1 (by decide)).trans (val2_main_v1 V0)
theorem val3_main_v3 (V0 : Valuation τ sig (Elt F)) : val3 V0 (no_index (Proc.devRef .tc main_v3)) = (r_main_v3 V0) :=
  (val3_keep V0 main_v3 (by decide)).trans (val2_main_v3 V0)
theorem val3_main_v11 (V0 : Valuation τ sig (Elt F)) : val3 V0 (no_index (Proc.devRef .tc main_v11)) = (r_main_v11 V0) :=
  (val3_keep V0 main_v11 (by decide)).trans (val2_main_v11 V0)
theorem val3_main_v13 (V0 : Valuation τ sig (Elt F)) : val3 V0 (no_index (Proc.devRef .tc main_v13)) = (r_main_v13 V0) :=
  (val3_keep V0 main_v13 (by decide)).trans (val2_main_v13 V0)
set_option maxRecDepth 8192 in
set_option maxHeartbeats 4000000 in
theorem val3_main_v38 (V0 : Valuation τ sig (Elt F)) : val3 V0 (no_index (Proc.devRef .tc main_v38)) = (r_main_v38 V0) := by
  unfold val3
  simp only [seg3]
  after_results_simp
  simp only [val2_main_v32, val2_main_v5, val2_main_arg0, val2_main_v7, val2_main_v9]
  rfl

/-- The device's buffer contents after the first 4 pieces. -/
def val4 (V0 : Valuation τ sig (Elt F)) : Valuation τ sig (Elt F) := after seg4 (val3 V0)
abbrev seg4_W : List (Ref sig .tc) := [main_cst_4, main_v39, main_cst_5, main_v40, main_v41]
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val4_keep (V0 : Valuation τ sig (Elt F)) (r : Ref sig .tc) (h : r ∉ seg4_W) :
    val4 V0 (Proc.devRef .tc r) = val3 V0 (Proc.devRef .tc r) :=
  after_of_writes_sub seg4 _ seg4_writes h
theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_arg1 (V0 : Valuation τ sig (Elt F)) : val4 V0 (no_index (Proc.devRef .tc main_arg1)) = (V0 (Proc.devRef .tc main_arg1)) :=
  (val4_keep V0 main_arg1 (by decide)).trans (val3_main_arg1 V0)
theorem val4_main_arg2 (V0 : Valuation τ sig (Elt F)) : val4 V0 (no_index (Proc.devRef .tc main_arg2)) = (V0 (Proc.devRef .tc main_arg2)) :=
  (val4_keep V0 main_arg2 (by decide)).trans (val3_main_arg2 V0)
theorem val4_main_arg3 (V0 : Valuation τ sig (Elt F)) : val4 V0 (no_index (Proc.devRef .tc main_arg3)) = (V0 (Proc.devRef .tc main_arg3)) :=
  (val4_keep V0 main_arg3 (by decide)).trans (val3_main_arg3 V0)
theorem val4_main_arg4 (V0 : Valuation τ sig (Elt F)) : val4 V0 (no_index (Proc.devRef .tc main_arg4)) = (V0 (Proc.devRef .tc main_arg4)) :=
  (val4_keep V0 main_arg4 (by decide)).trans (val3_main_arg4 V0)
theorem val4_main_arg5 (V0 : Valuation τ sig (Elt F)) : val4 V0 (no_index (Proc.devRef .tc main_arg5)) = (V0 (Proc.devRef .tc main_arg5)) :=
  (val4_keep V0 main_arg5 (by decide)).trans (val3_main_arg5 V0)
theorem val4_main_arg6 (V0 : Valuation τ sig (Elt F)) : val4 V0 (no_index (Proc.devRef .tc main_arg6)) = (V0 (Proc.devRef .tc main_arg6)) :=
  (val4_keep V0 main_arg6 (by decide)).trans (val3_main_arg6 V0)
theorem val4_main_v1 (V0 : Valuation τ sig (Elt F)) : val4 V0 (no_index (Proc.devRef .tc main_v1)) = (r_main_v1 V0) :=
  (val4_keep V0 main_v1 (by decide)).trans (val3_main_v1 V0)
theorem val4_main_v3 (V0 : Valuation τ sig (Elt F)) : val4 V0 (no_index (Proc.devRef .tc main_v3)) = (r_main_v3 V0) :=
  (val4_keep V0 main_v3 (by decide)).trans (val3_main_v3 V0)
theorem val4_main_v11 (V0 : Valuation τ sig (Elt F)) : val4 V0 (no_index (Proc.devRef .tc main_v11)) = (r_main_v11 V0) :=
  (val4_keep V0 main_v11 (by decide)).trans (val3_main_v11 V0)
theorem val4_main_v13 (V0 : Valuation τ sig (Elt F)) : val4 V0 (no_index (Proc.devRef .tc main_v13)) = (r_main_v13 V0) :=
  (val4_keep V0 main_v13 (by decide)).trans (val3_main_v13 V0)
theorem val4_main_v38 (V0 : Valuation τ sig (Elt F)) : val4 V0 (no_index (Proc.devRef .tc main_v38)) = (r_main_v38 V0) :=
  (val4_keep V0 main_v38 (by decide)).trans (val3_main_v38 V0)
set_option maxRecDepth 8192 in
set_option maxHeartbeats 4000000 in
theorem val4_main_v41 (V0 : Valuation τ sig (Elt F)) : val4 V0 (no_index (Proc.devRef .tc main_v41)) = (r_main_v41 V0) := by
  unfold val4
  simp only [seg4]
  after_results_simp
  simp only [val3_main_v38]
  rfl

/-- The device's buffer contents after the first 5 pieces. -/
def val5 (V0 : Valuation τ sig (Elt F)) : Valuation τ sig (Elt F) := after seg5 (val4 V0)
abbrev seg5_W : List (Ref sig .tc) := [main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v42]
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val5_keep (V0 : Valuation τ sig (Elt F)) (r : Ref sig .tc) (h : r ∉ seg5_W) :
    val5 V0 (Proc.devRef .tc r) = val4 V0 (Proc.devRef .tc r) :=
  after_of_writes_sub seg5 _ seg5_writes h
theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_arg1 (V0 : Valuation τ sig (Elt F)) : val5 V0 (no_index (Proc.devRef .tc main_arg1)) = (V0 (Proc.devRef .tc main_arg1)) :=
  (val5_keep V0 main_arg1 (by decide)).trans (val4_main_arg1 V0)
theorem val5_main_arg2 (V0 : Valuation τ sig (Elt F)) : val5 V0 (no_index (Proc.devRef .tc main_arg2)) = (V0 (Proc.devRef .tc main_arg2)) :=
  (val5_keep V0 main_arg2 (by decide)).trans (val4_main_arg2 V0)
theorem val5_main_arg3 (V0 : Valuation τ sig (Elt F)) : val5 V0 (no_index (Proc.devRef .tc main_arg3)) = (V0 (Proc.devRef .tc main_arg3)) :=
  (val5_keep V0 main_arg3 (by decide)).trans (val4_main_arg3 V0)
theorem val5_main_arg4 (V0 : Valuation τ sig (Elt F)) : val5 V0 (no_index (Proc.devRef .tc main_arg4)) = (V0 (Proc.devRef .tc main_arg4)) :=
  (val5_keep V0 main_arg4 (by decide)).trans (val4_main_arg4 V0)
theorem val5_main_arg5 (V0 : Valuation τ sig (Elt F)) : val5 V0 (no_index (Proc.devRef .tc main_arg5)) = (V0 (Proc.devRef .tc main_arg5)) :=
  (val5_keep V0 main_arg5 (by decide)).trans (val4_main_arg5 V0)
theorem val5_main_arg6 (V0 : Valuation τ sig (Elt F)) : val5 V0 (no_index (Proc.devRef .tc main_arg6)) = (V0 (Proc.devRef .tc main_arg6)) :=
  (val5_keep V0 main_arg6 (by decide)).trans (val4_main_arg6 V0)
theorem val5_main_v1 (V0 : Valuation τ sig (Elt F)) : val5 V0 (no_index (Proc.devRef .tc main_v1)) = (r_main_v1 V0) :=
  (val5_keep V0 main_v1 (by decide)).trans (val4_main_v1 V0)
theorem val5_main_v3 (V0 : Valuation τ sig (Elt F)) : val5 V0 (no_index (Proc.devRef .tc main_v3)) = (r_main_v3 V0) :=
  (val5_keep V0 main_v3 (by decide)).trans (val4_main_v3 V0)
theorem val5_main_v11 (V0 : Valuation τ sig (Elt F)) : val5 V0 (no_index (Proc.devRef .tc main_v11)) = (r_main_v11 V0) :=
  (val5_keep V0 main_v11 (by decide)).trans (val4_main_v11 V0)
theorem val5_main_v13 (V0 : Valuation τ sig (Elt F)) : val5 V0 (no_index (Proc.devRef .tc main_v13)) = (r_main_v13 V0) :=
  (val5_keep V0 main_v13 (by decide)).trans (val4_main_v13 V0)
theorem val5_main_v38 (V0 : Valuation τ sig (Elt F)) : val5 V0 (no_index (Proc.devRef .tc main_v38)) = (r_main_v38 V0) :=
  (val5_keep V0 main_v38 (by decide)).trans (val4_main_v38 V0)
theorem val5_main_v41 (V0 : Valuation τ sig (Elt F)) : val5 V0 (no_index (Proc.devRef .tc main_v41)) = (r_main_v41 V0) :=
  (val5_keep V0 main_v41 (by decide)).trans (val4_main_v41 V0)
set_option maxRecDepth 8192 in
set_option maxHeartbeats 4000000 in
theorem val5_main_v42 (V0 : Valuation τ sig (Elt F)) : val5 V0 (no_index (Proc.devRef .tc main_v42)) = (r_main_v42 V0) := by
  unfold val5
  simp only [seg5]
  after_results_simp
  simp only [val4_main_v38]
  rfl

/-- The device's buffer contents after the first 6 pieces. -/
def val6 (V0 : Valuation τ sig (Elt F)) : Valuation τ sig (Elt F) := after seg6 (val5 V0)
abbrev seg6_W : List (Ref sig .tc) := [main_v43, main_v44, main_v45, main_v46, main_v47, main_v48, main_cst_7, main_v49]
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val6_keep (V0 : Valuation τ sig (Elt F)) (r : Ref sig .tc) (h : r ∉ seg6_W) :
    val6 V0 (Proc.devRef .tc r) = val5 V0 (Proc.devRef .tc r) :=
  after_of_writes_sub seg6 _ seg6_writes h
theorem val6_main_arg0 (V0 : Valuation τ sig (Elt F)) : val6 V0 (no_index (Proc.devRef .tc main_arg0)) = (V0 (Proc.devRef .tc main_arg0)) :=
  (val6_keep V0 main_arg0 (by decide)).trans (val5_main_arg0 V0)
theorem val6_main_arg1 (V0 : Valuation τ sig (Elt F)) : val6 V0 (no_index (Proc.devRef .tc main_arg1)) = (V0 (Proc.devRef .tc main_arg1)) :=
  (val6_keep V0 main_arg1 (by decide)).trans (val5_main_arg1 V0)
theorem val6_main_arg2 (V0 : Valuation τ sig (Elt F)) : val6 V0 (no_index (Proc.devRef .tc main_arg2)) = (V0 (Proc.devRef .tc main_arg2)) :=
  (val6_keep V0 main_arg2 (by decide)).trans (val5_main_arg2 V0)
theorem val6_main_arg3 (V0 : Valuation τ sig (Elt F)) : val6 V0 (no_index (Proc.devRef .tc main_arg3)) = (V0 (Proc.devRef .tc main_arg3)) :=
  (val6_keep V0 main_arg3 (by decide)).trans (val5_main_arg3 V0)
theorem val6_main_arg4 (V0 : Valuation τ sig (Elt F)) : val6 V0 (no_index (Proc.devRef .tc main_arg4)) = (V0 (Proc.devRef .tc main_arg4)) :=
  (val6_keep V0 main_arg4 (by decide)).trans (val5_main_arg4 V0)
theorem val6_main_arg5 (V0 : Valuation τ sig (Elt F)) : val6 V0 (no_index (Proc.devRef .tc main_arg5)) = (V0 (Proc.devRef .tc main_arg5)) :=
  (val6_keep V0 main_arg5 (by decide)).trans (val5_main_arg5 V0)
theorem val6_main_arg6 (V0 : Valuation τ sig (Elt F)) : val6 V0 (no_index (Proc.devRef .tc main_arg6)) = (V0 (Proc.devRef .tc main_arg6)) :=
  (val6_keep V0 main_arg6 (by decide)).trans (val5_main_arg6 V0)
theorem val6_main_v1 (V0 : Valuation τ sig (Elt F)) : val6 V0 (no_index (Proc.devRef .tc main_v1)) = (r_main_v1 V0) :=
  (val6_keep V0 main_v1 (by decide)).trans (val5_main_v1 V0)
theorem val6_main_v3 (V0 : Valuation τ sig (Elt F)) : val6 V0 (no_index (Proc.devRef .tc main_v3)) = (r_main_v3 V0) :=
  (val6_keep V0 main_v3 (by decide)).trans (val5_main_v3 V0)

/-- The device's buffer contents after the first 7 pieces. -/
def val7 (V0 : Valuation τ sig (Elt F)) : Valuation τ sig (Elt F) := after seg7 (val6 V0)
abbrev seg7_W : List (Ref sig .tc) := [main_v50, main_v51, main_v52, main_v53, main_v54, main_v55, main_v56, main_v57, main_call1_cst, main_call1_v0, main_v58]
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val7_keep (V0 : Valuation τ sig (Elt F)) (r : Ref sig .tc) (h : r ∉ seg7_W) :
    val7 V0 (Proc.devRef .tc r) = val6 V0 (Proc.devRef .tc r) :=
  after_of_writes_sub seg7 _ seg7_writes h
theorem val7_main_arg0 (V0 : Valuation τ sig (Elt F)) : val7 V0 (no_index (Proc.devRef .tc main_arg0)) = (V0 (Proc.devRef .tc main_arg0)) :=
  (val7_keep V0 main_arg0 (by decide)).trans (val6_main_arg0 V0)
theorem val7_main_arg1 (V0 : Valuation τ sig (Elt F)) : val7 V0 (no_index (Proc.devRef .tc main_arg1)) = (V0 (Proc.devRef .tc main_arg1)) :=
  (val7_keep V0 main_arg1 (by decide)).trans (val6_main_arg1 V0)
theorem val7_main_arg2 (V0 : Valuation τ sig (Elt F)) : val7 V0 (no_index (Proc.devRef .tc main_arg2)) = (V0 (Proc.devRef .tc main_arg2)) :=
  (val7_keep V0 main_arg2 (by decide)).trans (val6_main_arg2 V0)
theorem val7_main_arg3 (V0 : Valuation τ sig (Elt F)) : val7 V0 (no_index (Proc.devRef .tc main_arg3)) = (V0 (Proc.devRef .tc main_arg3)) :=
  (val7_keep V0 main_arg3 (by decide)).trans (val6_main_arg3 V0)
theorem val7_main_arg4 (V0 : Valuation τ sig (Elt F)) : val7 V0 (no_index (Proc.devRef .tc main_arg4)) = (V0 (Proc.devRef .tc main_arg4)) :=
  (val7_keep V0 main_arg4 (by decide)).trans (val6_main_arg4 V0)
theorem val7_main_arg5 (V0 : Valuation τ sig (Elt F)) : val7 V0 (no_index (Proc.devRef .tc main_arg5)) = (V0 (Proc.devRef .tc main_arg5)) :=
  (val7_keep V0 main_arg5 (by decide)).trans (val6_main_arg5 V0)
theorem val7_main_arg6 (V0 : Valuation τ sig (Elt F)) : val7 V0 (no_index (Proc.devRef .tc main_arg6)) = (V0 (Proc.devRef .tc main_arg6)) :=
  (val7_keep V0 main_arg6 (by decide)).trans (val6_main_arg6 V0)
theorem val7_main_v1 (V0 : Valuation τ sig (Elt F)) : val7 V0 (no_index (Proc.devRef .tc main_v1)) = (r_main_v1 V0) :=
  (val7_keep V0 main_v1 (by decide)).trans (val6_main_v1 V0)
theorem val7_main_v3 (V0 : Valuation τ sig (Elt F)) : val7 V0 (no_index (Proc.devRef .tc main_v3)) = (r_main_v3 V0) :=
  (val7_keep V0 main_v3 (by decide)).trans (val6_main_v3 V0)
set_option maxRecDepth 8192 in
set_option maxHeartbeats 4000000 in
theorem val7_main_v58 (V0 : Valuation τ sig (Elt F)) : val7 V0 (no_index (Proc.devRef .tc main_v58)) = (r_main_v58 V0) := by
  unfold val7 val6
  simp only [seg7, seg6]
  after_results_simp
  simp only [val5_main_v11, val5_main_v38, val5_main_v41, val5_main_v42, val5_main_v13]
  rfl

/-- The device's buffer contents after the first 8 pieces. -/
def val8 (V0 : Valuation τ sig (Elt F)) : Valuation τ sig (Elt F) := after seg8 (val7 V0)
abbrev seg8_W : List (Ref sig .tc) := [main_v59, main_v60, main_v61, main_v62, main_v63, main_v64, main_v65, main_v66, main_v67, main_v68]
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val8_keep (V0 : Valuation τ sig (Elt F)) (r : Ref sig .tc) (h : r ∉ seg8_W) :
    val8 V0 (Proc.devRef .tc r) = val7 V0 (Proc.devRef .tc r) :=
  after_of_writes_sub seg8 _ seg8_writes h
theorem val8_main_arg0 (V0 : Valuation τ sig (Elt F)) : val8 V0 (no_index (Proc.devRef .tc main_arg0)) = (V0 (Proc.devRef .tc main_arg0)) :=
  (val8_keep V0 main_arg0 (by decide)).trans (val7_main_arg0 V0)
theorem val8_main_arg1 (V0 : Valuation τ sig (Elt F)) : val8 V0 (no_index (Proc.devRef .tc main_arg1)) = (V0 (Proc.devRef .tc main_arg1)) :=
  (val8_keep V0 main_arg1 (by decide)).trans (val7_main_arg1 V0)
theorem val8_main_arg2 (V0 : Valuation τ sig (Elt F)) : val8 V0 (no_index (Proc.devRef .tc main_arg2)) = (V0 (Proc.devRef .tc main_arg2)) :=
  (val8_keep V0 main_arg2 (by decide)).trans (val7_main_arg2 V0)
theorem val8_main_arg3 (V0 : Valuation τ sig (Elt F)) : val8 V0 (no_index (Proc.devRef .tc main_arg3)) = (V0 (Proc.devRef .tc main_arg3)) :=
  (val8_keep V0 main_arg3 (by decide)).trans (val7_main_arg3 V0)
theorem val8_main_arg4 (V0 : Valuation τ sig (Elt F)) : val8 V0 (no_index (Proc.devRef .tc main_arg4)) = (V0 (Proc.devRef .tc main_arg4)) :=
  (val8_keep V0 main_arg4 (by decide)).trans (val7_main_arg4 V0)
theorem val8_main_arg5 (V0 : Valuation τ sig (Elt F)) : val8 V0 (no_index (Proc.devRef .tc main_arg5)) = (V0 (Proc.devRef .tc main_arg5)) :=
  (val8_keep V0 main_arg5 (by decide)).trans (val7_main_arg5 V0)
theorem val8_main_arg6 (V0 : Valuation τ sig (Elt F)) : val8 V0 (no_index (Proc.devRef .tc main_arg6)) = (V0 (Proc.devRef .tc main_arg6)) :=
  (val8_keep V0 main_arg6 (by decide)).trans (val7_main_arg6 V0)
theorem val8_main_v1 (V0 : Valuation τ sig (Elt F)) : val8 V0 (no_index (Proc.devRef .tc main_v1)) = (r_main_v1 V0) :=
  (val8_keep V0 main_v1 (by decide)).trans (val7_main_v1 V0)
theorem val8_main_v3 (V0 : Valuation τ sig (Elt F)) : val8 V0 (no_index (Proc.devRef .tc main_v3)) = (r_main_v3 V0) :=
  (val8_keep V0 main_v3 (by decide)).trans (val7_main_v3 V0)
theorem val8_main_v58 (V0 : Valuation τ sig (Elt F)) : val8 V0 (no_index (Proc.devRef .tc main_v58)) = (r_main_v58 V0) :=
  (val8_keep V0 main_v58 (by decide)).trans (val7_main_v58 V0)
set_option maxRecDepth 8192 in
set_option maxHeartbeats 4000000 in
theorem val8_main_v60 (V0 : Valuation τ sig (Elt F)) : val8 V0 (no_index (Proc.devRef .tc main_v60)) = (r_main_v60 V0) := by
  unfold val8
  simp only [seg8]
  after_results_simp
  simp only [val7_main_arg2]
  rfl
set_option maxRecDepth 8192 in
set_option maxHeartbeats 4000000 in
theorem val8_main_v62 (V0 : Valuation τ sig (Elt F)) : val8 V0 (no_index (Proc.devRef .tc main_v62)) = (r_main_v62 V0) := by
  unfold val8
  simp only [seg8]
  after_results_simp
  simp only [val7_main_arg3]
  rfl
set_option maxRecDepth 8192 in
set_option maxHeartbeats 4000000 in
theorem val8_main_v64 (V0 : Valuation τ sig (Elt F)) : val8 V0 (no_index (Proc.devRef .tc main_v64)) = (r_main_v64 V0) := by
  unfold val8
  simp only [seg8]
  after_results_simp
  simp only [val7_main_arg4]
  rfl
set_option maxRecDepth 8192 in
set_option maxHeartbeats 4000000 in
theorem val8_main_v66 (V0 : Valuation τ sig (Elt F)) : val8 V0 (no_index (Proc.devRef .tc main_v66)) = (r_main_v66 V0) := by
  unfold val8
  simp only [seg8]
  after_results_simp
  simp only [val7_main_arg5]
  rfl
set_option maxRecDepth 8192 in
set_option maxHeartbeats 4000000 in
theorem val8_main_v68 (V0 : Valuation τ sig (Elt F)) : val8 V0 (no_index (Proc.devRef .tc main_v68)) = (r_main_v68 V0) := by
  unfold val8
  simp only [seg8]
  after_results_simp
  simp only [val7_main_arg6]
  rfl

/-- The device's buffer contents after the first 9 pieces. -/
def val9 (V0 : Valuation τ sig (Elt F)) : Valuation τ sig (Elt F) := after seg9 (val8 V0)
abbrev seg9_W : List (Ref sig .tc) := [main_c_8, main_v69, main_v70, main_c_9, main_v71, main_v72, main_v73, main_v74, main_v75, main_cst_10, main_v76, main_v77, main_v78, main_cst_11, main_v79, main_cst_12, main_v80, main_v81, main_v82, main_cst_13, main_v83, main_v84, main_v85, main_v86, main_v87]
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val9_keep (V0 : Valuation τ sig (Elt F)) (r : Ref sig .tc) (h : r ∉ seg9_W) :
    val9 V0 (Proc.devRef .tc r) = val8 V0 (Proc.devRef .tc r) :=
  after_of_writes_sub seg9 _ seg9_writes h
theorem val9_main_arg0 (V0 : Valuation τ sig (Elt F)) : val9 V0 (no_index (Proc.devRef .tc main_arg0)) = (V0 (Proc.devRef .tc main_arg0)) :=
  (val9_keep V0 main_arg0 (by decide)).trans (val8_main_arg0 V0)
theorem val9_main_arg1 (V0 : Valuation τ sig (Elt F)) : val9 V0 (no_index (Proc.devRef .tc main_arg1)) = (V0 (Proc.devRef .tc main_arg1)) :=
  (val9_keep V0 main_arg1 (by decide)).trans (val8_main_arg1 V0)
theorem val9_main_arg2 (V0 : Valuation τ sig (Elt F)) : val9 V0 (no_index (Proc.devRef .tc main_arg2)) = (V0 (Proc.devRef .tc main_arg2)) :=
  (val9_keep V0 main_arg2 (by decide)).trans (val8_main_arg2 V0)
theorem val9_main_arg3 (V0 : Valuation τ sig (Elt F)) : val9 V0 (no_index (Proc.devRef .tc main_arg3)) = (V0 (Proc.devRef .tc main_arg3)) :=
  (val9_keep V0 main_arg3 (by decide)).trans (val8_main_arg3 V0)
theorem val9_main_arg4 (V0 : Valuation τ sig (Elt F)) : val9 V0 (no_index (Proc.devRef .tc main_arg4)) = (V0 (Proc.devRef .tc main_arg4)) :=
  (val9_keep V0 main_arg4 (by decide)).trans (val8_main_arg4 V0)
theorem val9_main_arg5 (V0 : Valuation τ sig (Elt F)) : val9 V0 (no_index (Proc.devRef .tc main_arg5)) = (V0 (Proc.devRef .tc main_arg5)) :=
  (val9_keep V0 main_arg5 (by decide)).trans (val8_main_arg5 V0)
theorem val9_main_arg6 (V0 : Valuation τ sig (Elt F)) : val9 V0 (no_index (Proc.devRef .tc main_arg6)) = (V0 (Proc.devRef .tc main_arg6)) :=
  (val9_keep V0 main_arg6 (by decide)).trans (val8_main_arg6 V0)
theorem val9_main_v1 (V0 : Valuation τ sig (Elt F)) : val9 V0 (no_index (Proc.devRef .tc main_v1)) = (r_main_v1 V0) :=
  (val9_keep V0 main_v1 (by decide)).trans (val8_main_v1 V0)
theorem val9_main_v3 (V0 : Valuation τ sig (Elt F)) : val9 V0 (no_index (Proc.devRef .tc main_v3)) = (r_main_v3 V0) :=
  (val9_keep V0 main_v3 (by decide)).trans (val8_main_v3 V0)
theorem val9_main_v58 (V0 : Valuation τ sig (Elt F)) : val9 V0 (no_index (Proc.devRef .tc main_v58)) = (r_main_v58 V0) :=
  (val9_keep V0 main_v58 (by decide)).trans (val8_main_v58 V0)
theorem val9_main_v60 (V0 : Valuation τ sig (Elt F)) : val9 V0 (no_index (Proc.devRef .tc main_v60)) = (r_main_v60 V0) :=
  (val9_keep V0 main_v60 (by decide)).trans (val8_main_v60 V0)
theorem val9_main_v62 (V0 : Valuation τ sig (Elt F)) : val9 V0 (no_index (Proc.devRef .tc main_v62)) = (r_main_v62 V0) :=
  (val9_keep V0 main_v62 (by decide)).trans (val8_main_v62 V0)
theorem val9_main_v64 (V0 : Valuation τ sig (Elt F)) : val9 V0 (no_index (Proc.devRef .tc main_v64)) = (r_main_v64 V0) :=
  (val9_keep V0 main_v64 (by decide)).trans (val8_main_v64 V0)
theorem val9_main_v66 (V0 : Valuation τ sig (Elt F)) : val9 V0 (no_index (Proc.devRef .tc main_v66)) = (r_main_v66 V0) :=
  (val9_keep V0 main_v66 (by decide)).trans (val8_main_v66 V0)
theorem val9_main_v68 (V0 : Valuation τ sig (Elt F)) : val9 V0 (no_index (Proc.devRef .tc main_v68)) = (r_main_v68 V0) :=
  (val9_keep V0 main_v68 (by decide)).trans (val8_main_v68 V0)
set_option maxRecDepth 8192 in
set_option maxHeartbeats 4000000 in
theorem val9_main_v87 (V0 : Valuation τ sig (Elt F)) : val9 V0 (no_index (Proc.devRef .tc main_v87)) = (r_main_v87 V0) := by
  unfold val9
  simp only [seg9]
  after_results_simp
  simp only [val8_main_v3, val8_main_v58, val8_main_v1]
  rfl

/-- The device's buffer contents after the first 10 pieces. -/
def val10 (V0 : Valuation τ sig (Elt F)) : Valuation τ sig (Elt F) := after seg10 (val9 V0)
abbrev seg10_W : List (Ref sig .tc) := [main_v88, main_v89, main_v90, main_v91, main_v92, main_v93]
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val10_keep (V0 : Valuation τ sig (Elt F)) (r : Ref sig .tc) (h : r ∉ seg10_W) :
    val10 V0 (Proc.devRef .tc r) = val9 V0 (Proc.devRef .tc r) :=
  after_of_writes_sub seg10 _ seg10_writes h
theorem val10_main_arg0 (V0 : Valuation τ sig (Elt F)) : val10 V0 (no_index (Proc.devRef .tc main_arg0)) = (V0 (Proc.devRef .tc main_arg0)) :=
  (val10_keep V0 main_arg0 (by decide)).trans (val9_main_arg0 V0)
theorem val10_main_arg1 (V0 : Valuation τ sig (Elt F)) : val10 V0 (no_index (Proc.devRef .tc main_arg1)) = (V0 (Proc.devRef .tc main_arg1)) :=
  (val10_keep V0 main_arg1 (by decide)).trans (val9_main_arg1 V0)
theorem val10_main_arg2 (V0 : Valuation τ sig (Elt F)) : val10 V0 (no_index (Proc.devRef .tc main_arg2)) = (V0 (Proc.devRef .tc main_arg2)) :=
  (val10_keep V0 main_arg2 (by decide)).trans (val9_main_arg2 V0)
theorem val10_main_arg3 (V0 : Valuation τ sig (Elt F)) : val10 V0 (no_index (Proc.devRef .tc main_arg3)) = (V0 (Proc.devRef .tc main_arg3)) :=
  (val10_keep V0 main_arg3 (by decide)).trans (val9_main_arg3 V0)
theorem val10_main_arg4 (V0 : Valuation τ sig (Elt F)) : val10 V0 (no_index (Proc.devRef .tc main_arg4)) = (V0 (Proc.devRef .tc main_arg4)) :=
  (val10_keep V0 main_arg4 (by decide)).trans (val9_main_arg4 V0)
theorem val10_main_arg5 (V0 : Valuation τ sig (Elt F)) : val10 V0 (no_index (Proc.devRef .tc main_arg5)) = (V0 (Proc.devRef .tc main_arg5)) :=
  (val10_keep V0 main_arg5 (by decide)).trans (val9_main_arg5 V0)
theorem val10_main_arg6 (V0 : Valuation τ sig (Elt F)) : val10 V0 (no_index (Proc.devRef .tc main_arg6)) = (V0 (Proc.devRef .tc main_arg6)) :=
  (val10_keep V0 main_arg6 (by decide)).trans (val9_main_arg6 V0)
theorem val10_main_v1 (V0 : Valuation τ sig (Elt F)) : val10 V0 (no_index (Proc.devRef .tc main_v1)) = (r_main_v1 V0) :=
  (val10_keep V0 main_v1 (by decide)).trans (val9_main_v1 V0)
theorem val10_main_v3 (V0 : Valuation τ sig (Elt F)) : val10 V0 (no_index (Proc.devRef .tc main_v3)) = (r_main_v3 V0) :=
  (val10_keep V0 main_v3 (by decide)).trans (val9_main_v3 V0)
theorem val10_main_v66 (V0 : Valuation τ sig (Elt F)) : val10 V0 (no_index (Proc.devRef .tc main_v66)) = (r_main_v66 V0) :=
  (val10_keep V0 main_v66 (by decide)).trans (val9_main_v66 V0)
theorem val10_main_v68 (V0 : Valuation τ sig (Elt F)) : val10 V0 (no_index (Proc.devRef .tc main_v68)) = (r_main_v68 V0) :=
  (val10_keep V0 main_v68 (by decide)).trans (val9_main_v68 V0)
set_option maxRecDepth 8192 in
set_option maxHeartbeats 4000000 in
theorem val10_main_v93 (V0 : Valuation τ sig (Elt F)) : val10 V0 (no_index (Proc.devRef .tc main_v93)) = (r_main_v93 V0) := by
  unfold val10
  simp only [seg10]
  after_results_simp
  simp only [val9_main_v87, val9_main_v60, val9_main_v58, val9_main_v62, val9_main_v64]
  rfl

/-- The device's buffer contents after the first 11 pieces. -/
def val11 (V0 : Valuation τ sig (Elt F)) : Valuation τ sig (Elt F) := after seg11 (val10 V0)
abbrev seg11_W : List (Ref sig .tc) := [main_cst_14, main_v94, main_cst_15, main_v95, main_v96]
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val11_keep (V0 : Valuation τ sig (Elt F)) (r : Ref sig .tc) (h : r ∉ seg11_W) :
    val11 V0 (Proc.devRef .tc r) = val10 V0 (Proc.devRef .tc r) :=
  after_of_writes_sub seg11 _ seg11_writes h
theorem val11_main_arg0 (V0 : Valuation τ sig (Elt F)) : val11 V0 (no_index (Proc.devRef .tc main_arg0)) = (V0 (Proc.devRef .tc main_arg0)) :=
  (val11_keep V0 main_arg0 (by decide)).trans (val10_main_arg0 V0)
theorem val11_main_arg1 (V0 : Valuation τ sig (Elt F)) : val11 V0 (no_index (Proc.devRef .tc main_arg1)) = (V0 (Proc.devRef .tc main_arg1)) :=
  (val11_keep V0 main_arg1 (by decide)).trans (val10_main_arg1 V0)
theorem val11_main_arg2 (V0 : Valuation τ sig (Elt F)) : val11 V0 (no_index (Proc.devRef .tc main_arg2)) = (V0 (Proc.devRef .tc main_arg2)) :=
  (val11_keep V0 main_arg2 (by decide)).trans (val10_main_arg2 V0)
theorem val11_main_arg3 (V0 : Valuation τ sig (Elt F)) : val11 V0 (no_index (Proc.devRef .tc main_arg3)) = (V0 (Proc.devRef .tc main_arg3)) :=
  (val11_keep V0 main_arg3 (by decide)).trans (val10_main_arg3 V0)
theorem val11_main_arg4 (V0 : Valuation τ sig (Elt F)) : val11 V0 (no_index (Proc.devRef .tc main_arg4)) = (V0 (Proc.devRef .tc main_arg4)) :=
  (val11_keep V0 main_arg4 (by decide)).trans (val10_main_arg4 V0)
theorem val11_main_arg5 (V0 : Valuation τ sig (Elt F)) : val11 V0 (no_index (Proc.devRef .tc main_arg5)) = (V0 (Proc.devRef .tc main_arg5)) :=
  (val11_keep V0 main_arg5 (by decide)).trans (val10_main_arg5 V0)
theorem val11_main_arg6 (V0 : Valuation τ sig (Elt F)) : val11 V0 (no_index (Proc.devRef .tc main_arg6)) = (V0 (Proc.devRef .tc main_arg6)) :=
  (val11_keep V0 main_arg6 (by decide)).trans (val10_main_arg6 V0)
theorem val11_main_v1 (V0 : Valuation τ sig (Elt F)) : val11 V0 (no_index (Proc.devRef .tc main_v1)) = (r_main_v1 V0) :=
  (val11_keep V0 main_v1 (by decide)).trans (val10_main_v1 V0)
theorem val11_main_v3 (V0 : Valuation τ sig (Elt F)) : val11 V0 (no_index (Proc.devRef .tc main_v3)) = (r_main_v3 V0) :=
  (val11_keep V0 main_v3 (by decide)).trans (val10_main_v3 V0)
theorem val11_main_v66 (V0 : Valuation τ sig (Elt F)) : val11 V0 (no_index (Proc.devRef .tc main_v66)) = (r_main_v66 V0) :=
  (val11_keep V0 main_v66 (by decide)).trans (val10_main_v66 V0)
theorem val11_main_v68 (V0 : Valuation τ sig (Elt F)) : val11 V0 (no_index (Proc.devRef .tc main_v68)) = (r_main_v68 V0) :=
  (val11_keep V0 main_v68 (by decide)).trans (val10_main_v68 V0)
theorem val11_main_v93 (V0 : Valuation τ sig (Elt F)) : val11 V0 (no_index (Proc.devRef .tc main_v93)) = (r_main_v93 V0) :=
  (val11_keep V0 main_v93 (by decide)).trans (val10_main_v93 V0)
set_option maxRecDepth 8192 in
set_option maxHeartbeats 4000000 in
theorem val11_main_v96 (V0 : Valuation τ sig (Elt F)) : val11 V0 (no_index (Proc.devRef .tc main_v96)) = (r_main_v96 V0) := by
  unfold val11
  simp only [seg11]
  after_results_simp
  simp only [val10_main_v93]
  rfl

/-- The device's buffer contents after the first 12 pieces. -/
def val12 (V0 : Valuation τ sig (Elt F)) : Valuation τ sig (Elt F) := after seg12 (val11 V0)
abbrev seg12_W : List (Ref sig .tc) := [main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v97]
theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val12_keep (V0 : Valuation τ sig (Elt F)) (r : Ref sig .tc) (h : r ∉ seg12_W) :
    val12 V0 (Proc.devRef .tc r) = val11 V0 (Proc.devRef .tc r) :=
  after_of_writes_sub seg12 _ seg12_writes h
theorem val12_main_arg0 (V0 : Valuation τ sig (Elt F)) : val12 V0 (no_index (Proc.devRef .tc main_arg0)) = (V0 (Proc.devRef .tc main_arg0)) :=
  (val12_keep V0 main_arg0 (by decide)).trans (val11_main_arg0 V0)
theorem val12_main_arg1 (V0 : Valuation τ sig (Elt F)) : val12 V0 (no_index (Proc.devRef .tc main_arg1)) = (V0 (Proc.devRef .tc main_arg1)) :=
  (val12_keep V0 main_arg1 (by decide)).trans (val11_main_arg1 V0)
theorem val12_main_arg2 (V0 : Valuation τ sig (Elt F)) : val12 V0 (no_index (Proc.devRef .tc main_arg2)) = (V0 (Proc.devRef .tc main_arg2)) :=
  (val12_keep V0 main_arg2 (by decide)).trans (val11_main_arg2 V0)
theorem val12_main_arg3 (V0 : Valuation τ sig (Elt F)) : val12 V0 (no_index (Proc.devRef .tc main_arg3)) = (V0 (Proc.devRef .tc main_arg3)) :=
  (val12_keep V0 main_arg3 (by decide)).trans (val11_main_arg3 V0)
theorem val12_main_arg4 (V0 : Valuation τ sig (Elt F)) : val12 V0 (no_index (Proc.devRef .tc main_arg4)) = (V0 (Proc.devRef .tc main_arg4)) :=
  (val12_keep V0 main_arg4 (by decide)).trans (val11_main_arg4 V0)
theorem val12_main_arg5 (V0 : Valuation τ sig (Elt F)) : val12 V0 (no_index (Proc.devRef .tc main_arg5)) = (V0 (Proc.devRef .tc main_arg5)) :=
  (val12_keep V0 main_arg5 (by decide)).trans (val11_main_arg5 V0)
theorem val12_main_arg6 (V0 : Valuation τ sig (Elt F)) : val12 V0 (no_index (Proc.devRef .tc main_arg6)) = (V0 (Proc.devRef .tc main_arg6)) :=
  (val12_keep V0 main_arg6 (by decide)).trans (val11_main_arg6 V0)
theorem val12_main_v1 (V0 : Valuation τ sig (Elt F)) : val12 V0 (no_index (Proc.devRef .tc main_v1)) = (r_main_v1 V0) :=
  (val12_keep V0 main_v1 (by decide)).trans (val11_main_v1 V0)
theorem val12_main_v3 (V0 : Valuation τ sig (Elt F)) : val12 V0 (no_index (Proc.devRef .tc main_v3)) = (r_main_v3 V0) :=
  (val12_keep V0 main_v3 (by decide)).trans (val11_main_v3 V0)
theorem val12_main_v66 (V0 : Valuation τ sig (Elt F)) : val12 V0 (no_index (Proc.devRef .tc main_v66)) = (r_main_v66 V0) :=
  (val12_keep V0 main_v66 (by decide)).trans (val11_main_v66 V0)
theorem val12_main_v68 (V0 : Valuation τ sig (Elt F)) : val12 V0 (no_index (Proc.devRef .tc main_v68)) = (r_main_v68 V0) :=
  (val12_keep V0 main_v68 (by decide)).trans (val11_main_v68 V0)
theorem val12_main_v93 (V0 : Valuation τ sig (Elt F)) : val12 V0 (no_index (Proc.devRef .tc main_v93)) = (r_main_v93 V0) :=
  (val12_keep V0 main_v93 (by decide)).trans (val11_main_v93 V0)
theorem val12_main_v96 (V0 : Valuation τ sig (Elt F)) : val12 V0 (no_index (Proc.devRef .tc main_v96)) = (r_main_v96 V0) :=
  (val12_keep V0 main_v96 (by decide)).trans (val11_main_v96 V0)
set_option maxRecDepth 8192 in
set_option maxHeartbeats 4000000 in
theorem val12_main_v97 (V0 : Valuation τ sig (Elt F)) : val12 V0 (no_index (Proc.devRef .tc main_v97)) = (r_main_v97 V0) := by
  unfold val12
  simp only [seg12]
  after_results_simp
  simp only [val11_main_v93]
  rfl

/-- The device's buffer contents after the first 13 pieces. -/
def val13 (V0 : Valuation τ sig (Elt F)) : Valuation τ sig (Elt F) := after seg13 (val12 V0)
abbrev seg13_W : List (Ref sig .tc) := [main_v98, main_v99, main_v100]
theorem seg13_writes : (seg13 : List (HloOp τ sig (Elt F))).Forall fun op => op.writes ⊆ (seg13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val13_keep (V0 : Valuation τ sig (Elt F)) (r : Ref sig .tc) (h : r ∉ seg13_W) :
    val13 V0 (Proc.devRef .tc r) = val12 V0 (Proc.devRef .tc r) :=
  after_of_writes_sub seg13 _ seg13_writes h
theorem val13_main_arg0 (V0 : Valuation τ sig (Elt F)) : val13 V0 (no_index (Proc.devRef .tc main_arg0)) = (V0 (Proc.devRef .tc main_arg0)) :=
  (val13_keep V0 main_arg0 (by decide)).trans (val12_main_arg0 V0)
theorem val13_main_arg1 (V0 : Valuation τ sig (Elt F)) : val13 V0 (no_index (Proc.devRef .tc main_arg1)) = (V0 (Proc.devRef .tc main_arg1)) :=
  (val13_keep V0 main_arg1 (by decide)).trans (val12_main_arg1 V0)
theorem val13_main_arg2 (V0 : Valuation τ sig (Elt F)) : val13 V0 (no_index (Proc.devRef .tc main_arg2)) = (V0 (Proc.devRef .tc main_arg2)) :=
  (val13_keep V0 main_arg2 (by decide)).trans (val12_main_arg2 V0)
theorem val13_main_arg3 (V0 : Valuation τ sig (Elt F)) : val13 V0 (no_index (Proc.devRef .tc main_arg3)) = (V0 (Proc.devRef .tc main_arg3)) :=
  (val13_keep V0 main_arg3 (by decide)).trans (val12_main_arg3 V0)
theorem val13_main_arg4 (V0 : Valuation τ sig (Elt F)) : val13 V0 (no_index (Proc.devRef .tc main_arg4)) = (V0 (Proc.devRef .tc main_arg4)) :=
  (val13_keep V0 main_arg4 (by decide)).trans (val12_main_arg4 V0)
theorem val13_main_arg5 (V0 : Valuation τ sig (Elt F)) : val13 V0 (no_index (Proc.devRef .tc main_arg5)) = (V0 (Proc.devRef .tc main_arg5)) :=
  (val13_keep V0 main_arg5 (by decide)).trans (val12_main_arg5 V0)
theorem val13_main_arg6 (V0 : Valuation τ sig (Elt F)) : val13 V0 (no_index (Proc.devRef .tc main_arg6)) = (V0 (Proc.devRef .tc main_arg6)) :=
  (val13_keep V0 main_arg6 (by decide)).trans (val12_main_arg6 V0)
theorem val13_main_v1 (V0 : Valuation τ sig (Elt F)) : val13 V0 (no_index (Proc.devRef .tc main_v1)) = (r_main_v1 V0) :=
  (val13_keep V0 main_v1 (by decide)).trans (val12_main_v1 V0)
theorem val13_main_v3 (V0 : Valuation τ sig (Elt F)) : val13 V0 (no_index (Proc.devRef .tc main_v3)) = (r_main_v3 V0) :=
  (val13_keep V0 main_v3 (by decide)).trans (val12_main_v3 V0)

/-- The device's buffer contents after the first 14 pieces. -/
def val14 (V0 : Valuation τ sig (Elt F)) : Valuation τ sig (Elt F) := after seg14 (val13 V0)
abbrev seg14_W : List (Ref sig .tc) := [main_v101, main_v102, main_v103, main_cst_17, main_v104, main_v105, main_v106, main_v107, main_v108, main_v109, main_v110, main_v111, main_v112, main_call3_cst, main_call3_v0, main_v113]
theorem seg14_writes : (seg14 : List (HloOp τ sig (Elt F))).Forall fun op => op.writes ⊆ (seg14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val14_keep (V0 : Valuation τ sig (Elt F)) (r : Ref sig .tc) (h : r ∉ seg14_W) :
    val14 V0 (Proc.devRef .tc r) = val13 V0 (Proc.devRef .tc r) :=
  after_of_writes_sub seg14 _ seg14_writes h
theorem val14_main_arg0 (V0 : Valuation τ sig (Elt F)) : val14 V0 (no_index (Proc.devRef .tc main_arg0)) = (V0 (Proc.devRef .tc main_arg0)) :=
  (val14_keep V0 main_arg0 (by decide)).trans (val13_main_arg0 V0)
theorem val14_main_arg1 (V0 : Valuation τ sig (Elt F)) : val14 V0 (no_index (Proc.devRef .tc main_arg1)) = (V0 (Proc.devRef .tc main_arg1)) :=
  (val14_keep V0 main_arg1 (by decide)).trans (val13_main_arg1 V0)
theorem val14_main_arg2 (V0 : Valuation τ sig (Elt F)) : val14 V0 (no_index (Proc.devRef .tc main_arg2)) = (V0 (Proc.devRef .tc main_arg2)) :=
  (val14_keep V0 main_arg2 (by decide)).trans (val13_main_arg2 V0)
theorem val14_main_arg3 (V0 : Valuation τ sig (Elt F)) : val14 V0 (no_index (Proc.devRef .tc main_arg3)) = (V0 (Proc.devRef .tc main_arg3)) :=
  (val14_keep V0 main_arg3 (by decide)).trans (val13_main_arg3 V0)
theorem val14_main_arg4 (V0 : Valuation τ sig (Elt F)) : val14 V0 (no_index (Proc.devRef .tc main_arg4)) = (V0 (Proc.devRef .tc main_arg4)) :=
  (val14_keep V0 main_arg4 (by decide)).trans (val13_main_arg4 V0)
theorem val14_main_arg5 (V0 : Valuation τ sig (Elt F)) : val14 V0 (no_index (Proc.devRef .tc main_arg5)) = (V0 (Proc.devRef .tc main_arg5)) :=
  (val14_keep V0 main_arg5 (by decide)).trans (val13_main_arg5 V0)
theorem val14_main_arg6 (V0 : Valuation τ sig (Elt F)) : val14 V0 (no_index (Proc.devRef .tc main_arg6)) = (V0 (Proc.devRef .tc main_arg6)) :=
  (val14_keep V0 main_arg6 (by decide)).trans (val13_main_arg6 V0)
theorem val14_main_v1 (V0 : Valuation τ sig (Elt F)) : val14 V0 (no_index (Proc.devRef .tc main_v1)) = (r_main_v1 V0) :=
  (val14_keep V0 main_v1 (by decide)).trans (val13_main_v1 V0)
theorem val14_main_v3 (V0 : Valuation τ sig (Elt F)) : val14 V0 (no_index (Proc.devRef .tc main_v3)) = (r_main_v3 V0) :=
  (val14_keep V0 main_v3 (by decide)).trans (val13_main_v3 V0)
set_option maxRecDepth 8192 in
set_option maxHeartbeats 4000000 in
theorem val14_main_v113 (V0 : Valuation τ sig (Elt F)) : val14 V0 (no_index (Proc.devRef .tc main_v113)) = (r_main_v113 V0) := by
  unfold val14 val13
  simp only [seg14, seg13]
  after_results_simp
  simp only [val12_main_v66, val12_main_v93, val12_main_v96, val12_main_v97, val12_main_v68]
  rfl

/-- The device's buffer contents after the first 15 pieces. -/
def val15 (V0 : Valuation τ sig (Elt F)) : Valuation τ sig (Elt F) := after seg15 (val14 V0)
abbrev seg15_W : List (Ref sig .tc) := [main_v114, main_v115, main_v116, main_v117, main_v118, main_v119, main_v120, main_v121, main_v122, main_v123]
theorem seg15_writes : (seg15 : List (HloOp τ sig (Elt F))).Forall fun op => op.writes ⊆ (seg15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val15_keep (V0 : Valuation τ sig (Elt F)) (r : Ref sig .tc) (h : r ∉ seg15_W) :
    val15 V0 (Proc.devRef .tc r) = val14 V0 (Proc.devRef .tc r) :=
  after_of_writes_sub seg15 _ seg15_writes h
theorem val15_main_arg0 (V0 : Valuation τ sig (Elt F)) : val15 V0 (no_index (Proc.devRef .tc main_arg0)) = (V0 (Proc.devRef .tc main_arg0)) :=
  (val15_keep V0 main_arg0 (by decide)).trans (val14_main_arg0 V0)
theorem val15_main_arg1 (V0 : Valuation τ sig (Elt F)) : val15 V0 (no_index (Proc.devRef .tc main_arg1)) = (V0 (Proc.devRef .tc main_arg1)) :=
  (val15_keep V0 main_arg1 (by decide)).trans (val14_main_arg1 V0)
theorem val15_main_arg2 (V0 : Valuation τ sig (Elt F)) : val15 V0 (no_index (Proc.devRef .tc main_arg2)) = (V0 (Proc.devRef .tc main_arg2)) :=
  (val15_keep V0 main_arg2 (by decide)).trans (val14_main_arg2 V0)
theorem val15_main_arg3 (V0 : Valuation τ sig (Elt F)) : val15 V0 (no_index (Proc.devRef .tc main_arg3)) = (V0 (Proc.devRef .tc main_arg3)) :=
  (val15_keep V0 main_arg3 (by decide)).trans (val14_main_arg3 V0)
theorem val15_main_arg4 (V0 : Valuation τ sig (Elt F)) : val15 V0 (no_index (Proc.devRef .tc main_arg4)) = (V0 (Proc.devRef .tc main_arg4)) :=
  (val15_keep V0 main_arg4 (by decide)).trans (val14_main_arg4 V0)
theorem val15_main_arg5 (V0 : Valuation τ sig (Elt F)) : val15 V0 (no_index (Proc.devRef .tc main_arg5)) = (V0 (Proc.devRef .tc main_arg5)) :=
  (val15_keep V0 main_arg5 (by decide)).trans (val14_main_arg5 V0)
theorem val15_main_arg6 (V0 : Valuation τ sig (Elt F)) : val15 V0 (no_index (Proc.devRef .tc main_arg6)) = (V0 (Proc.devRef .tc main_arg6)) :=
  (val15_keep V0 main_arg6 (by decide)).trans (val14_main_arg6 V0)
theorem val15_main_v1 (V0 : Valuation τ sig (Elt F)) : val15 V0 (no_index (Proc.devRef .tc main_v1)) = (r_main_v1 V0) :=
  (val15_keep V0 main_v1 (by decide)).trans (val14_main_v1 V0)
theorem val15_main_v3 (V0 : Valuation τ sig (Elt F)) : val15 V0 (no_index (Proc.devRef .tc main_v3)) = (r_main_v3 V0) :=
  (val15_keep V0 main_v3 (by decide)).trans (val14_main_v3 V0)
theorem val15_main_v113 (V0 : Valuation τ sig (Elt F)) : val15 V0 (no_index (Proc.devRef .tc main_v113)) = (r_main_v113 V0) :=
  (val15_keep V0 main_v113 (by decide)).trans (val14_main_v113 V0)
set_option maxRecDepth 8192 in
set_option maxHeartbeats 4000000 in
theorem val15_main_v115 (V0 : Valuation τ sig (Elt F)) : val15 V0 (no_index (Proc.devRef .tc main_v115)) = (r_main_v115 V0) := by
  unfold val15
  simp only [seg15]
  after_results_simp
  simp only [val14_main_arg2]
  rfl
set_option maxRecDepth 8192 in
set_option maxHeartbeats 4000000 in
theorem val15_main_v117 (V0 : Valuation τ sig (Elt F)) : val15 V0 (no_index (Proc.devRef .tc main_v117)) = (r_main_v117 V0) := by
  unfold val15
  simp only [seg15]
  after_results_simp
  simp only [val14_main_arg3]
  rfl
set_option maxRecDepth 8192 in
set_option maxHeartbeats 4000000 in
theorem val15_main_v119 (V0 : Valuation τ sig (Elt F)) : val15 V0 (no_index (Proc.devRef .tc main_v119)) = (r_main_v119 V0) := by
  unfold val15
  simp only [seg15]
  after_results_simp
  simp only [val14_main_arg4]
  rfl
set_option maxRecDepth 8192 in
set_option maxHeartbeats 4000000 in
theorem val15_main_v121 (V0 : Valuation τ sig (Elt F)) : val15 V0 (no_index (Proc.devRef .tc main_v121)) = (r_main_v121 V0) := by
  unfold val15
  simp only [seg15]
  after_results_simp
  simp only [val14_main_arg5]
  rfl
set_option maxRecDepth 8192 in
set_option maxHeartbeats 4000000 in
theorem val15_main_v123 (V0 : Valuation τ sig (Elt F)) : val15 V0 (no_index (Proc.devRef .tc main_v123)) = (r_main_v123 V0) := by
  unfold val15
  simp only [seg15]
  after_results_simp
  simp only [val14_main_arg6]
  rfl

/-- The device's buffer contents after the first 16 pieces. -/
def val16 (V0 : Valuation τ sig (Elt F)) : Valuation τ sig (Elt F) := after seg16 (val15 V0)
abbrev seg16_W : List (Ref sig .tc) := [main_c_18, main_v124, main_v125, main_c_19, main_v126, main_v127, main_v128, main_v129, main_v130, main_cst_20, main_v131, main_v132, main_v133, main_cst_21, main_v134, main_cst_22, main_v135, main_v136, main_v137, main_cst_23, main_v138, main_v139, main_v140, main_v141, main_v142]
theorem seg16_writes : (seg16 : List (HloOp τ sig (Elt F))).Forall fun op => op.writes ⊆ (seg16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val16_keep (V0 : Valuation τ sig (Elt F)) (r : Ref sig .tc) (h : r ∉ seg16_W) :
    val16 V0 (Proc.devRef .tc r) = val15 V0 (Proc.devRef .tc r) :=
  after_of_writes_sub seg16 _ seg16_writes h
theorem val16_main_arg0 (V0 : Valuation τ sig (Elt F)) : val16 V0 (no_index (Proc.devRef .tc main_arg0)) = (V0 (Proc.devRef .tc main_arg0)) :=
  (val16_keep V0 main_arg0 (by decide)).trans (val15_main_arg0 V0)
theorem val16_main_arg1 (V0 : Valuation τ sig (Elt F)) : val16 V0 (no_index (Proc.devRef .tc main_arg1)) = (V0 (Proc.devRef .tc main_arg1)) :=
  (val16_keep V0 main_arg1 (by decide)).trans (val15_main_arg1 V0)
theorem val16_main_arg2 (V0 : Valuation τ sig (Elt F)) : val16 V0 (no_index (Proc.devRef .tc main_arg2)) = (V0 (Proc.devRef .tc main_arg2)) :=
  (val16_keep V0 main_arg2 (by decide)).trans (val15_main_arg2 V0)
theorem val16_main_arg3 (V0 : Valuation τ sig (Elt F)) : val16 V0 (no_index (Proc.devRef .tc main_arg3)) = (V0 (Proc.devRef .tc main_arg3)) :=
  (val16_keep V0 main_arg3 (by decide)).trans (val15_main_arg3 V0)
theorem val16_main_arg4 (V0 : Valuation τ sig (Elt F)) : val16 V0 (no_index (Proc.devRef .tc main_arg4)) = (V0 (Proc.devRef .tc main_arg4)) :=
  (val16_keep V0 main_arg4 (by decide)).trans (val15_main_arg4 V0)
theorem val16_main_arg5 (V0 : Valuation τ sig (Elt F)) : val16 V0 (no_index (Proc.devRef .tc main_arg5)) = (V0 (Proc.devRef .tc main_arg5)) :=
  (val16_keep V0 main_arg5 (by decide)).trans (val15_main_arg5 V0)
theorem val16_main_arg6 (V0 : Valuation τ sig (Elt F)) : val16 V0 (no_index (Proc.devRef .tc main_arg6)) = (V0 (Proc.devRef .tc main_arg6)) :=
  (val16_keep V0 main_arg6 (by decide)).trans (val15_main_arg6 V0)
theorem val16_main_v113 (V0 : Valuation τ sig (Elt F)) : val16 V0 (no_index (Proc.devRef .tc main_v113)) = (r_main_v113 V0) :=
  (val16_keep V0 main_v113 (by decide)).trans (val15_main_v113 V0)
theorem val16_main_v115 (V0 : Valuation τ sig (Elt F)) : val16 V0 (no_index (Proc.devRef .tc main_v115)) = (r_main_v115 V0) :=
  (val16_keep V0 main_v115 (by decide)).trans (val15_main_v115 V0)
theorem val16_main_v117 (V0 : Valuation τ sig (Elt F)) : val16 V0 (no_index (Proc.devRef .tc main_v117)) = (r_main_v117 V0) :=
  (val16_keep V0 main_v117 (by decide)).trans (val15_main_v117 V0)
theorem val16_main_v119 (V0 : Valuation τ sig (Elt F)) : val16 V0 (no_index (Proc.devRef .tc main_v119)) = (r_main_v119 V0) :=
  (val16_keep V0 main_v119 (by decide)).trans (val15_main_v119 V0)
theorem val16_main_v121 (V0 : Valuation τ sig (Elt F)) : val16 V0 (no_index (Proc.devRef .tc main_v121)) = (r_main_v121 V0) :=
  (val16_keep V0 main_v121 (by decide)).trans (val15_main_v121 V0)
theorem val16_main_v123 (V0 : Valuation τ sig (Elt F)) : val16 V0 (no_index (Proc.devRef .tc main_v123)) = (r_main_v123 V0) :=
  (val16_keep V0 main_v123 (by decide)).trans (val15_main_v123 V0)
set_option maxRecDepth 8192 in
set_option maxHeartbeats 4000000 in
theorem val16_main_v142 (V0 : Valuation τ sig (Elt F)) : val16 V0 (no_index (Proc.devRef .tc main_v142)) = (r_main_v142 V0) := by
  unfold val16
  simp only [seg16]
  after_results_simp
  simp only [val15_main_v3, val15_main_v113, val15_main_v1]
  rfl

/-- The device's buffer contents after the first 17 pieces. -/
def val17 (V0 : Valuation τ sig (Elt F)) : Valuation τ sig (Elt F) := after seg17 (val16 V0)
abbrev seg17_W : List (Ref sig .tc) := [main_v143, main_v144, main_v145, main_v146, main_v147, main_v148]
theorem seg17_writes : (seg17 : List (HloOp τ sig (Elt F))).Forall fun op => op.writes ⊆ (seg17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val17_keep (V0 : Valuation τ sig (Elt F)) (r : Ref sig .tc) (h : r ∉ seg17_W) :
    val17 V0 (Proc.devRef .tc r) = val16 V0 (Proc.devRef .tc r) :=
  after_of_writes_sub seg17 _ seg17_writes h
theorem val17_main_arg0 (V0 : Valuation τ sig (Elt F)) : val17 V0 (no_index (Proc.devRef .tc main_arg0)) = (V0 (Proc.devRef .tc main_arg0)) :=
  (val17_keep V0 main_arg0 (by decide)).trans (val16_main_arg0 V0)
theorem val17_main_arg1 (V0 : Valuation τ sig (Elt F)) : val17 V0 (no_index (Proc.devRef .tc main_arg1)) = (V0 (Proc.devRef .tc main_arg1)) :=
  (val17_keep V0 main_arg1 (by decide)).trans (val16_main_arg1 V0)
theorem val17_main_arg2 (V0 : Valuation τ sig (Elt F)) : val17 V0 (no_index (Proc.devRef .tc main_arg2)) = (V0 (Proc.devRef .tc main_arg2)) :=
  (val17_keep V0 main_arg2 (by decide)).trans (val16_main_arg2 V0)
theorem val17_main_arg3 (V0 : Valuation τ sig (Elt F)) : val17 V0 (no_index (Proc.devRef .tc main_arg3)) = (V0 (Proc.devRef .tc main_arg3)) :=
  (val17_keep V0 main_arg3 (by decide)).trans (val16_main_arg3 V0)
theorem val17_main_arg4 (V0 : Valuation τ sig (Elt F)) : val17 V0 (no_index (Proc.devRef .tc main_arg4)) = (V0 (Proc.devRef .tc main_arg4)) :=
  (val17_keep V0 main_arg4 (by decide)).trans (val16_main_arg4 V0)
theorem val17_main_arg5 (V0 : Valuation τ sig (Elt F)) : val17 V0 (no_index (Proc.devRef .tc main_arg5)) = (V0 (Proc.devRef .tc main_arg5)) :=
  (val17_keep V0 main_arg5 (by decide)).trans (val16_main_arg5 V0)
theorem val17_main_arg6 (V0 : Valuation τ sig (Elt F)) : val17 V0 (no_index (Proc.devRef .tc main_arg6)) = (V0 (Proc.devRef .tc main_arg6)) :=
  (val17_keep V0 main_arg6 (by decide)).trans (val16_main_arg6 V0)
theorem val17_main_v121 (V0 : Valuation τ sig (Elt F)) : val17 V0 (no_index (Proc.devRef .tc main_v121)) = (r_main_v121 V0) :=
  (val17_keep V0 main_v121 (by decide)).trans (val16_main_v121 V0)
theorem val17_main_v123 (V0 : Valuation τ sig (Elt F)) : val17 V0 (no_index (Proc.devRef .tc main_v123)) = (r_main_v123 V0) :=
  (val17_keep V0 main_v123 (by decide)).trans (val16_main_v123 V0)
set_option maxRecDepth 8192 in
set_option maxHeartbeats 4000000 in
theorem val17_main_v148 (V0 : Valuation τ sig (Elt F)) : val17 V0 (no_index (Proc.devRef .tc main_v148)) = (r_main_v148 V0) := by
  unfold val17
  simp only [seg17]
  after_results_simp
  simp only [val16_main_v142, val16_main_v115, val16_main_v113, val16_main_v117, val16_main_v119]
  rfl

/-- The device's buffer contents after the first 18 pieces. -/
def val18 (V0 : Valuation τ sig (Elt F)) : Valuation τ sig (Elt F) := after seg18 (val17 V0)
abbrev seg18_W : List (Ref sig .tc) := [main_cst_24, main_v149, main_cst_25, main_v150, main_v151]
theorem seg18_writes : (seg18 : List (HloOp τ sig (Elt F))).Forall fun op => op.writes ⊆ (seg18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val18_keep (V0 : Valuation τ sig (Elt F)) (r : Ref sig .tc) (h : r ∉ seg18_W) :
    val18 V0 (Proc.devRef .tc r) = val17 V0 (Proc.devRef .tc r) :=
  after_of_writes_sub seg18 _ seg18_writes h
theorem val18_main_arg0 (V0 : Valuation τ sig (Elt F)) : val18 V0 (no_index (Proc.devRef .tc main_arg0)) = (V0 (Proc.devRef .tc main_arg0)) :=
  (val18_keep V0 main_arg0 (by decide)).trans (val17_main_arg0 V0)
theorem val18_main_arg1 (V0 : Valuation τ sig (Elt F)) : val18 V0 (no_index (Proc.devRef .tc main_arg1)) = (V0 (Proc.devRef .tc main_arg1)) :=
  (val18_keep V0 main_arg1 (by decide)).trans (val17_main_arg1 V0)
theorem val18_main_arg2 (V0 : Valuation τ sig (Elt F)) : val18 V0 (no_index (Proc.devRef .tc main_arg2)) = (V0 (Proc.devRef .tc main_arg2)) :=
  (val18_keep V0 main_arg2 (by decide)).trans (val17_main_arg2 V0)
theorem val18_main_arg3 (V0 : Valuation τ sig (Elt F)) : val18 V0 (no_index (Proc.devRef .tc main_arg3)) = (V0 (Proc.devRef .tc main_arg3)) :=
  (val18_keep V0 main_arg3 (by decide)).trans (val17_main_arg3 V0)
theorem val18_main_arg4 (V0 : Valuation τ sig (Elt F)) : val18 V0 (no_index (Proc.devRef .tc main_arg4)) = (V0 (Proc.devRef .tc main_arg4)) :=
  (val18_keep V0 main_arg4 (by decide)).trans (val17_main_arg4 V0)
theorem val18_main_arg5 (V0 : Valuation τ sig (Elt F)) : val18 V0 (no_index (Proc.devRef .tc main_arg5)) = (V0 (Proc.devRef .tc main_arg5)) :=
  (val18_keep V0 main_arg5 (by decide)).trans (val17_main_arg5 V0)
theorem val18_main_arg6 (V0 : Valuation τ sig (Elt F)) : val18 V0 (no_index (Proc.devRef .tc main_arg6)) = (V0 (Proc.devRef .tc main_arg6)) :=
  (val18_keep V0 main_arg6 (by decide)).trans (val17_main_arg6 V0)
theorem val18_main_v121 (V0 : Valuation τ sig (Elt F)) : val18 V0 (no_index (Proc.devRef .tc main_v121)) = (r_main_v121 V0) :=
  (val18_keep V0 main_v121 (by decide)).trans (val17_main_v121 V0)
theorem val18_main_v123 (V0 : Valuation τ sig (Elt F)) : val18 V0 (no_index (Proc.devRef .tc main_v123)) = (r_main_v123 V0) :=
  (val18_keep V0 main_v123 (by decide)).trans (val17_main_v123 V0)
theorem val18_main_v148 (V0 : Valuation τ sig (Elt F)) : val18 V0 (no_index (Proc.devRef .tc main_v148)) = (r_main_v148 V0) :=
  (val18_keep V0 main_v148 (by decide)).trans (val17_main_v148 V0)
set_option maxRecDepth 8192 in
set_option maxHeartbeats 4000000 in
theorem val18_main_v151 (V0 : Valuation τ sig (Elt F)) : val18 V0 (no_index (Proc.devRef .tc main_v151)) = (r_main_v151 V0) := by
  unfold val18
  simp only [seg18]
  after_results_simp
  simp only [val17_main_v148]
  rfl

/-- The device's buffer contents after the first 19 pieces. -/
def val19 (V0 : Valuation τ sig (Elt F)) : Valuation τ sig (Elt F) := after seg19 (val18 V0)
abbrev seg19_W : List (Ref sig .tc) := [main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v152]
theorem seg19_writes : (seg19 : List (HloOp τ sig (Elt F))).Forall fun op => op.writes ⊆ (seg19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val19_keep (V0 : Valuation τ sig (Elt F)) (r : Ref sig .tc) (h : r ∉ seg19_W) :
    val19 V0 (Proc.devRef .tc r) = val18 V0 (Proc.devRef .tc r) :=
  after_of_writes_sub seg19 _ seg19_writes h
theorem val19_main_arg0 (V0 : Valuation τ sig (Elt F)) : val19 V0 (no_index (Proc.devRef .tc main_arg0)) = (V0 (Proc.devRef .tc main_arg0)) :=
  (val19_keep V0 main_arg0 (by decide)).trans (val18_main_arg0 V0)
theorem val19_main_arg1 (V0 : Valuation τ sig (Elt F)) : val19 V0 (no_index (Proc.devRef .tc main_arg1)) = (V0 (Proc.devRef .tc main_arg1)) :=
  (val19_keep V0 main_arg1 (by decide)).trans (val18_main_arg1 V0)
theorem val19_main_arg2 (V0 : Valuation τ sig (Elt F)) : val19 V0 (no_index (Proc.devRef .tc main_arg2)) = (V0 (Proc.devRef .tc main_arg2)) :=
  (val19_keep V0 main_arg2 (by decide)).trans (val18_main_arg2 V0)
theorem val19_main_arg3 (V0 : Valuation τ sig (Elt F)) : val19 V0 (no_index (Proc.devRef .tc main_arg3)) = (V0 (Proc.devRef .tc main_arg3)) :=
  (val19_keep V0 main_arg3 (by decide)).trans (val18_main_arg3 V0)
theorem val19_main_arg4 (V0 : Valuation τ sig (Elt F)) : val19 V0 (no_index (Proc.devRef .tc main_arg4)) = (V0 (Proc.devRef .tc main_arg4)) :=
  (val19_keep V0 main_arg4 (by decide)).trans (val18_main_arg4 V0)
theorem val19_main_arg5 (V0 : Valuation τ sig (Elt F)) : val19 V0 (no_index (Proc.devRef .tc main_arg5)) = (V0 (Proc.devRef .tc main_arg5)) :=
  (val19_keep V0 main_arg5 (by decide)).trans (val18_main_arg5 V0)
theorem val19_main_arg6 (V0 : Valuation τ sig (Elt F)) : val19 V0 (no_index (Proc.devRef .tc main_arg6)) = (V0 (Proc.devRef .tc main_arg6)) :=
  (val19_keep V0 main_arg6 (by decide)).trans (val18_main_arg6 V0)
theorem val19_main_v121 (V0 : Valuation τ sig (Elt F)) : val19 V0 (no_index (Proc.devRef .tc main_v121)) = (r_main_v121 V0) :=
  (val19_keep V0 main_v121 (by decide)).trans (val18_main_v121 V0)
theorem val19_main_v123 (V0 : Valuation τ sig (Elt F)) : val19 V0 (no_index (Proc.devRef .tc main_v123)) = (r_main_v123 V0) :=
  (val19_keep V0 main_v123 (by decide)).trans (val18_main_v123 V0)
theorem val19_main_v148 (V0 : Valuation τ sig (Elt F)) : val19 V0 (no_index (Proc.devRef .tc main_v148)) = (r_main_v148 V0) :=
  (val19_keep V0 main_v148 (by decide)).trans (val18_main_v148 V0)
theorem val19_main_v151 (V0 : Valuation τ sig (Elt F)) : val19 V0 (no_index (Proc.devRef .tc main_v151)) = (r_main_v151 V0) :=
  (val19_keep V0 main_v151 (by decide)).trans (val18_main_v151 V0)
set_option maxRecDepth 8192 in
set_option maxHeartbeats 4000000 in
theorem val19_main_v152 (V0 : Valuation τ sig (Elt F)) : val19 V0 (no_index (Proc.devRef .tc main_v152)) = (r_main_v152 V0) := by
  unfold val19
  simp only [seg19]
  after_results_simp
  simp only [val18_main_v148]
  rfl

/-- The device's buffer contents after the first 20 pieces. -/
def val20 (V0 : Valuation τ sig (Elt F)) : Valuation τ sig (Elt F) := after seg20 (val19 V0)
abbrev seg20_W : List (Ref sig .tc) := [main_v153, main_v154, main_v155, main_v156, main_v157, main_v158, main_cst_27, main_v159, main_v160, main_v161, main_v162, main_v163, main_v164, main_v165, main_v166, main_v167, main_call5_cst, main_call5_v0, main_v168]
theorem seg20_writes : (seg20 : List (HloOp τ sig (Elt F))).Forall fun op => op.writes ⊆ (seg20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val20_keep (V0 : Valuation τ sig (Elt F)) (r : Ref sig .tc) (h : r ∉ seg20_W) :
    val20 V0 (Proc.devRef .tc r) = val19 V0 (Proc.devRef .tc r) :=
  after_of_writes_sub seg20 _ seg20_writes h
theorem val20_main_arg0 (V0 : Valuation τ sig (Elt F)) : val20 V0 (no_index (Proc.devRef .tc main_arg0)) = (V0 (Proc.devRef .tc main_arg0)) :=
  (val20_keep V0 main_arg0 (by decide)).trans (val19_main_arg0 V0)
theorem val20_main_arg1 (V0 : Valuation τ sig (Elt F)) : val20 V0 (no_index (Proc.devRef .tc main_arg1)) = (V0 (Proc.devRef .tc main_arg1)) :=
  (val20_keep V0 main_arg1 (by decide)).trans (val19_main_arg1 V0)
theorem val20_main_arg2 (V0 : Valuation τ sig (Elt F)) : val20 V0 (no_index (Proc.devRef .tc main_arg2)) = (V0 (Proc.devRef .tc main_arg2)) :=
  (val20_keep V0 main_arg2 (by decide)).trans (val19_main_arg2 V0)
theorem val20_main_arg3 (V0 : Valuation τ sig (Elt F)) : val20 V0 (no_index (Proc.devRef .tc main_arg3)) = (V0 (Proc.devRef .tc main_arg3)) :=
  (val20_keep V0 main_arg3 (by decide)).trans (val19_main_arg3 V0)
theorem val20_main_arg4 (V0 : Valuation τ sig (Elt F)) : val20 V0 (no_index (Proc.devRef .tc main_arg4)) = (V0 (Proc.devRef .tc main_arg4)) :=
  (val20_keep V0 main_arg4 (by decide)).trans (val19_main_arg4 V0)
theorem val20_main_arg5 (V0 : Valuation τ sig (Elt F)) : val20 V0 (no_index (Proc.devRef .tc main_arg5)) = (V0 (Proc.devRef .tc main_arg5)) :=
  (val20_keep V0 main_arg5 (by decide)).trans (val19_main_arg5 V0)
theorem val20_main_arg6 (V0 : Valuation τ sig (Elt F)) : val20 V0 (no_index (Proc.devRef .tc main_arg6)) = (V0 (Proc.devRef .tc main_arg6)) :=
  (val20_keep V0 main_arg6 (by decide)).trans (val19_main_arg6 V0)
set_option maxRecDepth 8192 in
set_option maxHeartbeats 4000000 in
theorem val20_main_v168 (V0 : Valuation τ sig (Elt F)) : val20 V0 (no_index (Proc.devRef .tc main_v168)) = (r_main_v168 V0) := by
  unfold val20
  simp only [seg20]
  after_results_simp
  simp only [val19_main_v121, val19_main_v148, val19_main_v151, val19_main_v152, val19_main_v123]
  rfl

theorem after_ops (V0 : Valuation τ sig (Elt F)) : after ops V0 = val20 V0 := by
  simp only [ops, part0, part1, part2, part3, StableHlo.after_append]
  rfl

/-- The result is three applications of the layer: layer l with the l-th slices of the weights and rows. -/
theorem r_main_v168_eq (V0 : Valuation τ sig (Elt F)) : r_main_v168 V0 =
    layer (layer (layer (V0 (Proc.devRef .tc main_arg0)) (V0 (Proc.devRef .tc main_arg1)) (wl0 (V0 (Proc.devRef .tc main_arg2))) (wr0 (V0 (Proc.devRef .tc main_arg3))) (b0 (V0 (Proc.devRef .tc main_arg4))) (g0 (V0 (Proc.devRef .tc main_arg5))) (be0 (V0 (Proc.devRef .tc main_arg6)))) (V0 (Proc.devRef .tc main_arg1)) (wl1 (V0 (Proc.devRef .tc main_arg2))) (wr1 (V0 (Proc.devRef .tc main_arg3))) (b1 (V0 (Proc.devRef .tc main_arg4))) (g1 (V0 (Proc.devRef .tc main_arg5))) (be1 (V0 (Proc.devRef .tc main_arg6)))) (V0 (Proc.devRef .tc main_arg1)) (wl2 (V0 (Proc.devRef .tc main_arg2))) (wr2 (V0 (Proc.devRef .tc main_arg3))) (b2 (V0 (Proc.devRef .tc main_arg4))) (g2 (V0 (Proc.devRef .tc main_arg5))) (be2 (V0 (Proc.devRef .tc main_arg6))) := by
  simp only [r_main_v1, r_main_v3, r_main_v5, r_main_v7, r_main_v9, r_main_v11, r_main_v13, r_main_v32, r_main_v38, r_main_v41, r_main_v42, r_main_v58, r_main_v60, r_main_v62, r_main_v64, r_main_v66, r_main_v68, r_main_v87, r_main_v93, r_main_v96, r_main_v97, r_main_v113, r_main_v115, r_main_v117, r_main_v119, r_main_v121, r_main_v123, r_main_v142, r_main_v148, r_main_v151, r_main_v152, r_main_v168, layer, agg]

/-- On every device, for any float values, from any memory with zero counters: every weakly fair execution of @main
    terminates with the result at three applications of the layer to the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168) = layer (layer (layer (m ((c.tc : Thread nD τ).loc main_arg0)) (m ((c.tc : Thread nD τ).loc main_arg1)) (wl0 (m ((c.tc : Thread nD τ).loc main_arg2))) (wr0 (m ((c.tc : Thread nD τ).loc main_arg3))) (b0 (m ((c.tc : Thread nD τ).loc main_arg4))) (g0 (m ((c.tc : Thread nD τ).loc main_arg5))) (be0 (m ((c.tc : Thread nD τ).loc main_arg6)))) (m ((c.tc : Thread nD τ).loc main_arg1)) (wl1 (m ((c.tc : Thread nD τ).loc main_arg2))) (wr1 (m ((c.tc : Thread nD τ).loc main_arg3))) (b1 (m ((c.tc : Thread nD τ).loc main_arg4))) (g1 (m ((c.tc : Thread nD τ).loc main_arg5))) (be1 (m ((c.tc : Thread nD τ).loc main_arg6)))) (m ((c.tc : Thread nD τ).loc main_arg1)) (wl2 (m ((c.tc : Thread nD τ).loc main_arg2))) (wr2 (m ((c.tc : Thread nD τ).loc main_arg3))) (b2 (m ((c.tc : Thread nD τ).loc main_arg4))) (g2 (m ((c.tc : Thread nD τ).loc main_arg5))) (be2 (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      (h c main_v168).trans (by simp only [after_ops]; exact (val20_main_v168 (launchContents m c)).trans (r_main_v168_eq (launchContents m c))),
      (h c main_arg0).trans (by simp only [after_ops]; exact val20_main_arg0 (launchContents m c)),
      (h c main_arg1).trans (by simp only [after_ops]; exact val20_main_arg1 (launchContents m c)),
      (h c main_arg2).trans (by simp only [after_ops]; exact val20_main_arg2 (launchContents m c)),
      (h c main_arg3).trans (by simp only [after_ops]; exact val20_main_arg3 (launchContents m c)),
      (h c main_arg4).trans (by simp only [after_ops]; exact val20_main_arg4 (launchContents m c)),
      (h c main_arg5).trans (by simp only [after_ops]; exact val20_main_arg5 (launchContents m c)),
      (h c main_arg6).trans (by simp only [after_ops]; exact val20_main_arg6 (launchContents m c))⟩)
    (run_seq scopedRefs_eq scopedSems_eq defs main (fun _ => ops) main_eq (fun _ => ops_sub) m ρ (fun _ => ops_fresh))

/-- The run leaves the seven argument arrays as they were. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => (h c).2) (run m ρ)

end Cert.ReferenceIdeal.RefRun

end
-- ==== Proof.KerRun.lean ====
/-
  The value run of the idealized program: at the compiled mesh, from any memory with zero counters, every
  weakly fair execution of @main on the TensorCores terminates, nothing faulting, and in every final state the
  result array holds the contents the fold through @main's 18 segments assigns to it (`Gen.W18`), and each
  argument array holds what it held at launch.

  The run is the segments' run (`Pipeline.θ_run_regions_kit`): its closing predicate pins every unscoped buffer
  of every core to `Gen.W18 m ρ c`; the result is read there directly and each argument through `Gen.W18_<arg>`.
-/
import proofs.«108877_j73624329388567_2_alg».proof.Proof.Gen.KernelIdeal.Frame

set_option maxRecDepth 16384

noncomputable section

namespace Cert.KernelIdeal.KerRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The value run: the result array ends at the fold's contents, every argument array as launched. -/
theorem run : θ_run defs (onTc (τ := τ) (main (F := F))) ⟨m, fun _ => 0, ρ⟩ (fun r => ∀ c : Dev nD,
      r.2.mem ((c.tc : Thread nD τ).loc main_v139) = Gen.W18 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v139 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c)⟩)

/-- info: 'Cert.KernelIdeal.KerRun.run' depends on axioms: [propext, Classical.choice, Quot.sound] -/
#guard_msgs in #print axioms run

end Cert.KernelIdeal.KerRun

end
-- ==== Proof.Spec.lean ====
/-
  One layer of the network, as functions of coordinates on the extended reals.

  A layer takes node features `h` (50000 rows of 128), the neighbourhood means `mn` of the same shape, two
  128 x 128 weight matrices, a bias row and the two normalisation rows, and returns new node features:

    pre-activation   p i j = (sum_k mn i k * wl k j) + (sum_k h i k * wr k j) + b j
    column mean      mu j  = (0 + sum_i p i j) / 50000
    column variance  v j   = (0 + sum_i (p i j - mu j)^2) / 50000
    one program      max (p i j * s j + t j) 0   with  s j = g j * rsqrt (max (v j) 0 + eps),  t j = be j - mu j * s j
    the other        max (g j * (p i j - mu j) * rsqrt (v j + eps) + be j) 0

  The two closing forms agree whenever every entry involved is a real number: then the variance is a mean of
  squares of reals, so it is nonnegative and the clamp at 0 is the identity, and the affine form is the
  distributive law, which holds for reals (it fails on the extended reals at opposite infinities, which is why
  the finiteness of the inputs is used).
-/
import Idealize.ShloMosaic.PureOps.Ideal
import Idealize.ShloMosaic.Lib.ValueIdx

noncomputable section

open scoped BigOperators

namespace Cert.Sage

open Idealize.ShloMosaic Idealize.ShloMosaic.ValueIdx

/-- Every entry of a family of extended reals is a real number. -/
def IsReal {ι : Type} (a : ι → EReal) : Prop := ∀ i, ∃ r : ℝ, a i = (r : EReal)

/-- The pre-activation of a layer at row `i`, column `j`. -/
def lin (mn h : Fin 50000 → Fin 128 → EReal) (wl wr : Fin 128 → Fin 128 → EReal) (b : Fin 128 → EReal)
    (i : Fin 50000) (j : Fin 128) : EReal :=
  (∑ k : Fin 128, mn i k * wl k j) + (∑ k : Fin 128, h i k * wr k j) + b j

/-- The affine-then-clamp closing step: `max (p i j * s j + t j) 0`. -/
def affineRelu (p : Fin 50000 → Fin 128 → EReal) (s t : Fin 128 → EReal) (i : Fin 50000) (j : Fin 128) : EReal :=
  max (p i j * s j + t j) 0

end Cert.Sage

end
-- ==== Proof.Consts.lean ====
/-
  The float constants the two programs spell, as the extended reals their patterns denote: zero, one, the row
  count 50000, and the small positive number added to the variance before the reciprocal square root. Of the
  last only its sign and finiteness matter: both programs spell the same pattern.
-/
import Idealize.ShloMosaic.PureOps.Ideal

noncomputable section

namespace Cert.Sage.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `50000.0` denotes the real `50000`. -/
theorem ofBits_rows : Ideal.ofBits .f32 0x47435000#32 = ((50000 : ℝ) : EReal) := by
  simp [Ideal.ofBits, Ideal.ieee, -EReal.coe_mul]; norm_num

/-- The pattern `0x3727C5AC` (the float nearest `1e-5`) denotes a positive real. -/
theorem ofBits_eps : ∃ e : ℝ, 0 < e ∧ Ideal.ofBits .f32 0x3727C5AC#32 = (e : EReal) := by
  refine ⟨(2 : ℝ) ^ (-17 : ℤ) * (1 + 2606508 / 8388608), by positivity, ?_⟩
  simp [Ideal.ofBits, Ideal.ieee, -EReal.coe_mul]; norm_num

end Cert.Sage.Consts

end
-- ==== Proof.Algebra.lean ====
/-
  The algebra that joins the two closing forms of a layer.

  Everything here is about families of extended reals all of whose entries are real numbers. Sums, products,
  differences, maxima, quotients by a nonzero real and the reciprocal square root of a positive real stay real.
  For a column of reals the mean is real and the variance — a mean of squares of reals — is a nonnegative real,
  so clamping it at zero changes nothing; and for reals the affine form `p·s + (be − mu·s)` with
  `s = g·r` is `g·(p − mu)·r + be` by the distributive law.
-/
import Idealize.ShloMosaic.PureOps.Ideal
import proofs.«108877_j73624329388567_2_alg».proof.Proof.Spec

noncomputable section

open scoped BigOperators

namespace Cert.Sage

open Idealize.ShloMosaic

/-! ## Real entries are closed under the operations -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb; exact ⟨max x y, (EReal.coe_strictMono.monotone.map_max (a := x) (b := y))⟩

theorem real_zero : ∃ r : ℝ, (0 : EReal) = (r : EReal) := ⟨0, EReal.coe_zero.symm⟩

/-- A finite sum of reals is a real. -/
theorem real_sum {κ : Type} (s : Finset κ) (f : κ → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := ih (fun k hk => hf k (Finset.mem_insert_of_mem hk))
    obtain ⟨x, hx⟩ := hf a (Finset.mem_insert_self a s)
    exact ⟨x + r, by rw [Finset.sum_insert ha, hx, hr, EReal.coe_add]⟩

/-- The sum of real numbers, with the coercion outside. -/
theorem coe_sum_univ {κ : Type} [Fintype κ] (f : κ → ℝ) : ∑ k, ((f k : ℝ) : EReal) = ((∑ k, f k : ℝ) : EReal) := by
  classical
  induction (Finset.univ : Finset κ) using Finset.induction_on with
  | empty => simp
  | insert a s ha ih => rw [Finset.sum_insert ha, Finset.sum_insert ha, ih, EReal.coe_add]

/-- A quotient by a nonzero real is the product with its reciprocal, so it stays real. -/
theorem real_div {a : EReal} {n : ℝ} (hn : n ≠ 0) (ha : ∃ r : ℝ, a = (r : EReal)) :
    ∃ r : ℝ, Ideal.div a (n : EReal) = (r : EReal) := by
  obtain ⟨x, rfl⟩ := ha
  exact ⟨x * (1 / n), by rw [Ideal.div_coe hn, EReal.coe_mul]⟩

/-- The reciprocal square root of a positive real is the real `(√x)⁻¹`. -/
theorem rsqrt_pos {x : ℝ} (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- The pre-activation of real inputs is real. -/
theorem lin_real {mn h : Fin 50000 → Fin 128 → EReal} {wl wr : Fin 128 → Fin 128 → EReal} {b : Fin 128 → EReal}
    (hmn : ∀ i k, ∃ r : ℝ, mn i k = (r : EReal)) (hh : ∀ i k, ∃ r : ℝ, h i k = (r : EReal))
    (hwl : ∀ k j, ∃ r : ℝ, wl k j = (r : EReal)) (hwr : ∀ k j, ∃ r : ℝ, wr k j = (r : EReal))
    (hb : ∀ j, ∃ r : ℝ, b j = (r : EReal)) (i : Fin 50000) (j : Fin 128) :
    ∃ r : ℝ, lin mn h wl wr b i j = (r : EReal) :=
  real_add (real_add (real_sum _ _ fun k _ => real_mul (hmn i k) (hwl k j))
    (real_sum _ _ fun k _ => real_mul (hh i k) (hwr k j))) (hb j)

/-! ## Column statistics -/

/-- The column mean as the host computes it: zero plus the column's sum, over the row count. -/
def colMean (p : Fin 50000 → Fin 128 → EReal) (j : Fin 128) : EReal :=
  Ideal.div (0 + ∑ i : Fin 50000, p i j) ((50000 : ℝ) : EReal)

/-- The column variance as the host computes it: zero plus the sum of squared deviations, over the row count. -/
def colVar (p : Fin 50000 → Fin 128 → EReal) (j : Fin 128) : EReal :=
  Ideal.div (0 + ∑ i : Fin 50000, (p i j - colMean p j) * (p i j - colMean p j)) ((50000 : ℝ) : EReal)

theorem colMean_real {p : Fin 50000 → Fin 128 → EReal} (hp : ∀ i j, ∃ r : ℝ, p i j = (r : EReal)) (j : Fin 128) :
    ∃ r : ℝ, colMean p j = (r : EReal) :=
  real_div (by norm_num) (real_add real_zero (real_sum _ _ fun i _ => hp i j))

/-- The variance of a real column is a NONNEGATIVE real. -/
theorem colVar_real_nonneg {p : Fin 50000 → Fin 128 → EReal} (hp : ∀ i j, ∃ r : ℝ, p i j = (r : EReal)) (j : Fin 128) :
    ∃ v : ℝ, 0 ≤ v ∧ colVar p j = (v : EReal) := by
  obtain ⟨μ, hμ⟩ := colMean_real hp j
  choose q hq using hp
  refine ⟨(∑ i : Fin 50000, (q i j - μ) * (q i j - μ)) * (1 / 50000), ?_, ?_⟩
  · exact mul_nonneg (Finset.sum_nonneg fun i _ => mul_self_nonneg _) (by norm_num)
  · unfold colVar
    rw [hμ, Ideal.div_coe (by norm_num : (50000 : ℝ) ≠ 0), zero_add]
    have : ∀ i : Fin 50000, (p i j - (μ : EReal)) * (p i j - (μ : EReal)) = (((q i j - μ) * (q i j - μ) : ℝ) : EReal) := by
      intro i; rw [hq i j, ← EReal.coe_sub, ← EReal.coe_mul]
    rw [Finset.sum_congr rfl (fun i _ => this i), coe_sum_univ, ← EReal.coe_mul]

/-! ## The two closing forms agree on reals -/

/-- For real `p, mu, g, be`, a nonnegative real variance `v` and a positive real `e`: the affine form with the scale
    `g · rsqrt (max v 0 + e)` and the shift `be − mu · scale`, clamped at zero, is the normalised form
    `g · (p − mu) · rsqrt (v + e) + be`, clamped at zero; and the common value is a real. -/
theorem close_eq (p μ v g be e : ℝ) (hv : 0 ≤ v) (he : 0 < e) :
    max ((p : EReal) * ((g : EReal) * Ideal.rsqrt (max (v : EReal) 0 + (e : EReal)))
          + ((be : EReal) - (μ : EReal) * ((g : EReal) * Ideal.rsqrt (max (v : EReal) 0 + (e : EReal))))) 0
      = max ((g : EReal) * ((p : EReal) - (μ : EReal)) * Ideal.rsqrt ((v : EReal) + (e : EReal)) + (be : EReal)) 0
    ∧ ∃ r : ℝ, max ((g : EReal) * ((p : EReal) - (μ : EReal)) * Ideal.rsqrt ((v : EReal) + (e : EReal)) + (be : EReal)) 0
        = (r : EReal) := by
  have hmax : max (v : EReal) 0 = (v : EReal) := max_eq_left (by exact_mod_cast hv)
  have hpos : 0 < v + e := by linarith
  rw [hmax, ← EReal.coe_add, rsqrt_pos hpos]
  set R : ℝ := (Real.sqrt (v + e))⁻¹
  have h1 : (p : EReal) * ((g : EReal) * (R : EReal)) + ((be : EReal) - (μ : EReal) * ((g : EReal) * (R : EReal)))
      = ((p * (g * R) + (be - μ * (g * R)) : ℝ) : EReal) := by
    simp only [EReal.coe_add, EReal.coe_sub, EReal.coe_mul]
  have h2 : (g : EReal) * ((p : EReal) - (μ : EReal)) * (R : EReal) + (be : EReal)
      = ((g * (p - μ) * R + be : ℝ) : EReal) := by
    simp only [EReal.coe_add, EReal.coe_sub, EReal.coe_mul]
  rw [h1, h2, show p * (g * R) + (be - μ * (g * R)) = g * (p - μ) * R + be by ring]
  exact ⟨rfl, max (g * (p - μ) * R + be) 0, by rw [← EReal.coe_zero]; exact (EReal.coe_strictMono.monotone.map_max).symm⟩

end Cert.Sage

end
-- ==== Proof.OpsReal.lean ====
/-
  Host operations on families of reals, and the column statistics read at a column.

  A gather only copies entries, and the accumulating scatter at the exact instance is the operand's entry plus
  a finite sum of update entries: both keep "every entry is a real number". The host's column mean of a
  50000 x 128 array is (0 + the column's sum) / 50000, and its variance routine — subtract the broadcast mean,
  square, sum the column, divide by 50000 minus the (zero) degrees-of-freedom correction, guarded by a test that
  this divisor is positive — is (0 + the sum of squared deviations) / 50000.
-/
import Idealize.ShloMosaic.PureOps.Ideal
import Idealize.ShloMosaic.PureOps.Ideal.Laws
import Idealize.ShloMosaic.Lib.ValueIdx
import Idealize.ShloMosaic.Lib.Pipeline.Value
import proofs.«108877_j73624329388567_2_alg».proof.Proof.Spec
import proofs.«108877_j73624329388567_2_alg».proof.Proof.Consts
import proofs.«108877_j73624329388567_2_alg».proof.Proof.Algebra

noncomputable section

open scoped BigOperators

namespace Cert.Sage

open Idealize.ShloMosaic Idealize.ShloMosaic.ValueIdx

abbrev SN : Shape := ⟨2, ![50000, 128]⟩
abbrev SV : Shape := ⟨1, ![128]⟩
abbrev SR : Shape := ⟨2, ![1, 128]⟩
abbrev S0 : Shape := ⟨0, ![]⟩

section Closure

variable {s si t u : Shape} {w : Nat} {φ : FTy}

/-- A gather copies entries of its operand: real entries stay real. -/
theorem gather_isReal (d : GatherDims s si t) (x : s.Idx → EReal) (idx : IVec si w) (hx : IsReal x) :
    IsReal (Host.gather d x idx) := fun _ => hx _

/-- The accumulating scatter is the operand's entry plus a finite sum of update entries: real entries stay real. -/
theorem scatterAdd_isReal (d : ScatterDims s si u) (x : FVec Ideal s φ) (idx : IVec si w) (upd : FVec Ideal u φ)
    (hx : IsReal x) (hu : IsReal upd) : IsReal (Host.scatterAdd d x idx upd) := by
  intro i
  show ∃ r : ℝ, Ideal.hostScatterAdd d x idx upd i = (r : EReal)
  unfold Ideal.hostScatterAdd
  exact real_add (hx i) (real_sum _ _ fun j _ => hu j)

end Closure

/-! ## The column sum, mean and variance read at a column -/

/-- Summing over the rows: the index inserted at row `k` of column `j` is `(k, j)`. -/
theorem lift_rows (hR : SN.Reduces [0] SV) (j : Fin 128) (k : Fin 50000) : hR.lift (ix1 j) k = ix2 k j := by
  funext a
  refine Fin.ext ?_
  match a with
  | ⟨0, _⟩ => rfl
  | ⟨1, _⟩ => rfl

/-- The host's sum over the rows from the zero initial value, at column `j`. -/
theorem rowsum_apply (hR' : SN.ReducesTo [0] SV) (hS : 0 < S0.numel) (p : FVec Ideal SN .f32) (j : Fin 128) :
    Host.reduceAdd p (constant (F := Ideal) S0 .f32 0x00000000#32) hR' hS (ix1 j) = 0 + ∑ i : Fin 50000, p (ix2 i j) := by
  have hR : SN.Reduces [0] SV := by decide
  show Ideal.hostReduceAdd hR' p (Ideal.ofBits .f32 0x00000000#32) (ix1 j) = _
  rw [Ideal.hostReduceAdd_single hR' hR, Consts.ofBits_zero]
  refine congrArg (fun z => (0 : EReal) + z) ?_
  exact Finset.sum_congr rfl fun k _ => congrArg p (lift_rows hR j k)

/-- A scalar broadcast to the 128-vector, read at any column, is the scalar. -/
theorem bcast_scalar_vec {α : Type} (hb : S0.BroadcastsInDim SV ![]) (x : S0.Idx → α) (j : Fin 128) :
    broadcastInDim SV ![] hb x (ix1 j) = x ix0 :=
  broadcastInDim_apply ![] hb x (ix1 j) ix0 (fun a => a.elim0)

/-- The host's column mean at column `j`. -/
theorem mean_apply (hR' : SN.ReducesTo [0] SV) (hS : 0 < S0.numel) (hb : S0.BroadcastsInDim SV ![])
    (p : FVec Ideal SN .f32) (j : Fin 128) :
    Host.divf (Host.reduceAdd p (constant (F := Ideal) S0 .f32 0x00000000#32) hR' hS)
        (broadcastInDim SV ![] hb (constant (F := Ideal) S0 .f32 0x47435000#32)) (ix1 j)
      = colMean (fun i j => p (ix2 i j)) j := by
  show Ideal.div (Host.reduceAdd p (constant (F := Ideal) S0 .f32 0x00000000#32) hR' hS (ix1 j))
      (broadcastInDim SV ![] hb (constant (F := Ideal) S0 .f32 0x47435000#32) (ix1 j)) = _
  rw [rowsum_apply, bcast_scalar_vec]
  show Ideal.div _ (Ideal.ofBits .f32 0x47435000#32) = _
  rw [Consts.ofBits_rows]
  rfl

/-! ## The variance routine read at a column -/

/-- A 128-vector laid out as a 1 x 128 row, at `(0, j)`. -/
theorem bcast_vec_row {α : Type} (hb : SV.BroadcastsInDim SR ![1]) (x : SV.Idx → α) (j : Fin 128) :
    broadcastInDim SR ![1] hb x (ix2 (0 : Fin 1) j) = x (ix1 j) :=
  broadcastInDim_apply ![1] hb x _ (ix1 j) (fun a => by match a with | ⟨0, _⟩ => rfl)

/-- A scalar broadcast to a 1 x 128 row, at `(0, j)`. -/
theorem bcast_scalar_row {α : Type} (hb : S0.BroadcastsInDim SR ![]) (x : S0.Idx → α) (j : Fin 128) :
    broadcastInDim SR ![] hb x (ix2 (0 : Fin 1) j) = x ix0 :=
  broadcastInDim_apply ![] hb x _ ix0 (fun a => a.elim0)

/-- A 1 x 128 row repeated down the 50000 rows, at `(i, j)`. -/
theorem bcast_row_all {α : Type} (hb : SR.BroadcastsInDim SN ![0, 1]) (x : SR.Idx → α) (i : Fin 50000) (j : Fin 128) :
    broadcastInDim SN ![0, 1] hb x (ix2 i j) = x (ix2 (0 : Fin 1) j) :=
  broadcastInDim_apply ![0, 1] hb x _ (ix2 (0 : Fin 1) j) (fun a => by match a with | ⟨0, _⟩ => rfl | ⟨1, _⟩ => rfl)

/-- The variance routine's divisor: the row count minus the degrees-of-freedom correction zero. -/
theorem rows_minus_zero :
    Ideal.ofBits .f32 0x47435000#32 - (((0#32 : BitVec 32).toInt : ℝ) : EReal) = ((50000 : ℝ) : EReal) := by
  rw [Consts.ofBits_rows]
  simp

/-- The deviation from the column mean, as the variance routine forms it, at `(i, j)`: `c0` is the column sums. -/
theorem centred_apply (hb1 : SV.BroadcastsInDim SR ![1]) (hb2 : S0.BroadcastsInDim SR ![]) (hb3 : SR.BroadcastsInDim SN ![0, 1])
    (p : FVec Ideal SN .f32) (c0 : FVec Ideal SV .f32) (i : Fin 50000) (j : Fin 128) :
    subf p (broadcastInDim SN ![0, 1] hb3 (Host.divf (broadcastInDim SR ![1] hb1 c0)
        (broadcastInDim SR ![] hb2 (constant (F := Ideal) S0 .f32 0x47435000#32)))) (ix2 i j)
      = p (ix2 i j) - Ideal.div (c0 (ix1 j)) ((50000 : ℝ) : EReal) := by
  rw [subf_apply, bcast_row_all]
  show p (ix2 i j) - Ideal.div (broadcastInDim SR ![1] hb1 c0 (ix2 (0 : Fin 1) j))
      (broadcastInDim SR ![] hb2 (constant (F := Ideal) S0 .f32 0x47435000#32) (ix2 (0 : Fin 1) j)) = _
  rw [bcast_vec_row, bcast_scalar_row]
  show p (ix2 i j) - Ideal.div (c0 (ix1 j)) (Ideal.ofBits .f32 0x47435000#32) = _
  rw [Consts.ofBits_rows]

/-- THE VARIANCE ROUTINE at column `j`: the guard holds (50000 - 0 > 0), so the result is the quotient, which is
    (0 + the column's sum of squared deviations from the column mean) / 50000. The unused other branch is any vector. -/
theorem var_apply (hR' : SN.ReducesTo [0] SV) (hS : 0 < S0.numel)
    (hb1 : SV.BroadcastsInDim SR ![1]) (hb2 : S0.BroadcastsInDim SR ![]) (hb3 : SR.BroadcastsInDim SN ![0, 1])
    (hb4 : S0.BroadcastsInDim SV ![]) (p : FVec Ideal SN .f32) (other : FVec Ideal SV .f32) (j : Fin 128) :
    select (broadcastInDim SV ![] hb4
        (cmpf .ogt (subf (constant (F := Ideal) S0 .f32 0x47435000#32) (sitofp .f32 (constantI S0 32 0#32)))
          (constant (F := Ideal) S0 .f32 0x00000000#32)))
      (Host.divf
        (Host.reduceAdd
          (mulf
            (subf p (broadcastInDim SN ![0, 1] hb3 (Host.divf (broadcastInDim SR ![1] hb1
              (Host.reduceAdd p (constant (F := Ideal) S0 .f32 0x00000000#32) hR' hS))
              (broadcastInDim SR ![] hb2 (constant (F := Ideal) S0 .f32 0x47435000#32)))))
            (subf p (broadcastInDim SN ![0, 1] hb3 (Host.divf (broadcastInDim SR ![1] hb1
              (Host.reduceAdd p (constant (F := Ideal) S0 .f32 0x00000000#32) hR' hS))
              (broadcastInDim SR ![] hb2 (constant (F := Ideal) S0 .f32 0x47435000#32))))))
          (constant (F := Ideal) S0 .f32 0x00000000#32) hR' hS)
        (broadcastInDim SV ![] hb4
          (subf (constant (F := Ideal) S0 .f32 0x47435000#32) (sitofp .f32 (constantI S0 32 0#32)))))
      other (ix1 j)
      = colVar (fun i j => p (ix2 i j)) j := by
  rw [select_apply, bcast_scalar_vec]
  have hguard : cmpf .ogt (subf (constant (F := Ideal) S0 .f32 0x47435000#32) (sitofp .f32 (constantI S0 32 0#32)))
      (constant (F := Ideal) S0 .f32 0x00000000#32) ix0 = 1#1 := by
    show Ideal.cmp .ogt (Ideal.ofBits .f32 0x47435000#32 - (((0#32 : BitVec 32).toInt : ℝ) : EReal))
      (Ideal.ofBits .f32 0x00000000#32) = 1#1
    rw [rows_minus_zero, Consts.ofBits_zero]
    unfold Ideal.cmp
    have : (0 : EReal) < ((50000 : ℝ) : EReal) := by exact_mod_cast (by norm_num : (0 : ℝ) < 50000)
    simp [this]
  rw [hguard, select_one]
  show Ideal.div (Host.reduceAdd _ (constant (F := Ideal) S0 .f32 0x00000000#32) hR' hS (ix1 j))
    (broadcastInDim SV ![] hb4 (subf (constant (F := Ideal) S0 .f32 0x47435000#32) (sitofp .f32 (constantI S0 32 0#32))) (ix1 j)) = _
  rw [rowsum_apply, bcast_scalar_vec]
  show Ideal.div _ (Ideal.ofBits .f32 0x47435000#32 - (((0#32 : BitVec 32).toInt : ℝ) : EReal)) = _
  rw [rows_minus_zero]
  unfold colVar colMean
  refine congrArg (fun z => Ideal.div ((0 : EReal) + z) ((50000 : ℝ) : EReal)) ?_
  refine Finset.sum_congr rfl fun i _ => ?_
  rw [mulf_apply, centred_apply, rowsum_apply]

end Cert.Sage

end
-- ==== Proof.Closure.lean ====
/-
  Real entries through the aggregation, and the normalise-then-clamp chain read at an entry.

  The neighbourhood mean is an accumulating scatter of gathered rows divided, entry by entry, by the degree
  clamped below at one: the numerator keeps real entries, the denominator is a real that is at least one, so the
  quotient is real. Broadcasts only re-index, so they keep both "real" and "positive real".
-/
import Idealize.ShloMosaic.PureOps.Ideal
import Idealize.ShloMosaic.Lib.ValueIdx
import Idealize.ShloMosaic.Lib.Pipeline.Value
import proofs.«108877_j73624329388567_2_alg».proof.Proof.OpsReal

noncomputable section

open scoped BigOperators

namespace Cert.Sage

open Idealize.ShloMosaic Idealize.ShloMosaic.ValueIdx

/-- Every entry is a positive real number. -/
def IsPosReal {ι : Type} (a : ι → EReal) : Prop := ∀ i, ∃ r : ℝ, 0 < r ∧ a i = (r : EReal)

section
variable {s t : Shape} {φ : FTy}

/-- A broadcast re-indexes: real entries stay real. -/
theorem bcast_isReal (dims : Fin s.rank → Fin t.rank) (h : s.BroadcastsInDim t dims) (x : s.Idx → EReal) (hx : IsReal x) :
    IsReal (broadcastInDim t dims h x) := by
  intro j
  unfold broadcastInDim
  exact hx _

/-- A broadcast re-indexes: positive real entries stay positive reals. -/
theorem bcast_isPosReal (dims : Fin s.rank → Fin t.rank) (h : s.BroadcastsInDim t dims) (x : s.Idx → EReal) (hx : IsPosReal x) :
    IsPosReal (broadcastInDim t dims h x) := by
  intro j
  unfold broadcastInDim
  exact hx _

/-- A shape cast re-indexes: real entries stay real. -/
theorem cast_isReal (h : s.ShapeCasts t) (x : s.Idx → EReal) (hx : IsReal x) : IsReal (shapeCast t x h) := by
  intro j
  unfold shapeCast
  exact hx _

/-- A slice re-indexes: real entries stay real. -/
theorem slice_isReal (off : Fin s.rank → Nat) (h : s.Slices off t) (x : s.Idx → EReal) (hx : IsReal x) :
    IsReal (extractStridedSlice t off x h) := by
  intro j
  unfold extractStridedSlice
  exact hx _

/-- The zero vector has real entries. -/
theorem zeros_isReal : IsReal (constant (F := Ideal) s .f32 0x00000000#32) := fun _ =>
  ⟨0, by rw [constant_apply, Consts.ofBits_zero, EReal.coe_zero]⟩

/-- The all-ones vector has real entries. -/
theorem ones_isReal : IsReal (constant (F := Ideal) s .f32 0x3F800000#32) := fun _ =>
  ⟨1, by rw [constant_apply, Consts.ofBits_one]⟩

/-- A real family clamped below at one is a family of positive reals. -/
theorem max_one_isPosReal (d one : FVec Ideal s .f32) (hd : IsReal d) (h1 : ∀ i, one i = ((1 : ℝ) : EReal)) :
    IsPosReal (maximumf d one) := by
  intro i
  obtain ⟨x, hx⟩ := hd i
  refine ⟨max x 1, lt_of_lt_of_le one_pos (le_max_right _ _), ?_⟩
  rw [maximumf_apply, hx, h1]
  exact (EReal.coe_strictMono.monotone.map_max).symm

/-- A real family over a positive-real family, entry by entry, is real. -/
theorem divf_isReal (a b : FVec Ideal s φ) (ha : IsReal a) (hb : IsPosReal b) : IsReal (Host.divf a b) := by
  intro i
  obtain ⟨r, hr, hbr⟩ := hb i
  show ∃ q : ℝ, Ideal.div (a i) (b i) = (q : EReal)
  rw [hbr]
  exact real_div hr.ne' (ha i)

end

/-! ## The normalise-then-clamp chain at an entry -/

/-- A 128-vector laid out as a row and repeated down the rows, at `(i, j)`. -/
theorem vec_all {α : Type} (hb1 : SV.BroadcastsInDim SR ![1]) (hb3 : SR.BroadcastsInDim SN ![0, 1]) (x : SV.Idx → α)
    (i : Fin 50000) (j : Fin 128) :
    broadcastInDim SN ![0, 1] hb3 (broadcastInDim SR ![1] hb1 x) (ix2 i j) = x (ix1 j) := by
  rw [bcast_row_all, bcast_vec_row]

/-- A scalar broadcast to the whole 50000 x 128 array, at any entry. -/
theorem bcast_scalar_all {α : Type} (hb : S0.BroadcastsInDim SN ![]) (x : S0.Idx → α) (i : Fin 50000) (j : Fin 128) :
    broadcastInDim SN ![] hb x (ix2 i j) = x ix0 :=
  broadcastInDim_apply ![] hb x _ ix0 (fun a => a.elim0)

/-- `max (g·(p − mu)·rsqrt (var + eps) + be) 0` as the host spells it, at entry `(i, j)`. -/
theorem normclamp_apply (hb1 : SV.BroadcastsInDim SR ![1]) (hb3 : SR.BroadcastsInDim SN ![0, 1])
    (hb4 : S0.BroadcastsInDim SV ![]) (hb5 : S0.BroadcastsInDim SN ![])
    (p : FVec Ideal SN .f32) (mu var g be : FVec Ideal SV .f32) (i : Fin 50000) (j : Fin 128) :
    maximumf
      (addf
        (mulf
          (mulf (broadcastInDim SN ![0, 1] hb3 (broadcastInDim SR ![1] hb1 g))
            (subf p (broadcastInDim SN ![0, 1] hb3 (broadcastInDim SR ![1] hb1 mu))))
          (broadcastInDim SN ![0, 1] hb3 (broadcastInDim SR ![1] hb1
            (Host.rsqrt (addf var (broadcastInDim SV ![] hb4 (constant (F := Ideal) S0 .f32 0x3727C5AC#32)))))))
        (broadcastInDim SN ![0, 1] hb3 (broadcastInDim SR ![1] hb1 be)))
      (broadcastInDim SN ![] hb5 (constant (F := Ideal) S0 .f32 0x00000000#32)) (ix2 i j)
    = max (g (ix1 j) * (p (ix2 i j) - mu (ix1 j)) * Ideal.rsqrt (var (ix1 j) + Ideal.ofBits .f32 0x3727C5AC#32) + be (ix1 j))
        (Ideal.ofBits .f32 0x00000000#32) := by
  rw [maximumf_apply, addf_apply, mulf_apply, mulf_apply, subf_apply, vec_all, vec_all, vec_all, vec_all, bcast_scalar_all]
  show max (g (ix1 j) * (p (ix2 i j) - mu (ix1 j))
      * Ideal.rsqrt (var (ix1 j) + broadcastInDim SV ![] hb4 (constant (F := Ideal) S0 .f32 0x3727C5AC#32) (ix1 j)) + be (ix1 j)) _ = _
  rw [bcast_scalar_vec]
  rfl

end Cert.Sage

end
-- ==== Proof.Rows.lean ====
/-
  Layouts read at an entry, and the closing step of a layer on reals.

  The stacked parameters are sliced per layer: layer `l`'s 128 x 128 weight matrix is entry `(l, k, j)` of the
  3 x 128 x 128 stack, its bias / scale / shift row is entry `(l, j)` of the 3 x 128 stack. A 128-vector laid
  out as a 1 x 128 row and back keeps its entries. On top of these: the scale row `g · rsqrt (max v 0 + eps)` and
  the shift row `be − mu · scale` that one program precomputes, read at a column.
-/
import Idealize.ShloMosaic.PureOps.Ideal
import Idealize.ShloMosaic.Lib.ValueIdx
import Idealize.ShloMosaic.Lib.Pipeline.Value
import proofs.«108877_j73624329388567_2_alg».proof.Proof.Spec
import proofs.«108877_j73624329388567_2_alg».proof.Proof.Algebra

noncomputable section

open scoped BigOperators

namespace Cert.Sage

open Idealize.ShloMosaic Idealize.ShloMosaic.ValueIdx

abbrev TV : Shape := ⟨1, ![128]⟩
abbrev TR : Shape := ⟨2, ![1, 128]⟩
abbrev T3R : Shape := ⟨2, ![3, 128]⟩
abbrev TW : Shape := ⟨2, ![128, 128]⟩
abbrev T1W : Shape := ⟨3, ![1, 128, 128]⟩
abbrev T3W : Shape := ⟨3, ![3, 128, 128]⟩
abbrev T0 : Shape := ⟨0, ![]⟩

section Layout
variable {α : Type}

/-- A 128-vector recast as a 1 x 128 row, at `(0, j)`. -/
theorem cast_vec_row (h : TV.ShapeCasts TR) (x : TV.Idx → α) (j : Fin 128) :
    shapeCast TR x h (ix2 (0 : Fin 1) j) = x (ix1 j) :=
  shapeCast_apply x h _ (ix1 j) (by rw [Shape.rowMajor_val_one, Shape.rowMajor_val_two]; simp)

/-- A 1 x 128 row recast as a 128-vector, at `j`. -/
theorem cast_row_vec (h : TR.ShapeCasts TV) (x : TR.Idx → α) (j : Fin 128) :
    shapeCast TV x h (ix1 j) = x (ix2 (0 : Fin 1) j) :=
  shapeCast_apply x h _ (ix2 (0 : Fin 1) j) (by rw [Shape.rowMajor_val_one, Shape.rowMajor_val_two]; simp)

/-- Row `l` of a 3 x 128 stack, sliced off as a 1 x 128 row, at `(0, j)`. -/
theorem slice_row (l : Nat) (hl : l < 3) (hs : T3R.Slices ![l, 0] TR) (x : T3R.Idx → α) (j : Fin 128) :
    extractStridedSlice TR ![l, 0] x hs (ix2 (0 : Fin 1) j) = x (ix2 (⟨l, hl⟩ : Fin 3) j) :=
  extractStridedSlice_apply ![l, 0] x hs _ (ix2 (⟨l, hl⟩ : Fin 3) j)
    (fun a => by match a with | ⟨0, _⟩ => rfl | ⟨1, _⟩ => exact (Nat.zero_add _).symm)

/-- Matrix `l` of a 3 x 128 x 128 stack, sliced off as 1 x 128 x 128, at `(0, k, j)`. -/
theorem slice_mat (l : Nat) (hl : l < 3) (hs : T3W.Slices ![l, 0, 0] T1W) (x : T3W.Idx → α) (k j : Fin 128) :
    extractStridedSlice T1W ![l, 0, 0] x hs (ix3 (0 : Fin 1) k j) = x (ix3 (⟨l, hl⟩ : Fin 3) k j) :=
  extractStridedSlice_apply ![l, 0, 0] x hs _ (ix3 (⟨l, hl⟩ : Fin 3) k j)
    (fun a => by
      match a with
      | ⟨0, _⟩ => rfl
      | ⟨1, _⟩ => exact (Nat.zero_add _).symm
      | ⟨2, _⟩ => exact (Nat.zero_add _).symm)

/-- A 1 x 128 x 128 block recast as a 128 x 128 matrix, at `(k, j)`. -/
theorem cast_mat (h : T1W.ShapeCasts TW) (x : T1W.Idx → α) (k j : Fin 128) :
    shapeCast TW x h (ix2 k j) = x (ix3 (0 : Fin 1) k j) :=
  shapeCast_apply x h _ (ix3 (0 : Fin 1) k j) (by rw [Shape.rowMajor_val_three, Shape.rowMajor_val_two]; simp)

end Layout

/-! ## The precomputed scale and shift rows, at a column -/

/-- A scalar broadcast to a 1 x 128 row, at `(0, j)`. -/
theorem bcast_scalar_row' {α : Type} (hb : T0.BroadcastsInDim TR ![]) (x : T0.Idx → α) (j : Fin 128) :
    broadcastInDim TR ![] hb x (ix2 (0 : Fin 1) j) = x ix0 :=
  broadcastInDim_apply ![] hb x _ ix0 (fun a => a.elim0)

/-- The scale row `g · rsqrt (max v 0 + eps)` at column `j`. -/
theorem scale_apply (hb : T0.BroadcastsInDim TR ![]) (grow vrow : FVec Ideal TR .f32) (j : Fin 128) :
    mulf grow (Host.rsqrt (addf (maximumf vrow (broadcastInDim TR ![] hb (constant (F := Ideal) T0 .f32 0x00000000#32)))
        (broadcastInDim TR ![] hb (constant (F := Ideal) T0 .f32 0x3727C5AC#32)))) (ix2 (0 : Fin 1) j)
      = grow (ix2 (0 : Fin 1) j) * Ideal.rsqrt (max (vrow (ix2 (0 : Fin 1) j)) (Ideal.ofBits .f32 0x00000000#32)
          + Ideal.ofBits .f32 0x3727C5AC#32) := by
  rw [mulf_apply]
  show grow (ix2 (0 : Fin 1) j) * Ideal.rsqrt (max (vrow (ix2 (0 : Fin 1) j))
      (broadcastInDim TR ![] hb (constant (F := Ideal) T0 .f32 0x00000000#32) (ix2 (0 : Fin 1) j))
      + broadcastInDim TR ![] hb (constant (F := Ideal) T0 .f32 0x3727C5AC#32) (ix2 (0 : Fin 1) j)) = _
  rw [bcast_scalar_row', bcast_scalar_row']
  rfl

/-- The shift row `be − mu · scale` at column `j`. -/
theorem shift_apply (brow murow scale : FVec Ideal TR .f32) (j : Fin 128) :
    subf brow (mulf murow scale) (ix2 (0 : Fin 1) j)
      = brow (ix2 (0 : Fin 1) j) - murow (ix2 (0 : Fin 1) j) * scale (ix2 (0 : Fin 1) j) := rfl

/-! ## A whole layer's closing step on reals -/

/-- For a real pre-activation `p`, real rows `g, be` and a positive real `e`: the affine-then-clamp form with the
    precomputed scale and shift is the normalise-then-clamp form, entry by entry, and the common value is real. -/
theorem layer_close {p : Fin 50000 → Fin 128 → EReal} (hp : ∀ i j, ∃ r : ℝ, p i j = (r : EReal))
    {g be : Fin 128 → EReal} (hg : ∀ j, ∃ r : ℝ, g j = (r : EReal)) (hbe : ∀ j, ∃ r : ℝ, be j = (r : EReal))
    {e : ℝ} (he : 0 < e) (i : Fin 50000) (j : Fin 128) :
    affineRelu p (fun j => g j * Ideal.rsqrt (max (colVar p j) 0 + (e : EReal)))
        (fun j => be j - colMean p j * (g j * Ideal.rsqrt (max (colVar p j) 0 + (e : EReal)))) i j
      = max (g j * (p i j - colMean p j) * Ideal.rsqrt (colVar p j + (e : EReal)) + be j) 0
    ∧ ∃ r : ℝ, max (g j * (p i j - colMean p j) * Ideal.rsqrt (colVar p j + (e : EReal)) + be j) 0 = (r : EReal) := by
  obtain ⟨x, hx⟩ := hp i j
  obtain ⟨μ, hμ⟩ := colMean_real hp j
  obtain ⟨v, hv, hv'⟩ := colVar_real_nonneg hp j
  obtain ⟨γ, hγ⟩ := hg j
  obtain ⟨β, hβ⟩ := hbe j
  show max (p i j * (g j * Ideal.rsqrt (max (colVar p j) 0 + (e : EReal)))
      + (be j - colMean p j * (g j * Ideal.rsqrt (max (colVar p j) 0 + (e : EReal))))) 0 = _ ∧ _
  rw [hx, hμ, hv', hγ, hβ]
  exact close_eq x μ v γ β e hv he

end Cert.Sage

end
-- ==== Proof.LibDotRows.lean ====
/-
  A host matrix product read at an entry, for any extents.
-/
import Idealize.ShloMosaic.PureOps.Ideal.Laws
import Idealize.ShloMosaic.Lib.ValueIdx

noncomputable section

open scoped BigOperators

open Idealize.ShloMosaic Idealize.ShloMosaic.ValueIdx

namespace Cert.DotRows

/-- The host's product of an `M × K` by a `K × N` matrix at the exact instance, read at `(i, j)`: the sum over the
    contracted position `l` of `A (i, l) · B (l, j)`. The four hypotheses say which coordinate of each operand index is
    the row, the column and the contracted position; at a literal record each holds by computation. -/
theorem dotGeneral_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    Host.dotGeneral d none A B (ix2 i j) = ∑ l : Fin K, A (ix2 i l) * B (ix2 l j) := by
  show FloatOps.dotGeneral d none .single A B (ix2 i j) = _
  rw [Ideal.dotGeneral_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

end Cert.DotRows

end
-- ==== Proof.LayerAgree.lean ====
/-
  One layer, both ways, from the same real inputs: the two outputs are the same array, with real entries.

  Both programs form the same pre-activation (a `lin` of the same real inputs), hence the same column mean and
  variance. One then applies a precomputed scale `g · rsqrt (max v 0 + eps)` and shift `be − mu · scale` and clamps
  at zero; the other normalises, scales, shifts and clamps. On reals these agree (Rows.lean `layer_close`).
-/
import Idealize.ShloMosaic.PureOps.Ideal
import Idealize.ShloMosaic.Lib.ValueIdx
import proofs.«108877_j73624329388567_2_alg».proof.Proof.Spec
import proofs.«108877_j73624329388567_2_alg».proof.Proof.Consts
import proofs.«108877_j73624329388567_2_alg».proof.Proof.Algebra
import proofs.«108877_j73624329388567_2_alg».proof.Proof.Rows

noncomputable section

open scoped BigOperators

namespace Cert.Sage

open Idealize.ShloMosaic Idealize.ShloMosaic.ValueIdx

/-- A 50000 x 128 array as a function of its two coordinates. -/
def curry2 (A : (⟨2, ![50000, 128]⟩ : Shape).Idx → EReal) : Fin 50000 → Fin 128 → EReal := fun i j => A (ix2 i j)

theorem curry2_real {A : (⟨2, ![50000, 128]⟩ : Shape).Idx → EReal} (hA : IsReal A) (i : Fin 50000) (j : Fin 128) :
    ∃ r : ℝ, curry2 A i j = (r : EReal) := hA _

/-- Two 50000 x 128 arrays that agree at every `(i, j)` are equal. -/
theorem array_ext {α : Type} {A B : (⟨2, ![50000, 128]⟩ : Shape).Idx → α} (h : ∀ (i : Fin 50000) (j : Fin 128), A (ix2 i j) = B (ix2 i j)) :
    A = B := by
  funext idx
  rw [eq_ix2 idx]
  exact h _ _

/-- A 50000 x 128 array all of whose `(i, j)` entries are real has real entries. -/
theorem isReal_of_entries {A : (⟨2, ![50000, 128]⟩ : Shape).Idx → EReal}
    (h : ∀ (i : Fin 50000) (j : Fin 128), ∃ r : ℝ, A (ix2 i j) = (r : EReal)) : IsReal A := by
  intro idx
  rw [eq_ix2 idx]
  exact h _ _

/-- ONE LAYER, BOTH WAYS. `H` the layer's input features, `MN` the neighbourhood means, real; real weights and rows;
    `PK`, `PR` the two programs' pre-activation arrays; `s`, `t` the precomputed scale and shift rows; `OK`, `OR` the
    two programs' outputs. Then `OK = OR`, with real entries. -/
theorem layer_agree
    (H MN : (⟨2, ![50000, 128]⟩ : Shape).Idx → EReal) (hH : IsReal H) (hMN : IsReal MN)
    (wl wr : Fin 128 → Fin 128 → EReal) (b g be : Fin 128 → EReal)
    (hwl : ∀ k j, ∃ r : ℝ, wl k j = (r : EReal)) (hwr : ∀ k j, ∃ r : ℝ, wr k j = (r : EReal))
    (hb : ∀ j, ∃ r : ℝ, b j = (r : EReal)) (hg : ∀ j, ∃ r : ℝ, g j = (r : EReal)) (hbe : ∀ j, ∃ r : ℝ, be j = (r : EReal))
    (PK PR : (⟨2, ![50000, 128]⟩ : Shape).Idx → EReal)
    (hPK : ∀ i j, PK (ix2 i j) = lin (curry2 MN) (curry2 H) wl wr b i j)
    (hPR : ∀ i j, PR (ix2 i j) = lin (curry2 MN) (curry2 H) wl wr b i j)
    (s t : Fin 128 → EReal) (OK OR : (⟨2, ![50000, 128]⟩ : Shape).Idx → EReal)
    (hs : ∀ j, s j = g j * Ideal.rsqrt (max (colVar (curry2 PK) j) (Ideal.ofBits .f32 0x00000000#32)
        + Ideal.ofBits .f32 0x3727C5AC#32))
    (ht : ∀ j, t j = be j - colMean (curry2 PK) j * s j)
    (hOK : ∀ i j, OK (ix2 i j) = affineRelu (curry2 PK) s t i j)
    (hOR : ∀ i j, OR (ix2 i j) = max (g j * (PR (ix2 i j) - colMean (curry2 PR) j)
        * Ideal.rsqrt (colVar (curry2 PR) j + Ideal.ofBits .f32 0x3727C5AC#32) + be j) (Ideal.ofBits .f32 0x00000000#32)) :
    OK = OR ∧ IsReal OK := by
  obtain ⟨e, he, hee⟩ := Consts.ofBits_eps
  have hPeq : PK = PR := array_ext fun i j => (hPK i j).trans (hPR i j).symm
  subst hPeq
  have hPreal : ∀ i j, ∃ r : ℝ, curry2 PK i j = (r : EReal) := fun i j => by
    show ∃ r : ℝ, PK (ix2 i j) = (r : EReal)
    rw [hPK]
    exact lin_real (curry2_real hMN) (curry2_real hH) hwl hwr hb i j
  have key : ∀ i j, OK (ix2 i j) = OR (ix2 i j) ∧ ∃ r : ℝ, OK (ix2 i j) = (r : EReal) := by
    intro i j
    have hc := layer_close hPreal hg hbe he i j
    have hs' : s = fun j => g j * Ideal.rsqrt (max (colVar (curry2 PK) j) 0 + (e : EReal)) := by
      funext j; rw [hs j, Consts.ofBits_zero, hee]
    have ht' : t = fun j => be j - colMean (curry2 PK) j * (g j * Ideal.rsqrt (max (colVar (curry2 PK) j) 0 + (e : EReal))) := by
      funext j; rw [ht j, hs']
    rw [hOK i j, hOR i j, hs', ht', Consts.ofBits_zero, hee]
    exact ⟨hc.1, by rw [hc.1]; exact hc.2⟩
  exact ⟨array_ext fun i j => (key i j).1, isReal_of_entries fun i j => (key i j).2⟩

end Cert.Sage

end
-- ==== Proof.Pre.lean ====
/-
  The pre-activation as the host spells it — two matrix products, their sum, the bias row repeated down the rows —
  read at an entry: it is `lin`.
-/
import Idealize.ShloMosaic.PureOps.Ideal.Laws
import Idealize.ShloMosaic.Lib.ValueIdx
import Idealize.ShloMosaic.Lib.Pipeline.Value
import proofs.«108877_j73624329388567_2_alg».proof.Proof.LibDotRows
import proofs.«108877_j73624329388567_2_alg».proof.Proof.Closure
import proofs.«108877_j73624329388567_2_alg».proof.Proof.LayerAgree

noncomputable section

open scoped BigOperators

namespace Cert.Sage

open Idealize.ShloMosaic Idealize.ShloMosaic.ValueIdx

/-- `mn · wl + h · wr + b`, the host's way, at entry `(i, j)`. -/
theorem pre_apply (d : DotDims SN ⟨2, ![128, 128]⟩ SN)
    (hr : d.contr.rank = 1) (hs : d.contr.size ⟨0, by omega⟩ = 128)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (hb1 : SV.BroadcastsInDim SR ![1]) (hb3 : SR.BroadcastsInDim SN ![0, 1])
    (mn h : FVec Ideal SN .f32) (wl wr : FVec Ideal ⟨2, ![128, 128]⟩ .f32) (b : FVec Ideal SV .f32)
    (i : Fin 50000) (j : Fin 128) :
    addf (addf (Host.dotGeneral d none mn wl) (Host.dotGeneral d none h wr))
        (broadcastInDim SN ![0, 1] hb3 (broadcastInDim SR ![1] hb1 b)) (ix2 i j)
      = lin (curry2 mn) (curry2 h) (fun k j => wl (ix2 k j)) (fun k j => wr (ix2 k j)) (fun j => b (ix1 j)) i j := by
  rw [addf_apply, addf_apply, vec_all,
    Cert.DotRows.dotGeneral_apply d hr hs hl0 hl1 hr0 hr1, Cert.DotRows.dotGeneral_apply d hr hs hl0 hl1 hr0 hr1]
  rfl

end Cert.Sage

end
-- ==== Proof.RefRead.lean ====
/-
  The reference's layer read at an entry.

  The pre-activation at row i, column j is the specification's affine form of the neighbourhood means and the
  features; the whole layer at (i, j) is the clamp at zero of gamma times the centred pre-activation times the
  reciprocal root of (column variance + epsilon), plus beta, with the column mean and variance those of the
  pre-activation array. The per-layer weights and rows are entries of the stacked parameters. The neighbourhood
  mean of an array of reals is an array of reals, and so are the slices of real stacks.
-/
import proofs.«108877_j73624329388567_2_alg».proof.Proof.RefRun
import proofs.«108877_j73624329388567_2_alg».proof.Proof.OpsReal
import proofs.«108877_j73624329388567_2_alg».proof.Proof.Closure
import proofs.«108877_j73624329388567_2_alg».proof.Proof.Rows
import proofs.«108877_j73624329388567_2_alg».proof.Proof.Pre
import proofs.«108877_j73624329388567_2_alg».proof.Proof.LayerAgree

noncomputable section

open scoped BigOperators

namespace Cert.ReferenceIdeal.RefRead

open Cert.ReferenceIdeal Cert.ReferenceIdeal.Gen Idealize.ShloMosaic Idealize.ShloMosaic.ValueIdx

/-- The arrays' types at the extended reals. -/
abbrev Mat : Type := (⟨S50000x128, .f32⟩ : BufTy).Contents (Elt Ideal)
abbrev Edges : Type := (⟨S2x800000, .i32⟩ : BufTy).Contents (Elt Ideal)
abbrev Wt : Type := (⟨S128x128, .f32⟩ : BufTy).Contents (Elt Ideal)
abbrev Vec : Type := (⟨S128, .f32⟩ : BufTy).Contents (Elt Ideal)
abbrev Wt3 : Type := (⟨S3x128x128, .f32⟩ : BufTy).Contents (Elt Ideal)
abbrev Vec3 : Type := (⟨S3x128, .f32⟩ : BufTy).Contents (Elt Ideal)

/-! ## The pre-activation at an entry -/

theorem pre_read (mn h : Mat) (wl wr : Wt) (b : Vec) (i : Fin 50000) (j : Fin 128) :
    RefRun.pre mn h wl wr b (ix2 i j)
      = Cert.Sage.lin (Cert.Sage.curry2 mn) (Cert.Sage.curry2 h) (fun k j => wl (ix2 k j)) (fun k j => wr (ix2 k j))
          (fun j => b (ix1 j)) i j := by
  unfold RefRun.pre
  exact Cert.Sage.pre_apply dot_S50000x128_S128x128_S50000x128_1_0_0_1_n_n rfl rfl (fun _ _ => rfl) (fun _ _ => rfl)
    (fun _ _ => rfl) (fun _ _ => rfl) bcast_S128_S1x128_1 bcast_S1x128_S50000x128_0_1 mn h wl wr b i j

/-! ## The column mean and variance at a column -/

theorem mean_read (p : Mat) (j : Fin 128) : RefRun.mean p (ix1 j) = Cert.Sage.colMean (Cert.Sage.curry2 p) j := by
  unfold RefRun.mean
  exact Cert.Sage.mean_apply reducesTo_S50000x128_S128_d0 h_S_ bcast_S_S128 p j

theorem var_read (p : Mat) (j : Fin 128) : RefRun.var p (ix1 j) = Cert.Sage.colVar (Cert.Sage.curry2 p) j := by
  unfold RefRun.var
  exact Cert.Sage.var_apply reducesTo_S50000x128_S128_d0 h_S_ bcast_S128_S1x128_1 bcast_S_S1x128 bcast_S1x128_S50000x128_0_1
    bcast_S_S128 p _ j

/-! ## The whole layer at an entry -/

theorem close_read (p : Mat) (mu v g be : Vec) (i : Fin 50000) (j : Fin 128) :
    RefRun.close p mu v g be (ix2 i j)
      = max (g (ix1 j) * (p (ix2 i j) - mu (ix1 j)) * Ideal.rsqrt (v (ix1 j) + Ideal.ofBits .f32 0x3727C5AC#32) + be (ix1 j))
          (Ideal.ofBits .f32 0x00000000#32) := by
  unfold RefRun.close
  exact Cert.Sage.normclamp_apply bcast_S128_S1x128_1 bcast_S1x128_S50000x128_0_1 bcast_S_S128 bcast_S_S50000x128 p mu v g be i j

theorem layer_read (h : Mat) (ei : Edges) (wl wr : Wt) (b g be : Vec) (i : Fin 50000) (j : Fin 128) :
    RefRun.layer h ei wl wr b g be (ix2 i j)
      = max (g (ix1 j) * (RefRun.pre (RefRun.agg h ei) h wl wr b (ix2 i j) - Cert.Sage.colMean (Cert.Sage.curry2 (RefRun.pre (RefRun.agg h ei) h wl wr b)) j)
            * Ideal.rsqrt (Cert.Sage.colVar (Cert.Sage.curry2 (RefRun.pre (RefRun.agg h ei) h wl wr b)) j + Ideal.ofBits .f32 0x3727C5AC#32) + be (ix1 j))
          (Ideal.ofBits .f32 0x00000000#32) := by
  unfold RefRun.layer
  generalize RefRun.pre (RefRun.agg h ei) h wl wr b = P
  rw [close_read, mean_read, var_read]

/-! ## The per-layer weights and rows are entries of the stacks -/

theorem wl0_read (W : Wt3) (k j : Fin 128) : RefRun.wl0 W (ix2 k j) = W (ix3 (0 : Fin 3) k j) := by
  unfold RefRun.wl0; beta_reduce
  exact (Cert.Sage.cast_mat _ _ k j).trans (Cert.Sage.slice_mat 0 (by decide) _ W k j)

theorem wl1_read (W : Wt3) (k j : Fin 128) : RefRun.wl1 W (ix2 k j) = W (ix3 (1 : Fin 3) k j) := by
  unfold RefRun.wl1; beta_reduce
  exact (Cert.Sage.cast_mat _ _ k j).trans (Cert.Sage.slice_mat 1 (by decide) _ W k j)

theorem wl2_read (W : Wt3) (k j : Fin 128) : RefRun.wl2 W (ix2 k j) = W (ix3 (2 : Fin 3) k j) := by
  unfold RefRun.wl2; beta_reduce
  exact (Cert.Sage.cast_mat _ _ k j).trans (Cert.Sage.slice_mat 2 (by decide) _ W k j)

theorem wr0_read (W : Wt3) (k j : Fin 128) : RefRun.wr0 W (ix2 k j) = W (ix3 (0 : Fin 3) k j) := by
  unfold RefRun.wr0; beta_reduce
  exact (Cert.Sage.cast_mat _ _ k j).trans (Cert.Sage.slice_mat 0 (by decide) _ W k j)

theorem wr1_read (W : Wt3) (k j : Fin 128) : RefRun.wr1 W (ix2 k j) = W (ix3 (1 : Fin 3) k j) := by
  unfold RefRun.wr1; beta_reduce
  exact (Cert.Sage.cast_mat _ _ k j).trans (Cert.Sage.slice_mat 1 (by decide) _ W k j)

theorem wr2_read (W : Wt3) (k j : Fin 128) : RefRun.wr2 W (ix2 k j) = W (ix3 (2 : Fin 3) k j) := by
  unfold RefRun.wr2; beta_reduce
  exact (Cert.Sage.cast_mat _ _ k j).trans (Cert.Sage.slice_mat 2 (by decide) _ W k j)

theorem b0_read (B : Vec3) (j : Fin 128) : RefRun.b0 B (ix1 j) = B (ix2 (0 : Fin 3) j) := by
  unfold RefRun.b0; beta_reduce
  exact (Cert.Sage.cast_row_vec _ _ j).trans (Cert.Sage.slice_row 0 (by decide) _ B j)

theorem b1_read (B : Vec3) (j : Fin 128) : RefRun.b1 B (ix1 j) = B (ix2 (1 : Fin 3) j) := by
  unfold RefRun.b1; beta_reduce
  exact (Cert.Sage.cast_row_vec _ _ j).trans (Cert.Sage.slice_row 1 (by decide) _ B j)

theorem b2_read (B : Vec3) (j : Fin 128) : RefRun.b2 B (ix1 j) = B (ix2 (2 : Fin 3) j) := by
  unfold RefRun.b2; beta_reduce
  exact (Cert.Sage.cast_row_vec _ _ j).trans (Cert.Sage.slice_row 2 (by decide) _ B j)

theorem g0_read (B : Vec3) (j : Fin 128) : RefRun.g0 B (ix1 j) = B (ix2 (0 : Fin 3) j) := by
  unfold RefRun.g0; beta_reduce
  exact (Cert.Sage.cast_row_vec _ _ j).trans (Cert.Sage.slice_row 0 (by decide) _ B j)

theorem g1_read (B : Vec3) (j : Fin 128) : RefRun.g1 B (ix1 j) = B (ix2 (1 : Fin 3) j) := by
  unfold RefRun.g1; beta_reduce
  exact (Cert.Sage.cast_row_vec _ _ j).trans (Cert.Sage.slice_row 1 (by decide) _ B j)

theorem g2_read (B : Vec3) (j : Fin 128) : RefRun.g2 B (ix1 j) = B (ix2 (2 : Fin 3) j) := by
  unfold RefRun.g2; beta_reduce
  exact (Cert.Sage.cast_row_vec _ _ j).trans (Cert.Sage.slice_row 2 (by decide) _ B j)

theorem be0_read (B : Vec3) (j : Fin 128) : RefRun.be0 B (ix1 j) = B (ix2 (0 : Fin 3) j) := by
  unfold RefRun.be0; beta_reduce
  exact (Cert.Sage.cast_row_vec _ _ j).trans (Cert.Sage.slice_row 0 (by decide) _ B j)

theorem be1_read (B : Vec3) (j : Fin 128) : RefRun.be1 B (ix1 j) = B (ix2 (1 : Fin 3) j) := by
  unfold RefRun.be1; beta_reduce
  exact (Cert.Sage.cast_row_vec _ _ j).trans (Cert.Sage.slice_row 1 (by decide) _ B j)

theorem be2_read (B : Vec3) (j : Fin 128) : RefRun.be2 B (ix1 j) = B (ix2 (2 : Fin 3) j) := by
  unfold RefRun.be2; beta_reduce
  exact (Cert.Sage.cast_row_vec _ _ j).trans (Cert.Sage.slice_row 2 (by decide) _ B j)

/-! ## Real entries -/

theorem wl0_isReal {W : Wt3} (hW : Cert.Sage.IsReal W) : Cert.Sage.IsReal (RefRun.wl0 W) := by
  unfold RefRun.wl0
  exact Cert.Sage.cast_isReal _ _ (Cert.Sage.slice_isReal _ _ _ hW)

theorem wl1_isReal {W : Wt3} (hW : Cert.Sage.IsReal W) : Cert.Sage.IsReal (RefRun.wl1 W) := by
  unfold RefRun.wl1
  exact Cert.Sage.cast_isReal _ _ (Cert.Sage.slice_isReal _ _ _ hW)

theorem wl2_isReal {W : Wt3} (hW : Cert.Sage.IsReal W) : Cert.Sage.IsReal (RefRun.wl2 W) := by
  unfold RefRun.wl2
  exact Cert.Sage.cast_isReal _ _ (Cert.Sage.slice_isReal _ _ _ hW)

theorem wr0_isReal {W : Wt3} (hW : Cert.Sage.IsReal W) : Cert.Sage.IsReal (RefRun.wr0 W) := by
  unfold RefRun.wr0
  exact Cert.Sage.cast_isReal _ _ (Cert.Sage.slice_isReal _ _ _ hW)

theorem wr1_isReal {W : Wt3} (hW : Cert.Sage.IsReal W) : Cert.Sage.IsReal (RefRun.wr1 W) := by
  unfold RefRun.wr1
  exact Cert.Sage.cast_isReal _ _ (Cert.Sage.slice_isReal _ _ _ hW)

theorem wr2_isReal {W : Wt3} (hW : Cert.Sage.IsReal W) : Cert.Sage.IsReal (RefRun.wr2 W) := by
  unfold RefRun.wr2
  exact Cert.Sage.cast_isReal _ _ (Cert.Sage.slice_isReal _ _ _ hW)

theorem b0_isReal {B : Vec3} (hB : Cert.Sage.IsReal B) : Cert.Sage.IsReal (RefRun.b0 B) := by
  unfold RefRun.b0
  exact Cert.Sage.cast_isReal _ _ (Cert.Sage.slice_isReal _ _ _ hB)

theorem b1_isReal {B : Vec3} (hB : Cert.Sage.IsReal B) : Cert.Sage.IsReal (RefRun.b1 B) := by
  unfold RefRun.b1
  exact Cert.Sage.cast_isReal _ _ (Cert.Sage.slice_isReal _ _ _ hB)

theorem b2_isReal {B : Vec3} (hB : Cert.Sage.IsReal B) : Cert.Sage.IsReal (RefRun.b2 B) := by
  unfold RefRun.b2
  exact Cert.Sage.cast_isReal _ _ (Cert.Sage.slice_isReal _ _ _ hB)

theorem g0_isReal {B : Vec3} (hB : Cert.Sage.IsReal B) : Cert.Sage.IsReal (RefRun.g0 B) := by
  unfold RefRun.g0
  exact Cert.Sage.cast_isReal _ _ (Cert.Sage.slice_isReal _ _ _ hB)

theorem g1_isReal {B : Vec3} (hB : Cert.Sage.IsReal B) : Cert.Sage.IsReal (RefRun.g1 B) := by
  unfold RefRun.g1
  exact Cert.Sage.cast_isReal _ _ (Cert.Sage.slice_isReal _ _ _ hB)

theorem g2_isReal {B : Vec3} (hB : Cert.Sage.IsReal B) : Cert.Sage.IsReal (RefRun.g2 B) := by
  unfold RefRun.g2
  exact Cert.Sage.cast_isReal _ _ (Cert.Sage.slice_isReal _ _ _ hB)

theorem be0_isReal {B : Vec3} (hB : Cert.Sage.IsReal B) : Cert.Sage.IsReal (RefRun.be0 B) := by
  unfold RefRun.be0
  exact Cert.Sage.cast_isReal _ _ (Cert.Sage.slice_isReal _ _ _ hB)

theorem be1_isReal {B : Vec3} (hB : Cert.Sage.IsReal B) : Cert.Sage.IsReal (RefRun.be1 B) := by
  unfold RefRun.be1
  exact Cert.Sage.cast_isReal _ _ (Cert.Sage.slice_isReal _ _ _ hB)

theorem be2_isReal {B : Vec3} (hB : Cert.Sage.IsReal B) : Cert.Sage.IsReal (RefRun.be2 B) := by
  unfold RefRun.be2
  exact Cert.Sage.cast_isReal _ _ (Cert.Sage.slice_isReal _ _ _ hB)

/-- The neighbourhood mean of an array of reals is an array of reals: the numerator is a zero array plus sums of
    gathered entries, the denominator a count clamped below at one. -/
theorem agg_isReal {h : Mat} (ei : Edges) (hh : Cert.Sage.IsReal h) : Cert.Sage.IsReal (RefRun.agg (F := Ideal) h ei) := by
  unfold RefRun.agg RefRun.aggR
  exact Cert.Sage.divf_isReal _ _
    (Cert.Sage.scatterAdd_isReal _ _ _ _ (Cert.Sage.bcast_isReal _ _ _ Cert.Sage.zeros_isReal) (Cert.Sage.gather_isReal _ _ _ hh))
    (Cert.Sage.bcast_isPosReal _ _ _ (Cert.Sage.bcast_isPosReal _ _ _ (Cert.Sage.max_one_isPosReal _ _
      (Cert.Sage.scatterAdd_isReal _ _ _ _ (Cert.Sage.bcast_isReal _ _ _ Cert.Sage.zeros_isReal)
        (Cert.Sage.bcast_isReal _ _ _ Cert.Sage.ones_isReal))
      (fun _ => Cert.Sage.Consts.ofBits_one))))

end Cert.ReferenceIdeal.RefRead

end
-- ==== Proof.Bridge.lean ====
/-
  From an array built the other way to the reference's layers.

  For each of the three layers: an array whose entries are the clamp of (affine pre-activation times a precomputed
  scale row plus a precomputed shift row), formed from real features, the reference's neighbourhood means of them and
  the layer's slices of real parameter stacks, equals the reference's layer applied to those features, and is real.
  Chained three times, the third such array is the reference's three layers applied to the input features.
-/
import proofs.«108877_j73624329388567_2_alg».proof.Proof.RefRead
import proofs.«108877_j73624329388567_2_alg».proof.Proof.LayerAgree

noncomputable section

open scoped BigOperators

namespace Cert.ReferenceIdeal.Bridge

open Cert.ReferenceIdeal Cert.ReferenceIdeal.Gen Cert.ReferenceIdeal.RefRead Idealize.ShloMosaic Idealize.ShloMosaic.ValueIdx

/-- Layer 1: an array built the other way from the same real inputs — the affine form of the same neighbourhood means
    and features with the first slices of the stacks, then scale, shift and clamp with the precomputed rows — is the
    reference's layer applied to those inputs, and has real entries. -/
theorem bridge0 (H : Mat) (hH : Cert.Sage.IsReal H) (ei : Edges) (W Wr : Wt3) (B G Be : Vec3)
    (hW : Cert.Sage.IsReal W) (hWr : Cert.Sage.IsReal Wr) (hB : Cert.Sage.IsReal B) (hG : Cert.Sage.IsReal G) (hBe : Cert.Sage.IsReal Be)
    (PK OK : Mat) (s t : Fin 128 → EReal)
    (hPK : ∀ i j, PK (ix2 i j) = Cert.Sage.lin (Cert.Sage.curry2 (RefRun.agg H ei)) (Cert.Sage.curry2 H) (fun k j => W (ix3 (0 : Fin 3) k j)) (fun k j => Wr (ix3 (0 : Fin 3) k j)) (fun j => B (ix2 (0 : Fin 3) j)) i j)
    (hs : ∀ j, s j = G (ix2 (0 : Fin 3) j) * Ideal.rsqrt (max (Cert.Sage.colVar (Cert.Sage.curry2 PK) j) (Ideal.ofBits .f32 0x00000000#32) + Ideal.ofBits .f32 0x3727C5AC#32))
    (ht : ∀ j, t j = Be (ix2 (0 : Fin 3) j) - Cert.Sage.colMean (Cert.Sage.curry2 PK) j * s j)
    (hOK : ∀ i j, OK (ix2 i j) = Cert.Sage.affineRelu (Cert.Sage.curry2 PK) s t i j) :
    OK = RefRun.layer H ei (RefRun.wl0 W) (RefRun.wr0 Wr) (RefRun.b0 B) (RefRun.g0 G) (RefRun.be0 Be) ∧ Cert.Sage.IsReal OK :=
  Cert.Sage.layer_agree H (RefRun.agg H ei) hH (agg_isReal ei hH)
    (fun k j => W (ix3 (0 : Fin 3) k j)) (fun k j => Wr (ix3 (0 : Fin 3) k j)) (fun j => B (ix2 (0 : Fin 3) j))
    (fun j => G (ix2 (0 : Fin 3) j)) (fun j => Be (ix2 (0 : Fin 3) j))
    (fun _ _ => hW _) (fun _ _ => hWr _) (fun _ => hB _) (fun _ => hG _) (fun _ => hBe _)
    PK (RefRun.pre (RefRun.agg H ei) H (RefRun.wl0 W) (RefRun.wr0 Wr) (RefRun.b0 B))
    hPK
    (fun i j => by rw [pre_read]; simp only [wl0_read, wr0_read, b0_read])
    s t OK (RefRun.layer H ei (RefRun.wl0 W) (RefRun.wr0 Wr) (RefRun.b0 B) (RefRun.g0 G) (RefRun.be0 Be))
    hs ht hOK
    (fun i j => by rw [layer_read, g0_read, be0_read])

/-- Layer 2: an array built the other way from the same real inputs — the affine form of the same neighbourhood means
    and features with the second slices of the stacks, then scale, shift and clamp with the precomputed rows — is the
    reference's layer applied to those inputs, and has real entries. -/
theorem bridge1 (H : Mat) (hH : Cert.Sage.IsReal H) (ei : Edges) (W Wr : Wt3) (B G Be : Vec3)
    (hW : Cert.Sage.IsReal W) (hWr : Cert.Sage.IsReal Wr) (hB : Cert.Sage.IsReal B) (hG : Cert.Sage.IsReal G) (hBe : Cert.Sage.IsReal Be)
    (PK OK : Mat) (s t : Fin 128 → EReal)
    (hPK : ∀ i j, PK (ix2 i j) = Cert.Sage.lin (Cert.Sage.curry2 (RefRun.agg H ei)) (Cert.Sage.curry2 H) (fun k j => W (ix3 (1 : Fin 3) k j)) (fun k j => Wr (ix3 (1 : Fin 3) k j)) (fun j => B (ix2 (1 : Fin 3) j)) i j)
    (hs : ∀ j, s j = G (ix2 (1 : Fin 3) j) * Ideal.rsqrt (max (Cert.Sage.colVar (Cert.Sage.curry2 PK) j) (Ideal.ofBits .f32 0x00000000#32) + Ideal.ofBits .f32 0x3727C5AC#32))
    (ht : ∀ j, t j = Be (ix2 (1 : Fin 3) j) - Cert.Sage.colMean (Cert.Sage.curry2 PK) j * s j)
    (hOK : ∀ i j, OK (ix2 i j) = Cert.Sage.affineRelu (Cert.Sage.curry2 PK) s t i j) :
    OK = RefRun.layer H ei (RefRun.wl1 W) (RefRun.wr1 Wr) (RefRun.b1 B) (RefRun.g1 G) (RefRun.be1 Be) ∧ Cert.Sage.IsReal OK :=
  Cert.Sage.layer_agree H (RefRun.agg H ei) hH (agg_isReal ei hH)
    (fun k j => W (ix3 (1 : Fin 3) k j)) (fun k j => Wr (ix3 (1 : Fin 3) k j)) (fun j => B (ix2 (1 : Fin 3) j))
    (fun j => G (ix2 (1 : Fin 3) j)) (fun j => Be (ix2 (1 : Fin 3) j))
    (fun _ _ => hW _) (fun _ _ => hWr _) (fun _ => hB _) (fun _ => hG _) (fun _ => hBe _)
    PK (RefRun.pre (RefRun.agg H ei) H (RefRun.wl1 W) (RefRun.wr1 Wr) (RefRun.b1 B))
    hPK
    (fun i j => by rw [pre_read]; simp only [wl1_read, wr1_read, b1_read])
    s t OK (RefRun.layer H ei (RefRun.wl1 W) (RefRun.wr1 Wr) (RefRun.b1 B) (RefRun.g1 G) (RefRun.be1 Be))
    hs ht hOK
    (fun i j => by rw [layer_read, g1_read, be1_read])

/-- Layer 3: an array built the other way from the same real inputs — the affine form of the same neighbourhood means
    and features with the third slices of the stacks, then scale, shift and clamp with the precomputed rows — is the
    reference's layer applied to those inputs, and has real entries. -/
theorem bridge2 (H : Mat) (hH : Cert.Sage.IsReal H) (ei : Edges) (W Wr : Wt3) (B G Be : Vec3)
    (hW : Cert.Sage.IsReal W) (hWr : Cert.Sage.IsReal Wr) (hB : Cert.Sage.IsReal B) (hG : Cert.Sage.IsReal G) (hBe : Cert.Sage.IsReal Be)
    (PK OK : Mat) (s t : Fin 128 → EReal)
    (hPK : ∀ i j, PK (ix2 i j) = Cert.Sage.lin (Cert.Sage.curry2 (RefRun.agg H ei)) (Cert.Sage.curry2 H) (fun k j => W (ix3 (2 : Fin 3) k j)) (fun k j => Wr (ix3 (2 : Fin 3) k j)) (fun j => B (ix2 (2 : Fin 3) j)) i j)
    (hs : ∀ j, s j = G (ix2 (2 : Fin 3) j) * Ideal.rsqrt (max (Cert.Sage.colVar (Cert.Sage.curry2 PK) j) (Ideal.ofBits .f32 0x00000000#32) + Ideal.ofBits .f32 0x3727C5AC#32))
    (ht : ∀ j, t j = Be (ix2 (2 : Fin 3) j) - Cert.Sage.colMean (Cert.Sage.curry2 PK) j * s j)
    (hOK : ∀ i j, OK (ix2 i j) = Cert.Sage.affineRelu (Cert.Sage.curry2 PK) s t i j) :
    OK = RefRun.layer H ei (RefRun.wl2 W) (RefRun.wr2 Wr) (RefRun.b2 B) (RefRun.g2 G) (RefRun.be2 Be) ∧ Cert.Sage.IsReal OK :=
  Cert.Sage.layer_agree H (RefRun.agg H ei) hH (agg_isReal ei hH)
    (fun k j => W (ix3 (2 : Fin 3) k j)) (fun k j => Wr (ix3 (2 : Fin 3) k j)) (fun j => B (ix2 (2 : Fin 3) j))
    (fun j => G (ix2 (2 : Fin 3) j)) (fun j => Be (ix2 (2 : Fin 3) j))
    (fun _ _ => hW _) (fun _ _ => hWr _) (fun _ => hB _) (fun _ => hG _) (fun _ => hBe _)
    PK (RefRun.pre (RefRun.agg H ei) H (RefRun.wl2 W) (RefRun.wr2 Wr) (RefRun.b2 B))
    hPK
    (fun i j => by rw [pre_read]; simp only [wl2_read, wr2_read, b2_read])
    s t OK (RefRun.layer H ei (RefRun.wl2 W) (RefRun.wr2 Wr) (RefRun.b2 B) (RefRun.g2 G) (RefRun.be2 Be))
    hs ht hOK
    (fun i j => by rw [layer_read, g2_read, be2_read])

/-- The three layers chained: the third array is the reference's three layers applied to the input features. -/
theorem three_layers (x : Mat) (hx : Cert.Sage.IsReal x) (ei : Edges) (W Wr : Wt3) (B G Be : Vec3)
    (hW : Cert.Sage.IsReal W) (hWr : Cert.Sage.IsReal Wr) (hB : Cert.Sage.IsReal B) (hG : Cert.Sage.IsReal G) (hBe : Cert.Sage.IsReal Be)
    (PK1 O1 PK2 O2 PK3 O3 : Mat) (s1 t1 s2 t2 s3 t3 : Fin 128 → EReal)
    (hPK1 : ∀ i j, PK1 (ix2 i j) = Cert.Sage.lin (Cert.Sage.curry2 (RefRun.agg x ei)) (Cert.Sage.curry2 x) (fun k j => W (ix3 (0 : Fin 3) k j)) (fun k j => Wr (ix3 (0 : Fin 3) k j)) (fun j => B (ix2 (0 : Fin 3) j)) i j)
    (hs1 : ∀ j, s1 j = G (ix2 (0 : Fin 3) j) * Ideal.rsqrt (max (Cert.Sage.colVar (Cert.Sage.curry2 PK1) j) (Ideal.ofBits .f32 0x00000000#32) + Ideal.ofBits .f32 0x3727C5AC#32))
    (ht1 : ∀ j, t1 j = Be (ix2 (0 : Fin 3) j) - Cert.Sage.colMean (Cert.Sage.curry2 PK1) j * s1 j)
    (hO1 : ∀ i j, O1 (ix2 i j) = Cert.Sage.affineRelu (Cert.Sage.curry2 PK1) s1 t1 i j)
    (hPK2 : ∀ i j, PK2 (ix2 i j) = Cert.Sage.lin (Cert.Sage.curry2 (RefRun.agg O1 ei)) (Cert.Sage.curry2 O1) (fun k j => W (ix3 (1 : Fin 3) k j)) (fun k j => Wr (ix3 (1 : Fin 3) k j)) (fun j => B (ix2 (1 : Fin 3) j)) i j)
    (hs2 : ∀ j, s2 j = G (ix2 (1 : Fin 3) j) * Ideal.rsqrt (max (Cert.Sage.colVar (Cert.Sage.curry2 PK2) j) (Ideal.ofBits .f32 0x00000000#32) + Ideal.ofBits .f32 0x3727C5AC#32))
    (ht2 : ∀ j, t2 j = Be (ix2 (1 : Fin 3) j) - Cert.Sage.colMean (Cert.Sage.curry2 PK2) j * s2 j)
    (hO2 : ∀ i j, O2 (ix2 i j) = Cert.Sage.affineRelu (Cert.Sage.curry2 PK2) s2 t2 i j)
    (hPK3 : ∀ i j, PK3 (ix2 i j) = Cert.Sage.lin (Cert.Sage.curry2 (RefRun.agg O2 ei)) (Cert.Sage.curry2 O2) (fun k j => W (ix3 (2 : Fin 3) k j)) (fun k j => Wr (ix3 (2 : Fin 3) k j)) (fun j => B (ix2 (2 : Fin 3) j)) i j)
    (hs3 : ∀ j, s3 j = G (ix2 (2 : Fin 3) j) * Ideal.rsqrt (max (Cert.Sage.colVar (Cert.Sage.curry2 PK3) j) (Ideal.ofBits .f32 0x00000000#32) + Ideal.ofBits .f32 0x3727C5AC#32))
    (ht3 : ∀ j, t3 j = Be (ix2 (2 : Fin 3) j) - Cert.Sage.colMean (Cert.Sage.curry2 PK3) j * s3 j)
    (hO3 : ∀ i j, O3 (ix2 i j) = Cert.Sage.affineRelu (Cert.Sage.curry2 PK3) s3 t3 i j) :
    O3 = RefRun.layer (RefRun.layer (RefRun.layer x ei (RefRun.wl0 W) (RefRun.wr0 Wr) (RefRun.b0 B) (RefRun.g0 G) (RefRun.be0 Be)) ei (RefRun.wl1 W) (RefRun.wr1 Wr) (RefRun.b1 B) (RefRun.g1 G) (RefRun.be1 Be)) ei (RefRun.wl2 W) (RefRun.wr2 Wr) (RefRun.b2 B) (RefRun.g2 G) (RefRun.be2 Be)
      ∧ Cert.Sage.IsReal O3 := by
  obtain ⟨e1, r1⟩ := bridge0 x hx ei W Wr B G Be hW hWr hB hG hBe PK1 O1 s1 t1 hPK1 hs1 ht1 hO1
  obtain ⟨e2, r2⟩ := bridge1 O1 r1 ei W Wr B G Be hW hWr hB hG hBe PK2 O2 s2 t2 hPK2 hs2 ht2 hO2
  obtain ⟨e3, r3⟩ := bridge2 O2 r2 ei W Wr B G Be hW hWr hB hG hBe PK3 O3 s3 t3 hPK3 hs3 ht3 hO3
  exact ⟨by rw [e3, e2, e1], r3⟩

end Cert.ReferenceIdeal.Bridge

end
-- ==== Proof.Finite.lean ====
/-
  The precondition read off: every float argument array has real entries.

  The precondition is the conjunction, over the six float argument arrays, of "every entry's absolute value is
  below plus infinity". On the extended reals `max x (−x) < ⊤` fails exactly at the two infinities, so it says that
  `x` is a real number.
-/
import Idealize.ShloMosaic.PureOps.Ideal
import Idealize.ShloMosaic.PureOps.Ideal.Laws
import Idealize.ShloMosaic.Lib.ValueIdx
import Idealize.ShloMosaic.Lib.ReduceAll
import proofs.«108877_j73624329388567_2_alg».proof.Pre_finite_inputs
import proofs.«108877_j73624329388567_2_alg».proof.Proof.Spec

noncomputable section

namespace Cert.Sage.Finite

open Idealize.ShloMosaic Idealize.ShloMosaic.ValueIdx Cert.Pre_finite_inputs

/-- The pattern of plus infinity denotes the top element. -/
theorem ofBits_inf : Ideal.ofBits .f32 0x7F800000#32 = (⊤ : EReal) := by
  simp [Ideal.ofBits, Ideal.ieee]

/-- An extended real whose absolute value is below the top element is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

variable [Cert.Pre_finite_inputs.Facts]

open Cert.Pre_finite_inputs.Facts

instance : Subsingleton S_.Idx := ⟨fun a b => funext fun d => d.elim0⟩

/-- One conjunct of the precondition: all entries of `x` have absolute value below plus infinity; so `x` has real entries. -/
theorem isReal_of_all {s : Shape} {axes : List (Fin s.rank)} (x : FVec Ideal s .f32) (hb : S_.BroadcastsInDim s ![])
    (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ix0 = 1#1) : Cert.Sage.IsReal x := by
  intro i
  have hi := Host.reduce_andi_all _ _ hr hu ix0 e i
  refine real_of_abs_lt_top (x i) ?_
  have hb' : broadcastInDim s ![] hb (constant (F := Ideal) S_ .f32 0x7F800000#32) i = (⊤ : EReal) := by
    unfold broadcastInDim
    rw [constant_apply, ofBits_inf]
  rw [cmpf_apply, Ideal.cmpf_def, hb'] at hi
  exact hi

/-- THE PRECONDITION READ OFF: the six float argument arrays have real entries. -/
theorem isReal_of_pre (a0 : FVec Ideal S50000x128 .f32) (a1 : IVec S2x800000 32) (a2 a3 : FVec Ideal S3x128x128 .f32)
    (a4 a5 a6 : FVec Ideal S3x128 .f32) (h : Cert.Pre_finite_inputs.fn (F := Ideal) a0 a1 a2 a3 a4 a5 a6 = fun _ => 1#1) :
    Cert.Sage.IsReal a0 ∧ Cert.Sage.IsReal a2 ∧ Cert.Sage.IsReal a3 ∧ Cert.Sage.IsReal a4 ∧ Cert.Sage.IsReal a5
      ∧ Cert.Sage.IsReal a6 := by
  have h0 := congrFun h ix0
  dsimp only [Cert.Pre_finite_inputs.fn, Cert.Pre_finite_inputs.fn_part1] at h0
  obtain ⟨h23, h27⟩ := IntOp.andi_eq_one.1 h0
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨isReal_of_all a0 _ _ _ h3, isReal_of_all a2 _ _ _ h7, isReal_of_all a3 _ _ _ h12,
    isReal_of_all a4 _ _ _ h17, isReal_of_all a5 _ _ _ h22, isReal_of_all a6 _ _ _ h27⟩

end Cert.Sage.Finite

end
-- ==== Proof.Persist.lean ====
/-
  What the first host stretch computes once — the two index rows and the degree column — and the argument arrays are
  written by no later host operation and are arrays of no region, so they read the same at every later boundary.
-/
import proofs.«108877_j73624329388567_2_alg».proof.Proof.Gen.KernelIdeal.Frame

set_option maxRecDepth 16384

noncomputable section

namespace Cert.KernelIdeal.Persist

open Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- `main_v1` at the exit of the second region is what it was after the first host stretch. -/
theorem W6_main_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- `main_v1` at the exit of the fourth region is what it was at the exit of the second. -/
theorem W12_main_v1 (c : Dev nD) : W12 m ρ c (Proc.devRef .tc main_v1) = W6 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := StableHlo.after_of_forall_not_mem (b := Proc.devRef .tc main_v1) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v1) := StableHlo.after_of_forall_not_mem (b := Proc.devRef .tc main_v1) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v1) := StableHlo.after_of_forall_not_mem (b := Proc.devRef .tc main_v1) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v3` at the exit of the second region is what it was after the first host stretch. -/
theorem W6_main_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- `main_v3` at the exit of the fourth region is what it was at the exit of the second. -/
theorem W12_main_v3 (c : Dev nD) : W12 m ρ c (Proc.devRef .tc main_v3) = W6 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := StableHlo.after_of_forall_not_mem (b := Proc.devRef .tc main_v3) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := StableHlo.after_of_forall_not_mem (b := Proc.devRef .tc main_v3) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v10` at the exit of the second region is what it was after the first host stretch. -/
theorem W6_main_v10 (c : Dev nD) : W6 m ρ c (Proc.devRef .tc main_v10) = W1 m ρ c (Proc.devRef .tc main_v10) :=
  calc W6 m ρ c (Proc.devRef .tc main_v10)
    _ = W5 m ρ c (Proc.devRef .tc main_v10) := W6_of_ne m ρ c main_v10 (by decide)
    _ = W4 m ρ c (Proc.devRef .tc main_v10) := StableHlo.after_of_forall_not_mem (b := Proc.devRef .tc main_v10) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v10) := StableHlo.after_of_forall_not_mem (b := Proc.devRef .tc main_v10) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v10) := StableHlo.after_of_forall_not_mem (b := Proc.devRef .tc main_v10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v10) := W2_of_ne m ρ c main_v10 (by decide)

/-- `main_v10` at the exit of the fourth region is what it was at the exit of the second. -/
theorem W12_main_v10 (c : Dev nD) : W12 m ρ c (Proc.devRef .tc main_v10) = W6 m ρ c (Proc.devRef .tc main_v10) :=
  calc W12 m ρ c (Proc.devRef .tc main_v10)
    _ = W11 m ρ c (Proc.devRef .tc main_v10) := W12_of_ne m ρ c main_v10 (by decide)
    _ = W10 m ρ c (Proc.devRef .tc main_v10) := StableHlo.after_of_forall_not_mem (b := Proc.devRef .tc main_v10) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v10) := StableHlo.after_of_forall_not_mem (b := Proc.devRef .tc main_v10) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v10) := StableHlo.after_of_forall_not_mem (b := Proc.devRef .tc main_v10) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v10) := W8_of_ne m ρ c main_v10 (by decide)
    _ = W6 m ρ c (Proc.devRef .tc main_v10) := StableHlo.after_of_forall_not_mem (b := Proc.devRef .tc main_v10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg1` at the exit of the second region is what it was after the first host stretch. -/
theorem W6_main_arg1 (c : Dev nD) : W6 m ρ c (Proc.devRef .tc main_arg1) = W1 m ρ c (Proc.devRef .tc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)

/-- `main_arg1` at the exit of the fourth region is what it was at the exit of the second. -/
theorem W12_main_arg1 (c : Dev nD) : W12 m ρ c (Proc.devRef .tc main_arg1) = W6 m ρ c (Proc.devRef .tc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := StableHlo.after_of_forall_not_mem (b := Proc.devRef .tc main_arg1) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg2` at the exit of the second region is what it was after the first host stretch. -/
theorem W6_main_arg2 (c : Dev nD) : W6 m ρ c (Proc.devRef .tc main_arg2) = W1 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)

/-- `main_arg2` at the exit of the fourth region is what it was at the exit of the second. -/
theorem W12_main_arg2 (c : Dev nD) : W12 m ρ c (Proc.devRef .tc main_arg2) = W6 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := StableHlo.after_of_forall_not_mem (b := Proc.devRef .tc main_arg2) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg3` at the exit of the second region is what it was after the first host stretch. -/
theorem W6_main_arg3 (c : Dev nD) : W6 m ρ c (Proc.devRef .tc main_arg3) = W1 m ρ c (Proc.devRef .tc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)

/-- `main_arg3` at the exit of the fourth region is what it was at the exit of the second. -/
theorem W12_main_arg3 (c : Dev nD) : W12 m ρ c (Proc.devRef .tc main_arg3) = W6 m ρ c (Proc.devRef .tc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := StableHlo.after_of_forall_not_mem (b := Proc.devRef .tc main_arg3) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg4` at the exit of the second region is what it was after the first host stretch. -/
theorem W6_main_arg4 (c : Dev nD) : W6 m ρ c (Proc.devRef .tc main_arg4) = W1 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)

/-- `main_arg4` at the exit of the fourth region is what it was at the exit of the second. -/
theorem W12_main_arg4 (c : Dev nD) : W12 m ρ c (Proc.devRef .tc main_arg4) = W6 m ρ c (Proc.devRef .tc main_arg4) :=
  calc W12 m ρ c (Proc.devRef .tc main_arg4)
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := StableHlo.after_of_forall_not_mem (b := Proc.devRef .tc main_arg4) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg5` at the exit of the second region is what it was after the first host stretch. -/
theorem W6_main_arg5 (c : Dev nD) : W6 m ρ c (Proc.devRef .tc main_arg5) = W1 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)

/-- `main_arg5` at the exit of the fourth region is what it was at the exit of the second. -/
theorem W12_main_arg5 (c : Dev nD) : W12 m ρ c (Proc.devRef .tc main_arg5) = W6 m ρ c (Proc.devRef .tc main_arg5) :=
  calc W12 m ρ c (Proc.devRef .tc main_arg5)
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg5) := StableHlo.after_of_forall_not_mem (b := Proc.devRef .tc main_arg5) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg6` at the exit of the second region is what it was after the first host stretch. -/
theorem W6_main_arg6 (c : Dev nD) : W6 m ρ c (Proc.devRef .tc main_arg6) = W1 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)

/-- `main_arg6` at the exit of the fourth region is what it was at the exit of the second. -/
theorem W12_main_arg6 (c : Dev nD) : W12 m ρ c (Proc.devRef .tc main_arg6) = W6 m ρ c (Proc.devRef .tc main_arg6) :=
  calc W12 m ρ c (Proc.devRef .tc main_arg6)
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg6) := StableHlo.after_of_forall_not_mem (b := Proc.devRef .tc main_arg6) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first host stretch writes no argument: `main_arg1` after it is as launched. -/
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The first host stretch writes no argument: `main_arg2` after it is as launched. -/
theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The first host stretch writes no argument: `main_arg3` after it is as launched. -/
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The first host stretch writes no argument: `main_arg4` after it is as launched. -/
theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The first host stretch writes no argument: `main_arg5` after it is as launched. -/
theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The first host stretch writes no argument: `main_arg6` after it is as launched. -/
theorem W1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

end Cert.KernelIdeal.Persist

end
-- ==== Proof.Early.lean ====
/-
  What the first host stretch leaves, at the exact instance: the two index rows sliced off the edge list, and the
  degree column — the number of edges arriving at each node, clamped below at one, laid out as a 50000 x 1 column.
-/
import proofs.«108877_j73624329388567_2_alg».proof.Proof.Gen.KernelIdeal.Frame
import proofs.«108877_j73624329388567_2_alg».proof.Proof.Gen.ReferenceIdeal
import proofs.«108877_j73624329388567_2_alg».proof.Proof.RefRun
import proofs.«108877_j73624329388567_2_alg».proof.Proof.Persist
import Idealize.ShloMosaic.Lib.StableHlo.Run
import Idealize.ShloMosaic.PureOps.Ideal
import Idealize.ShloMosaic.Lib.ValueIdx

set_option maxRecDepth 16384

noncomputable section

open Idealize.ShloMosaic Idealize.ShloMosaic.TcCoe

namespace Cert.SageEarly

open Cert.KernelIdeal Cert.KernelIdeal.Facts₀ Cert.KernelIdeal.Facts

variable (m : (ℓ : Loc nD τ sig) → Buf (Elt Ideal) ℓ) (ρ : Dev nD → PrngReg)

/-- The degree column of a row of target indices: one per arriving edge, summed per node, clamped below at one. -/
def degCol (dst : IVec S800000 32) : FVec Ideal S50000x1 .f32 :=
  broadcastInDim S50000x1 ![0] bcast_S50000_S50000x1_0
    (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

set_option maxHeartbeats 4000000 in
/-- The source-index row after the first host stretch. -/
theorem W1_main_v1 (c : Dev nD) : Gen.W1 m ρ c (Proc.devRef .tc main_v1)
    = Cert.ReferenceIdeal.RefRun.row0 (F := Ideal) (m ((c : Thread nD τ).loc main_arg1)) := by
  after_results_simp
  rfl

set_option maxHeartbeats 4000000 in
/-- The target-index row after the first host stretch. -/
theorem W1_main_v3 (c : Dev nD) : Gen.W1 m ρ c (Proc.devRef .tc main_v3)
    = Cert.ReferenceIdeal.RefRun.row1 (F := Ideal) (m ((c : Thread nD τ).loc main_arg1)) := by
  after_results_simp
  rfl

set_option maxHeartbeats 4000000 in
/-- The degree column after the first host stretch. -/
theorem W1_main_v10 (c : Dev nD) : Gen.W1 m ρ c (Proc.devRef .tc main_v10)
    = degCol (Cert.ReferenceIdeal.RefRun.row1 (F := Ideal) (m ((c : Thread nD τ).loc main_arg1))) := by
  after_results_simp
  rfl

/-! ## The same buffers at the later boundaries -/

theorem W6_main_v1 (c : Dev nD) : Gen.W6 m ρ c (Proc.devRef .tc main_v1) = Cert.ReferenceIdeal.RefRun.row0 (F := Ideal) (m ((c : Thread nD τ).loc main_arg1)) :=
  (Cert.KernelIdeal.Persist.W6_main_v1 m ρ c).trans (W1_main_v1 m ρ c)
theorem W6_main_v3 (c : Dev nD) : Gen.W6 m ρ c (Proc.devRef .tc main_v3) = Cert.ReferenceIdeal.RefRun.row1 (F := Ideal) (m ((c : Thread nD τ).loc main_arg1)) :=
  (Cert.KernelIdeal.Persist.W6_main_v3 m ρ c).trans (W1_main_v3 m ρ c)
theorem W6_main_v10 (c : Dev nD) : Gen.W6 m ρ c (Proc.devRef .tc main_v10) = degCol (Cert.ReferenceIdeal.RefRun.row1 (F := Ideal) (m ((c : Thread nD τ).loc main_arg1))) :=
  (Cert.KernelIdeal.Persist.W6_main_v10 m ρ c).trans (W1_main_v10 m ρ c)
theorem W6_main_arg1 (c : Dev nD) : Gen.W6 m ρ c (Proc.devRef .tc main_arg1) = m ((c : Thread nD τ).loc main_arg1) :=
  (Cert.KernelIdeal.Persist.W6_main_arg1 m ρ c).trans (Cert.KernelIdeal.Persist.W1_main_arg1 m ρ c)
theorem W6_main_arg2 (c : Dev nD) : Gen.W6 m ρ c (Proc.devRef .tc main_arg2) = m ((c : Thread nD τ).loc main_arg2) :=
  (Cert.KernelIdeal.Persist.W6_main_arg2 m ρ c).trans (Cert.KernelIdeal.Persist.W1_main_arg2 m ρ c)
theorem W6_main_arg3 (c : Dev nD) : Gen.W6 m ρ c (Proc.devRef .tc main_arg3) = m ((c : Thread nD τ).loc main_arg3) :=
  (Cert.KernelIdeal.Persist.W6_main_arg3 m ρ c).trans (Cert.KernelIdeal.Persist.W1_main_arg3 m ρ c)
theorem W6_main_arg4 (c : Dev nD) : Gen.W6 m ρ c (Proc.devRef .tc main_arg4) = m ((c : Thread nD τ).loc main_arg4) :=
  (Cert.KernelIdeal.Persist.W6_main_arg4 m ρ c).trans (Cert.KernelIdeal.Persist.W1_main_arg4 m ρ c)
theorem W6_main_arg5 (c : Dev nD) : Gen.W6 m ρ c (Proc.devRef .tc main_arg5) = m ((c : Thread nD τ).loc main_arg5) :=
  (Cert.KernelIdeal.Persist.W6_main_arg5 m ρ c).trans (Cert.KernelIdeal.Persist.W1_main_arg5 m ρ c)
theorem W6_main_arg6 (c : Dev nD) : Gen.W6 m ρ c (Proc.devRef .tc main_arg6) = m ((c : Thread nD τ).loc main_arg6) :=
  (Cert.KernelIdeal.Persist.W6_main_arg6 m ρ c).trans (Cert.KernelIdeal.Persist.W1_main_arg6 m ρ c)
theorem W12_main_v1 (c : Dev nD) : Gen.W12 m ρ c (Proc.devRef .tc main_v1) = Cert.ReferenceIdeal.RefRun.row0 (F := Ideal) (m ((c : Thread nD τ).loc main_arg1)) :=
  (Cert.KernelIdeal.Persist.W12_main_v1 m ρ c).trans (W6_main_v1 m ρ c)
theorem W12_main_v3 (c : Dev nD) : Gen.W12 m ρ c (Proc.devRef .tc main_v3) = Cert.ReferenceIdeal.RefRun.row1 (F := Ideal) (m ((c : Thread nD τ).loc main_arg1)) :=
  (Cert.KernelIdeal.Persist.W12_main_v3 m ρ c).trans (W6_main_v3 m ρ c)
theorem W12_main_v10 (c : Dev nD) : Gen.W12 m ρ c (Proc.devRef .tc main_v10) = degCol (Cert.ReferenceIdeal.RefRun.row1 (F := Ideal) (m ((c : Thread nD τ).loc main_arg1))) :=
  (Cert.KernelIdeal.Persist.W12_main_v10 m ρ c).trans (W6_main_v10 m ρ c)
theorem W12_main_arg1 (c : Dev nD) : Gen.W12 m ρ c (Proc.devRef .tc main_arg1) = m ((c : Thread nD τ).loc main_arg1) :=
  (Cert.KernelIdeal.Persist.W12_main_arg1 m ρ c).trans (W6_main_arg1 m ρ c)
theorem W12_main_arg2 (c : Dev nD) : Gen.W12 m ρ c (Proc.devRef .tc main_arg2) = m ((c : Thread nD τ).loc main_arg2) :=
  (Cert.KernelIdeal.Persist.W12_main_arg2 m ρ c).trans (W6_main_arg2 m ρ c)
theorem W12_main_arg3 (c : Dev nD) : Gen.W12 m ρ c (Proc.devRef .tc main_arg3) = m ((c : Thread nD τ).loc main_arg3) :=
  (Cert.KernelIdeal.Persist.W12_main_arg3 m ρ c).trans (W6_main_arg3 m ρ c)
theorem W12_main_arg4 (c : Dev nD) : Gen.W12 m ρ c (Proc.devRef .tc main_arg4) = m ((c : Thread nD τ).loc main_arg4) :=
  (Cert.KernelIdeal.Persist.W12_main_arg4 m ρ c).trans (W6_main_arg4 m ρ c)
theorem W12_main_arg5 (c : Dev nD) : Gen.W12 m ρ c (Proc.devRef .tc main_arg5) = m ((c : Thread nD τ).loc main_arg5) :=
  (Cert.KernelIdeal.Persist.W12_main_arg5 m ρ c).trans (W6_main_arg5 m ρ c)
theorem W12_main_arg6 (c : Dev nD) : Gen.W12 m ρ c (Proc.devRef .tc main_arg6) = m ((c : Thread nD τ).loc main_arg6) :=
  (Cert.KernelIdeal.Persist.W12_main_arg6 m ρ c).trans (W6_main_arg6 m ρ c)

end Cert.SageEarly

end
-- ==== Proof.RegionLin.lean ====
/-
  The linear region of a layer, read as one function of the arrays it finds.

  The region walks the 50000 x 128 arrays of neighbourhood means and of node features in 10 row blocks of 5000
  rows; at every block it sees the two whole 128 x 128 weight matrices and the whole 1 x 128 bias row, and writes
  back  (block of means) · Wl + (block of features) · Wr + bias,  each product accumulated from zero.  On the extended
  reals the narrowing of the operands is the identity and a product into a zero accumulator is the plain sum over
  the 128 contracted coordinates, so block t of the result is block t of ONE function of the array index, and the
  blocks tile the array: the array after the region is that function, whatever the buffers held at entry.
  The network has three such regions, one per layer; the three sections below differ only in the region's number.
-/
import proofs.«108877_j73624329388567_2_alg».proof.Proof.Gen.KernelIdeal.Frame
import proofs.«108877_j73624329388567_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionLin

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets of a whole-block access, as the constant function. -/
theorem zero_offsets : (![0, 0] : Fin 2 → Nat) = fun _ => 0 := funext fun a => by fin_cases a <;> rfl

/-- A 5000 x 128 block times a 128 x 128 matrix, accumulated from zero, read at row `p` and column `q`: the sum
    over the contracted coordinate of the products of the entries. -/
theorem product_at {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ =>
      exact (dot_S5000x128_S128x128_S5000x128_1_0_0_1_n_n.lhsIdx_val_of_single (cl := (1 : Fin 2)) rfl _ _).trans hk
  have hr : dot_S5000x128_S128x128_S5000x128_1_0_0_1_n_n.rhsIdx (ix2 p q)
      ((contrEquiv1 dot_S5000x128_S128x128_S5000x128_1_0_0_1_n_n 128 rfl rfl).symm k) = ix2 k q := by
    funext ax; apply Fin.ext
    match ax with
    | ⟨0, _⟩ =>
      exact (dot_S5000x128_S128x128_S5000x128_1_0_0_1_n_n.rhsIdx_val_of_single (cr := (0 : Fin 2)) rfl _ _).trans hk
    | ⟨1, _⟩ => simp [DotDims.rhsIdx, dot_S5000x128_S128x128_S5000x128_1_0_0_1_n_n]; rfl
  rw [hl, hr]

/-- The two sums and the bias entry, of five arrays read at the indices `e0 k` … `e4`, are the layer's pre-activation at
    the array index `k3`, when the left factors run along `k3`'s row, the right factors down `k3`'s column, and the
    bias entry is row 0 at `k3`'s column. -/
theorem linear_at_index (A0 A1 : S50000x128.Idx → EReal) (A2 A3 : S128x128.Idx → EReal) (A4 : S1x128.Idx → EReal)
    (k3 : S50000x128.Idx) (e0 e1 : Fin 128 → S50000x128.Idx) (e2 e3 : Fin 128 → S128x128.Idx) (e4 : S1x128.Idx)
    (h0 : ∀ k, e0 k = ix2 (k3 0) k) (h1 : ∀ k, e1 k = ix2 (k3 0) k)
    (h2 : ∀ k, e2 k = ix2 k (k3 1)) (h3 : ∀ k, e3 k = ix2 k (k3 1)) (h4 : e4 = ix2 (0 : Fin 1) (k3 1)) :
    (∑ k : Fin 128, A0 (e0 k) * A2 (e2 k)) + (∑ k : Fin 128, A1 (e1 k) * A3 (e3 k)) + A4 e4
      = Cert.Sage.lin (fun a k => A0 (ix2 a k)) (fun a k => A1 (ix2 a k)) (fun k b => A2 (ix2 k b)) (fun k b => A3 (ix2 k b))
          (fun b => A4 (ix2 (0 : Fin 1) b)) (k3 0) (k3 1) := by
  subst h4
  simp only [h0, h1, h2, h3]
  rfl

variable (V : (c : Dev nD) → (b : Ref sig .tc) → Buf (Elt Ideal) ((c : Thread nD τ).loc b))

/-! ## Region 0 -/

/-- The body's arithmetic at row `p`, column `q` of a block: the two products' sums over the 128 contracted
    coordinates, plus the bias row's entry of that column. -/
theorem linear_at0 (x0 x1 : Vec Ideal S5000x128 .f32) (x2 x3 : Vec Ideal S128x128 .f32) (x4 : Vec Ideal S1x128 .f32)
    (p : Fin 5000) (q : Fin 128) :
    k0_pay1 x0 x1 x2 x3 x4 (ix2 p q)
      = (∑ k : Fin 128, x0 (ix2 p k) * x2 (ix2 k q)) + (∑ k : Fin 128, x1 (ix2 p k) * x3 (ix2 k q))
        + x4 (ix2 (0 : Fin 1) q) := by
  unfold k0_pay1
  simp only [shapeCast_self]
  rw [addf_apply, addf_apply, broadcastTo_1b_ab_apply, product_at, product_at]
  rfl

/-- The array the region leaves, as a function of the array index: the layer's pre-activation of the array of
    neighbourhood means, the array of node features, the two weight matrices and the bias row, as the region finds them. -/
def linear0 (c : Dev nD) : S50000x128.Idx → EReal := fun i =>
  Cert.Sage.lin (fun a k => (V c (Pipeline.arrRef spec0 0) : S50000x128.Idx → EReal) (ix2 a k))
    (fun a k => (V c (Pipeline.arrRef spec0 1) : S50000x128.Idx → EReal) (ix2 a k))
    (fun k b => (V c (Pipeline.arrRef spec0 2) : S128x128.Idx → EReal) (ix2 k b))
    (fun k b => (V c (Pipeline.arrRef spec0 3) : S128x128.Idx → EReal) (ix2 k b))
    (fun b => (V c (Pipeline.arrRef spec0 4) : S1x128.Idx → EReal) (ix2 (0 : Fin 1) b)) (i 0) (i 1)

/-- Where each window's block sits at grid point `t`: the two row-blocked inputs' and the result's block is row block
    `t`, the weight matrices and the bias row are whole at every point (decided over the 10 points). -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block is some point's. -/
theorem block_onto0 : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of `linear0`. -/
theorem flushed_eq0 (c : Dev nD) (t : Fin cfg0.N) :
    (dat0 (F := Ideal) V c).flushed 5 t = ((cfg0.win 5).blk t).view.read (Elt Ideal) (linear0 V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := block_indices0 t
  funext j
  obtain ⟨p, q, rfl⟩ : ∃ (p : Fin 5000) (q : Fin 128), j = ix2 p q := ⟨j 0, j 1, eq_ix2 j⟩
  refine (linear_at0 _ _ _ _ _ p q).trans ?_
  refine linear_at_index (V c (Pipeline.arrRef spec0 0)) (V c (Pipeline.arrRef spec0 1)) (V c (Pipeline.arrRef spec0 2))
    (V c (Pipeline.arrRef spec0 3)) (V c (Pipeline.arrRef spec0 4))
    (((cfg0.win 5).blk t).view.emb (ix2 p q))
    (fun k => ((cfg0.win 0).blk t).view.emb (ix2 p k)) (fun k => ((cfg0.win 1).blk t).view.emb (ix2 p k))
    (fun k => ((cfg0.win 2).blk t).view.emb (ix2 k q)) (fun k => ((cfg0.win 3).blk t).view.emb (ix2 k q))
    (((cfg0.win 4).blk t).view.emb (ix2 (0 : Fin 1) q)) ?_ ?_ ?_ ?_ ?_
  · intro k; funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k; funext a; apply Fin.ext
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k; funext a; apply Fin.ext
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · intro k; funext a; apply Fin.ext
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · funext a; apply Fin.ext
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the array is in point `t`'s block iff each coordinate is in the block's range on its axis. -/
theorem mem_block0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- The ten row blocks cover the array. -/
theorem covered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := block_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The array after the region is `linear0`. -/
theorem final_array0 (c : Dev nD) : (dat0 (F := Ideal) V c).arrAt 5 cfg0.N = linear0 V c :=
  (dat0 (F := Ideal) V c).arrAt_eq_of_cover 5 (linear0 V c) (fun t _ => flushed_eq0 V c t) covered0

/-- The array after the region, at row `i` and column `j`: the pre-activation of a layer, of the arrays the region
    was entered with. -/
theorem lin_final0 (c : Dev nD) (i : Fin 50000) (j : Fin 128) :
    ((dat0 (F := Ideal) V c).arrAt 5 cfg0.N : S50000x128.Idx → EReal) (ix2 i j)
      = Cert.Sage.lin (fun a k => (V c (Pipeline.arrRef spec0 0) : S50000x128.Idx → EReal) (ix2 a k))
          (fun a k => (V c (Pipeline.arrRef spec0 1) : S50000x128.Idx → EReal) (ix2 a k))
          (fun k b => (V c (Pipeline.arrRef spec0 2) : S128x128.Idx → EReal) (ix2 k b))
          (fun k b => (V c (Pipeline.arrRef spec0 3) : S128x128.Idx → EReal) (ix2 k b))
          (fun b => (V c (Pipeline.arrRef spec0 4) : S1x128.Idx → EReal) (ix2 (0 : Fin 1) b)) i j := by
  rw [final_array0]
  rfl

/-! ## Region 2 -/

/-- The body's arithmetic at row `p`, column `q` of a block: the two products' sums over the 128 contracted
    coordinates, plus the bias row's entry of that column. -/
theorem linear_at2 (x0 x1 : Vec Ideal S5000x128 .f32) (x2 x3 : Vec Ideal S128x128 .f32) (x4 : Vec Ideal S1x128 .f32)
    (p : Fin 5000) (q : Fin 128) :
    k2_pay1 x0 x1 x2 x3 x4 (ix2 p q)
      = (∑ k : Fin 128, x0 (ix2 p k) * x2 (ix2 k q)) + (∑ k : Fin 128, x1 (ix2 p k) * x3 (ix2 k q))
        + x4 (ix2 (0 : Fin 1) q) := by
  unfold k2_pay1
  simp only [shapeCast_self]
  rw [addf_apply, addf_apply, broadcastTo_1b_ab_apply, product_at, product_at]
  rfl

/-- The array the region leaves, as a function of the array index: the layer's pre-activation of the array of
    neighbourhood means, the array of node features, the two weight matrices and the bias row, as the region finds them. -/
def linear2 (c : Dev nD) : S50000x128.Idx → EReal := fun i =>
  Cert.Sage.lin (fun a k => (V c (Pipeline.arrRef spec2 0) : S50000x128.Idx → EReal) (ix2 a k))
    (fun a k => (V c (Pipeline.arrRef spec2 1) : S50000x128.Idx → EReal) (ix2 a k))
    (fun k b => (V c (Pipeline.arrRef spec2 2) : S128x128.Idx → EReal) (ix2 k b))
    (fun k b => (V c (Pipeline.arrRef spec2 3) : S128x128.Idx → EReal) (ix2 k b))
    (fun b => (V c (Pipeline.arrRef spec2 4) : S1x128.Idx → EReal) (ix2 (0 : Fin 1) b)) (i 0) (i 1)

/-- Where each window's block sits at grid point `t`: the two row-blocked inputs' and the result's block is row block
    `t`, the weight matrices and the bias row are whole at every point (decided over the 10 points). -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every row block is some point's. -/
theorem block_onto2 : ∀ q0 : Fin 10, ∃ t : Fin cfg2.N, win2_5.index t = ![q0.val, 0] :=
  (by decide +kernel : ∀ q0 : Fin 10, ∃ t : Fin grid2.N, win2_5.index t = ![q0.val, 0])

/-- What point `t` writes back is block `t` of `linear2`. -/
theorem flushed_eq2 (c : Dev nD) (t : Fin cfg2.N) :
    (dat2 (F := Ideal) V c).flushed 5 t = ((cfg2.win 5).blk t).view.read (Elt Ideal) (linear2 V c) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := block_indices2 t
  funext j
  obtain ⟨p, q, rfl⟩ : ∃ (p : Fin 5000) (q : Fin 128), j = ix2 p q := ⟨j 0, j 1, eq_ix2 j⟩
  refine (linear_at2 _ _ _ _ _ p q).trans ?_
  refine linear_at_index (V c (Pipeline.arrRef spec2 0)) (V c (Pipeline.arrRef spec2 1)) (V c (Pipeline.arrRef spec2 2))
    (V c (Pipeline.arrRef spec2 3)) (V c (Pipeline.arrRef spec2 4))
    (((cfg2.win 5).blk t).view.emb (ix2 p q))
    (fun k => ((cfg2.win 0).blk t).view.emb (ix2 p k)) (fun k => ((cfg2.win 1).blk t).view.emb (ix2 p k))
    (fun k => ((cfg2.win 2).blk t).view.emb (ix2 k q)) (fun k => ((cfg2.win 3).blk t).view.emb (ix2 k q))
    (((cfg2.win 4).blk t).view.emb (ix2 (0 : Fin 1) q)) ?_ ?_ ?_ ?_ ?_
  · intro k; funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · intro k; funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  · intro k; funext a; apply Fin.ext
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  · intro k; funext a; apply Fin.ext
    match a with
    | ⟨0, _⟩ => show win2_3.index t (0 : Fin 2) * 128 + 1 * k.val = k.val; omega
    | ⟨1, _⟩ => show win2_3.index t (1 : Fin 2) * 128 + 1 * q.val = win2_5.index t (1 : Fin 2) * 128 + 1 * q.val; omega
  · funext a; apply Fin.ext
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega

/-- An index of the array is in point `t`'s block iff each coordinate is in the block's range on its axis. -/
theorem mem_block2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- The ten row blocks cover the array. -/
theorem covered2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := block_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The array after the region is `linear2`. -/
theorem final_array2 (c : Dev nD) : (dat2 (F := Ideal) V c).arrAt 5 cfg2.N = linear2 V c :=
  (dat2 (F := Ideal) V c).arrAt_eq_of_cover 5 (linear2 V c) (fun t _ => flushed_eq2 V c t) covered2

/-- The array after the region, at row `i` and column `j`: the pre-activation of a layer, of the arrays the region
    was entered with. -/
theorem lin_final2 (c : Dev nD) (i : Fin 50000) (j : Fin 128) :
    ((dat2 (F := Ideal) V c).arrAt 5 cfg2.N : S50000x128.Idx → EReal) (ix2 i j)
      = Cert.Sage.lin (fun a k => (V c (Pipeline.arrRef spec2 0) : S50000x128.Idx → EReal) (ix2 a k))
          (fun a k => (V c (Pipeline.arrRef spec2 1) : S50000x128.Idx → EReal) (ix2 a k))
          (fun k b => (V c (Pipeline.arrRef spec2 2) : S128x128.Idx → EReal) (ix2 k b))
          (fun k b => (V c (Pipeline.arrRef spec2 3) : S128x128.Idx → EReal) (ix2 k b))
          (fun b => (V c (Pipeline.arrRef spec2 4) : S1x128.Idx → EReal) (ix2 (0 : Fin 1) b)) i j := by
  rw [final_array2]
  rfl

/-! ## Region 4 -/

/-- The body's arithmetic at row `p`, column `q` of a block: the two products' sums over the 128 contracted
    coordinates, plus the bias row's entry of that column. -/
theorem linear_at4 (x0 x1 : Vec Ideal S5000x128 .f32) (x2 x3 : Vec Ideal S128x128 .f32) (x4 : Vec Ideal S1x128 .f32)
    (p : Fin 5000) (q : Fin 128) :
    k4_pay1 x0 x1 x2 x3 x4 (ix2 p q)
      = (∑ k : Fin 128, x0 (ix2 p k) * x2 (ix2 k q)) + (∑ k : Fin 128, x1 (ix2 p k) * x3 (ix2 k q))
        + x4 (ix2 (0 : Fin 1) q) := by
  unfold k4_pay1
  simp only [shapeCast_self]
  rw [addf_apply, addf_apply, broadcastTo_1b_ab_apply, product_at, product_at]
  rfl

/-- The array the region leaves, as a function of the array index: the layer's pre-activation of the array of
    neighbourhood means, the array of node features, the two weight matrices and the bias row, as the region finds them. -/
def linear4 (c : Dev nD) : S50000x128.Idx → EReal := fun i =>
  Cert.Sage.lin (fun a k => (V c (Pipeline.arrRef spec4 0) : S50000x128.Idx → EReal) (ix2 a k))
    (fun a k => (V c (Pipeline.arrRef spec4 1) : S50000x128.Idx → EReal) (ix2 a k))
    (fun k b => (V c (Pipeline.arrRef spec4 2) : S128x128.Idx → EReal) (ix2 k b))
    (fun k b => (V c (Pipeline.arrRef spec4 3) : S128x128.Idx → EReal) (ix2 k b))
    (fun b => (V c (Pipeline.arrRef spec4 4) : S1x128.Idx → EReal) (ix2 (0 : Fin 1) b)) (i 0) (i 1)

/-- Where each window's block sits at grid point `t`: the two row-blocked inputs' and the result's block is row block
    `t`, the weight matrices and the bias row are whole at every point (decided over the 10 points). -/
theorem block_indices4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Every row block is some point's. -/
theorem block_onto4 : ∀ q0 : Fin 10, ∃ t : Fin cfg4.N, win4_5.index t = ![q0.val, 0] :=
  (by decide +kernel : ∀ q0 : Fin 10, ∃ t : Fin grid4.N, win4_5.index t = ![q0.val, 0])

/-- What point `t` writes back is block `t` of `linear4`. -/
theorem flushed_eq4 (c : Dev nD) (t : Fin cfg4.N) :
    (dat4 (F := Ideal) V c).flushed 5 t = ((cfg4.win 5).blk t).view.read (Elt Ideal) (linear4 V c) := by
  show (cfg4.win 5).cut (grid4.coords t) ((dat4 V c).after 5 t) = _
  rw [after4_5]
  unfold out4_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := block_indices4 t
  funext j
  obtain ⟨p, q, rfl⟩ : ∃ (p : Fin 5000) (q : Fin 128), j = ix2 p q := ⟨j 0, j 1, eq_ix2 j⟩
  refine (linear_at4 _ _ _ _ _ p q).trans ?_
  refine linear_at_index (V c (Pipeline.arrRef spec4 0)) (V c (Pipeline.arrRef spec4 1)) (V c (Pipeline.arrRef spec4 2))
    (V c (Pipeline.arrRef spec4 3)) (V c (Pipeline.arrRef spec4 4))
    (((cfg4.win 5).blk t).view.emb (ix2 p q))
    (fun k => ((cfg4.win 0).blk t).view.emb (ix2 p k)) (fun k => ((cfg4.win 1).blk t).view.emb (ix2 p k))
    (fun k => ((cfg4.win 2).blk t).view.emb (ix2 k q)) (fun k => ((cfg4.win 3).blk t).view.emb (ix2 k q))
    (((cfg4.win 4).blk t).view.emb (ix2 (0 : Fin 1) q)) ?_ ?_ ?_ ?_ ?_
  · intro k; funext a; apply Fin.ext
    match a with
    | ⟨0, _⟩ => show win4_0.index t (0 : Fin 2) * 5000 + 1 * p.val = win4_5.index t (0 : Fin 2) * 5000 + 1 * p.val; omega
    | ⟨1, _⟩ => show win4_0.index t (1 : Fin 2) * 128 + 1 * k.val = k.val; omega
  · intro k; funext a; apply Fin.ext
    match a with
    | ⟨0, _⟩ => show win4_1.index t (0 : Fin 2) * 5000 + 1 * p.val = win4_5.index t (0 : Fin 2) * 5000 + 1 * p.val; omega
    | ⟨1, _⟩ => show win4_1.index t (1 : Fin 2) * 128 + 1 * k.val = k.val; omega
  · intro k; funext a; apply Fin.ext
    match a with
    | ⟨0, _⟩ => show win4_2.index t (0 : Fin 2) * 128 + 1 * k.val = k.val; omega
    | ⟨1, _⟩ => show win4_2.index t (1 : Fin 2) * 128 + 1 * q.val = win4_5.index t (1 : Fin 2) * 128 + 1 * q.val; omega
  · intro k; funext a; apply Fin.ext
    match a with
    | ⟨0, _⟩ => show win4_3.index t (0 : Fin 2) * 128 + 1 * k.val = k.val; omega
    | ⟨1, _⟩ => show win4_3.index t (1 : Fin 2) * 128 + 1 * q.val = win4_5.index t (1 : Fin 2) * 128 + 1 * q.val; omega
  · funext a; apply Fin.ext
    match a with
    | ⟨0, _⟩ => show win4_4.index t (0 : Fin 2) * 1 + 1 * 0 = 0; omega
    | ⟨1, _⟩ => show win4_4.index t (1 : Fin 2) * 128 + 1 * q.val = win4_5.index t (1 : Fin 2) * 128 + 1 * q.val; omega

/-- An index of the array is in point `t`'s block iff each coordinate is in the block's range on its axis. -/
theorem mem_block4 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole (Pipeline.arrRef spec4 5)).slice (win4_5.rect t)).set ↔ _
  rw [View.set_slice_whole, Rect.mem_set_unit]
  exact Iff.rfl

/-- The ten row blocks cover the array. -/
theorem covered4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := block_onto4 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_block4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The array after the region is `linear4`. -/
theorem final_array4 (c : Dev nD) : (dat4 (F := Ideal) V c).arrAt 5 cfg4.N = linear4 V c :=
  (dat4 (F := Ideal) V c).arrAt_eq_of_cover 5 (linear4 V c) (fun t _ => flushed_eq4 V c t) covered4

/-- The array after the region, at row `i` and column `j`: the pre-activation of a layer, of the arrays the region
    was entered with. -/
theorem lin_final4 (c : Dev nD) (i : Fin 50000) (j : Fin 128) :
    ((dat4 (F := Ideal) V c).arrAt 5 cfg4.N : S50000x128.Idx → EReal) (ix2 i j)
      = Cert.Sage.lin (fun a k => (V c (Pipeline.arrRef spec4 0) : S50000x128.Idx → EReal) (ix2 a k))
          (fun a k => (V c (Pipeline.arrRef spec4 1) : S50000x128.Idx → EReal) (ix2 a k))
          (fun k b => (V c (Pipeline.arrRef spec4 2) : S128x128.Idx → EReal) (ix2 k b))
          (fun k b => (V c (Pipeline.arrRef spec4 3) : S128x128.Idx → EReal) (ix2 k b))
          (fun b => (V c (Pipeline.arrRef spec4 4) : S1x128.Idx → EReal) (ix2 (0 : Fin 1) b)) i j := by
  rw [final_array4]
  rfl

end Cert.KernelIdeal.RegionLin

end
-- ==== Proof.RegionBn.lean ====
/-
  The closing region of a layer, read as one function of the arrays it finds.

  The region walks the 50000 x 128 pre-activation array in 10 row blocks of 5000 rows; at every block it sees
  the whole 1 x 128 scale row and the whole 1 x 128 shift row, and writes back, element by element,
  max (p * s + t) 0.  Since block t of the result depends only on block t of the pre-activation and on the two
  rows, every block written back is a block of ONE function of the array index, and the blocks tile the array:
  the array after the region is that function, whatever the buffers held when the region was entered.
  The network has three such regions, one per layer; the three sections below differ only in the region's number.
-/
import proofs.«108877_j73624329388567_2_alg».proof.Proof.Gen.KernelIdeal.Frame
import proofs.«108877_j73624329388567_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionBn

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets of a whole-block access, as the constant function. -/
theorem zero_offsets : (![0, 0] : Fin 2 → Nat) = fun _ => 0 := funext fun a => by fin_cases a <;> rfl

/-- The clamped affine form of three arrays read at indices `k0`, `k1`, `k2` is the closing step at the array index
    `k3`, when `k0` is `k3` and `k1`, `k2` are row 0 at `k3`'s column. -/
theorem closing_at (A0 : S50000x128.Idx → EReal) (A1 A2 : S1x128.Idx → EReal) (k0 k3 : S50000x128.Idx) (k1 k2 : S1x128.Idx)
    (h0 : k0 = ix2 (k3 0) (k3 1)) (h1 : k1 = ix2 (0 : Fin 1) (k3 1)) (h2 : k2 = ix2 (0 : Fin 1) (k3 1)) :
    max (A0 k0 * A1 k1 + A2 k2) 0
      = Cert.Sage.affineRelu (fun a b => A0 (ix2 a b)) (fun b => A1 (ix2 (0 : Fin 1) b)) (fun b => A2 (ix2 (0 : Fin 1) b)) (k3 0) (k3 1) := by
  subst h0 h1 h2
  rfl

variable (V : (c : Dev nD) → (b : Ref sig .tc) → Buf (Elt Ideal) ((c : Thread nD τ).loc b))

/-! ## Region 1 -/

/-- The body's arithmetic at row `p`, column `q` of a block: the block's element times the scale row's entry of
    that column, plus the shift row's entry, clamped below at zero. -/
theorem affine_clamp_at1 (x0 : Vec Ideal S5000x128 .f32) (x1 x2 : Vec Ideal S1x128 .f32) (p : Fin 5000) (q : Fin 128) :
    k1_pay1 x0 x1 x2 (ix2 p q) = max (x0 (ix2 p q) * x1 (ix2 (0 : Fin 1) q) + x2 (ix2 (0 : Fin 1) q)) 0 := by
  unfold k1_pay1
  simp only [shapeCast_self]
  rw [maximumf_apply, addf_apply, mulf_apply, broadcast_apply, broadcastTo_1b_ab_apply, broadcastTo_1b_ab_apply]
  show max _ (Ideal.ofBits .f32 0x00000000#32) = _
  rw [Ideal.ofBits_zero_f32]

/-- The array the region leaves, as a function of the array index: the layer's closing step of the pre-activation
    array and of the scale and shift rows, as the region finds them. -/
def closed1 (c : Dev nD) : S50000x128.Idx → EReal := fun i =>
  Cert.Sage.affineRelu (fun a b => (V c (Pipeline.arrRef spec1 0) : S50000x128.Idx → EReal) (ix2 a b))
    (fun b => (V c (Pipeline.arrRef spec1 1) : S1x128.Idx → EReal) (ix2 (0 : Fin 1) b))
    (fun b => (V c (Pipeline.arrRef spec1 2) : S1x128.Idx → EReal) (ix2 (0 : Fin 1) b)) (i 0) (i 1)

/-- Where each window's block sits at grid point `t`: the pre-activation's and the result's block is row block `t`,
    the scale and shift rows are the whole rows at every point (decided over the 10 points). -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem block_onto1 : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of `closed1`. -/
theorem flushed_eq1 (c : Dev nD) (t : Fin cfg1.N) :
    (dat1 (F := Ideal) V c).flushed 3 t = ((cfg1.win 3).blk t).view.read (Elt Ideal) (closed1 V c) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets]
  obtain ⟨e00, e01, e10, e11, e20, e21, e30, e31⟩ := block_indices1 t
  funext j
  obtain ⟨p, q, rfl⟩ : ∃ (p : Fin 5000) (q : Fin 128), j = ix2 p q := ⟨j 0, j 1, eq_ix2 j⟩
  refine (affine_clamp_at1 _ _ _ p q).trans ?_
  refine closing_at (V c (Pipeline.arrRef spec1 0)) (V c (Pipeline.arrRef spec1 1)) (V c (Pipeline.arrRef spec1 2))
    (((cfg1.win 0).blk t).view.emb (ix2 p q)) (((cfg1.win 3).blk t).view.emb (ix2 p q))
    (((cfg1.win 1).blk t).view.emb (ix2 (0 : Fin 1) q)) (((cfg1.win 2).blk t).view.emb (ix2 (0 : Fin 1) q)) ?_ ?_ ?_
  · funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  · funext a; apply Fin.ext
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  · funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the array is in point `t`'s block iff each coordinate is in the block's range on its axis. -/
theorem mem_block1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- The ten row blocks cover the array. -/
theorem covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := block_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The array after the region is `closed1`. -/
theorem final_array1 (c : Dev nD) : (dat1 (F := Ideal) V c).arrAt 3 cfg1.N = closed1 V c :=
  (dat1 (F := Ideal) V c).arrAt_eq_of_cover 3 (closed1 V c) (fun t _ => flushed_eq1 V c t) covered1

/-- The array after the region, at row `i` and column `j`: the closing step of a layer, of the pre-activation
    array and the scale and shift rows the region was entered with. -/
theorem bn_final1 (c : Dev nD) (i : Fin 50000) (j : Fin 128) :
    ((dat1 (F := Ideal) V c).arrAt 3 cfg1.N : S50000x128.Idx → EReal) (ix2 i j)
      = Cert.Sage.affineRelu (fun a b => (V c (Pipeline.arrRef spec1 0) : S50000x128.Idx → EReal) (ix2 a b))
          (fun b => (V c (Pipeline.arrRef spec1 1) : S1x128.Idx → EReal) (ix2 (0 : Fin 1) b))
          (fun b => (V c (Pipeline.arrRef spec1 2) : S1x128.Idx → EReal) (ix2 (0 : Fin 1) b)) i j := by
  rw [final_array1]
  rfl

/-! ## Region 3 -/

/-- The body's arithmetic at row `p`, column `q` of a block: the block's element times the scale row's entry of
    that column, plus the shift row's entry, clamped below at zero. -/
theorem affine_clamp_at3 (x0 : Vec Ideal S5000x128 .f32) (x1 x2 : Vec Ideal S1x128 .f32) (p : Fin 5000) (q : Fin 128) :
    k3_pay1 x0 x1 x2 (ix2 p q) = max (x0 (ix2 p q) * x1 (ix2 (0 : Fin 1) q) + x2 (ix2 (0 : Fin 1) q)) 0 := by
  unfold k3_pay1
  simp only [shapeCast_self]
  rw [maximumf_apply, addf_apply, mulf_apply, broadcast_apply, broadcastTo_1b_ab_apply, broadcastTo_1b_ab_apply]
  show max _ (Ideal.ofBits .f32 0x00000000#32) = _
  rw [Ideal.ofBits_zero_f32]

/-- The array the region leaves, as a function of the array index: the layer's closing step of the pre-activation
    array and of the scale and shift rows, as the region finds them. -/
def closed3 (c : Dev nD) : S50000x128.Idx → EReal := fun i =>
  Cert.Sage.affineRelu (fun a b => (V c (Pipeline.arrRef spec3 0) : S50000x128.Idx → EReal) (ix2 a b))
    (fun b => (V c (Pipeline.arrRef spec3 1) : S1x128.Idx → EReal) (ix2 (0 : Fin 1) b))
    (fun b => (V c (Pipeline.arrRef spec3 2) : S1x128.Idx → EReal) (ix2 (0 : Fin 1) b)) (i 0) (i 1)

/-- Where each window's block sits at grid point `t`: the pre-activation's and the result's block is row block `t`,
    the scale and shift rows are the whole rows at every point (decided over the 10 points). -/
theorem block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every row block is some point's. -/
theorem block_onto3 : ∀ q0 : Fin 10, ∃ t : Fin cfg3.N, win3_3.index t = ![q0.val, 0] :=
  (by decide +kernel : ∀ q0 : Fin 10, ∃ t : Fin grid3.N, win3_3.index t = ![q0.val, 0])

/-- What point `t` writes back is block `t` of `closed3`. -/
theorem flushed_eq3 (c : Dev nD) (t : Fin cfg3.N) :
    (dat3 (F := Ideal) V c).flushed 3 t = ((cfg3.win 3).blk t).view.read (Elt Ideal) (closed3 V c) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S1x128) zero_offsets]
  obtain ⟨e00, e01, e10, e11, e20, e21, e30, e31⟩ := block_indices3 t
  funext j
  obtain ⟨p, q, rfl⟩ : ∃ (p : Fin 5000) (q : Fin 128), j = ix2 p q := ⟨j 0, j 1, eq_ix2 j⟩
  refine (affine_clamp_at3 _ _ _ p q).trans ?_
  refine closing_at (V c (Pipeline.arrRef spec3 0)) (V c (Pipeline.arrRef spec3 1)) (V c (Pipeline.arrRef spec3 2))
    (((cfg3.win 0).blk t).view.emb (ix2 p q)) (((cfg3.win 3).blk t).view.emb (ix2 p q))
    (((cfg3.win 1).blk t).view.emb (ix2 (0 : Fin 1) q)) (((cfg3.win 2).blk t).view.emb (ix2 (0 : Fin 1) q)) ?_ ?_ ?_
  · funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * q.val = win3_3.index t (1 : Fin 2) * 128 + 1 * q.val; omega
  · funext a; apply Fin.ext
    match a with
    | ⟨0, _⟩ => show win3_1.index t (0 : Fin 2) * 1 + 1 * 0 = 0; omega
    | ⟨1, _⟩ => show win3_1.index t (1 : Fin 2) * 128 + 1 * q.val = win3_3.index t (1 : Fin 2) * 128 + 1 * q.val; omega
  · funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- An index of the array is in point `t`'s block iff each coordinate is in the block's range on its axis. -/
theorem mem_block3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole (Pipeline.arrRef spec3 3)).slice (win3_3.rect t)).set ↔ _
  rw [View.set_slice_whole, Rect.mem_set_unit]
  exact Iff.rfl

/-- The ten row blocks cover the array. -/
theorem covered3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := block_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_block3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The array after the region is `closed3`. -/
theorem final_array3 (c : Dev nD) : (dat3 (F := Ideal) V c).arrAt 3 cfg3.N = closed3 V c :=
  (dat3 (F := Ideal) V c).arrAt_eq_of_cover 3 (closed3 V c) (fun t _ => flushed_eq3 V c t) covered3

/-- The array after the region, at row `i` and column `j`: the closing step of a layer, of the pre-activation
    array and the scale and shift rows the region was entered with. -/
theorem bn_final3 (c : Dev nD) (i : Fin 50000) (j : Fin 128) :
    ((dat3 (F := Ideal) V c).arrAt 3 cfg3.N : S50000x128.Idx → EReal) (ix2 i j)
      = Cert.Sage.affineRelu (fun a b => (V c (Pipeline.arrRef spec3 0) : S50000x128.Idx → EReal) (ix2 a b))
          (fun b => (V c (Pipeline.arrRef spec3 1) : S1x128.Idx → EReal) (ix2 (0 : Fin 1) b))
          (fun b => (V c (Pipeline.arrRef spec3 2) : S1x128.Idx → EReal) (ix2 (0 : Fin 1) b)) i j := by
  rw [final_array3]
  rfl

/-! ## Region 5 -/

/-- The body's arithmetic at row `p`, column `q` of a block: the block's element times the scale row's entry of
    that column, plus the shift row's entry, clamped below at zero. -/
theorem affine_clamp_at5 (x0 : Vec Ideal S5000x128 .f32) (x1 x2 : Vec Ideal S1x128 .f32) (p : Fin 5000) (q : Fin 128) :
    k5_pay1 x0 x1 x2 (ix2 p q) = max (x0 (ix2 p q) * x1 (ix2 (0 : Fin 1) q) + x2 (ix2 (0 : Fin 1) q)) 0 := by
  unfold k5_pay1
  simp only [shapeCast_self]
  rw [maximumf_apply, addf_apply, mulf_apply, broadcast_apply, broadcastTo_1b_ab_apply, broadcastTo_1b_ab_apply]
  show max _ (Ideal.ofBits .f32 0x00000000#32) = _
  rw [Ideal.ofBits_zero_f32]

/-- The array the region leaves, as a function of the array index: the layer's closing step of the pre-activation
    array and of the scale and shift rows, as the region finds them. -/
def closed5 (c : Dev nD) : S50000x128.Idx → EReal := fun i =>
  Cert.Sage.affineRelu (fun a b => (V c (Pipeline.arrRef spec5 0) : S50000x128.Idx → EReal) (ix2 a b))
    (fun b => (V c (Pipeline.arrRef spec5 1) : S1x128.Idx → EReal) (ix2 (0 : Fin 1) b))
    (fun b => (V c (Pipeline.arrRef spec5 2) : S1x128.Idx → EReal) (ix2 (0 : Fin 1) b)) (i 0) (i 1)

/-- Where each window's block sits at grid point `t`: the pre-activation's and the result's block is row block `t`,
    the scale and shift rows are the whole rows at every point (decided over the 10 points). -/
theorem block_indices5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Every row block is some point's. -/
theorem block_onto5 : ∀ q0 : Fin 10, ∃ t : Fin cfg5.N, win5_3.index t = ![q0.val, 0] :=
  (by decide +kernel : ∀ q0 : Fin 10, ∃ t : Fin grid5.N, win5_3.index t = ![q0.val, 0])

/-- What point `t` writes back is block `t` of `closed5`. -/
theorem flushed_eq5 (c : Dev nD) (t : Fin cfg5.N) :
    (dat5 (F := Ideal) V c).flushed 3 t = ((cfg5.win 3).blk t).view.read (Elt Ideal) (closed5 V c) := by
  show (cfg5.win 3).cut (grid5.coords t) ((dat5 V c).after 3 t) = _
  rw [after5_3]
  unfold out5_3
  rw [View.canon_unit_zero zero_offsets]
  simp only [View.ld_unit_zero (S := S5000x128) zero_offsets, View.ld_unit_zero (S := S1x128) zero_offsets]
  obtain ⟨e00, e01, e10, e11, e20, e21, e30, e31⟩ := block_indices5 t
  funext j
  obtain ⟨p, q, rfl⟩ : ∃ (p : Fin 5000) (q : Fin 128), j = ix2 p q := ⟨j 0, j 1, eq_ix2 j⟩
  refine (affine_clamp_at5 _ _ _ p q).trans ?_
  refine closing_at (V c (Pipeline.arrRef spec5 0)) (V c (Pipeline.arrRef spec5 1)) (V c (Pipeline.arrRef spec5 2))
    (((cfg5.win 0).blk t).view.emb (ix2 p q)) (((cfg5.win 3).blk t).view.emb (ix2 p q))
    (((cfg5.win 1).blk t).view.emb (ix2 (0 : Fin 1) q)) (((cfg5.win 2).blk t).view.emb (ix2 (0 : Fin 1) q)) ?_ ?_ ?_
  · funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 128 + 1 * q.val = win5_3.index t (1 : Fin 2) * 128 + 1 * q.val; omega
  · funext a; apply Fin.ext
    match a with
    | ⟨0, _⟩ => show win5_1.index t (0 : Fin 2) * 1 + 1 * 0 = 0; omega
    | ⟨1, _⟩ => show win5_1.index t (1 : Fin 2) * 128 + 1 * q.val = win5_3.index t (1 : Fin 2) * 128 + 1 * q.val; omega
  · funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega

/-- An index of the array is in point `t`'s block iff each coordinate is in the block's range on its axis. -/
theorem mem_block5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole (Pipeline.arrRef spec5 3)).slice (win5_3.rect t)).set ↔ _
  rw [View.set_slice_whole, Rect.mem_set_unit]
  exact Iff.rfl

/-- The ten row blocks cover the array. -/
theorem covered5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ := block_onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_block5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The array after the region is `closed5`. -/
theorem final_array5 (c : Dev nD) : (dat5 (F := Ideal) V c).arrAt 3 cfg5.N = closed5 V c :=
  (dat5 (F := Ideal) V c).arrAt_eq_of_cover 3 (closed5 V c) (fun t _ => flushed_eq5 V c t) covered5

/-- The array after the region, at row `i` and column `j`: the closing step of a layer, of the pre-activation
    array and the scale and shift rows the region was entered with. -/
theorem bn_final5 (c : Dev nD) (i : Fin 50000) (j : Fin 128) :
    ((dat5 (F := Ideal) V c).arrAt 3 cfg5.N : S50000x128.Idx → EReal) (ix2 i j)
      = Cert.Sage.affineRelu (fun a b => (V c (Pipeline.arrRef spec5 0) : S50000x128.Idx → EReal) (ix2 a b))
          (fun b => (V c (Pipeline.arrRef spec5 1) : S1x128.Idx → EReal) (ix2 (0 : Fin 1) b))
          (fun b => (V c (Pipeline.arrRef spec5 2) : S1x128.Idx → EReal) (ix2 (0 : Fin 1) b)) i j := by
  rw [final_array5]
  rfl

end Cert.KernelIdeal.RegionBn

end
-- ==== Proof.KerChain2.lean ====
/-
  The second layer on the other program's side: its host stretches and two regions, from the contents of the
  buffers when the stretch before its affine region starts to the contents when its closing region ends.

  The stretch before the affine region forms the neighbourhood mean of the previous layer's output (features rounded
  to the short float format and widened again around the gather, which on the extended reals changes nothing) and
  slices the layer's weights and bias row off the stacks; the affine region leaves the pre-activation; the next three
  stretches form its column mean, its column variance, and from them the scale row and the shift row; the closing
  region multiplies, adds and clamps. Read entry by entry these are the four facts that identify the layer with the
  reference's.
-/
import proofs.«108877_j73624329388567_2_alg».proof.Proof.Gen.KernelIdeal.Frame
import proofs.«108877_j73624329388567_2_alg».proof.Proof.RegionLin
import proofs.«108877_j73624329388567_2_alg».proof.Proof.RegionBn
import proofs.«108877_j73624329388567_2_alg».proof.Proof.RefRun
import proofs.«108877_j73624329388567_2_alg».proof.Proof.OpsReal
import proofs.«108877_j73624329388567_2_alg».proof.Proof.Rows
import proofs.«108877_j73624329388567_2_alg».proof.Proof.Closure
import proofs.«108877_j73624329388567_2_alg».proof.Proof.LayerAgree
import Idealize.ShloMosaic.Lib.StableHlo.Run

set_option maxRecDepth 16384

noncomputable section

open scoped BigOperators

namespace Cert.KernelIdeal.KerChain2

open Cert.KernelIdeal Cert.KernelIdeal.Gen
open Idealize.ShloMosaic Idealize.ShloMosaic.TcCoe Idealize.ShloMosaic.ValueIdx

/-! ## The arrays' types -/

abbrev TMat := (⟨S50000x128, .f32⟩ : BufTy).Contents (Elt Ideal)
abbrev TRow := (⟨S1x128, .f32⟩ : BufTy).Contents (Elt Ideal)
abbrev TVec := (⟨S128, .f32⟩ : BufTy).Contents (Elt Ideal)
abbrev TSq := (⟨S128x128, .f32⟩ : BufTy).Contents (Elt Ideal)
abbrev TRows3 := (⟨S3x128, .f32⟩ : BufTy).Contents (Elt Ideal)
abbrev TSq3 := (⟨S3x128x128, .f32⟩ : BufTy).Contents (Elt Ideal)
abbrev TEdges := (⟨S2x800000, .i32⟩ : BufTy).Contents (Elt Ideal)
abbrev TIdx := (⟨S800000, .i32⟩ : BufTy).Contents (Elt Ideal)
abbrev TDeg := (⟨S50000x1, .f32⟩ : BufTy).Contents (Elt Ideal)
abbrev TInt0 := (⟨S_, .i32⟩ : BufTy).Contents (Elt Ideal)

/-! ## The host stages of the layer, each the operations composed -/

/-- Row 1 of a stack of three rows, as a 1 x 128 row: sliced off, flattened, laid out as a row again. -/
def rowOf (a : TRows3) : TRow :=
  shapeCast S1x128 (shapeCast S128 (extractStridedSlice S1x128 ![1, 0] a slices_S3x128_S1x128_1_0) shapeCasts_S1x128_S128)
    shapeCasts_S128_S1x128

/-- Matrix 1 of a stack of three 128 x 128 matrices. -/
def matOf (a : TSq3) : TSq :=
  shapeCast S128x128 (extractStridedSlice S1x128x128 ![1, 0, 0] a slices_S3x128x128_S1x128x128_1_0_0)
    shapeCasts_S1x128x128_S128x128

/-- The integer scalar 0: the variance routine's degrees-of-freedom correction. -/
def zeroI : TInt0 := constantI S_ 32 0#32

/-- The degree column: per target row the number of edges into it (ones scatter-added into zeros), clamped below at
    one, as a 50000 x 1 column. -/
def degCol (dst : TIdx) : TDeg :=
  broadcastInDim S50000x1 ![0] bcast_S50000_S50000x1_0
    (maximumf (F := Ideal)
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

/-- The neighbourhood mean: the source rows (indices below 0 wrapped by 50000) of the features, rounded to the short
    format, gathered along the edges, widened, scatter-added per target row into zeros, divided by the degree column. -/
def nbrMean (h : TMat) (src dst : TIdx) (deg : TDeg) : TMat :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (extf (F := Ideal) .f32
        (Host.gather gather_S50000x128_S800000x1_S800000x128_1_0_n_n_0_1_1128
          (truncf (F := Ideal) .bf16 h bitsLt_bf16_f32)
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
        bitsLt_bf16_f32))
    (broadcastInDim S50000x128 ![0, 1] bcast_S50000x1_S50000x128_0_1 deg)

/-- The column mean as a 128-vector: the column sums from 0, divided by 50000. -/
def meanVec (p : TMat) : TVec :=
  Host.divf (F := Ideal) (Host.reduceAdd (F := Ideal) p (constant (F := Ideal) S_ .f32 0x00000000#32) reducesTo_S50000x128_S128_d0 h_S_)
    (broadcastInDim S128 ![] bcast_S_S128 (constant (F := Ideal) S_ .f32 0x47435000#32))

/-- The variance routine with its integer degrees-of-freedom correction: the column sums of the squared deviations
    from the column mean, divided by 50000 less the correction where that is positive (not-a-number elsewhere). -/
def varVec (p : TMat) (dof : TInt0) : TVec :=
  select
    (broadcastInDim S128 ![] bcast_S_S128
      (cmpf (F := Ideal) .ogt (subf (F := Ideal) (constant (F := Ideal) S_ .f32 0x47435000#32) (sitofp (F := Ideal) .f32 dof)) (constant (F := Ideal) S_ .f32 0x00000000#32)))
    (Host.divf (F := Ideal)
      (Host.reduceAdd (F := Ideal)
        (mulf (F := Ideal)
          (subf p (broadcastInDim S50000x128 ![0, 1] bcast_S1x128_S50000x128_0_1
            (Host.divf (broadcastInDim S1x128 ![1] bcast_S128_S1x128_1
                (Host.reduceAdd p (constant (F := Ideal) S_ .f32 0x00000000#32) reducesTo_S50000x128_S128_d0 h_S_))
              (broadcastInDim S1x128 ![] bcast_S_S1x128 (constant (F := Ideal) S_ .f32 0x47435000#32)))))
          (subf p (broadcastInDim S50000x128 ![0, 1] bcast_S1x128_S50000x128_0_1
            (Host.divf (broadcastInDim S1x128 ![1] bcast_S128_S1x128_1
                (Host.reduceAdd p (constant (F := Ideal) S_ .f32 0x00000000#32) reducesTo_S50000x128_S128_d0 h_S_))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128 (subf (F := Ideal) (constant (F := Ideal) S_ .f32 0x47435000#32) (sitofp (F := Ideal) .f32 dof))))
    (broadcastInDim S128 ![] bcast_S_S128 (id (constant (F := Ideal) S_ .f32 0x7FC00000#32)))

/-- The scale row: the gain row times the reciprocal root of (the variance row clamped below at 0, plus epsilon). -/
def scaleRow (g : TRow) (v : TVec) : TRow :=
  mulf (F := Ideal) g (Host.rsqrt (F := Ideal) (addf (F := Ideal)
    (maximumf (F := Ideal) (shapeCast S1x128 v shapeCasts_S128_S1x128)
      (broadcastInDim S1x128 ![] bcast_S_S1x128 (constant (F := Ideal) S_ .f32 0x00000000#32)))
    (broadcastInDim S1x128 ![] bcast_S_S1x128 (constant (F := Ideal) S_ .f32 0x3727C5AC#32))))

/-- The shift row: the offset row minus the mean row times the scale row. -/
def shiftRow (be mu s : TRow) : TRow :=
  (subf (be : FVec Ideal S1x128 .f32) (mulf (mu : FVec Ideal S1x128 .f32) (s : FVec Ideal S1x128 .f32)) : FVec Ideal S1x128 .f32)

/-! ## What each host stretch writes -/

abbrev wr2 : List (Ref sig .tc) := [main_v54, main_c_9, main_v55, main_v56, main_c_10, main_v57, main_v58, main_v59, main_v60, main_v61, main_v62, main_cst_11, main_v63, main_v64, main_v65, main_v66, main_v67, main_v68, main_v69, main_v70, main_v71, main_v72, main_v73, main_v74]
theorem wr2_sub : (hostOps2 : List (HloOp τ sig (Elt Ideal))).Forall fun op => op.writes ⊆ (wr2.map (Proc.devRef (τ := τ) .tc)).toFinset := by
  simp only [hostOps2, List.Forall]
  repeat' apply And.intro
  all_goals (
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide))
/-- A buffer the stretch does not write holds after it what it held before. -/
theorem keep2 (W : Valuation τ sig (Elt Ideal)) (r : Ref sig .tc) (h : r ∉ wr2) :
    StableHlo.after hostOps2 W (Proc.devRef .tc r) = W (Proc.devRef .tc r) :=
  StableHlo.after_of_writes_sub hostOps2 W wr2_sub h

abbrev wr3 : List (Ref sig .tc) := [main_cst_12, main_v76, main_cst_13, main_v77, main_v78, main_v79, main_c_14]
theorem wr3_sub : (hostOps3 : List (HloOp τ sig (Elt Ideal))).Forall fun op => op.writes ⊆ (wr3.map (Proc.devRef (τ := τ) .tc)).toFinset := by
  simp only [hostOps3, List.Forall]
  repeat' apply And.intro
  all_goals (
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide))
/-- A buffer the stretch does not write holds after it what it held before. -/
theorem keep3 (W : Valuation τ sig (Elt Ideal)) (r : Ref sig .tc) (h : r ∉ wr3) :
    StableHlo.after hostOps3 W (Proc.devRef .tc r) = W (Proc.devRef .tc r) :=
  StableHlo.after_of_writes_sub hostOps3 W wr3_sub h

abbrev wr3_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v80]
theorem wr3_1_sub : (hostOps3_1 : List (HloOp τ sig (Elt Ideal))).Forall fun op => op.writes ⊆ (wr3_1.map (Proc.devRef (τ := τ) .tc)).toFinset := by
  simp only [hostOps3_1, List.Forall]
  repeat' apply And.intro
  all_goals (
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide))
/-- A buffer the stretch does not write holds after it what it held before. -/
theorem keep3_1 (W : Valuation τ sig (Elt Ideal)) (r : Ref sig .tc) (h : r ∉ wr3_1) :
    StableHlo.after hostOps3_1 W (Proc.devRef .tc r) = W (Proc.devRef .tc r) :=
  StableHlo.after_of_writes_sub hostOps3_1 W wr3_1_sub h

abbrev wr3_2 : List (Ref sig .tc) := [main_v81, main_cst_15, main_v82, main_v83, main_v84, main_v85, main_v86, main_cst_16, main_v87, main_v88, main_v89, main_v90, main_v91, main_v92, main_v93, main_v94, main_v95]
theorem wr3_2_sub : (hostOps3_2 : List (HloOp τ sig (Elt Ideal))).Forall fun op => op.writes ⊆ (wr3_2.map (Proc.devRef (τ := τ) .tc)).toFinset := by
  simp only [hostOps3_2, List.Forall]
  repeat' apply And.intro
  all_goals (
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide))
/-- A buffer the stretch does not write holds after it what it held before. -/
theorem keep3_2 (W : Valuation τ sig (Elt Ideal)) (r : Ref sig .tc) (h : r ∉ wr3_2) :
    StableHlo.after hostOps3_2 W (Proc.devRef .tc r) = W (Proc.devRef .tc r) :=
  StableHlo.after_of_writes_sub hostOps3_2 W wr3_2_sub h

/-! ## What each host stretch computes, over any contents of the buffers before it -/

section Stretches
variable (W : Valuation τ sig (Elt Ideal))

set_option maxHeartbeats 4000000 in
theorem ops2_mean : StableHlo.after hostOps2 W (Proc.devRef .tc main_v67)
    = nbrMean (W (Proc.devRef .tc main_v53)) (W (Proc.devRef .tc main_v1)) (W (Proc.devRef .tc main_v3)) (W (Proc.devRef .tc main_v10)) := by
  after_results_simp <;> rfl

set_option maxHeartbeats 4000000 in
theorem ops2_wl : StableHlo.after hostOps2 W (Proc.devRef .tc main_v72) = matOf (W (Proc.devRef .tc main_arg2)) := by
  after_results_simp <;> rfl

set_option maxHeartbeats 4000000 in
theorem ops2_wr : StableHlo.after hostOps2 W (Proc.devRef .tc main_v74) = matOf (W (Proc.devRef .tc main_arg3)) := by
  after_results_simp <;> rfl

set_option maxHeartbeats 4000000 in
theorem ops2_bias : StableHlo.after hostOps2 W (Proc.devRef .tc main_v70) = rowOf (W (Proc.devRef .tc main_arg4)) := by
  after_results_simp <;> rfl

set_option maxHeartbeats 4000000 in
theorem ops3_mean : StableHlo.after hostOps3 W (Proc.devRef .tc main_v79)
    = shapeCast S1x128 (meanVec (W (Proc.devRef .tc main_v75))) shapeCasts_S128_S1x128 := by
  after_results_simp <;> rfl

set_option maxHeartbeats 4000000 in
theorem ops3_dof : StableHlo.after hostOps3 W (Proc.devRef .tc main_c_14) = zeroI := by
  after_results_simp <;> rfl

set_option maxHeartbeats 4000000 in
theorem ops3_1_var : StableHlo.after hostOps3_1 W (Proc.devRef .tc main_v80)
    = varVec (W (Proc.devRef .tc main_v75)) (W (Proc.devRef .tc main_c_14)) := by
  after_results_simp <;> rfl

set_option maxHeartbeats 4000000 in
theorem ops3_2_scale : StableHlo.after hostOps3_2 W (Proc.devRef .tc main_v90)
    = scaleRow (rowOf (W (Proc.devRef .tc main_arg5))) (W (Proc.devRef .tc main_v80)) := by
  after_results_simp <;> rfl

set_option maxHeartbeats 4000000 in
theorem ops3_2_shift : StableHlo.after hostOps3_2 W (Proc.devRef .tc main_v95)
    = shiftRow (rowOf (W (Proc.devRef .tc main_arg6))) (W (Proc.devRef .tc main_v79))
        (scaleRow (rowOf (W (Proc.devRef .tc main_arg5))) (W (Proc.devRef .tc main_v80))) := by
  after_results_simp <;> rfl

end Stretches

/-! ## Layouts read at an entry -/

theorem matOf_apply (a : TSq3) (k j : Fin 128) : matOf a (ix2 k j) = a (ix3 (1 : Fin 3) k j) := by
  unfold matOf
  exact (Cert.Sage.cast_mat _ _ k j).trans (Cert.Sage.slice_mat 1 (by decide) _ a k j)

theorem rowOf_apply (a : TRows3) (j : Fin 128) : rowOf a (ix2 (0 : Fin 1) j) = a (ix2 (1 : Fin 3) j) := by
  unfold rowOf
  exact (Cert.Sage.cast_vec_row _ _ j).trans ((Cert.Sage.cast_row_vec _ _ j).trans (Cert.Sage.slice_row 1 (by decide) _ a j))

/-- On the extended reals the rounding to the short format and the widening back change nothing: with the degree
    column of the same target row, the neighbourhood mean is the reference's. -/
theorem nbrMean_eq (h : TMat) (src dst : TIdx) :
    nbrMean h src dst (degCol dst) = Cert.ReferenceIdeal.RefRun.aggR (F := Ideal) h src dst := by
  unfold nbrMean degCol Cert.ReferenceIdeal.RefRun.aggR
  rfl

/-- The column mean vector at a column. -/
theorem meanVec_apply (p : TMat) (j : Fin 128) : meanVec p (ix1 j) = Cert.Sage.colMean (Cert.Sage.curry2 p) j := by
  unfold meanVec
  exact Cert.Sage.mean_apply reducesTo_S50000x128_S128_d0 h_S_ bcast_S_S128 p j

/-- The variance routine with correction zero, at a column. -/
theorem varVec_apply (p : TMat) (j : Fin 128) : varVec p zeroI (ix1 j) = Cert.Sage.colVar (Cert.Sage.curry2 p) j := by
  unfold varVec zeroI
  exact Cert.Sage.var_apply reducesTo_S50000x128_S128_d0 h_S_ bcast_S128_S1x128_1 bcast_S_S1x128 bcast_S1x128_S50000x128_0_1
    bcast_S_S128 p _ j

/-- The scale row at a column. -/
theorem scaleRow_apply (g : TRow) (v : TVec) (j : Fin 128) :
    scaleRow g v (ix2 (0 : Fin 1) j)
      = g (ix2 (0 : Fin 1) j) * Ideal.rsqrt (max (v (ix1 j)) (Ideal.ofBits .f32 0x00000000#32) + Ideal.ofBits .f32 0x3727C5AC#32) := by
  unfold scaleRow
  refine (Cert.Sage.scale_apply bcast_S_S1x128 g (shapeCast S1x128 v shapeCasts_S128_S1x128) j).trans ?_
  rw [Cert.Sage.cast_vec_row]

/-! ## Equal arguments, equal values -/

theorem congr3 {α β γ δ : Type} (f : α → β → γ → δ) {a a' : α} {b b' : β} {c c' : γ} (ha : a = a') (hb : b = b') (hc : c = c') :
    f a b c = f a' b' c' := by subst ha hb hc; rfl

theorem lin_congr {mn mn' h h' : Fin 50000 → Fin 128 → EReal} {wl wl' wr wr' : Fin 128 → Fin 128 → EReal} {b b' : Fin 128 → EReal}
    (e0 : mn = mn') (e1 : h = h') (e2 : wl = wl') (e3 : wr = wr') (e4 : b = b') (i : Fin 50000) (j : Fin 128) :
    Cert.Sage.lin mn h wl wr b i j = Cert.Sage.lin mn' h' wl' wr' b' i j := by subst e0 e1 e2 e3 e4; rfl

theorem affineRelu_congr {p p' : Fin 50000 → Fin 128 → EReal} {s s' t t' : Fin 128 → EReal}
    (e0 : p = p') (e1 : s = s') (e2 : t = t') (i : Fin 50000) (j : Fin 128) :
    Cert.Sage.affineRelu p s t i j = Cert.Sage.affineRelu p' s' t' i j := by subst e0 e1 e2; rfl

/-! ## The layer's buffers at the boundaries -/

variable (m : (ℓ : Loc nD τ sig) → Buf (Elt Ideal) ℓ) (ρ : Dev nD → PrngReg)

/-- The launch contents of the argument arrays. -/
abbrev Ei (c : Dev nD) : TEdges := m ((c.tc : Thread nD τ).loc main_arg1)
abbrev Wl (c : Dev nD) : TSq3 := m ((c.tc : Thread nD τ).loc main_arg2)
abbrev Wr (c : Dev nD) : TSq3 := m ((c.tc : Thread nD τ).loc main_arg3)
abbrev Bb (c : Dev nD) : TRows3 := m ((c.tc : Thread nD τ).loc main_arg4)
abbrev Gg (c : Dev nD) : TRows3 := m ((c.tc : Thread nD τ).loc main_arg5)
abbrev Be (c : Dev nD) : TRows3 := m ((c.tc : Thread nD τ).loc main_arg6)
/-- The previous layer's output: the layer's input features. -/
abbrev H (c : Dev nD) : TMat := Gen.W6 m ρ c (Proc.devRef .tc main_v53)
/-- What the affine region leaves. -/
abbrev PK (c : Dev nD) : TMat := Gen.W8 m ρ c (Proc.devRef .tc main_v75)
/-- What the closing region leaves: the layer's output. -/
abbrev OK (c : Dev nD) : TMat := Gen.W12 m ρ c (Proc.devRef .tc main_v96)
/-- The scale row the closing region is entered with, by column. -/
def s2 (c : Dev nD) : Fin 128 → EReal := fun j => (Gen.V11 m ρ c (Pipeline.arrRef spec3 1) : TRow) (ix2 (0 : Fin 1) j)
/-- The shift row the closing region is entered with, by column. -/
def t2 (c : Dev nD) : Fin 128 → EReal := fun j => (Gen.V11 m ρ c (Pipeline.arrRef spec3 2) : TRow) (ix2 (0 : Fin 1) j)

/-- A buffer no stretch or region of the layer writes, at the last stretch's start, is as at the layer's start. -/
theorem keep_6_10 (c : Dev nD) (r : Ref sig .tc) (h2 : r ∉ wr2) (h3 : r ∉ wr3) (h31 : r ∉ wr3_1)
    (hr : ∀ w, Pipeline.arrRef spec2 w ≠ r) :
    Gen.W10 m ρ c (Proc.devRef .tc r) = Gen.W6 m ρ c (Proc.devRef .tc r) :=
  (keep3_1 (Gen.W9 m ρ c) r h31).trans ((keep3 (Gen.W8 m ρ c) r h3).trans ((Gen.W8_of_ne m ρ c r hr).trans (keep2 (Gen.W6 m ρ c) r h2)))

/-- The pre-activation array through the statistics stretches. -/
theorem v75_9 (c : Dev nD) : Gen.W9 m ρ c (Proc.devRef .tc main_v75) = PK m ρ c := keep3 (Gen.W8 m ρ c) main_v75 (by decide)
theorem v75_10 (c : Dev nD) : Gen.W10 m ρ c (Proc.devRef .tc main_v75) = PK m ρ c :=
  (keep3_1 (Gen.W9 m ρ c) main_v75 (by decide)).trans (v75_9 m ρ c)
theorem v75_11 (c : Dev nD) : Gen.W11 m ρ c (Proc.devRef .tc main_v75) = PK m ρ c :=
  (keep3_2 (Gen.W10 m ρ c) main_v75 (by decide)).trans (v75_10 m ρ c)
theorem c14_9 (c : Dev nD) : Gen.W9 m ρ c (Proc.devRef .tc main_c_14) = zeroI := ops3_dof (Gen.W8 m ρ c)

/-- The variance vector at the last stretch's start. -/
theorem v80_10 (c : Dev nD) : Gen.W10 m ρ c (Proc.devRef .tc main_v80) = varVec (PK m ρ c) zeroI :=
  (ops3_1_var (Gen.W9 m ρ c)).trans (congrArg₂ varVec (v75_9 m ρ c) (c14_9 m ρ c))

/-- The mean row at the last stretch's start. -/
theorem v79_10 (c : Dev nD) : Gen.W10 m ρ c (Proc.devRef .tc main_v79)
    = shapeCast S1x128 (meanVec (PK m ρ c)) shapeCasts_S128_S1x128 :=
  (keep3_1 (Gen.W9 m ρ c) main_v79 (by decide)).trans (ops3_mean (Gen.W8 m ρ c))

theorem arg5_10 (c : Dev nD) (harg5 : Gen.W6 m ρ c (Proc.devRef .tc main_arg5) = (m ((c.tc : Thread nD τ).loc main_arg5))) : Gen.W10 m ρ c (Proc.devRef .tc main_arg5) = Gg m c :=
  (keep_6_10 m ρ c main_arg5 (by decide) (by decide) (by decide) (by decide)).trans harg5
theorem arg6_10 (c : Dev nD) (harg6 : Gen.W6 m ρ c (Proc.devRef .tc main_arg6) = (m ((c.tc : Thread nD τ).loc main_arg6))) : Gen.W10 m ρ c (Proc.devRef .tc main_arg6) = Be m c :=
  (keep_6_10 m ρ c main_arg6 (by decide) (by decide) (by decide) (by decide)).trans harg6

/-- The scale row the closing region is entered with. -/
theorem sRow_eq (c : Dev nD) (harg5 : Gen.W6 m ρ c (Proc.devRef .tc main_arg5) = (m ((c.tc : Thread nD τ).loc main_arg5))) :
    Gen.V11 m ρ c (Pipeline.arrRef spec3 1) = scaleRow (rowOf (Gg m c)) (varVec (PK m ρ c) zeroI) :=
  (ops3_2_scale (Gen.W10 m ρ c)).trans (congrArg₂ scaleRow (congrArg rowOf (arg5_10 m ρ c harg5)) (v80_10 m ρ c))

/-- The shift row the closing region is entered with. -/
theorem tRow_eq (c : Dev nD) (harg5 : Gen.W6 m ρ c (Proc.devRef .tc main_arg5) = (m ((c.tc : Thread nD τ).loc main_arg5))) (harg6 : Gen.W6 m ρ c (Proc.devRef .tc main_arg6) = (m ((c.tc : Thread nD τ).loc main_arg6))) :
    Gen.V11 m ρ c (Pipeline.arrRef spec3 2)
      = shiftRow (rowOf (Be m c)) (shapeCast S1x128 (meanVec (PK m ρ c)) shapeCasts_S128_S1x128)
          (scaleRow (rowOf (Gg m c)) (varVec (PK m ρ c) zeroI)) :=
  (ops3_2_shift (Gen.W10 m ρ c)).trans
    (congr3 shiftRow (congrArg rowOf (arg6_10 m ρ c harg6)) (v79_10 m ρ c)
      (congrArg₂ scaleRow (congrArg rowOf (arg5_10 m ρ c harg5)) (v80_10 m ρ c)))

/-! ## The four facts -/

set_option maxHeartbeats 4000000 in
/-- The affine region leaves the affine form of the reference's neighbourhood means of the input features, the
    features, and the layer's slices of the stacks. -/
theorem hPK2 (c : Dev nD)
    (hsrc : Gen.W6 m ρ c (Proc.devRef .tc main_v1) = Cert.ReferenceIdeal.RefRun.row0 (Ei m c))
    (hdst : Gen.W6 m ρ c (Proc.devRef .tc main_v3) = Cert.ReferenceIdeal.RefRun.row1 (Ei m c))
    (hdeg : Gen.W6 m ρ c (Proc.devRef .tc main_v10) = degCol (Cert.ReferenceIdeal.RefRun.row1 (Ei m c)))
    (harg2 : Gen.W6 m ρ c (Proc.devRef .tc main_arg2) = (m ((c.tc : Thread nD τ).loc main_arg2))) (harg3 : Gen.W6 m ρ c (Proc.devRef .tc main_arg3) = (m ((c.tc : Thread nD τ).loc main_arg3))) (harg4 : Gen.W6 m ρ c (Proc.devRef .tc main_arg4) = (m ((c.tc : Thread nD τ).loc main_arg4)))
    (i : Fin 50000) (j : Fin 128) :
    PK m ρ c (ix2 i j)
      = Cert.Sage.lin (Cert.Sage.curry2 (Cert.ReferenceIdeal.RefRun.agg (H m ρ c) (Ei m c))) (Cert.Sage.curry2 (H m ρ c))
          (fun k j => Wl m c (ix3 (1 : Fin 3) k j)) (fun k j => Wr m c (ix3 (1 : Fin 3) k j))
          (fun j => Bb m c (ix2 (1 : Fin 3) j)) i j := by
  have e0 : Gen.V7 m ρ c (Pipeline.arrRef spec2 0) = Cert.ReferenceIdeal.RefRun.agg (H m ρ c) (Ei m c) :=
    (ops2_mean (Gen.W6 m ρ c)).trans
      ((congr3 (nbrMean (H m ρ c)) hsrc hdst hdeg).trans (nbrMean_eq (H m ρ c) (Cert.ReferenceIdeal.RefRun.row0 (Ei m c)) (Cert.ReferenceIdeal.RefRun.row1 (Ei m c))))
  have e1 : Gen.V7 m ρ c (Pipeline.arrRef spec2 1) = H m ρ c := keep2 (Gen.W6 m ρ c) main_v53 (by decide)
  have e2 : Gen.V7 m ρ c (Pipeline.arrRef spec2 2) = matOf (Wl m c) := (ops2_wl (Gen.W6 m ρ c)).trans (congrArg matOf harg2)
  have e3 : Gen.V7 m ρ c (Pipeline.arrRef spec2 3) = matOf (Wr m c) := (ops2_wr (Gen.W6 m ρ c)).trans (congrArg matOf harg3)
  have e4 : Gen.V7 m ρ c (Pipeline.arrRef spec2 4) = rowOf (Bb m c) := (ops2_bias (Gen.W6 m ρ c)).trans (congrArg rowOf harg4)
  have hP : PK m ρ c = (Gen.dat2 (Gen.V7 m ρ) c).arrAt 5 cfg2.N := Gen.W8_arr m ρ c 5
  refine (congrFun hP (ix2 i j)).trans ((Cert.KernelIdeal.RegionLin.lin_final2 (Gen.V7 m ρ) c i j).trans (lin_congr ?_ ?_ ?_ ?_ ?_ i j))
  · funext a k; exact congrFun e0 (ix2 a k)
  · funext a k; exact congrFun e1 (ix2 a k)
  · funext k b; exact (congrFun e2 (ix2 k b)).trans (matOf_apply _ k b)
  · funext k b; exact (congrFun e3 (ix2 k b)).trans (matOf_apply _ k b)
  · funext b; exact (congrFun e4 (ix2 (0 : Fin 1) b)).trans (rowOf_apply _ b)

/-- The scale row, by column. -/
theorem hs2 (c : Dev nD) (harg5 : Gen.W6 m ρ c (Proc.devRef .tc main_arg5) = (m ((c.tc : Thread nD τ).loc main_arg5))) (j : Fin 128) :
    s2 m ρ c j = Gg m c (ix2 (1 : Fin 3) j)
      * Ideal.rsqrt (max (Cert.Sage.colVar (Cert.Sage.curry2 (PK m ρ c)) j) (Ideal.ofBits .f32 0x00000000#32)
          + Ideal.ofBits .f32 0x3727C5AC#32) := by
  refine (congrFun (sRow_eq m ρ c harg5) (ix2 (0 : Fin 1) j)).trans ?_
  rw [scaleRow_apply, rowOf_apply, varVec_apply]

/-- The shift row, by column. -/
theorem ht2 (c : Dev nD) (harg5 : Gen.W6 m ρ c (Proc.devRef .tc main_arg5) = (m ((c.tc : Thread nD τ).loc main_arg5))) (harg6 : Gen.W6 m ρ c (Proc.devRef .tc main_arg6) = (m ((c.tc : Thread nD τ).loc main_arg6))) (j : Fin 128) :
    t2 m ρ c j = Be m c (ix2 (1 : Fin 3) j) - Cert.Sage.colMean (Cert.Sage.curry2 (PK m ρ c)) j * s2 m ρ c j := by
  have es : s2 m ρ c j = scaleRow (rowOf (Gg m c)) (varVec (PK m ρ c) zeroI) (ix2 (0 : Fin 1) j) :=
    congrFun (sRow_eq m ρ c harg5) (ix2 (0 : Fin 1) j)
  refine (congrFun (tRow_eq m ρ c harg5 harg6) (ix2 (0 : Fin 1) j)).trans ?_
  unfold shiftRow
  refine (Cert.Sage.shift_apply _ _ _ j).trans ?_
  rw [rowOf_apply, Cert.Sage.cast_vec_row, meanVec_apply, es]

/-- The closing region leaves the scale-shift-clamp of the pre-activation array with the two rows. -/
theorem hO2 (c : Dev nD) (i : Fin 50000) (j : Fin 128) :
    OK m ρ c (ix2 i j) = Cert.Sage.affineRelu (Cert.Sage.curry2 (PK m ρ c)) (s2 m ρ c) (t2 m ρ c) i j := by
  have hO : OK m ρ c = (Gen.dat3 (Gen.V11 m ρ) c).arrAt 3 cfg3.N := Gen.W12_arr m ρ c 3
  have e0 : Gen.V11 m ρ c (Pipeline.arrRef spec3 0) = PK m ρ c := v75_11 m ρ c
  refine (congrFun hO (ix2 i j)).trans ((Cert.KernelIdeal.RegionBn.bn_final3 (Gen.V11 m ρ) c i j).trans (affineRelu_congr ?_ rfl rfl i j))
  funext a b; exact congrFun e0 (ix2 a b)

end Cert.KernelIdeal.KerChain2

end
-- ==== Proof.KerChain1.lean ====
/-
  The first layer of the network as the kernel's program computes it, buffer by buffer.

  The program's first 38 host operations prepare the linear region's five inputs: the two index rows of the edge
  list, the degree column, the neighbourhood means of the node features, and layer 1's slices of the stacked
  parameters. The linear region then writes the pre-activation array; 46 more host operations form its column
  mean and variance and from them the scale and shift rows; the closing region writes the layer's output.
  Each buffer a later step reads is stated here as a named function of the launch contents of the arguments; the
  last section reads the layer's pre-activation, scale row, shift row and output entry by entry.
-/
import proofs.«108877_j73624329388567_2_alg».proof.Proof.Gen.KernelIdeal.Frame
import proofs.«108877_j73624329388567_2_alg».proof.Proof.Gen.ReferenceIdeal
import proofs.«108877_j73624329388567_2_alg».proof.Proof.RefRun
import proofs.«108877_j73624329388567_2_alg».proof.Proof.RegionLin
import proofs.«108877_j73624329388567_2_alg».proof.Proof.RegionBn
import proofs.«108877_j73624329388567_2_alg».proof.Proof.OpsReal
import proofs.«108877_j73624329388567_2_alg».proof.Proof.Rows
import proofs.«108877_j73624329388567_2_alg».proof.Proof.LayerAgree
import Idealize.ShloMosaic.Lib.StableHlo.Run
import Idealize.ShloMosaic.Lib.ValueIdx

set_option maxRecDepth 16384

noncomputable section

namespace Cert.KernelIdeal.KerChain1

open Cert.KernelIdeal Cert.KernelIdeal.Gen Idealize.ShloMosaic Idealize.ShloMosaic.TcCoe Idealize.SL.Sem
open Idealize.ShloMosaic.ValueIdx

/-- The contents of a buffer of shape `s` and element type `e`, on the extended reals. -/
abbrev Arr (s : Shape) (e : EltTy) : Type := (⟨s, e⟩ : BufTy).Contents (Elt Ideal)

/-! ## The stages, as the program prints them -/

/-- The edge list's row of source nodes. -/
def srcRow (ei : Arr S2x800000 .i32) : Arr S800000 .i32 :=
  shapeCast S800000 (extractStridedSlice S1x800000 ![0, 0] ei slices_S2x800000_S1x800000_0_0) shapeCasts_S1x800000_S800000

/-- The edge list's row of target nodes. -/
def dstRow (ei : Arr S2x800000 .i32) : Arr S800000 .i32 :=
  shapeCast S800000 (extractStridedSlice S1x800000 ![1, 0] ei slices_S2x800000_S1x800000_1_0) shapeCasts_S1x800000_S800000

/-- The degree column: per target node the number of edges into it (ones scatter-added into zeros), at least one. -/
def degCol (dst : Arr S800000 .i32) : Arr S50000x1 .f32 :=
  broadcastInDim S50000x1 ![0] bcast_S50000_S50000x1_0
    (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

/-- A source index read from the end when negative: `i + 50000` where `i < 0`, else `i`. -/
def wrapIdx (src : Arr S800000 .i32) : Arr S800000 .i32 :=
  select (cmpi .slt src (broadcastInDim S800000 ![] bcast_S_S800000 (constantI S_ 32 0#32)))
    (addi src (broadcastInDim S800000 ![] bcast_S_S800000 (constantI S_ 32 50000#32))) src

/-- The neighbourhood means of node features `x`: the (narrowed, then widened) source rows gathered along the
    edges, scatter-added per target node into zeros, divided by the degree column spread over the columns. -/
def nbrMean (x : Arr S50000x128 .f32) (src dst : Arr S800000 .i32) (deg : Arr S50000x1 .f32) : Arr S50000x128 .f32 :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (extf .f32
        (Host.gather gather_S50000x128_S800000x1_S800000x128_1_0_n_n_0_1_1128 (truncf .bf16 x bitsLt_bf16_f32)
          (broadcastInDim S800000x1 ![0] bcast_S800000_S800000x1_0 (wrapIdx src)))
        bitsLt_bf16_f32))
    (broadcastInDim S50000x128 ![0, 1] bcast_S50000x1_S50000x128_0_1 deg)

/-- Layer 1's 128 x 128 matrix of a 3 x 128 x 128 stack. -/
def mat1 (w : Arr S3x128x128 .f32) : Arr S128x128 .f32 :=
  shapeCast S128x128 (extractStridedSlice S1x128x128 ![0, 0, 0] w slices_S3x128x128_S1x128x128_0_0_0) shapeCasts_S1x128x128_S128x128

/-- Layer 1's row of a 3 x 128 stack, as a 1 x 128 row (through a 128-vector, as the program lays it out). -/
def row1 (r : Arr S3x128 .f32) : Arr S1x128 .f32 :=
  shapeCast S1x128 (shapeCast S128 (extractStridedSlice S1x128 ![0, 0] r slices_S3x128_S1x128_0_0) shapeCasts_S1x128_S128) shapeCasts_S128_S1x128

variable (m : (ℓ : Loc nD τ sig) → Buf (Elt Ideal) ℓ) (ρ : Dev nD → PrngReg)

/-! ## The linear region's inputs -/

set_option maxHeartbeats 4000000 in
/-- The neighbourhood-mean input of the linear region. -/
theorem V1_mean (c : Dev nD) :
    V1 m ρ c (Pipeline.arrRef spec0 0)
      = nbrMean (m ((c : Thread nD τ).loc main_arg0)) (srcRow (m ((c : Thread nD τ).loc main_arg1)))
          (dstRow (m ((c : Thread nD τ).loc main_arg1))) (degCol (dstRow (m ((c : Thread nD τ).loc main_arg1)))) := by
  show StableHlo.after hostOps0 _ (Proc.devRef .tc main_v24) = _
  after_results_simp
  rfl

set_option maxHeartbeats 4000000 in
/-- The node-feature input of the linear region is the argument. -/
theorem V1_feat (c : Dev nD) : V1 m ρ c (Pipeline.arrRef spec0 1) = m ((c : Thread nD τ).loc main_arg0) := by
  show StableHlo.after hostOps0 _ (Proc.devRef .tc main_arg0) = _
  after_results_simp

set_option maxHeartbeats 4000000 in
/-- The left weight matrix of the linear region. -/
theorem V1_wl (c : Dev nD) : V1 m ρ c (Pipeline.arrRef spec0 2) = mat1 (m ((c : Thread nD τ).loc main_arg2)) := by
  show StableHlo.after hostOps0 _ (Proc.devRef .tc main_v29) = _
  after_results_simp
  rfl

set_option maxHeartbeats 4000000 in
/-- The right weight matrix of the linear region. -/
theorem V1_wr (c : Dev nD) : V1 m ρ c (Pipeline.arrRef spec0 3) = mat1 (m ((c : Thread nD τ).loc main_arg3)) := by
  show StableHlo.after hostOps0 _ (Proc.devRef .tc main_v31) = _
  after_results_simp
  rfl

set_option maxHeartbeats 4000000 in
/-- The bias row of the linear region. -/
theorem V1_bias (c : Dev nD) : V1 m ρ c (Pipeline.arrRef spec0 4) = row1 (m ((c : Thread nD τ).loc main_arg4)) := by
  show StableHlo.after hostOps0 _ (Proc.devRef .tc main_v27) = _
  after_results_simp
  rfl

/-! ## The statistics stretches, over any contents `W` of the buffers -/

/-- The column mean of a 50000 x 128 array, laid out as a 1 x 128 row. -/
def meanRow (p : Arr S50000x128 .f32) : Arr S1x128 .f32 :=
  shapeCast S1x128
    (Host.divf (Host.reduceAdd p (constant (F := Ideal) S_ .f32 0x00000000#32) reducesTo_S50000x128_S128_d0 h_S_)
      (broadcastInDim S128 ![] bcast_S_S128 (constant (F := Ideal) S_ .f32 0x47435000#32)))
    shapeCasts_S128_S1x128

/-- The variance routine of a 50000 x 128 array, with its integer degrees-of-freedom correction `dof`: the
    deviations from the column mean squared, summed down the columns, divided by the row count less the correction,
    kept where that divisor is positive (and the not-a-number constant elsewhere). -/
def varVec (p : Arr S50000x128 .f32) (dof : Arr S_ .i32) : Arr S128 .f32 :=
  select
    (broadcastInDim S128 ![] bcast_S_S128
      (cmpf .ogt (subf (constant (F := Ideal) S_ .f32 0x47435000#32) (sitofp .f32 dof)) (constant (F := Ideal) S_ .f32 0x00000000#32)))
    (Host.divf
      (Host.reduceAdd
        (mulf
          (subf p (broadcastInDim S50000x128 ![0, 1] bcast_S1x128_S50000x128_0_1
            (Host.divf (broadcastInDim S1x128 ![1] bcast_S128_S1x128_1
                (Host.reduceAdd p (constant (F := Ideal) S_ .f32 0x00000000#32) reducesTo_S50000x128_S128_d0 h_S_))
              (broadcastInDim S1x128 ![] bcast_S_S1x128 (constant (F := Ideal) S_ .f32 0x47435000#32)))))
          (subf p (broadcastInDim S50000x128 ![0, 1] bcast_S1x128_S50000x128_0_1
            (Host.divf (broadcastInDim S1x128 ![1] bcast_S128_S1x128_1
                (Host.reduceAdd p (constant (F := Ideal) S_ .f32 0x00000000#32) reducesTo_S50000x128_S128_d0 h_S_))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128 (subf (constant (F := Ideal) S_ .f32 0x47435000#32) (sitofp .f32 dof))))
    (broadcastInDim S128 ![] bcast_S_S128 (id (constant (F := Ideal) S_ .f32 0x7FC00000#32)))

/-- The scale row: the layer's scale parameters times the reciprocal root of (variance clamped at zero, plus epsilon). -/
def scaleRow (g : Arr S3x128 .f32) (v : Arr S128 .f32) : Arr S1x128 .f32 :=
  mulf (row1 g)
    (Host.rsqrt
      (addf
        (maximumf (shapeCast S1x128 v shapeCasts_S128_S1x128)
          (broadcastInDim S1x128 ![] bcast_S_S1x128 (constant (F := Ideal) S_ .f32 0x00000000#32)))
        (broadcastInDim S1x128 ![] bcast_S_S1x128 (constant (F := Ideal) S_ .f32 0x3727C5AC#32))))

/-- The shift row: the layer's shift parameters less mean times scale. -/
def shiftRow (be : Arr S3x128 .f32) (mu s : Arr S1x128 .f32) : Arr S1x128 .f32 :=
  (subf (row1 be : FVec Ideal S1x128 .f32) (mulf (mu : FVec Ideal S1x128 .f32) (s : FVec Ideal S1x128 .f32)) : FVec Ideal S1x128 .f32)

section Stretches
variable (W : Valuation τ sig (Elt Ideal))

set_option maxHeartbeats 4000000 in
theorem ops1_mean : StableHlo.after hostOps1 W (Proc.devRef .tc main_v36) = meanRow (W (Proc.devRef .tc main_v32)) := by
  after_results_simp <;> rfl

set_option maxHeartbeats 4000000 in
theorem ops1_dof : StableHlo.after hostOps1 W (Proc.devRef .tc main_c_6) = constantI S_ 32 0#32 := by
  after_results_simp <;> rfl

set_option maxHeartbeats 4000000 in
theorem ops1_1_var : StableHlo.after hostOps1_1 W (Proc.devRef .tc main_v37)
    = varVec (W (Proc.devRef .tc main_v32)) (W (Proc.devRef .tc main_c_6)) := by
  after_results_simp <;> rfl

set_option maxHeartbeats 4000000 in
theorem ops1_2_scale : StableHlo.after hostOps1_2 W (Proc.devRef .tc main_v47)
    = scaleRow (W (Proc.devRef .tc main_arg5)) (W (Proc.devRef .tc main_v37)) := by
  after_results_simp <;> rfl

set_option maxHeartbeats 4000000 in
theorem ops1_2_shift : StableHlo.after hostOps1_2 W (Proc.devRef .tc main_v52)
    = shiftRow (W (Proc.devRef .tc main_arg6)) (W (Proc.devRef .tc main_v36))
        (scaleRow (W (Proc.devRef .tc main_arg5)) (W (Proc.devRef .tc main_v37))) := by
  after_results_simp <;> rfl

end Stretches

/-! ## Layer 1's buffers at the segment boundaries -/

/-- The pre-activation array of layer 1: what the linear region leaves. -/
def pre1 (c : Dev nD) : FVec Ideal S50000x128 .f32 := W2 m ρ c (Proc.devRef .tc main_v32)

/-- The linear region's output buffer after the region holds the region's final array. -/
theorem pre1_eq (c : Dev nD) : pre1 m ρ c = (dat0 (F := Ideal) (V1 m ρ) c).arrAt 5 cfg0.N :=
  W2_arr m ρ c 5

set_option maxHeartbeats 4000000 in
/-- The closing region reads the pre-activation array: no host operation between the two regions writes it. -/
theorem V5_pre (c : Dev nD) : V5 m ρ c (Pipeline.arrRef spec1 0) = pre1 m ρ c := by
  show StableHlo.after hostOps1_2 (StableHlo.after hostOps1_1 (StableHlo.after hostOps1 (W2 m ρ c))) (Proc.devRef .tc main_v32) = _
  after_results_simp <;> rfl

set_option maxHeartbeats 4000000 in
/-- The scale parameters reach the closing region's entry as launched. -/
theorem W4_gamma (c : Dev nD) : W4 m ρ c (Proc.devRef .tc main_arg5) = m ((c : Thread nD τ).loc main_arg5) := by
  show StableHlo.after hostOps1_1 (StableHlo.after hostOps1 (W2 m ρ c)) (Proc.devRef .tc main_arg5) = _
  after_results_simp
  rw [W2_of_ne m ρ c main_arg5 (by decide)]
  show StableHlo.after hostOps0 (W0 m ρ c) (Proc.devRef .tc main_arg5) = _
  after_results_simp <;> rfl

set_option maxHeartbeats 4000000 in
/-- The shift parameters reach the closing region's entry as launched. -/
theorem W4_beta (c : Dev nD) : W4 m ρ c (Proc.devRef .tc main_arg6) = m ((c : Thread nD τ).loc main_arg6) := by
  show StableHlo.after hostOps1_1 (StableHlo.after hostOps1 (W2 m ρ c)) (Proc.devRef .tc main_arg6) = _
  after_results_simp
  rw [W2_of_ne m ρ c main_arg6 (by decide)]
  show StableHlo.after hostOps0 (W0 m ρ c) (Proc.devRef .tc main_arg6) = _
  after_results_simp <;> rfl

set_option maxHeartbeats 4000000 in
/-- The variance vector before the last stretch: the variance routine of the pre-activation array, correction zero. -/
theorem W4_var (c : Dev nD) : W4 m ρ c (Proc.devRef .tc main_v37) = varVec (pre1 m ρ c) (constantI S_ 32 0#32) := by
  show StableHlo.after hostOps1_1 (W3 m ρ c) (Proc.devRef .tc main_v37) = _
  rw [ops1_1_var]
  have h1 : W3 m ρ c (Proc.devRef .tc main_c_6) = constantI S_ 32 0#32 := ops1_dof (W2 m ρ c)
  have h2 : W3 m ρ c (Proc.devRef .tc main_v32) = pre1 m ρ c := by
    show StableHlo.after hostOps1 (W2 m ρ c) (Proc.devRef .tc main_v32) = _
    after_results_simp <;> rfl
  rw [h1, h2]

set_option maxHeartbeats 4000000 in
/-- The mean row before the last stretch: the column mean of the pre-activation array. -/
theorem W4_mean (c : Dev nD) : W4 m ρ c (Proc.devRef .tc main_v36) = meanRow (pre1 m ρ c) := by
  show StableHlo.after hostOps1_1 (W3 m ρ c) (Proc.devRef .tc main_v36) = _
  after_results_simp
  exact ops1_mean (W2 m ρ c)

/-- The scale row the closing region reads. -/
def scale1 (c : Dev nD) : FVec Ideal S1x128 .f32 := V5 m ρ c (Pipeline.arrRef spec1 1)
/-- The shift row the closing region reads. -/
def shift1 (c : Dev nD) : FVec Ideal S1x128 .f32 := V5 m ρ c (Pipeline.arrRef spec1 2)

theorem scale1_eq (c : Dev nD) :
    scale1 m ρ c = scaleRow (m ((c : Thread nD τ).loc main_arg5)) (varVec (pre1 m ρ c) (constantI S_ 32 0#32)) := by
  show StableHlo.after hostOps1_2 (W4 m ρ c) (Proc.devRef .tc main_v47) = _
  rw [ops1_2_scale, W4_gamma, W4_var]

theorem shift1_eq (c : Dev nD) :
    shift1 m ρ c = shiftRow (m ((c : Thread nD τ).loc main_arg6)) (meanRow (pre1 m ρ c)) (scale1 m ρ c) := by
  rw [scale1_eq]
  show StableHlo.after hostOps1_2 (W4 m ρ c) (Proc.devRef .tc main_v52) = _
  rw [ops1_2_shift, W4_gamma, W4_beta, W4_var, W4_mean]

/-- Layer 1's output array: what the closing region leaves. -/
def out1 (c : Dev nD) : FVec Ideal S50000x128 .f32 := W6 m ρ c (Proc.devRef .tc main_v53)

theorem out1_eq (c : Dev nD) : out1 m ρ c = (dat1 (F := Ideal) (V5 m ρ) c).arrAt 3 cfg1.N :=
  W6_arr m ρ c 3

/-! ## What later layers read of layer 1's stretches, at the closing region's exit -/

set_option hygiene false in
/-- A buffer that neither region of layer 1 holds as an array and no stretch after the first writes: its contents
    at the closing region's exit are what the first stretch left. -/
local macro "through_layer " b:term : tactic => `(tactic| (
  rw [W6_of_ne m ρ c $b (by decide)]
  show StableHlo.after hostOps1_2 (StableHlo.after hostOps1_1 (StableHlo.after hostOps1 (W2 m ρ c))) (Proc.devRef .tc $b) = _
  after_results_simp
  rw [W2_of_ne m ρ c $b (by decide)]
  show StableHlo.after hostOps0 (W0 m ρ c) (Proc.devRef .tc $b) = _
  after_results_simp <;> rfl))

set_option maxHeartbeats 4000000 in
/-- The row of source nodes, at the closing region's exit. -/
theorem W6_src (c : Dev nD) : W6 m ρ c (Proc.devRef .tc main_v1) = srcRow (m ((c : Thread nD τ).loc main_arg1)) := by
  through_layer main_v1

set_option maxHeartbeats 4000000 in
/-- The row of target nodes, at the closing region's exit. -/
theorem W6_dst (c : Dev nD) : W6 m ρ c (Proc.devRef .tc main_v3) = dstRow (m ((c : Thread nD τ).loc main_arg1)) := by
  through_layer main_v3

set_option maxHeartbeats 4000000 in
/-- The degree column, at the closing region's exit. -/
theorem W6_deg (c : Dev nD) :
    W6 m ρ c (Proc.devRef .tc main_v10) = degCol (dstRow (m ((c : Thread nD τ).loc main_arg1))) := by
  through_layer main_v10

set_option maxHeartbeats 4000000 in
/-- The node features, at the closing region's exit: the linear region reads them through an input window, which
    leaves its array as entered. -/
theorem W6_arg0 (c : Dev nD) : W6 m ρ c (Proc.devRef .tc main_arg0) = m ((c : Thread nD τ).loc main_arg0) := by
  rw [W6_of_ne m ρ c main_arg0 (by decide)]
  show StableHlo.after hostOps1_2 (StableHlo.after hostOps1_1 (StableHlo.after hostOps1 (W2 m ρ c))) (Proc.devRef .tc main_arg0) = _
  after_results_simp
  exact ((W2_arr m ρ c 1).trans (((dat0 (V1 m ρ) c).arrAt_in 1 rfl _).trans (A_eq0 (V1 m ρ) c 1))).trans (V1_feat m ρ c)

set_option maxHeartbeats 4000000 in
theorem W6_arg1 (c : Dev nD) : W6 m ρ c (Proc.devRef .tc main_arg1) = m ((c : Thread nD τ).loc main_arg1) := by
  through_layer main_arg1
set_option maxHeartbeats 4000000 in
theorem W6_arg2 (c : Dev nD) : W6 m ρ c (Proc.devRef .tc main_arg2) = m ((c : Thread nD τ).loc main_arg2) := by
  through_layer main_arg2
set_option maxHeartbeats 4000000 in
theorem W6_arg3 (c : Dev nD) : W6 m ρ c (Proc.devRef .tc main_arg3) = m ((c : Thread nD τ).loc main_arg3) := by
  through_layer main_arg3
set_option maxHeartbeats 4000000 in
theorem W6_arg4 (c : Dev nD) : W6 m ρ c (Proc.devRef .tc main_arg4) = m ((c : Thread nD τ).loc main_arg4) := by
  through_layer main_arg4
set_option maxHeartbeats 4000000 in
theorem W6_arg5 (c : Dev nD) : W6 m ρ c (Proc.devRef .tc main_arg5) = m ((c : Thread nD τ).loc main_arg5) := by
  through_layer main_arg5
set_option maxHeartbeats 4000000 in
theorem W6_arg6 (c : Dev nD) : W6 m ρ c (Proc.devRef .tc main_arg6) = m ((c : Thread nD τ).loc main_arg6) := by
  through_layer main_arg6

/-! ## Layer 1's four facts -/

/-- The neighbourhood means as the program forms them are the aggregation of the features along the edge list:
    narrowing and widening the gathered rows is the identity on the extended reals. -/
theorem mean_eq_agg (x : Arr S50000x128 .f32) (ei : Arr S2x800000 .i32) :
    nbrMean x (srcRow ei) (dstRow ei) (degCol (dstRow ei)) = Cert.ReferenceIdeal.RefRun.agg (F := Ideal) x ei := by
  unfold nbrMean srcRow dstRow degCol wrapIdx Cert.ReferenceIdeal.RefRun.agg Cert.ReferenceIdeal.RefRun.aggR
    Cert.ReferenceIdeal.RefRun.row0 Cert.ReferenceIdeal.RefRun.row1
  rfl

/-- Layer 1's matrix of a stack, at `(k, j)`: the stack's entry `(0, k, j)`. -/
theorem mat1_apply (w : Arr S3x128x128 .f32) (k j : Fin 128) : mat1 w (ix2 k j) = w (ix3 (0 : Fin 3) k j) := by
  unfold mat1
  exact (Cert.Sage.cast_mat _ _ k j).trans (Cert.Sage.slice_mat 0 (by decide) _ w k j)

/-- Layer 1's row of a stack, at `(0, j)`: the stack's entry `(0, j)`. -/
theorem row1_apply (r : Arr S3x128 .f32) (j : Fin 128) : row1 r (ix2 (0 : Fin 1) j) = r (ix2 (0 : Fin 3) j) := by
  unfold row1
  exact (Cert.Sage.cast_vec_row _ _ j).trans ((Cert.Sage.cast_row_vec _ _ j).trans (Cert.Sage.slice_row 0 (by decide) _ r j))

/-- The launch contents of the arguments, at their literal types. -/
abbrev argX (c : Dev nD) : FVec Ideal S50000x128 .f32 := m ((c : Thread nD τ).loc main_arg0)
abbrev argE (c : Dev nD) : Arr S2x800000 .i32 := m ((c : Thread nD τ).loc main_arg1)
abbrev argWl (c : Dev nD) : FVec Ideal S3x128x128 .f32 := m ((c : Thread nD τ).loc main_arg2)
abbrev argWr (c : Dev nD) : FVec Ideal S3x128x128 .f32 := m ((c : Thread nD τ).loc main_arg3)
abbrev argB (c : Dev nD) : FVec Ideal S3x128 .f32 := m ((c : Thread nD τ).loc main_arg4)
abbrev argG (c : Dev nD) : FVec Ideal S3x128 .f32 := m ((c : Thread nD τ).loc main_arg5)
abbrev argBe (c : Dev nD) : FVec Ideal S3x128 .f32 := m ((c : Thread nD τ).loc main_arg6)

/-- THE PRE-ACTIVATION of layer 1: the linear form of the aggregated features, the features, and layer 1's slices of
    the stacked weights and bias. -/
theorem hPK1 (c : Dev nD) (i : Fin 50000) (j : Fin 128) :
    pre1 m ρ c (ix2 i j)
      = Cert.Sage.lin (Cert.Sage.curry2 (Cert.ReferenceIdeal.RefRun.agg (F := Ideal) (argX m c) (argE m c)))
          (Cert.Sage.curry2 (argX m c))
          (fun k j => argWl m c (ix3 (0 : Fin 3) k j)) (fun k j => argWr m c (ix3 (0 : Fin 3) k j))
          (fun j => argB m c (ix2 (0 : Fin 3) j)) i j := by
  rw [pre1_eq]
  refine (RegionLin.lin_final0 (V1 m ρ) c i j).trans ?_
  rw [V1_mean, V1_feat, V1_wl, V1_wr, V1_bias, mean_eq_agg]
  simp only [mat1_apply, row1_apply]
  rfl

/-- THE SCALE ROW of layer 1 at column `j`. -/
theorem hs1 (c : Dev nD) (j : Fin 128) :
    scale1 m ρ c (ix2 (0 : Fin 1) j)
      = argG m c (ix2 (0 : Fin 3) j) * Ideal.rsqrt (max (Cert.Sage.colVar (Cert.Sage.curry2 (pre1 m ρ c)) j)
          (Ideal.ofBits .f32 0x00000000#32) + Ideal.ofBits .f32 0x3727C5AC#32) := by
  rw [scale1_eq]
  unfold scaleRow
  rw [Cert.Sage.scale_apply, row1_apply, Cert.Sage.cast_vec_row]
  unfold varVec
  rw [Cert.Sage.var_apply]
  rfl

/-- THE SHIFT ROW of layer 1 at column `j`. -/
theorem ht1 (c : Dev nD) (j : Fin 128) :
    shift1 m ρ c (ix2 (0 : Fin 1) j)
      = argBe m c (ix2 (0 : Fin 3) j) - Cert.Sage.colMean (Cert.Sage.curry2 (pre1 m ρ c)) j * scale1 m ρ c (ix2 (0 : Fin 1) j) := by
  rw [shift1_eq]
  unfold shiftRow
  rw [Cert.Sage.shift_apply, row1_apply]
  unfold meanRow
  rw [Cert.Sage.cast_vec_row, Cert.Sage.mean_apply]
  rfl

/-- THE OUTPUT of layer 1: the affine-then-clamp closing step of the pre-activation with the scale and shift rows. -/
theorem hOK1 (c : Dev nD) (i : Fin 50000) (j : Fin 128) :
    out1 m ρ c (ix2 i j)
      = Cert.Sage.affineRelu (Cert.Sage.curry2 (pre1 m ρ c)) (fun j => scale1 m ρ c (ix2 (0 : Fin 1) j))
          (fun j => shift1 m ρ c (ix2 (0 : Fin 1) j)) i j := by
  rw [out1_eq]
  refine (RegionBn.bn_final1 (V5 m ρ) c i j).trans ?_
  rw [V5_pre]
  rfl

end Cert.KernelIdeal.KerChain1

end
-- ==== Proof.KerChain3.lean ====
/-
  Layer 3 of the idealized program, from boundary 12 (region 3's exit) to boundary 18 (the return), one segment and
  one buffer at a time: what regions 4 and 5 find in their arrays when they are entered, as the host stages applied to
  the buffers at boundary 12 and to region 4's output array, and what they leave in their output arrays.

  Each host stage is one definition whose body is the operations the program prints for it.
-/
import proofs.«108877_j73624329388567_2_alg».proof.Proof.Gen.KernelIdeal.Frame
import Idealize.ShloMosaic.Lib.StableHlo.Run
import Idealize.ShloMosaic.PureOps.Ideal

set_option maxRecDepth 16384

noncomputable section

namespace Cert.KernelIdeal.KerChain3

open Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable (m : (ℓ : Loc nD τ sig) → Buf (Elt Ideal) ℓ) (ρ : Dev nD → PrngReg)

/-! ## The value types of the buffers the chain passes through -/

abbrev TMat := FVec Ideal S50000x128 .f32
abbrev TRow := FVec Ideal S1x128 .f32
abbrev TVec := FVec Ideal S128 .f32
abbrev TSq := FVec Ideal S128x128 .f32
abbrev TRows3 := FVec Ideal S3x128 .f32
abbrev TSq3 := FVec Ideal S3x128x128 .f32
abbrev TIdx := IVec S800000 32
abbrev TIdx1 := IVec S800000x1 32
abbrev TDeg := FVec Ideal S50000x1 .f32
abbrev TInt0 := IVec S_ 32
abbrev TF0 := FVec Ideal S_ .f32

/-! ## The host stages of one layer, each the printed operations composed -/

/-- Row `off 0` of a stack of three rows, as a 1 x 128 row: the slice, flattened to 128 entries and laid out as a row again. -/
def rowOf (off : Fin 2 → Nat) (hs : S3x128.Slices off S1x128) (a : TRows3) : TRow :=
  shapeCast S1x128 (shapeCast S128 (extractStridedSlice S1x128 off a hs) shapeCasts_S1x128_S128) shapeCasts_S128_S1x128

/-- Matrix `off 0` of a stack of three 128 x 128 matrices. -/
def matOf (off : Fin 3 → Nat) (hs : S3x128x128.Slices off S1x128x128) (a : TSq3) : TSq :=
  shapeCast S128x128 (extractStridedSlice S1x128x128 off a hs) shapeCasts_S1x128x128_S128x128

/-- The integer scalar 0 (the variance's degrees-of-freedom correction). -/
def zeroI : TInt0 := constantI S_ 32 0#32

/-- The degree column: ones scatter-added per target node into zeros, clamped below at 1, as a 50000 x 1 column. -/
def degCol (dst : TIdx) : TDeg :=
  broadcastInDim S50000x1 ![0] bcast_S50000_S50000x1_0
    (maximumf (F := Ideal)
      (Host.scatterAdd (F := Ideal) scatter_S50000_S800000x1_S800000_n_0_0_1
        (broadcastInDim S50000 ![] bcast_S_S50000 (constant (F := Ideal) S_ .f32 0x00000000#32))
        ((broadcastInDim S800000x1 ![0] bcast_S800000_S800000x1_0 dst : TIdx1))
        (broadcastInDim S800000 ![] bcast_S_S800000 (constant (F := Ideal) S_ .f32 0x3F800000#32)))
      (broadcastInDim S50000 ![] bcast_S_S50000 (constant (F := Ideal) S_ .f32 0x3F800000#32)))

/-- The neighbourhood mean: the source rows (indices below 0 wrapped by 50000) of the features rounded to bf16 are gathered
    along the edges, widened again, scatter-added per target row into zeros, and divided by the degree column. -/
def nbrMean (h : TMat) (src dst : TIdx) (deg : TDeg) : TMat :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      ((broadcastInDim S800000x1 ![0] bcast_S800000_S800000x1_0 dst : TIdx1))
      (extf (F := Ideal) .f32
        (Host.gather gather_S50000x128_S800000x1_S800000x128_1_0_n_n_0_1_1128
          (truncf (F := Ideal) .bf16 h bitsLt_bf16_f32)
          ((broadcastInDim S800000x1 ![0] bcast_S800000_S800000x1_0
            ((select (cmpi .slt src ((broadcastInDim S800000 ![] bcast_S_S800000 (constantI S_ 32 0#32) : TIdx)))
              (addi src ((broadcastInDim S800000 ![] bcast_S_S800000 (constantI S_ 32 50000#32) : TIdx))) src : TIdx)) : TIdx1)))
        bitsLt_bf16_f32))
    (broadcastInDim S50000x128 ![0, 1] bcast_S50000x1_S50000x128_0_1 deg)

/-- The column mean as a 1 x 128 row: the column sums from 0, divided by 50000. -/
def colMean (p : TMat) : TRow :=
  shapeCast S1x128
    (Host.divf (F := Ideal)
      (Host.reduceAdd (F := Ideal) p (constant (F := Ideal) S_ .f32 0x00000000#32) reducesTo_S50000x128_S128_d0 h_S_)
      (broadcastInDim S128 ![] bcast_S_S128 (constant (F := Ideal) S_ .f32 0x47435000#32)))
    shapeCasts_S128_S1x128

/-- The column variance with `ddof` degrees of freedom removed: the column sums of the squared deviations from the
    column mean, divided by 50000 - ddof where that is positive, and not-a-number otherwise. -/
def colVar (p : TMat) (ddof : TInt0) : TVec :=
  select
    (broadcastInDim S128 ![] bcast_S_S128
      (cmpf (F := Ideal) .ogt
        (subf (F := Ideal) (constant (F := Ideal) S_ .f32 0x47435000#32) (sitofp (F := Ideal) .f32 ddof))
        (constant (F := Ideal) S_ .f32 0x00000000#32)))
    (Host.divf (F := Ideal)
      (Host.reduceAdd (F := Ideal)
        (mulf (F := Ideal)
          (subf (F := Ideal) p (broadcastInDim S50000x128 ![0, 1] bcast_S1x128_S50000x128_0_1
            (Host.divf (F := Ideal)
              (broadcastInDim S1x128 ![1] bcast_S128_S1x128_1
                (Host.reduceAdd (F := Ideal) p (constant (F := Ideal) S_ .f32 0x00000000#32) reducesTo_S50000x128_S128_d0 h_S_))
              (broadcastInDim S1x128 ![] bcast_S_S1x128 (constant (F := Ideal) S_ .f32 0x47435000#32)))))
          (subf (F := Ideal) p (broadcastInDim S50000x128 ![0, 1] bcast_S1x128_S50000x128_0_1
            (Host.divf (F := Ideal)
              (broadcastInDim S1x128 ![1] bcast_S128_S1x128_1
                (Host.reduceAdd (F := Ideal) p (constant (F := Ideal) S_ .f32 0x00000000#32) reducesTo_S50000x128_S128_d0 h_S_))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128
        (subf (F := Ideal) (constant (F := Ideal) S_ .f32 0x47435000#32) (sitofp (F := Ideal) .f32 ddof))))
    (broadcastInDim S128 ![] bcast_S_S128 (constant (F := Ideal) S_ .f32 0x7FC00000#32))

/-- The scale row: the gain row times the reciprocal square root of (the variance row clamped below at 0, plus eps). -/
def scaleRow (g : TRow) (v : TVec) : TRow :=
  mulf (F := Ideal) g (Host.rsqrt (F := Ideal) (addf (F := Ideal)
    (maximumf (F := Ideal) (shapeCast S1x128 v shapeCasts_S128_S1x128)
      (broadcastInDim S1x128 ![] bcast_S_S1x128 (constant (F := Ideal) S_ .f32 0x00000000#32)))
    (broadcastInDim S1x128 ![] bcast_S_S1x128 (constant (F := Ideal) S_ .f32 0x3727C5AC#32))))

/-- The shift row: the offset row minus the mean row times the scale row. -/
def shiftRow (be mu s : TRow) : TRow := subf (F := Ideal) be (mulf (F := Ideal) mu s)

/-! ## What the stretch before region 4 writes: every other buffer holds after it what it held before -/

abbrev wr4 : List (Ref sig .tc) := [main_v97, main_c_17, main_v98, main_v99, main_c_18, main_v100, main_v101, main_v102, main_v103, main_v104, main_v105, main_cst_19, main_v106, main_v107, main_v108, main_v109, main_v110, main_v111, main_v112, main_v113, main_v114, main_v115, main_v116, main_v117]
theorem wr4_sub : (hostOps4 : List (HloOp τ sig (Elt Ideal))).Forall fun op => op.writes ⊆ (wr4.map (Proc.devRef (τ := τ) .tc)).toFinset := by
  simp only [hostOps4, List.Forall]
  repeat' apply And.intro
  all_goals (
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide))
theorem keep4 (V : Valuation τ sig (Elt Ideal)) (r : Ref sig .tc) (h : r ∉ wr4) :
    StableHlo.after hostOps4 V (Proc.devRef .tc r) = V (Proc.devRef .tc r) :=
  StableHlo.after_of_writes_sub hostOps4 V wr4_sub h

/-! ## Layer 3, region 4 (the affine map): its five input arrays at entry, its output array at exit -/

set_option maxRecDepth 8192 in
set_option maxHeartbeats 4000000 in
/-- The neighbourhood means of layer 2's output, over the index rows and the degree column found at boundary 12. -/
theorem W13_v110 (c : Dev nD) : Gen.W13 m ρ c (Proc.devRef .tc main_v110)
    = nbrMean (Gen.W12 m ρ c (Proc.devRef .tc main_v96)) (Gen.W12 m ρ c (Proc.devRef .tc main_v1)) (Gen.W12 m ρ c (Proc.devRef .tc main_v3)) (Gen.W12 m ρ c (Proc.devRef .tc main_v10)) := by
  after_results_simp
  rfl
/-- Layer 2's output is not written by the stretch. -/
theorem W13_v96 (c : Dev nD) : Gen.W13 m ρ c (Proc.devRef .tc main_v96) = Gen.W12 m ρ c (Proc.devRef .tc main_v96) :=
  keep4 (Gen.W12 m ρ c) main_v96 (by decide)
set_option maxRecDepth 8192 in
set_option maxHeartbeats 4000000 in
/-- The neighbour weights: matrix 2 of argument 2. -/
theorem W13_v115 (c : Dev nD) : Gen.W13 m ρ c (Proc.devRef .tc main_v115)
    = matOf ![2, 0, 0] slices_S3x128x128_S1x128x128_2_0_0 (Gen.W12 m ρ c (Proc.devRef .tc main_arg2)) := by
  after_results_simp
  rfl
set_option maxRecDepth 8192 in
set_option maxHeartbeats 4000000 in
/-- The self weights: matrix 2 of argument 3. -/
theorem W13_v117 (c : Dev nD) : Gen.W13 m ρ c (Proc.devRef .tc main_v117)
    = matOf ![2, 0, 0] slices_S3x128x128_S1x128x128_2_0_0 (Gen.W12 m ρ c (Proc.devRef .tc main_arg3)) := by
  after_results_simp
  rfl
set_option maxRecDepth 8192 in
set_option maxHeartbeats 4000000 in
/-- The bias row: row 2 of argument 4. -/
theorem W13_v113 (c : Dev nD) : Gen.W13 m ρ c (Proc.devRef .tc main_v113)
    = rowOf ![2, 0] slices_S3x128_S1x128_2_0 (Gen.W12 m ρ c (Proc.devRef .tc main_arg4)) := by
  after_results_simp
  rfl
/-- Region 4, array 0: the neighbourhood means. -/
theorem entry4_0 (c : Dev nD) : Gen.V13 m ρ c (Pipeline.arrRef spec4 0)
    = nbrMean (Gen.W12 m ρ c (Proc.devRef .tc main_v96)) (Gen.W12 m ρ c (Proc.devRef .tc main_v1)) (Gen.W12 m ρ c (Proc.devRef .tc main_v3)) (Gen.W12 m ρ c (Proc.devRef .tc main_v10)) :=
  W13_v110 m ρ c
/-- Region 4, array 1: layer 2's output. -/
theorem entry4_1 (c : Dev nD) : Gen.V13 m ρ c (Pipeline.arrRef spec4 1)
    = Gen.W12 m ρ c (Proc.devRef .tc main_v96) :=
  W13_v96 m ρ c
/-- Region 4, array 2: the neighbour weights. -/
theorem entry4_2 (c : Dev nD) : Gen.V13 m ρ c (Pipeline.arrRef spec4 2)
    = matOf ![2, 0, 0] slices_S3x128x128_S1x128x128_2_0_0 (Gen.W12 m ρ c (Proc.devRef .tc main_arg2)) :=
  W13_v115 m ρ c
/-- Region 4, array 3: the self weights. -/
theorem entry4_3 (c : Dev nD) : Gen.V13 m ρ c (Pipeline.arrRef spec4 3)
    = matOf ![2, 0, 0] slices_S3x128x128_S1x128x128_2_0_0 (Gen.W12 m ρ c (Proc.devRef .tc main_arg3)) :=
  W13_v117 m ρ c
/-- Region 4, array 4: the bias row. -/
theorem entry4_4 (c : Dev nD) : Gen.V13 m ρ c (Pipeline.arrRef spec4 4)
    = rowOf ![2, 0] slices_S3x128_S1x128_2_0 (Gen.W12 m ρ c (Proc.devRef .tc main_arg4)) :=
  W13_v113 m ρ c
/-- Region 4's output array at its exit: what the pipeline leaves from the entry contents. -/
theorem exit4 (c : Dev nD) : Gen.W14 m ρ c (Proc.devRef .tc main_v118) = (Gen.dat4 (Gen.V13 m ρ) c).arrAt 5 cfg4.N :=
  Gen.W14_arr m ρ c 5

/-! ## Layer 3, region 5 (normalise, scale, shift, clamp): its three input arrays at entry, its output array at exit

The three stretches between region 4's exit (boundary 14) and region 5's entry (boundary 17) are read as one: the
column mean, the column variance, then the scale and shift rows, all of region 4's output array. -/

/-- The normalisation rows are written neither by region 4 nor by the stretch before it. -/
theorem W14_arg5 (c : Dev nD) : Gen.W14 m ρ c (Proc.devRef .tc main_arg5) = Gen.W12 m ρ c (Proc.devRef .tc main_arg5) :=
  (Gen.W14_of_ne m ρ c main_arg5 (by decide)).trans (keep4 (Gen.W12 m ρ c) main_arg5 (by decide))
theorem W14_arg6 (c : Dev nD) : Gen.W14 m ρ c (Proc.devRef .tc main_arg6) = Gen.W12 m ρ c (Proc.devRef .tc main_arg6) :=
  (Gen.W14_of_ne m ρ c main_arg6 (by decide)).trans (keep4 (Gen.W12 m ρ c) main_arg6 (by decide))
set_option maxRecDepth 8192 in
set_option maxHeartbeats 4000000 in
/-- The pre-activation array is not written between the two regions. -/
theorem W17_v118 (c : Dev nD) : Gen.W17 m ρ c (Proc.devRef .tc main_v118) = Gen.W14 m ρ c (Proc.devRef .tc main_v118) := by
  after_results_simp
set_option maxRecDepth 8192 in
set_option maxHeartbeats 4000000 in
/-- The scale row. -/
theorem W17_v133 (c : Dev nD) : Gen.W17 m ρ c (Proc.devRef .tc main_v133)
    = scaleRow (rowOf ![2, 0] slices_S3x128_S1x128_2_0 (Gen.W14 m ρ c (Proc.devRef .tc main_arg5))) (colVar (Gen.W14 m ρ c (Proc.devRef .tc main_v118)) zeroI) := by
  after_results_simp
  rfl
set_option maxRecDepth 8192 in
set_option maxHeartbeats 4000000 in
/-- The shift row. -/
theorem W17_v138 (c : Dev nD) : Gen.W17 m ρ c (Proc.devRef .tc main_v138)
    = shiftRow (rowOf ![2, 0] slices_S3x128_S1x128_2_0 (Gen.W14 m ρ c (Proc.devRef .tc main_arg6))) (colMean (Gen.W14 m ρ c (Proc.devRef .tc main_v118))) (scaleRow (rowOf ![2, 0] slices_S3x128_S1x128_2_0 (Gen.W14 m ρ c (Proc.devRef .tc main_arg5))) (colVar (Gen.W14 m ρ c (Proc.devRef .tc main_v118)) zeroI)) := by
  after_results_simp
  rfl
/-- Region 5, array 0: the pre-activation array as region 4 left it. -/
theorem entry5_0 (c : Dev nD) : Gen.V17 m ρ c (Pipeline.arrRef spec5 0)
    = Gen.W14 m ρ c (Proc.devRef .tc main_v118) :=
  W17_v118 m ρ c
/-- Region 5, array 1: the scale row. -/
theorem entry5_1 (c : Dev nD) : Gen.V17 m ρ c (Pipeline.arrRef spec5 1)
    = scaleRow (rowOf ![2, 0] slices_S3x128_S1x128_2_0 (Gen.W12 m ρ c (Proc.devRef .tc main_arg5))) (colVar (Gen.W14 m ρ c (Proc.devRef .tc main_v118)) zeroI) :=
  (W17_v133 m ρ c).trans (by rw [W14_arg5 m ρ c])
/-- Region 5, array 2: the shift row. -/
theorem entry5_2 (c : Dev nD) : Gen.V17 m ρ c (Pipeline.arrRef spec5 2)
    = shiftRow (rowOf ![2, 0] slices_S3x128_S1x128_2_0 (Gen.W12 m ρ c (Proc.devRef .tc main_arg6))) (colMean (Gen.W14 m ρ c (Proc.devRef .tc main_v118))) (scaleRow (rowOf ![2, 0] slices_S3x128_S1x128_2_0 (Gen.W12 m ρ c (Proc.devRef .tc main_arg5))) (colVar (Gen.W14 m ρ c (Proc.devRef .tc main_v118)) zeroI)) :=
  (W17_v138 m ρ c).trans (by rw [W14_arg6 m ρ c, W14_arg5 m ρ c])
/-- Region 5's output array at its exit: what the pipeline leaves from the entry contents. -/
theorem exit5 (c : Dev nD) : Gen.W18 m ρ c (Proc.devRef .tc main_v139) = (Gen.dat5 (Gen.V17 m ρ) c).arrAt 3 cfg5.N :=
  Gen.W18_arr m ρ c 3

end Cert.KernelIdeal.KerChain3

end
-- ==== Proof.KerFacts3.lean ====
/-
  Layer 3 of the idealized program read entry by entry: the array region 4 leaves is the affine pre-activation of the
  reference's neighbourhood means of layer 2's output, of that output, and of the third slices of the parameter
  stacks; the rows region 5 is entered with are the precomputed scale and shift rows of that array's column mean and
  variance; and the array region 5 leaves is their clamped affine form.
-/
import proofs.«108877_j73624329388567_2_alg».proof.Proof.KerChain3
import proofs.«108877_j73624329388567_2_alg».proof.Proof.RegionLin
import proofs.«108877_j73624329388567_2_alg».proof.Proof.RegionBn
import proofs.«108877_j73624329388567_2_alg».proof.Proof.RefRun
import proofs.«108877_j73624329388567_2_alg».proof.Proof.OpsReal
import proofs.«108877_j73624329388567_2_alg».proof.Proof.Rows
import proofs.«108877_j73624329388567_2_alg».proof.Proof.LayerAgree

set_option maxRecDepth 16384

noncomputable section

namespace Cert.KernelIdeal.KerFacts3

open Cert.KernelIdeal Cert.KernelIdeal.Gen Cert.KernelIdeal.KerChain3
open Idealize.ShloMosaic Idealize.ShloMosaic.TcCoe Idealize.ShloMosaic.ValueIdx

/-! ## The host stages at an entry -/

/-- Row `l` of a three-row stack, as a 1 x 128 row, at column `j`. -/
theorem rowOf_apply (l : Nat) (hl : l < 3) (hs : S3x128.Slices ![l, 0] S1x128) (a : FVec Ideal S3x128 .f32) (j : Fin 128) :
    rowOf ![l, 0] hs a (ix2 (0 : Fin 1) j) = a (ix2 (⟨l, hl⟩ : Fin 3) j) := by
  unfold rowOf
  exact (Cert.Sage.cast_vec_row _ _ j).trans ((Cert.Sage.cast_row_vec _ _ j).trans (Cert.Sage.slice_row l hl hs a j))

/-- Matrix `l` of a three-matrix stack at `(k, j)`. -/
theorem matOf_apply (l : Nat) (hl : l < 3) (hs : S3x128x128.Slices ![l, 0, 0] S1x128x128) (a : FVec Ideal S3x128x128 .f32) (k j : Fin 128) :
    matOf ![l, 0, 0] hs a (ix2 k j) = a (ix3 (⟨l, hl⟩ : Fin 3) k j) := by
  unfold matOf
  exact (Cert.Sage.cast_mat _ _ k j).trans (Cert.Sage.slice_mat l hl hs a k j)

/-- The column mean row at column `j`. -/
theorem colMean_apply (p : FVec Ideal S50000x128 .f32) (j : Fin 128) :
    colMean p (ix2 (0 : Fin 1) j) = Cert.Sage.colMean (fun i j => p (ix2 i j)) j := by
  unfold colMean
  exact (Cert.Sage.cast_vec_row _ _ j).trans (Cert.Sage.mean_apply _ _ _ p j)

/-- The column variance with no degrees of freedom removed, at column `j`. -/
theorem colVar_apply (p : FVec Ideal S50000x128 .f32) (j : Fin 128) :
    colVar p zeroI (ix1 j) = Cert.Sage.colVar (fun i j => p (ix2 i j)) j := by
  unfold colVar zeroI
  exact Cert.Sage.var_apply _ _ _ _ _ _ p _ j

/-! ## The four facts of layer 3 -/

variable (m : (ℓ : Loc nD τ sig) → Buf (Elt Ideal) ℓ) (ρ : Dev nD → PrngReg) (c : Dev nD)

/-- The kernel's neighbourhood mean with its hoisted degree column is the reference's aggregation over the two index
    rows: at exact arithmetic rounding to bf16 and widening again is the identity, and the degree column is the same
    term. -/
theorem nbrMean_eq_aggR (h : FVec Ideal S50000x128 .f32) (src dst : IVec S800000 32) :
    nbrMean h src dst (degCol dst) = Cert.ReferenceIdeal.RefRun.aggR (F := Ideal) h src dst := by
  unfold nbrMean degCol Cert.ReferenceIdeal.RefRun.aggR
  rfl

/-- THE PRE-ACTIVATION: the array region 4 leaves, at row `i` and column `j`, is the affine map of the reference's
    neighbourhood means of layer 2's output, of that output, and of the third slices of the weight and bias stacks —
    given that the index rows and the degree column found at boundary 12 are those of the edge array `ei`. -/
theorem hPK3 (ei : IVec S2x800000 32) (W Wr : FVec Ideal S3x128x128 .f32) (B : FVec Ideal S3x128 .f32)
    (hsrc : Gen.W12 m ρ c (Proc.devRef .tc main_v1) = Cert.ReferenceIdeal.RefRun.row0 (F := Ideal) ei)
    (hdst : Gen.W12 m ρ c (Proc.devRef .tc main_v3) = Cert.ReferenceIdeal.RefRun.row1 (F := Ideal) ei)
    (hdeg : Gen.W12 m ρ c (Proc.devRef .tc main_v10) = degCol (Cert.ReferenceIdeal.RefRun.row1 (F := Ideal) ei))
    (harg2 : Gen.W12 m ρ c (Proc.devRef .tc main_arg2) = W) (harg3 : Gen.W12 m ρ c (Proc.devRef .tc main_arg3) = Wr)
    (harg4 : Gen.W12 m ρ c (Proc.devRef .tc main_arg4) = B) (i : Fin 50000) (j : Fin 128) :
    (Gen.W14 m ρ c (Proc.devRef .tc main_v118) : S50000x128.Idx → EReal) (ix2 i j)
      = Cert.Sage.lin (Cert.Sage.curry2 (Cert.ReferenceIdeal.RefRun.agg (F := Ideal) (Gen.W12 m ρ c (Proc.devRef .tc main_v96)) ei))
          (Cert.Sage.curry2 (Gen.W12 m ρ c (Proc.devRef .tc main_v96)))
          (fun k j => W (ix3 (2 : Fin 3) k j)) (fun k j => Wr (ix3 (2 : Fin 3) k j)) (fun j => B (ix2 (2 : Fin 3) j)) i j := by
  have e0 : (fun a k => (Gen.V13 m ρ c (Pipeline.arrRef spec4 0) : S50000x128.Idx → EReal) (ix2 a k))
      = Cert.Sage.curry2 (Cert.ReferenceIdeal.RefRun.agg (F := Ideal) (Gen.W12 m ρ c (Proc.devRef .tc main_v96)) ei) := by
    rw [entry4_0 m ρ c, hsrc, hdst, hdeg, nbrMean_eq_aggR]
    rfl
  have e1 : (fun a k => (Gen.V13 m ρ c (Pipeline.arrRef spec4 1) : S50000x128.Idx → EReal) (ix2 a k))
      = Cert.Sage.curry2 (Gen.W12 m ρ c (Proc.devRef .tc main_v96)) := by
    rw [entry4_1 m ρ c]
    rfl
  have e2 : (fun k b => (Gen.V13 m ρ c (Pipeline.arrRef spec4 2) : S128x128.Idx → EReal) (ix2 k b))
      = fun k j => W (ix3 (2 : Fin 3) k j) := by
    rw [entry4_2 m ρ c, harg2]
    funext k b
    exact matOf_apply 2 (by decide) _ W k b
  have e3 : (fun k b => (Gen.V13 m ρ c (Pipeline.arrRef spec4 3) : S128x128.Idx → EReal) (ix2 k b))
      = fun k j => Wr (ix3 (2 : Fin 3) k j) := by
    rw [entry4_3 m ρ c, harg3]
    funext k b
    exact matOf_apply 2 (by decide) _ Wr k b
  have e4 : (fun b => (Gen.V13 m ρ c (Pipeline.arrRef spec4 4) : S1x128.Idx → EReal) (ix2 (0 : Fin 1) b))
      = fun j => B (ix2 (2 : Fin 3) j) := by
    rw [entry4_4 m ρ c, harg4]
    funext b
    exact rowOf_apply 2 (by decide) _ B b
  rw [exit4 m ρ c, RegionLin.lin_final4 (Gen.V13 m ρ) c i j, e0, e1, e2, e3, e4]

/-- THE SCALE ROW region 5 is entered with, at column `j`. -/
theorem hs3 (G : FVec Ideal S3x128 .f32) (harg5 : Gen.W12 m ρ c (Proc.devRef .tc main_arg5) = G) (j : Fin 128) :
    (Gen.V17 m ρ c (Pipeline.arrRef spec5 1) : S1x128.Idx → EReal) (ix2 (0 : Fin 1) j)
      = G (ix2 (2 : Fin 3) j) * Ideal.rsqrt (max (Cert.Sage.colVar (Cert.Sage.curry2 (Gen.W14 m ρ c (Proc.devRef .tc main_v118))) j)
          (Ideal.ofBits .f32 0x00000000#32) + Ideal.ofBits .f32 0x3727C5AC#32) := by
  rw [entry5_1 m ρ c, harg5]
  unfold scaleRow
  refine (Cert.Sage.scale_apply _ _ _ j).trans ?_
  rw [rowOf_apply 2 (by decide), Cert.Sage.cast_vec_row, colVar_apply]
  rfl

/-- THE SHIFT ROW region 5 is entered with, at column `j`, over the scale row it is entered with. -/
theorem ht3 (Be : FVec Ideal S3x128 .f32) (harg6 : Gen.W12 m ρ c (Proc.devRef .tc main_arg6) = Be) (j : Fin 128) :
    (Gen.V17 m ρ c (Pipeline.arrRef spec5 2) : S1x128.Idx → EReal) (ix2 (0 : Fin 1) j)
      = Be (ix2 (2 : Fin 3) j) - Cert.Sage.colMean (Cert.Sage.curry2 (Gen.W14 m ρ c (Proc.devRef .tc main_v118))) j
          * (Gen.V17 m ρ c (Pipeline.arrRef spec5 1) : S1x128.Idx → EReal) (ix2 (0 : Fin 1) j) := by
  rw [entry5_2 m ρ c, ← entry5_1 m ρ c, harg6]
  unfold shiftRow
  refine (Cert.Sage.shift_apply _ _ _ j).trans ?_
  rw [rowOf_apply 2 (by decide), colMean_apply]
  rfl

/-- THE OUTPUT: the array region 5 leaves, at row `i` and column `j`, is the clamped affine form of the array region 4
    left and of the two rows region 5 was entered with. -/
theorem hO3 (i : Fin 50000) (j : Fin 128) :
    (Gen.W18 m ρ c (Proc.devRef .tc main_v139) : S50000x128.Idx → EReal) (ix2 i j)
      = Cert.Sage.affineRelu (Cert.Sage.curry2 (Gen.W14 m ρ c (Proc.devRef .tc main_v118)))
          (fun j => (Gen.V17 m ρ c (Pipeline.arrRef spec5 1) : S1x128.Idx → EReal) (ix2 (0 : Fin 1) j))
          (fun j => (Gen.V17 m ρ c (Pipeline.arrRef spec5 2) : S1x128.Idx → EReal) (ix2 (0 : Fin 1) j)) i j := by
  rw [exit5 m ρ c, RegionBn.bn_final5 (Gen.V17 m ρ) c i j, entry5_0 m ρ c]
  rfl

/-- info: 'Cert.KernelIdeal.KerFacts3.hPK3' depends on axioms: [propext, Classical.choice, Quot.sound] -/
#guard_msgs in #print axioms hPK3
/-- info: 'Cert.KernelIdeal.KerFacts3.hs3' depends on axioms: [propext, Classical.choice, Quot.sound] -/
#guard_msgs in #print axioms hs3
/-- info: 'Cert.KernelIdeal.KerFacts3.ht3' depends on axioms: [propext, Classical.choice, Quot.sound] -/
#guard_msgs in #print axioms ht3
/-- info: 'Cert.KernelIdeal.KerFacts3.hO3' depends on axioms: [propext, Classical.choice, Quot.sound] -/
#guard_msgs in #print axioms hO3

end Cert.KernelIdeal.KerFacts3

end
-- ==== Proof.Main.lean ====
/-
  The two idealized programs end with the same array.

  The kernel's result is read off its run boundary by boundary. Each layer has two regions: the first forms the
  pre-activation in row blocks from the neighbourhood means, the previous features and the layer's slices of the
  weights and bias; the second applies, entry by entry, a precomputed scale row and shift row and clamps at zero.
  Between them the host computes the column mean and variance of the pre-activation and, from them, the two rows;
  before them it forms the neighbourhood means, from index rows and a degree column computed once at the start.
  The reference's result is three applications of one layer function. Layer by layer the two outputs are the same
  array of real numbers (the bridge theorems), starting from argument arrays that are real by the precondition;
  from memories that agree on the arguments the two results are therefore equal.
-/
import proofs.«108877_j73624329388567_2_alg».proof.Defs
import proofs.«108877_j73624329388567_2_alg».proof.Proof.Gen.KernelIdeal
import proofs.«108877_j73624329388567_2_alg».proof.Proof.Gen.KernelIdeal.Frame
import proofs.«108877_j73624329388567_2_alg».proof.Proof.Gen.ReferenceIdeal
import proofs.«108877_j73624329388567_2_alg».proof.Proof.Gen.Pre_finite_inputs
import proofs.«108877_j73624329388567_2_alg».proof.Proof.KerRun
import proofs.«108877_j73624329388567_2_alg».proof.Proof.RefRun
import proofs.«108877_j73624329388567_2_alg».proof.Proof.Bridge
import proofs.«108877_j73624329388567_2_alg».proof.Proof.Finite
import proofs.«108877_j73624329388567_2_alg».proof.Proof.Early
import proofs.«108877_j73624329388567_2_alg».proof.Proof.KerChain2
import proofs.«108877_j73624329388567_2_alg».proof.Proof.KerChain1
import proofs.«108877_j73624329388567_2_alg».proof.Proof.KerFacts3
import Idealize.ShloMosaic.Lib.ValueIdx

set_option maxRecDepth 16384

noncomputable section

open Idealize.ShloMosaic Idealize.ShloMosaic.TcCoe Idealize.SL.Sem Idealize.ShloMosaic.ValueIdx

namespace Cert.Proof.Main

open Cert.KernelIdeal

/-- The kernel's result array is the reference's three-layer term of the kernel's own argument arrays: the three
    bridges chained, each layer's four kernel-side facts read off the run's boundaries, the buffers computed once
    before the first region read unchanged at the later boundaries. -/
theorem result_eq (m : (ℓ : Loc nD τ sig) → Buf (Elt Ideal) ℓ) (ρ : Dev nD → PrngReg) (c : Dev nD)
    (hfin : Cert.Pre_KernelIdeal m) :
    Gen.W18 m ρ c (Proc.devRef .tc main_v139)
      = Cert.ReferenceIdeal.RefRun.layer (F := Ideal)
          (Cert.ReferenceIdeal.RefRun.layer
            (Cert.ReferenceIdeal.RefRun.layer (m ((c.tc : Thread nD τ).loc main_arg0)) (m ((c.tc : Thread nD τ).loc main_arg1))
              (Cert.ReferenceIdeal.RefRun.wl0 (m ((c.tc : Thread nD τ).loc main_arg2))) (Cert.ReferenceIdeal.RefRun.wr0 (m ((c.tc : Thread nD τ).loc main_arg3)))
              (Cert.ReferenceIdeal.RefRun.b0 (m ((c.tc : Thread nD τ).loc main_arg4))) (Cert.ReferenceIdeal.RefRun.g0 (m ((c.tc : Thread nD τ).loc main_arg5)))
              (Cert.ReferenceIdeal.RefRun.be0 (m ((c.tc : Thread nD τ).loc main_arg6))))
            (m ((c.tc : Thread nD τ).loc main_arg1))
            (Cert.ReferenceIdeal.RefRun.wl1 (m ((c.tc : Thread nD τ).loc main_arg2))) (Cert.ReferenceIdeal.RefRun.wr1 (m ((c.tc : Thread nD τ).loc main_arg3)))
            (Cert.ReferenceIdeal.RefRun.b1 (m ((c.tc : Thread nD τ).loc main_arg4))) (Cert.ReferenceIdeal.RefRun.g1 (m ((c.tc : Thread nD τ).loc main_arg5)))
            (Cert.ReferenceIdeal.RefRun.be1 (m ((c.tc : Thread nD τ).loc main_arg6))))
          (m ((c.tc : Thread nD τ).loc main_arg1))
          (Cert.ReferenceIdeal.RefRun.wl2 (m ((c.tc : Thread nD τ).loc main_arg2))) (Cert.ReferenceIdeal.RefRun.wr2 (m ((c.tc : Thread nD τ).loc main_arg3)))
          (Cert.ReferenceIdeal.RefRun.b2 (m ((c.tc : Thread nD τ).loc main_arg4))) (Cert.ReferenceIdeal.RefRun.g2 (m ((c.tc : Thread nD τ).loc main_arg5)))
          (Cert.ReferenceIdeal.RefRun.be2 (m ((c.tc : Thread nD τ).loc main_arg6))) := by
  obtain ⟨h0, h2, h3, h4, h5, h6⟩ := Cert.Sage.Finite.isReal_of_pre _ _ _ _ _ _ _ (hfin c)
  exact (Cert.ReferenceIdeal.Bridge.three_layers (m ((c.tc : Thread nD τ).loc main_arg0)) h0 (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) h2 h3 h4 h5 h6
    (Cert.KernelIdeal.KerChain1.pre1 m ρ c) (Gen.W6 m ρ c (Proc.devRef .tc main_v53))
    (Gen.W8 m ρ c (Proc.devRef .tc main_v75)) (Gen.W12 m ρ c (Proc.devRef .tc main_v96))
    (Gen.W14 m ρ c (Proc.devRef .tc main_v118)) (Gen.W18 m ρ c (Proc.devRef .tc main_v139))
    (fun j => Cert.KernelIdeal.KerChain1.scale1 m ρ c (ix2 (0 : Fin 1) j)) (fun j => Cert.KernelIdeal.KerChain1.shift1 m ρ c (ix2 (0 : Fin 1) j))
    (Cert.KernelIdeal.KerChain2.s2 m ρ c) (Cert.KernelIdeal.KerChain2.t2 m ρ c)
    (fun j => Gen.V17 m ρ c (Pipeline.arrRef spec5 1) (ix2 (0 : Fin 1) j)) (fun j => Gen.V17 m ρ c (Pipeline.arrRef spec5 2) (ix2 (0 : Fin 1) j))
    (fun i j => Cert.KernelIdeal.KerChain1.hPK1 m ρ c i j)
    (fun j => Cert.KernelIdeal.KerChain1.hs1 m ρ c j)
    (fun j => Cert.KernelIdeal.KerChain1.ht1 m ρ c j)
    (fun i j => Cert.KernelIdeal.KerChain1.hOK1 m ρ c i j)
    (fun i j => Cert.KernelIdeal.KerChain2.hPK2 m ρ c (Cert.SageEarly.W6_main_v1 m ρ c) (Cert.SageEarly.W6_main_v3 m ρ c)
      (Cert.SageEarly.W6_main_v10 m ρ c) (Cert.SageEarly.W6_main_arg2 m ρ c) (Cert.SageEarly.W6_main_arg3 m ρ c)
      (Cert.SageEarly.W6_main_arg4 m ρ c) i j)
    (fun j => Cert.KernelIdeal.KerChain2.hs2 m ρ c (Cert.SageEarly.W6_main_arg5 m ρ c) j)
    (fun j => Cert.KernelIdeal.KerChain2.ht2 m ρ c (Cert.SageEarly.W6_main_arg5 m ρ c) (Cert.SageEarly.W6_main_arg6 m ρ c) j)
    (fun i j => Cert.KernelIdeal.KerChain2.hO2 m ρ c i j)
    (fun i j => Cert.KernelIdeal.KerFacts3.hPK3 m ρ c (m ((c.tc : Thread nD τ).loc main_arg1)) (m ((c.tc : Thread nD τ).loc main_arg2))
      (m ((c.tc : Thread nD τ).loc main_arg3)) (m ((c.tc : Thread nD τ).loc main_arg4))
      (Cert.SageEarly.W12_main_v1 m ρ c) (Cert.SageEarly.W12_main_v3 m ρ c) (Cert.SageEarly.W12_main_v10 m ρ c)
      (Cert.SageEarly.W12_main_arg2 m ρ c) (Cert.SageEarly.W12_main_arg3 m ρ c) (Cert.SageEarly.W12_main_arg4 m ρ c) i j)
    (fun j => Cert.KernelIdeal.KerFacts3.hs3 m ρ c (m ((c.tc : Thread nD τ).loc main_arg5)) (Cert.SageEarly.W12_main_arg5 m ρ c) j)
    (fun j => Cert.KernelIdeal.KerFacts3.ht3 m ρ c (m ((c.tc : Thread nD τ).loc main_arg6)) (Cert.SageEarly.W12_main_arg6 m ρ c) j)
    (fun i j => Cert.KernelIdeal.KerFacts3.hO3 m ρ c i j)).1

/-- Both programs run, and from memories agreeing on the arguments they end with equal results: the kernel's
    run names its result, the reference's run ends at the three-layer term of its own arguments, which agree. -/
theorem algebraic : Cert.algebraic_KernelIdeal_ReferenceIdeal := by
  intro m ρ m' ρ' hpre hagree
  refine ⟨fun c => Cert.KernelIdeal.Gen.W18 m ρ c (Proc.devRef .tc Cert.KernelIdeal.main_v139),
    Cert.KernelIdeal.KerRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6]
  exact (result_eq m ρ c hpre).symm

end Cert.Proof.Main

end
-- ==== Proof.lean ====
/-
  Three graph-convolution layers with batch normalisation, as a tiled kernel and as plain array code.

  Per layer: node features are gathered along the edges and summed per target node, divided by the node's degree
  clamped below at one; the pre-activation is (neighbourhood mean) · Wl + (features) · Wr + b; its columns are
  normalised by their mean and variance over the 50000 nodes, scaled, shifted, and clamped at zero. The kernel
  forms the pre-activation in row blocks and applies the normalisation as a precomputed scale row and shift row;
  the reference normalises directly. At the exact instance every rounding is the identity, sums are exact, and the
  two closing forms agree on real numbers (the variance of reals is nonnegative, and the distributive law holds
  for reals), which is where the finiteness of the inputs is used.

  The frames of the two kernel programs are the generated ones; the reference's frame is its run with the result
  dropped; nothing was rewritten by the idealization, so there is nothing to preserve.
-/
import proofs.«108877_j73624329388567_2_alg».proof.Defs
import proofs.«108877_j73624329388567_2_alg».proof.Proof.Gen.Kernel
import proofs.«108877_j73624329388567_2_alg».proof.Proof.Gen.Kernel.Skeleton
import proofs.«108877_j73624329388567_2_alg».proof.Proof.Gen.Kernel.Launch
import proofs.«108877_j73624329388567_2_alg».proof.Proof.Gen.Kernel.Points
import proofs.«108877_j73624329388567_2_alg».proof.Proof.Gen.Kernel.Frame
import proofs.«108877_j73624329388567_2_alg».proof.Proof.Gen.KernelIdeal
import proofs.«108877_j73624329388567_2_alg».proof.Proof.Gen.KernelIdeal.Skeleton
import proofs.«108877_j73624329388567_2_alg».proof.Proof.Gen.KernelIdeal.Launch
import proofs.«108877_j73624329388567_2_alg».proof.Proof.Gen.KernelIdeal.Points
import proofs.«108877_j73624329388567_2_alg».proof.Proof.Gen.KernelIdeal.Frame
import proofs.«108877_j73624329388567_2_alg».proof.Proof.Gen.ReferenceIdeal
import proofs.«108877_j73624329388567_2_alg».proof.Proof.Gen.Pre_finite_inputs
import proofs.«108877_j73624329388567_2_alg».proof.Proof.RefRun
import proofs.«108877_j73624329388567_2_alg».proof.Proof.Main
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.RefRun.frame (F := Ideal) m ρ,
  trivial,
  Cert.Proof.Main.algebraic⟩

end Cert.Proof

end
